-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S24x16x16x256 : Shape := ⟨4, ![24, 16, 16, 256]⟩
abbrev S24x32x32x128 : Shape := ⟨4, ![24, 32, 32, 128]⟩
abbrev S4x256x128 : Shape := ⟨3, ![4, 256, 128]⟩
abbrev S128 : Shape := ⟨1, ![128]⟩
abbrev S9x256x128 : Shape := ⟨3, ![9, 256, 128]⟩
abbrev S9x128x128 : Shape := ⟨3, ![9, 128, 128]⟩
abbrev S_ : Shape := ⟨0, ![]⟩

class Facts : Prop where
  bcast_S_S24x16x16x256 : S_.BroadcastsInDim S24x16x16x256 (![] : Fin 0 → Fin S24x16x16x256.rank)
  reducesTo_S24x16x16x256_S_d0_1_2_3 : S24x16x16x256.ReducesTo [0, 1, 2, 3] S_
  h_S_ : 0 < S_.numel
  bcast_S_S24x32x32x128 : S_.BroadcastsInDim S24x32x32x128 (![] : Fin 0 → Fin S24x32x32x128.rank)
  reducesTo_S24x32x32x128_S_d0_1_2_3 : S24x32x32x128.ReducesTo [0, 1, 2, 3] S_
  bcast_S_S4x256x128 : S_.BroadcastsInDim S4x256x128 (![] : Fin 0 → Fin S4x256x128.rank)
  reducesTo_S4x256x128_S_d0_1_2 : S4x256x128.ReducesTo [0, 1, 2] S_
  bcast_S_S128 : S_.BroadcastsInDim S128 (![] : Fin 0 → Fin S128.rank)
  reducesTo_S128_S_d0 : S128.ReducesTo [0] S_
  bcast_S_S9x256x128 : S_.BroadcastsInDim S9x256x128 (![] : Fin 0 → Fin S9x256x128.rank)
  reducesTo_S9x256x128_S_d0_1_2 : S9x256x128.ReducesTo [0, 1, 2] S_
  bcast_S_S9x128x128 : S_.BroadcastsInDim S9x128x128 (![] : Fin 0 → Fin S9x128x128.rank)
  reducesTo_S9x128x128_S_d0_1_2 : S9x128x128.ReducesTo [0, 1, 2] S_

variable [Facts]

def fn_part3 {F : FTy → Type} [FloatOps F] (main_arg6 : FVec F S128 .f32) (main_arg11 : FVec F S128 .f32) (main_v48 : IVec S_ 1) (main_v49 : FVec F S9x128x128 .f32) (main_v50 : FVec F S9x128x128 .f32) : IVec S_ 1 :=
  let main_v51 : IVec S9x128x128 1 := cmpf .olt main_v49 main_v50
  let main_c_19 : IVec S_ 1 := constantI S_ 1 1#1
  let main_v52 : IVec S_ 1 := (fun x v => Host.reduce IntOp.andi x v reducesTo_S9x128x128_S_d0_1_2 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_cst_22 : FVec F S_ .f32 := constant S_ .f32 0x00000000#32
  let main_v59 : FVec F S128 .f32 := broadcastInDim S128 ![] bcast_S_S128 main_cst_22
  let main_v60 : IVec S128 1 := cmpf .une main_arg6 main_v59
  let main_c_23 : IVec S_ 1 := constantI S_ 1 1#1
  let main_v61 : IVec S_ 1 := (fun x v => Host.reduce IntOp.andi x v reducesTo_S128_S_d0 h_S_) main_v60 main_c_23
  let main_v62 : IVec S_ 1 := andi main_v58 main_v61
  main_v62

def fn_part2 {F : FTy → Type} [FloatOps F] (main_arg6 : FVec F S128 .f32) (main_arg7 : FVec F S128 .f32) (main_arg8 : FVec F S9x128x128 .f32) (main_arg9 : FVec F S128 .f32) (main_arg10 : FVec F S9x128x128 .f32) (main_arg11 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S9x128x128 .f32 := Host.absf main_arg8
  let main_cst_14 : FVec F S_ .f32 := constant S_ .f32 0x7F800000#32
  let main_v40 : FVec F S9x128x128 .f32 := broadcastInDim S9x128x128 ![] bcast_S_S9x128x128 main_cst_14
  let main_v41 : IVec S9x128x128 1 := cmpf .olt main_v39 main_v40
  let main_c_15 : IVec S_ 1 := constantI S_ 1 1#1
  let main_v42 : IVec S_ 1 := (fun x v => Host.reduce IntOp.andi x v reducesTo_S9x128x128_S_d0_1_2 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S9x128x128 .f32 := Host.absf main_arg10
  let main_cst_18 : FVec F S_ .f32 := constant S_ .f32 0x7F800000#32
  let main_v50 : FVec F S9x128x128 .f32 := broadcastInDim S9x128x128 ![] bcast_S_S9x128x128 main_cst_18
  fn_part3 (F := F) main_arg6 main_arg11 main_v48 main_v49 main_v50

def fn_part1 {F : FTy → Type} [FloatOps F] (main_arg4 : FVec F S9x256x128 .f32) (main_arg5 : FVec F S128 .f32) (main_arg6 : FVec F S128 .f32) (main_arg7 : FVec F S128 .f32) (main_arg8 : FVec F S9x128x128 .f32) (main_arg9 : FVec F S128 .f32) (main_arg10 : FVec F S9x128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S9x256x128 .f32 := Host.absf main_arg4
  let main_cst_6 : FVec F S_ .f32 := constant S_ .f32 0x7F800000#32
  let main_v20 : FVec F S9x256x128 .f32 := broadcastInDim S9x256x128 ![] bcast_S_S9x256x128 main_cst_6
  let main_v21 : IVec S9x256x128 1 := cmpf .olt main_v19 main_v20
  let main_c_7 : IVec S_ 1 := constantI S_ 1 1#1
  let main_v22 : IVec S_ 1 := (fun x v => Host.reduce IntOp.andi x v reducesTo_S9x256x128_S_d0_1_2 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg6 main_arg7 main_arg8 main_arg9 main_arg10 main_arg11 main_v33

def fn {F : FTy → Type} [FloatOps F] (main_arg0 : FVec F S24x16x16x256 .f32) (main_arg1 : FVec F S24x32x32x128 .f32) (main_arg2 : FVec F S4x256x128 .f32) (main_arg3 : FVec F S128 .f32) (main_arg4 : FVec F S9x256x128 .f32) (main_arg5 : FVec F S128 .f32) (main_arg6 : FVec F S128 .f32) (main_arg7 : FVec F S128 .f32) (main_arg8 : FVec F S9x128x128 .f32) (main_arg9 : FVec F S128 .f32) (main_arg10 : FVec F S9x128x128 .f32) (main_arg11 : FVec F S128 .f32) : IVec S_ 1 :=
  let main_v0 : FVec F S24x16x16x256 .f32 := Host.absf main_arg0
  let main_cst : FVec F S_ .f32 := constant S_ .f32 0x7F800000#32
  let main_v1 : FVec F S24x16x16x256 .f32 := broadcastInDim S24x16x16x256 ![] bcast_S_S24x16x16x256 main_cst
  let main_v2 : IVec S24x16x16x256 1 := cmpf .olt main_v0 main_v1
  let main_c : IVec S_ 1 := constantI S_ 1 1#1
  let main_v3 : IVec S_ 1 := (fun x v => Host.reduce IntOp.andi x v reducesTo_S24x16x16x256_S_d0_1_2_3 h_S_) main_v2 main_c
  let main_v4 : FVec F S24x32x32x128 .f32 := Host.absf main_arg1
  let main_cst_0 : FVec F S_ .f32 := constant S_ .f32 0x7F800000#32
  let main_v5 : FVec F S24x32x32x128 .f32 := broadcastInDim S24x32x32x128 ![] bcast_S_S24x32x32x128 main_cst_0
  let main_v6 : IVec S24x32x32x128 1 := cmpf .olt main_v4 main_v5
  let main_c_1 : IVec S_ 1 := constantI S_ 1 1#1
  let main_v7 : IVec S_ 1 := (fun x v => Host.reduce IntOp.andi x v reducesTo_S24x32x32x128_S_d0_1_2_3 h_S_) main_v6 main_c_1
  let main_v8 : IVec S_ 1 := andi main_v3 main_v7
  let main_v9 : FVec F S4x256x128 .f32 := Host.absf main_arg2
  let main_cst_2 : FVec F S_ .f32 := constant S_ .f32 0x7F800000#32
  let main_v10 : FVec F S4x256x128 .f32 := broadcastInDim S4x256x128 ![] bcast_S_S4x256x128 main_cst_2
  let main_v11 : IVec S4x256x128 1 := cmpf .olt main_v9 main_v10
  let main_c_3 : IVec S_ 1 := constantI S_ 1 1#1
  let main_v12 : IVec S_ 1 := (fun x v => Host.reduce IntOp.andi x v reducesTo_S4x256x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S24x16x16x256 : Shape := ⟨4, ![24, 16, 16, 256]⟩
abbrev S24x32x32x128 : Shape := ⟨4, ![24, 32, 32, 128]⟩
abbrev S4x256x128 : Shape := ⟨3, ![4, 256, 128]⟩
abbrev S128 : Shape := ⟨1, ![128]⟩
abbrev S9x256x128 : Shape := ⟨3, ![9, 256, 128]⟩
abbrev S9x128x128 : Shape := ⟨3, ![9, 128, 128]⟩
abbrev S256x4x128 : Shape := ⟨3, ![256, 4, 128]⟩
abbrev S256x512 : Shape := ⟨2, ![256, 512]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S2304x128 : Shape := ⟨2, ![2304, 128]⟩
abbrev S1152x128 : Shape := ⟨2, ![1152, 128]⟩
abbrev S1x16x16x256 : Shape := ⟨4, ![1, 16, 16, 256]⟩
abbrev S1x32x32x128 : Shape := ⟨4, ![1, 32, 32, 128]⟩
abbrev S16x2x16x256 : Shape := ⟨4, ![16, 2, 16, 256]⟩
abbrev S34x34x256 : Shape := ⟨3, ![34, 34, 256]⟩
abbrev S34x34x128 : Shape := ⟨3, ![34, 34, 128]⟩
abbrev S16x16x256 : Shape := ⟨3, ![16, 16, 256]⟩
abbrev S256x256 : Shape := ⟨2, ![256, 256]⟩
abbrev S16x1x16x256 : Shape := ⟨4, ![16, 1, 16, 256]⟩
abbrev S32x32x128 : Shape := ⟨3, ![32, 32, 128]⟩
abbrev S32x34x128 : Shape := ⟨3, ![32, 34, 128]⟩
abbrev S1024x128 : Shape := ⟨2, ![1024, 128]⟩
abbrev S32x32x256 : Shape := ⟨3, ![32, 32, 256]⟩
abbrev S1024x256 : Shape := ⟨2, ![1024, 256]⟩
abbrev S256x128 : Shape := ⟨2, ![256, 128]⟩
abbrev S1024 : Shape := ⟨1, ![1024]⟩
abbrev S1024x1 : Shape := ⟨2, ![1024, 1]⟩
abbrev S128x128 : Shape := ⟨2, ![128, 128]⟩

abbrev nBuf : Space → Nat
  | .hbm => 31
  | .vmem => 19
  | .smem => 0
  | _ => 0

abbrev bufTy : (tb : Table) → Fin (tcTables nBuf tb) → BufTy
  | .hbm, ⟨0, _⟩ => ⟨S24x16x16x256, .f32⟩
  | .hbm, ⟨1, _⟩ => ⟨S24x32x32x128, .f32⟩
  | .hbm, ⟨2, _⟩ => ⟨S4x256x128, .f32⟩
  | .hbm, ⟨3, _⟩ => ⟨S128, .f32⟩
  | .hbm, ⟨4, _⟩ => ⟨S9x256x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S9x128x128, .f32⟩
  | .hbm, ⟨9, _⟩ => ⟨S128, .f32⟩
  | .hbm, ⟨10, _⟩ => ⟨S9x128x128, .f32⟩
  | .hbm, ⟨11, _⟩ => ⟨S128, .f32⟩
  | .hbm, ⟨12, _⟩ => ⟨S256x4x128, .f32⟩
  | .hbm, ⟨13, _⟩ => ⟨S256x512, .f32⟩
  | .hbm, ⟨14, _⟩ => ⟨S256x512, .bf16⟩
  | .hbm, ⟨15, _⟩ => ⟨S1x128, .f32⟩
  | .hbm, ⟨16, _⟩ => ⟨S4x128, .f32⟩
  | .hbm, ⟨17, _⟩ => ⟨S512, .f32⟩
  | .hbm, ⟨18, _⟩ => ⟨S1x512, .f32⟩
  | .hbm, ⟨19, _⟩ => ⟨S2304x128, .f32⟩
  | .hbm, ⟨20, _⟩ => ⟨S2304x128, .bf16⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1152x128, .f32⟩
  | .hbm, ⟨25, _⟩ => ⟨S1152x128, .bf16⟩
  | .hbm, ⟨26, _⟩ => ⟨S1x128, .f32⟩
  | .hbm, ⟨27, _⟩ => ⟨S1152x128, .f32⟩
  | .hbm, ⟨28, _⟩ => ⟨S1152x128, .bf16⟩
  | .hbm, ⟨29, _⟩ => ⟨S1x128, .f32⟩
  | .hbm, ⟨30, _⟩ => ⟨S24x32x32x128, .f32⟩
  | .local _ .vmem, ⟨0, _⟩ => ⟨S1x16x16x256, .f32⟩
  | .local _ .vmem, ⟨1, _⟩ => ⟨S1x16x16x256, .f32⟩
  | .local _ .vmem, ⟨2, _⟩ => ⟨S1x32x32x128, .f32⟩
  | .local _ .vmem, ⟨3, _⟩ => ⟨S1x32x32x128, .f32⟩
  | .local _ .vmem, ⟨4, _⟩ => ⟨S256x512, .bf16⟩
  | .local _ .vmem, ⟨5, _⟩ => ⟨S1x512, .f32⟩
  | .local _ .vmem, ⟨6, _⟩ => ⟨S2304x128, .bf16⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1152x128, .bf16⟩
  | .local _ .vmem, ⟨11, _⟩ => ⟨S1x128, .f32⟩
  | .local _ .vmem, ⟨12, _⟩ => ⟨S1152x128, .bf16⟩
  | .local _ .vmem, ⟨13, _⟩ => ⟨S1x128, .f32⟩
  | .local _ .vmem, ⟨14, _⟩ => ⟨S1x32x32x128, .f32⟩
  | .local _ .vmem, ⟨15, _⟩ => ⟨S1x32x32x128, .f32⟩
  | .local _ .vmem, ⟨16, _⟩ => ⟨S16x2x16x256, .bf16⟩
  | .local _ .vmem, ⟨17, _⟩ => ⟨S34x34x256, .bf16⟩
  | .local _ .vmem, ⟨18, _⟩ => ⟨S34x34x128, .bf16⟩
  | _, _ => ⟨S24x16x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![24], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2304x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1152x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1152x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x32x32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S4x256x128_S256x4x128_1_0_2 : S4x256x128.Transposes [1, 0, 2] S256x4x128
  shapeCasts_S256x4x128_S256x512 : S256x4x128.ShapeCasts S256x512
  bitsLt_bf16_f32 : FTy.bits .bf16 < FTy.bits .f32
  shapeCasts_S128_S1x128 : S128.ShapeCasts S1x128
  bcast_S1x128_S4x128_0_1 : S1x128.BroadcastsInDim S4x128 (![0, 1] : Fin 2 → Fin S4x128.rank)
  shapeCasts_S4x128_S512 : S4x128.ShapeCasts S512
  shapeCasts_S512_S1x512 : S512.ShapeCasts S1x512
  shapeCasts_S9x256x128_S2304x128 : S9x256x128.ShapeCasts S2304x128
  shapeCasts_S9x128x128_S1152x128 : S9x128x128.ShapeCasts S1152x128
  inb_S34x34x256_S34x34x256_0_0_0 : ∀ a, (![0, 0, 0] : Fin 3 → Nat) a + S34x34x256.size a ≤ S34x34x256.size a
  h_S34x34x256 : 0 < S34x34x256.numel
  shapeCasts_S34x34x256_S34x34x256 : S34x34x256.ShapeCasts S34x34x256
  packedbf16_S34x34x256_S34x34x256_0_0_0 : (Rect.unit (s := S34x34x256) ![0, 0, 0] S34x34x256.size inb_S34x34x256_S34x34x256_0_0_0).PackedRows (EltTy.packing .bf16)
  inb_S34x34x128_S34x34x128_0_0_0 : ∀ a, (![0, 0, 0] : Fin 3 → Nat) a + S34x34x128.size a ≤ S34x34x128.size a
  h_S34x34x128 : 0 < S34x34x128.numel
  shapeCasts_S34x34x128_S34x34x128 : S34x34x128.ShapeCasts S34x34x128
  packedbf16_S34x34x128_S34x34x128_0_0_0 : (Rect.unit (s := S34x34x128) ![0, 0, 0] S34x34x128.size inb_S34x34x128_S34x34x128_0_0_0).PackedRows (EltTy.packing .bf16)
  inb_S1x16x16x256_S1x16x16x256_0_0_0_0 : ∀ a, (![0, 0, 0, 0] : Fin 4 → Nat) a + S1x16x16x256.size a ≤ S1x16x16x256.size a
  h_S1x16x16x256 : 0 < S1x16x16x256.numel
  shapeCasts_S1x16x16x256_S16x16x256 : S1x16x16x256.ShapeCasts S16x16x256
  shapeCasts_S16x16x256_S256x256 : S16x16x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  slices_S256x512_o0_0_S256x256 : S256x512.Slices ![0, 0] S256x256
  shapeCasts_S256x256_S16x16x256 : S256x256.ShapeCasts S16x16x256
  inb_S16x2x16x256_S16x1x16x256_0_0_0_0 : ∀ a, (![0, 0, 0, 0] : Fin 4 → Nat) a + S16x1x16x256.size a ≤ S16x2x16x256.size a
  h_S16x1x16x256 : 0 < S16x1x16x256.numel
  shapeCasts_S16x1x16x256_S16x16x256 : S16x1x16x256.ShapeCasts S16x16x256
  shapeCasts_S16x16x256_S16x1x16x256 : S16x16x256.ShapeCasts S16x1x16x256
  packedbf16_S16x2x16x256_S16x1x16x256_0_0_0_0 : (Rect.unit (s := S16x2x16x256) ![0, 0, 0, 0] S16x1x16x256.size inb_S16x2x16x256_S16x1x16x256_0_0_0_0).PackedRows (EltTy.packing .bf16)
  slices_S256x512_o0_256_S256x256 : S256x512.Slices ![0, 256] S256x256
  inb_S16x2x16x256_S16x1x16x256_0_1_0_0 : ∀ a, (![0, 1, 0, 0] : Fin 4 → Nat) a + S16x1x16x256.size a ≤ S16x2x16x256.size a
  packedbf16_S16x2x16x256_S16x1x16x256_0_1_0_0 : (Rect.unit (s := S16x2x16x256) ![0, 1, 0, 0] S16x1x16x256.size inb_S16x2x16x256_S16x1x16x256_0_1_0_0).PackedRows (EltTy.packing .bf16)
  inb_S16x2x16x256_S16x2x16x256_0_0_0_0 : ∀ a, (![0, 0, 0, 0] : Fin 4 → Nat) a + S16x2x16x256.size a ≤ S16x2x16x256.size a
  h_S16x2x16x256 : 0 < S16x2x16x256.numel
  shapeCasts_S16x2x16x256_S32x32x128 : S16x2x16x256.ShapeCasts S32x32x128
  inb_S34x34x256_S32x32x128_1_1_0 : ∀ a, (![1, 1, 0] : Fin 3 → Nat) a + S32x32x128.size a ≤ S34x34x256.size a
  h_S32x32x128 : 0 < S32x32x128.numel
  shapeCasts_S32x32x128_S32x32x128 : S32x32x128.ShapeCasts S32x32x128
  inb_S34x34x256_S32x34x128_1_0_0 : ∀ a, (![1, 0, 0] : Fin 3 → Nat) a + S32x34x128.size a ≤ S34x34x256.size a
  h_S32x34x128 : 0 < S32x34x128.numel
  slices_S32x34x128_S32x32x128_0_1_0 : S32x34x128.Slices ![0, 1, 0] S32x32x128
  packedbf16_S34x34x256_S32x34x128_1_0_0 : (Rect.unit (s := S34x34x256) ![1, 0, 0] S32x34x128.size inb_S34x34x256_S32x34x128_1_0_0).PackedRows (EltTy.packing .bf16)
  inb_S1x32x32x128_S1x32x32x128_0_0_0_0 : ∀ a, (![0, 0, 0, 0] : Fin 4 → Nat) a + S1x32x32x128.size a ≤ S1x32x32x128.size a
  h_S1x32x32x128 : 0 < S1x32x32x128.numel
  shapeCasts_S1x32x32x128_S32x32x128 : S1x32x32x128.ShapeCasts S32x32x128
  inb_S34x34x256_S32x32x128_1_1_128 : ∀ a, (![1, 1, 128] : Fin 3 → Nat) a + S32x32x128.size a ≤ S34x34x256.size a
  inb_S34x34x256_S32x34x128_1_0_128 : ∀ a, (![1, 0, 128] : Fin 3 → Nat) a + S32x34x128.size a ≤ S34x34x256.size a
  packedbf16_S34x34x256_S32x34x128_1_0_128 : (Rect.unit (s := S34x34x256) ![1, 0, 128] S32x34x128.size inb_S34x34x256_S32x34x128_1_0_128).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S34x34x256_S32x32x256_0_0_0 : ∀ a, (![0, 0, 0] : Fin 3 → Nat) a + S32x32x256.size a ≤ S34x34x256.size a
  h_S32x32x256 : 0 < S32x32x256.numel
  shapeCasts_S32x32x256_S1024x256 : S32x32x256.ShapeCasts S1024x256
  inb_S2304x128_S256x128_0_0 : ∀ a, (![0, 0] : Fin 2 → Nat) a + S256x128.size a ≤ S2304x128.size a
  h_S256x128 : 0 < S256x128.numel
  shapeCasts_S256x128_S256x128 : S256x128.ShapeCasts S256x128
  inb_S34x34x256_S32x32x256_0_1_0 : ∀ a, (![0, 1, 0] : Fin 3 → Nat) a + S32x32x256.size a ≤ S34x34x256.size a
  inb_S2304x128_S256x128_256_0 : ∀ a, (![256, 0] : Fin 2 → Nat) a + S256x128.size a ≤ S2304x128.size a
  inb_S34x34x256_S32x32x256_0_2_0 : ∀ a, (![0, 2, 0] : Fin 3 → Nat) a + S32x32x256.size a ≤ S34x34x256.size a
  inb_S2304x128_S256x128_512_0 : ∀ a, (![512, 0] : Fin 2 → Nat) a + S256x128.size a ≤ S2304x128.size a
  inb_S34x34x256_S32x32x256_1_0_0 : ∀ a, (![1, 0, 0] : Fin 3 → Nat) a + S32x32x256.size a ≤ S34x34x256.size a
  inb_S2304x128_S256x128_768_0 : ∀ a, (![768, 0] : Fin 2 → Nat) a + S256x128.size a ≤ S2304x128.size a
  inb_S34x34x256_S32x32x256_1_1_0 : ∀ a, (![1, 1, 0] : Fin 3 → Nat) a + S32x32x256.size a ≤ S34x34x256.size a
  inb_S2304x128_S256x128_1024_0 : ∀ a, (![1024, 0] : Fin 2 → Nat) a + S256x128.size a ≤ S2304x128.size a
  inb_S34x34x256_S32x32x256_1_2_0 : ∀ a, (![1, 2, 0] : Fin 3 → Nat) a + S32x32x256.size a ≤ S34x34x256.size a
  inb_S2304x128_S256x128_1280_0 : ∀ a, (![1280, 0] : Fin 2 → Nat) a + S256x128.size a ≤ S2304x128.size a
  inb_S34x34x256_S32x32x256_2_0_0 : ∀ a, (![2, 0, 0] : Fin 3 → Nat) a + S32x32x256.size a ≤ S34x34x256.size a
  inb_S2304x128_S256x128_1536_0 : ∀ a, (![1536, 0] : Fin 2 → Nat) a + S256x128.size a ≤ S2304x128.size a
  inb_S34x34x256_S32x32x256_2_1_0 : ∀ a, (![2, 1, 0] : Fin 3 → Nat) a + S32x32x256.size a ≤ S34x34x256.size a
  inb_S2304x128_S256x128_1792_0 : ∀ a, (![1792, 0] : Fin 2 → Nat) a + S256x128.size a ≤ S2304x128.size a
  inb_S34x34x256_S32x32x256_2_2_0 : ∀ a, (![2, 2, 0] : Fin 3 → Nat) a + S32x32x256.size a ≤ S34x34x256.size a
  inb_S2304x128_S256x128_2048_0 : ∀ a, (![2048, 0] : Fin 2 → Nat) a + S256x128.size a ≤ S2304x128.size a
  shapeCasts_S1024x128_S32x32x128 : S1024x128.ShapeCasts S32x32x128
  shapeCasts_S32x32x128_S1x32x32x128 : S32x32x128.ShapeCasts S1x32x32x128
  reduces_S1024x128_S1024 : S1024x128.Reduces [1] S1024
  shapeCasts_S1024_S1024x1 : S1024.ShapeCasts S1024x1
  broadcasts_S1024x1_S1024x128 : S1024x1.Broadcasts S1024x128
  inb_S34x34x128_S32x32x128_1_1_0 : ∀ a, (![1, 1, 0] : Fin 3 → Nat) a + S32x32x128.size a ≤ S34x34x128.size a
  inb_S34x34x128_S32x34x128_1_0_0 : ∀ a, (![1, 0, 0] : Fin 3 → Nat) a + S32x34x128.size a ≤ S34x34x128.size a
  packedbf16_S34x34x128_S32x34x128_1_0_0 : (Rect.unit (s := S34x34x128) ![1, 0, 0] S32x34x128.size inb_S34x34x128_S32x34x128_1_0_0).PackedRows (EltTy.packing .bf16)
  inb_S34x34x128_S32x32x128_0_0_0 : ∀ a, (![0, 0, 0] : Fin 3 → Nat) a + S32x32x128.size a ≤ S34x34x128.size a
  shapeCasts_S32x32x128_S1024x128 : S32x32x128.ShapeCasts S1024x128
  inb_S1152x128_S128x128_0_0 : ∀ a, (![0, 0] : Fin 2 → Nat) a + S128x128.size a ≤ S1152x128.size a
  h_S128x128 : 0 < S128x128.numel
  shapeCasts_S128x128_S128x128 : S128x128.ShapeCasts S128x128
  inb_S34x34x128_S32x32x128_0_1_0 : ∀ a, (![0, 1, 0] : Fin 3 → Nat) a + S32x32x128.size a ≤ S34x34x128.size a
  inb_S1152x128_S128x128_128_0 : ∀ a, (![128, 0] : Fin 2 → Nat) a + S128x128.size a ≤ S1152x128.size a
  inb_S34x34x128_S32x32x128_0_2_0 : ∀ a, (![0, 2, 0] : Fin 3 → Nat) a + S32x32x128.size a ≤ S34x34x128.size a
  inb_S1152x128_S128x128_256_0 : ∀ a, (![256, 0] : Fin 2 → Nat) a + S128x128.size a ≤ S1152x128.size a
  inb_S34x34x128_S32x32x128_1_0_0 : ∀ a, (![1, 0, 0] : Fin 3 → Nat) a + S32x32x128.size a ≤ S34x34x128.size a
  inb_S1152x128_S128x128_384_0 : ∀ a, (![384, 0] : Fin 2 → Nat) a + S128x128.size a ≤ S1152x128.size a
  inb_S1152x128_S128x128_512_0 : ∀ a, (![512, 0] : Fin 2 → Nat) a + S128x128.size a ≤ S1152x128.size a
  inb_S34x34x128_S32x32x128_1_2_0 : ∀ a, (![1, 2, 0] : Fin 3 → Nat) a + S32x32x128.size a ≤ S34x34x128.size a
  inb_S1152x128_S128x128_640_0 : ∀ a, (![640, 0] : Fin 2 → Nat) a + S128x128.size a ≤ S1152x128.size a
  inb_S34x34x128_S32x32x128_2_0_0 : ∀ a, (![2, 0, 0] : Fin 3 → Nat) a + S32x32x128.size a ≤ S34x34x128.size a
  inb_S1152x128_S128x128_768_0 : ∀ a, (![768, 0] : Fin 2 → Nat) a + S128x128.size a ≤ S1152x128.size a
  inb_S34x34x128_S32x32x128_2_1_0 : ∀ a, (![2, 1, 0] : Fin 3 → Nat) a + S32x32x128.size a ≤ S34x34x128.size a
  inb_S1152x128_S128x128_896_0 : ∀ a, (![896, 0] : Fin 2 → Nat) a + S128x128.size a ≤ S1152x128.size a
  inb_S34x34x128_S32x32x128_2_2_0 : ∀ a, (![2, 2, 0] : Fin 3 → Nat) a + S32x32x128.size a ≤ S34x34x128.size a
  inb_S1152x128_S128x128_1024_0 : ∀ a, (![1024, 0] : Fin 2 → Nat) a + S128x128.size a ≤ S1152x128.size a
  dot_S256x256_S256x512_S256x512_1_0_0_1_n_n_wf : DotDims.WF S256x256 S256x512 S256x512 [1] [0] [0] [1] [] []
  dot_S1024x256_S256x128_S1024x128_1_0_0_1_n_n_wf : DotDims.WF S1024x256 S256x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x16x256.size a ≤ S24x16x16x256.size a
  hwx0_0 : ∀ i : grid0.Coords, EltTy.bits .f32 = 32 ∨ (Rect.block (s := S24x16x16x256) S1x16x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x32x128.size a ≤ S24x32x32x128.size a
  hwx0_1 : ∀ i : grid0.Coords, EltTy.bits .f32 = 32 ∨ (Rect.block (s := S24x32x32x128) S1x32x32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2304x128.size a ≤ S2304x128.size a
  hwx0_4 : ∀ i : grid0.Coords, EltTy.bits .bf16 = 32 ∨ (Rect.block (s := S2304x128) S2304x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1152x128.size a ≤ S1152x128.size a
  hwx0_8 : ∀ i : grid0.Coords, EltTy.bits .bf16 = 32 ∨ (Rect.block (s := S1152x128) S1152x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1152x128.size a ≤ S1152x128.size a
  hwx0_10 : ∀ i : grid0.Coords, EltTy.bits .bf16 = 32 ∨ (Rect.block (s := S1152x128) S1152x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x32x32x128.size a ≤ S24x32x32x128.size a
  hwx0_12 : ∀ i : grid0.Coords, EltTy.bits .f32 = 32 ∨ (Rect.block (s := S24x32x32x128) S1x32x32x128.size (cc0_transform_12 i) (hinb0_12 i)).WholeWords (EltTy.packing .f32)

variable [Facts₀]

def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1x16x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2304x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1152x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S1152x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v18) S1x32x32x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S24x16x16x256 : Shape := ⟨4, ![24, 16, 16, 256]⟩
abbrev S24x32x32x128 : Shape := ⟨4, ![24, 32, 32, 128]⟩
abbrev S4x256x128 : Shape := ⟨3, ![4, 256, 128]⟩
abbrev S128 : Shape := ⟨1, ![128]⟩
abbrev S9x256x128 : Shape := ⟨3, ![9, 256, 128]⟩
abbrev S9x128x128 : Shape := ⟨3, ![9, 128, 128]⟩
abbrev S256x4x128 : Shape := ⟨3, ![256, 4, 128]⟩
abbrev S256x512 : Shape := ⟨2, ![256, 512]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S2304x128 : Shape := ⟨2, ![2304, 128]⟩
abbrev S1x128x1 : Shape := ⟨3, ![1, 128, 1]⟩
abbrev S1152x128 : Shape := ⟨2, ![1152, 128]⟩
abbrev S24x16x2x16x256 : Shape := ⟨5, ![24, 16, 2, 16, 256]⟩
abbrev S1x16x16x256 : Shape := ⟨4, ![1, 16, 16, 256]⟩
abbrev S1x16x2x16x256 : Shape := ⟨5, ![1, 16, 2, 16, 256]⟩
abbrev S16x16x256 : Shape := ⟨3, ![16, 16, 256]⟩
abbrev S256x256 : Shape := ⟨2, ![256, 256]⟩
abbrev S1x16x1x16x256 : Shape := ⟨5, ![1, 16, 1, 16, 256]⟩
abbrev S1x32x32x128 : Shape := ⟨4, ![1, 32, 32, 128]⟩
abbrev S34x34x256 : Shape := ⟨3, ![34, 34, 256]⟩
abbrev S34x34x128 : Shape := ⟨3, ![34, 34, 128]⟩
abbrev S1024x2304 : Shape := ⟨2, ![1024, 2304]⟩
abbrev S1024x128 : Shape := ⟨2, ![1024, 128]⟩
abbrev S32x32x128 : Shape := ⟨3, ![32, 32, 128]⟩
abbrev S32x32x256 : Shape := ⟨3, ![32, 32, 256]⟩
abbrev S1024x256 : Shape := ⟨2, ![1024, 256]⟩
abbrev S1024 : Shape := ⟨1, ![1024]⟩
abbrev S1024x1 : Shape := ⟨2, ![1024, 1]⟩
abbrev S1024x1152 : Shape := ⟨2, ![1024, 1152]⟩

abbrev nBuf : Space → Nat
  | .hbm => 32
  | .vmem => 23
  | .smem => 0
  | _ => 0

abbrev bufTy : (tb : Table) → Fin (tcTables nBuf tb) → BufTy
  | .hbm, ⟨0, _⟩ => ⟨S24x16x16x256, .f32⟩
  | .hbm, ⟨1, _⟩ => ⟨S24x32x32x128, .f32⟩
  | .hbm, ⟨2, _⟩ => ⟨S4x256x128, .f32⟩
  | .hbm, ⟨3, _⟩ => ⟨S128, .f32⟩
  | .hbm, ⟨4, _⟩ => ⟨S9x256x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S9x128x128, .f32⟩
  | .hbm, ⟨9, _⟩ => ⟨S128, .f32⟩
  | .hbm, ⟨10, _⟩ => ⟨S9x128x128, .f32⟩
  | .hbm, ⟨11, _⟩ => ⟨S128, .f32⟩
  | .hbm, ⟨12, _⟩ => ⟨S256x4x128, .f32⟩
  | .hbm, ⟨13, _⟩ => ⟨S256x512, .f32⟩
  | .hbm, ⟨14, _⟩ => ⟨S1x128, .f32⟩
  | .hbm, ⟨15, _⟩ => ⟨S4x128, .f32⟩
  | .hbm, ⟨16, _⟩ => ⟨S512, .f32⟩
  | .hbm, ⟨17, _⟩ => ⟨S1x512, .f32⟩
  | .hbm, ⟨18, _⟩ => ⟨S2304x128, .f32⟩
  | .hbm, ⟨19, _⟩ => ⟨S1x128, .f32⟩
  | .hbm, ⟨20, _⟩ => ⟨S1x128x1, .f32⟩
  | .hbm, ⟨21, _⟩ => ⟨S9x128x128, .f32⟩
  | .hbm, ⟨22, _⟩ => ⟨S9x128x128, .f32⟩
  | .hbm, ⟨23, _⟩ => ⟨S1152x128, .f32⟩
  | .hbm, ⟨24, _⟩ => ⟨S128, .f32⟩
  | .hbm, ⟨25, _⟩ => ⟨S1x128, .f32⟩
  | .hbm, ⟨26, _⟩ => ⟨S1x128, .f32⟩
  | .hbm, ⟨27, _⟩ => ⟨S1152x128, .f32⟩
  | .hbm, ⟨28, _⟩ => ⟨S1x128, .f32⟩
  | .hbm, ⟨29, _⟩ => ⟨S24x16x2x16x256, .f32⟩
  | .hbm, ⟨30, _⟩ => ⟨S24x32x32x128, .f32⟩
  | .hbm, ⟨31, _⟩ => ⟨S24x32x32x128, .f32⟩
  | .local _ .vmem, ⟨0, _⟩ => ⟨S1x16x16x256, .f32⟩
  | .local _ .vmem, ⟨1, _⟩ => ⟨S1x16x16x256, .f32⟩
  | .local _ .vmem, ⟨2, _⟩ => ⟨S256x512, .f32⟩
  | .local _ .vmem, ⟨3, _⟩ => ⟨S1x512, .f32⟩
  | .local _ .vmem, ⟨4, _⟩ => ⟨S1x16x2x16x256, .f32⟩
  | .local _ .vmem, ⟨5, _⟩ => ⟨S1x16x2x16x256, .f32⟩
  | .local _ .vmem, ⟨6, _⟩ => ⟨S1x32x32x128, .f32⟩
  | .local _ .vmem, ⟨7, _⟩ => ⟨S1x32x32x128, .f32⟩
  | .local _ .vmem, ⟨8, _⟩ => ⟨S1x32x32x128, .f32⟩
  | .local _ .vmem, ⟨9, _⟩ => ⟨S1x32x32x128, .f32⟩
  | .local _ .vmem, ⟨10, _⟩ => ⟨S2304x128, .f32⟩
  | .local _ .vmem, ⟨11, _⟩ => ⟨S1x128, .f32⟩
  | .local _ .vmem, ⟨12, _⟩ => ⟨S1x128, .f32⟩
  | .local _ .vmem, ⟨13, _⟩ => ⟨S1152x128, .f32⟩
  | .local _ .vmem, ⟨14, _⟩ => ⟨S1x128, .f32⟩
  | .local _ .vmem, ⟨15, _⟩ => ⟨S1152x128, .f32⟩
  | .local _ .vmem, ⟨16, _⟩ => ⟨S1x128, .f32⟩
  | .local _ .vmem, ⟨17, _⟩ => ⟨S1x32x32x128, .f32⟩
  | .local _ .vmem, ⟨18, _⟩ => ⟨S1x32x32x128, .f32⟩
  | .local _ .vmem, ⟨19, _⟩ => ⟨S34x34x256, .f32⟩
  | .local _ .vmem, ⟨20, _⟩ => ⟨S34x34x128, .f32⟩
  | .local _ .vmem, ⟨21, _⟩ => ⟨S1024x2304, .f32⟩
  | .local _ .vmem, ⟨22, _⟩ => ⟨S1024x128, .f32⟩
  | _, _ => ⟨S24x16x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc1_scratch3 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18

abbrev nD : Nat := 1
abbrev τ : Topo := Topo.v7x

variable {F : FTy → Type} [FloatOps F]

abbrev grid0 : Pipeline.Grid := ⟨1, ![24], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x16x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x2x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![24], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x32x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x32x32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2304x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1152x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1152x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x32x32x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  transposes_S4x256x128_S256x4x128_1_0_2 : S4x256x128.Transposes [1, 0, 2] S256x4x128
  shapeCasts_S256x4x128_S256x512 : S256x4x128.ShapeCasts S256x512
  shapeCasts_S128_S1x128 : S128.ShapeCasts S1x128
  bcast_S1x128_S4x128_0_1 : S1x128.BroadcastsInDim S4x128 (![0, 1] : Fin 2 → Fin S4x128.rank)
  shapeCasts_S4x128_S512 : S4x128.ShapeCasts S512
  shapeCasts_S512_S1x512 : S512.ShapeCasts S1x512
  shapeCasts_S9x256x128_S2304x128 : S9x256x128.ShapeCasts S2304x128
  bcast_S128_S1x128x1_1 : S128.BroadcastsInDim S1x128x1 (![1] : Fin 1 → Fin S1x128x1.rank)
  bcast_S1x128x1_S9x128x128_0_1_2 : S1x128x1.BroadcastsInDim S9x128x128 (![0, 1, 2] : Fin 3 → Fin S9x128x128.rank)
  shapeCasts_S9x128x128_S1152x128 : S9x128x128.ShapeCasts S1152x128
  inb_S1x16x16x256_S1x16x16x256_0_0_0_0 : ∀ a, (![0, 0, 0, 0] : Fin 4 → Nat) a + S1x16x16x256.size a ≤ S1x16x16x256.size a
  h_S1x16x16x256 : 0 < S1x16x16x256.numel
  shapeCasts_S1x16x16x256_S16x16x256 : S1x16x16x256.ShapeCasts S16x16x256
  shapeCasts_S16x16x256_S256x256 : S16x16x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  slices_S256x512_o0_0_S256x256 : S256x512.Slices ![0, 0] S256x256
  shapeCasts_S256x256_S16x16x256 : S256x256.ShapeCasts S16x16x256
  inb_S1x16x2x16x256_S1x16x1x16x256_0_0_0_0_0 : ∀ a, (![0, 0, 0, 0, 0] : Fin 5 → Nat) a + S1x16x1x16x256.size a ≤ S1x16x2x16x256.size a
  h_S1x16x1x16x256 : 0 < S1x16x1x16x256.numel
  shapeCasts_S1x16x1x16x256_S16x16x256 : S1x16x1x16x256.ShapeCasts S16x16x256
  shapeCasts_S16x16x256_S1x16x1x16x256 : S16x16x256.ShapeCasts S1x16x1x16x256
  slices_S256x512_o0_256_S256x256 : S256x512.Slices ![0, 256] S256x256
  inb_S1x16x2x16x256_S1x16x1x16x256_0_0_1_0_0 : ∀ a, (![0, 0, 1, 0, 0] : Fin 5 → Nat) a + S1x16x1x16x256.size a ≤ S1x16x2x16x256.size a
  shapeCasts_S24x16x2x16x256_S24x32x32x128 : S24x16x2x16x256.ShapeCasts S24x32x32x128
  inb_S34x34x256_S34x34x256_0_0_0 : ∀ a, (![0, 0, 0] : Fin 3 → Nat) a + S34x34x256.size a ≤ S34x34x256.size a
  h_S34x34x256 : 0 < S34x34x256.numel
  shapeCasts_S34x34x256_S34x34x256 : S34x34x256.ShapeCasts S34x34x256
  inb_S34x34x128_S34x34x128_0_0_0 : ∀ a, (![0, 0, 0] : Fin 3 → Nat) a + S34x34x128.size a ≤ S34x34x128.size a
  h_S34x34x128 : 0 < S34x34x128.numel
  shapeCasts_S34x34x128_S34x34x128 : S34x34x128.ShapeCasts S34x34x128
  inb_S1x32x32x128_S1x32x32x128_0_0_0_0 : ∀ a, (![0, 0, 0, 0] : Fin 4 → Nat) a + S1x32x32x128.size a ≤ S1x32x32x128.size a
  h_S1x32x32x128 : 0 < S1x32x32x128.numel
  shapeCasts_S1x32x32x128_S32x32x128 : S1x32x32x128.ShapeCasts S32x32x128
  inb_S34x34x256_S32x32x128_1_1_0 : ∀ a, (![1, 1, 0] : Fin 3 → Nat) a + S32x32x128.size a ≤ S34x34x256.size a
  h_S32x32x128 : 0 < S32x32x128.numel
  shapeCasts_S32x32x128_S32x32x128 : S32x32x128.ShapeCasts S32x32x128
  inb_S34x34x256_S32x32x128_1_1_128 : ∀ a, (![1, 1, 128] : Fin 3 → Nat) a + S32x32x128.size a ≤ S34x34x256.size a
  inb_S34x34x256_S32x32x256_0_0_0 : ∀ a, (![0, 0, 0] : Fin 3 → Nat) a + S32x32x256.size a ≤ S34x34x256.size a
  h_S32x32x256 : 0 < S32x32x256.numel
  shapeCasts_S32x32x256_S1024x256 : S32x32x256.ShapeCasts S1024x256
  inb_S1024x2304_S1024x256_0_0 : ∀ a, (![0, 0] : Fin 2 → Nat) a + S1024x256.size a ≤ S1024x2304.size a
  h_S1024x256 : 0 < S1024x256.numel
  shapeCasts_S1024x256_S1024x256 : S1024x256.ShapeCasts S1024x256
  inb_S34x34x256_S32x32x256_0_1_0 : ∀ a, (![0, 1, 0] : Fin 3 → Nat) a + S32x32x256.size a ≤ S34x34x256.size a
  inb_S1024x2304_S1024x256_0_256 : ∀ a, (![0, 256] : Fin 2 → Nat) a + S1024x256.size a ≤ S1024x2304.size a
  inb_S34x34x256_S32x32x256_0_2_0 : ∀ a, (![0, 2, 0] : Fin 3 → Nat) a + S32x32x256.size a ≤ S34x34x256.size a
  inb_S1024x2304_S1024x256_0_512 : ∀ a, (![0, 512] : Fin 2 → Nat) a + S1024x256.size a ≤ S1024x2304.size a
  inb_S34x34x256_S32x32x256_1_0_0 : ∀ a, (![1, 0, 0] : Fin 3 → Nat) a + S32x32x256.size a ≤ S34x34x256.size a
  inb_S1024x2304_S1024x256_0_768 : ∀ a, (![0, 768] : Fin 2 → Nat) a + S1024x256.size a ≤ S1024x2304.size a
  inb_S34x34x256_S32x32x256_1_1_0 : ∀ a, (![1, 1, 0] : Fin 3 → Nat) a + S32x32x256.size a ≤ S34x34x256.size a
  inb_S1024x2304_S1024x256_0_1024 : ∀ a, (![0, 1024] : Fin 2 → Nat) a + S1024x256.size a ≤ S1024x2304.size a
  inb_S34x34x256_S32x32x256_1_2_0 : ∀ a, (![1, 2, 0] : Fin 3 → Nat) a + S32x32x256.size a ≤ S34x34x256.size a
  inb_S1024x2304_S1024x256_0_1280 : ∀ a, (![0, 1280] : Fin 2 → Nat) a + S1024x256.size a ≤ S1024x2304.size a
  inb_S34x34x256_S32x32x256_2_0_0 : ∀ a, (![2, 0, 0] : Fin 3 → Nat) a + S32x32x256.size a ≤ S34x34x256.size a
  inb_S1024x2304_S1024x256_0_1536 : ∀ a, (![0, 1536] : Fin 2 → Nat) a + S1024x256.size a ≤ S1024x2304.size a
  inb_S34x34x256_S32x32x256_2_1_0 : ∀ a, (![2, 1, 0] : Fin 3 → Nat) a + S32x32x256.size a ≤ S34x34x256.size a
  inb_S1024x2304_S1024x256_0_1792 : ∀ a, (![0, 1792] : Fin 2 → Nat) a + S1024x256.size a ≤ S1024x2304.size a
  inb_S34x34x256_S32x32x256_2_2_0 : ∀ a, (![2, 2, 0] : Fin 3 → Nat) a + S32x32x256.size a ≤ S34x34x256.size a
  inb_S1024x2304_S1024x256_0_2048 : ∀ a, (![0, 2048] : Fin 2 → Nat) a + S1024x256.size a ≤ S1024x2304.size a
  inb_S1024x2304_S1024x2304_0_0 : ∀ a, (![0, 0] : Fin 2 → Nat) a + S1024x2304.size a ≤ S1024x2304.size a
  h_S1024x2304 : 0 < S1024x2304.numel
  inb_S2304x128_S2304x128_0_0 : ∀ a, (![0, 0] : Fin 2 → Nat) a + S2304x128.size a ≤ S2304x128.size a
  h_S2304x128 : 0 < S2304x128.numel
  shapeCasts_S2304x128_S2304x128 : S2304x128.ShapeCasts S2304x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  broadcasts_S1024x1_S1024x128 : S1024x1.Broadcasts S1024x128
  shapeCasts_S1024x128_S32x32x128 : S1024x128.ShapeCasts S32x32x128
  inb_S34x34x128_S32x32x128_1_1_0 : ∀ a, (![1, 1, 0] : Fin 3 → Nat) a + S32x32x128.size a ≤ S34x34x128.size a
  inb_S34x34x128_S32x32x128_0_0_0 : ∀ a, (![0, 0, 0] : Fin 3 → Nat) a + S32x32x128.size a ≤ S34x34x128.size a
  shapeCasts_S32x32x128_S1024x128 : S32x32x128.ShapeCasts S1024x128
  inb_S1024x2304_S1024x128_0_0 : ∀ a, (![0, 0] : Fin 2 → Nat) a + S1024x128.size a ≤ S1024x2304.size a
  inb_S34x34x128_S32x32x128_0_1_0 : ∀ a, (![0, 1, 0] : Fin 3 → Nat) a + S32x32x128.size a ≤ S34x34x128.size a
  inb_S1024x2304_S1024x128_0_128 : ∀ a, (![0, 128] : Fin 2 → Nat) a + S1024x128.size a ≤ S1024x2304.size a
  inb_S34x34x128_S32x32x128_0_2_0 : ∀ a, (![0, 2, 0] : Fin 3 → Nat) a + S32x32x128.size a ≤ S34x34x128.size a
  inb_S1024x2304_S1024x128_0_256 : ∀ a, (![0, 256] : Fin 2 → Nat) a + S1024x128.size a ≤ S1024x2304.size a
  inb_S34x34x128_S32x32x128_1_0_0 : ∀ a, (![1, 0, 0] : Fin 3 → Nat) a + S32x32x128.size a ≤ S34x34x128.size a
  inb_S1024x2304_S1024x128_0_384 : ∀ a, (![0, 384] : Fin 2 → Nat) a + S1024x128.size a ≤ S1024x2304.size a
  inb_S1024x2304_S1024x128_0_512 : ∀ a, (![0, 512] : Fin 2 → Nat) a + S1024x128.size a ≤ S1024x2304.size a
  inb_S34x34x128_S32x32x128_1_2_0 : ∀ a, (![1, 2, 0] : Fin 3 → Nat) a + S32x32x128.size a ≤ S34x34x128.size a
  inb_S1024x2304_S1024x128_0_640 : ∀ a, (![0, 640] : Fin 2 → Nat) a + S1024x128.size a ≤ S1024x2304.size a
  inb_S34x34x128_S32x32x128_2_0_0 : ∀ a, (![2, 0, 0] : Fin 3 → Nat) a + S32x32x128.size a ≤ S34x34x128.size a
  inb_S1024x2304_S1024x128_0_768 : ∀ a, (![0, 768] : Fin 2 → Nat) a + S1024x128.size a ≤ S1024x2304.size a
  inb_S34x34x128_S32x32x128_2_1_0 : ∀ a, (![2, 1, 0] : Fin 3 → Nat) a + S32x32x128.size a ≤ S34x34x128.size a
  inb_S1024x2304_S1024x128_0_896 : ∀ a, (![0, 896] : Fin 2 → Nat) a + S1024x128.size a ≤ S1024x2304.size a
  inb_S34x34x128_S32x32x128_2_2_0 : ∀ a, (![2, 2, 0] : Fin 3 → Nat) a + S32x32x128.size a ≤ S34x34x128.size a
  inb_S1024x2304_S1024x128_0_1024 : ∀ a, (![0, 1024] : Fin 2 → Nat) a + S1024x128.size a ≤ S1024x2304.size a
  inb_S1024x2304_S1024x1152_0_0 : ∀ a, (![0, 0] : Fin 2 → Nat) a + S1024x1152.size a ≤ S1024x2304.size a
  h_S1024x1152 : 0 < S1024x1152.numel
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  shapeCasts_S32x32x128_S1x32x32x128 : S32x32x128.ShapeCasts S1x32x32x128
  dot_S256x256_S256x512_S256x512_1_0_0_1_n_n_wf : DotDims.WF S256x256 S256x512 S256x512 [1] [0] [0] [1] [] []
  dot_S1024x2304_S2304x128_S1024x128_1_0_0_1_n_n_wf : DotDims.WF S1024x2304 S2304x128 S1024x128 [1] [0] [0] [1] [] []
  dot_S1024x1152_S1152x128_S1024x128_1_0_0_1_n_n_wf : DotDims.WF S1024x1152 S1152x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x16x256.size a ≤ S24x16x16x256.size a
  hwx0_0 : ∀ i : grid0.Coords, EltTy.bits .f32 = 32 ∨ (Rect.block (s := S24x16x16x256) S1x16x16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x2x16x256.size a ≤ S24x16x2x16x256.size a
  hwx0_3 : ∀ i : grid0.Coords, EltTy.bits .f32 = 32 ∨ (Rect.block (s := S24x16x2x16x256) S1x16x2x16x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x32x128.size a ≤ S24x32x32x128.size a
  hwx1_0 : ∀ i : grid1.Coords, EltTy.bits .f32 = 32 ∨ (Rect.block (s := S24x32x32x128) S1x32x32x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x32x128.size a ≤ S24x32x32x128.size a
  hwx1_1 : ∀ i : grid1.Coords, EltTy.bits .f32 = 32 ∨ (Rect.block (s := S24x32x32x128) S1x32x32x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2304x128.size a ≤ S2304x128.size a
  hwx1_2 : ∀ i : grid1.Coords, EltTy.bits .f32 = 32 ∨ (Rect.block (s := S2304x128) S2304x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1152x128.size a ≤ S1152x128.size a
  hwx1_5 : ∀ i : grid1.Coords, EltTy.bits .f32 = 32 ∨ (Rect.block (s := S1152x128) S1152x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1152x128.size a ≤ S1152x128.size a
  hwx1_7 : ∀ i : grid1.Coords, EltTy.bits .f32 = 32 ∨ (Rect.block (s := S1152x128) S1152x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x32x32x128.size a ≤ S24x32x32x128.size a
  hwx1_9 : ∀ i : grid1.Coords, EltTy.bits .f32 = 32 ∨ (Rect.block (s := S24x32x32x128) S1x32x32x128.size (cc1_transform_9 i) (hinb1_9 i)).WholeWords (EltTy.packing .f32)

variable [Facts₀]

def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S1024x2304_S2304x128_S1024x128_1_0_0_1_n_n : DotDims S1024x2304 S2304x128 S1024x128 where
  lhsContracting := [1]
  rhsContracting := [0]
  lhsNonContracting := [0]
  rhsNonContracting := [1]
  lhsBatch := []
  rhsBatch := []
  wf := dot_S1024x2304_S2304x128_S1024x128_1_0_0_1_n_n_wf
def dot_S1024x1152_S1152x128_S1024x128_1_0_0_1_n_n : DotDims S1024x1152 S1152x128 S1024x128 where
  lhsContracting := [1]
  rhsContracting := [0]
  lhsNonContracting := [0]
  rhsNonContracting := [1]
  lhsBatch := []
  rhsBatch := []
  wf := dot_S1024x1152_S1152x128_S1024x128_1_0_0_1_n_n_wf

abbrev win0_0 : Pipeline.Window sig grid0 :=
  Pipeline.Window.ofSpec (Memref.whole main_arg0) S1x16x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x16x2x16x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S1x32x32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x32x32x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2304x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1152x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S1152x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v16) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v19) S1x32x32x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== Proof.BodyBits.lean ====
/-
  The fused up-block kernel as printed (the word-level program), read at any float instance: its body and its frame.

  The program is the same text as its idealization (no operation was rewritten), so this module is the idealized
  kernel's body module over this program's own definitions: the body run once on arbitrary whole staging memrefs
  (`kernelRun`), the cover of the output block by the run's pieces, the pipeline's proof data, the obligation at every
  grid point and the run of @main — every weakly fair execution terminates, nothing faulting, every argument array
  unchanged.
-/
import proofs.«131778_g2000005761611187_pallasbulk_1314_2_alg».proof.Proof.Gen.Kernel.Frame
import proofs.«131778_g2000005761611187_pallasbulk_1314_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scratch buffers -/

/-- The pixel-shuffled deconvolution image, the zero-padded concatenated image and the zero-padded activation image. -/
abbrev scM0 : Memref sig .tc .vmem S16x2x16x256 .bf16 := Memref.whole cc0_scratch0
abbrev scM1 : Memref sig .tc .vmem S34x34x256 .bf16 := Memref.whole cc0_scratch1
abbrev scM2 : Memref sig .tc .vmem S34x34x128 .bf16 := Memref.whole cc0_scratch2

/-- The invariant between points, with the scratch buffers as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## The body on any staging memrefs -/

set_option maxHeartbeats 4000000 in
/-- The body, run once on any whole staging memrefs: the twelve input buffers held at `x0 … x11`, the output's and the three
    scratch buffers at anything. It returns with the inputs as they were, the scratch buffers at something, and the output's
    buffer written with the pieces `L12` (last store first) — a list the run itself finds. -/
noncomputable def kernelRun (c : Dev nD) (i : grid0.Coords) (arg1 : Memref sig .tc .vmem S1x16x16x256 .f32) (harg1 : arg1.IsWhole) (arg2 : Memref sig .tc .vmem S1x32x32x128 .f32) (harg2 : arg2.IsWhole) (arg3 : Memref sig .tc .vmem S256x512 .bf16) (harg3 : arg3.IsWhole) (arg4 : Memref sig .tc .vmem S1x512 .f32) (harg4 : arg4.IsWhole) (arg5 : Memref sig .tc .vmem S2304x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1152x128 .bf16) (harg9 : arg9.IsWhole) (arg10 : Memref sig .tc .vmem S1x128 .f32) (harg10 : arg10.IsWhole) (arg11 : Memref sig .tc .vmem S1152x128 .bf16) (harg11 : arg11.IsWhole) (arg12 : Memref sig .tc .vmem S1x128 .f32) (harg12 : arg12.IsWhole) (arg13 : Memref sig .tc .vmem S1x32x32x128 .f32) (harg13 : arg13.IsWhole) (arg14 : Memref sig .tc .vmem S16x2x16x256 .bf16) (harg14 : arg14.IsWhole) (arg15 : Memref sig .tc .vmem S34x34x256 .bf16) (harg15 : arg15.IsWhole) (arg16 : Memref sig .tc .vmem S34x34x128 .bf16) (harg16 : arg16.IsWhole)
    (x0 : Vec F S1x16x16x256 .f32) (x1 : Vec F S1x32x32x128 .f32) (x2 : Vec F S256x512 .bf16) (x3 : Vec F S1x512 .f32) (x4 : Vec F S2304x128 .bf16) (x5 : Vec F S1x128 .f32) (x6 : Vec F S1x128 .f32) (x7 : Vec F S1x128 .f32) (x8 : Vec F S1152x128 .bf16) (x9 : Vec F S1x128 .f32) (x10 : Vec F S1152x128 .bf16) (x11 : Vec F S1x128 .f32) :
    { L12 : List (View.Piece (Elt F) S1x32x32x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The run's pieces for the output cover its block: the last store writes the block whole. -/
theorem cover (c : Dev nD) (i : grid0.Coords) (arg1 : Memref sig .tc .vmem S1x16x16x256 .f32) (harg1 : arg1.IsWhole) (arg2 : Memref sig .tc .vmem S1x32x32x128 .f32) (harg2 : arg2.IsWhole) (arg3 : Memref sig .tc .vmem S256x512 .bf16) (harg3 : arg3.IsWhole) (arg4 : Memref sig .tc .vmem S1x512 .f32) (harg4 : arg4.IsWhole) (arg5 : Memref sig .tc .vmem S2304x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1152x128 .bf16) (harg9 : arg9.IsWhole) (arg10 : Memref sig .tc .vmem S1x128 .f32) (harg10 : arg10.IsWhole) (arg11 : Memref sig .tc .vmem S1152x128 .bf16) (harg11 : arg11.IsWhole) (arg12 : Memref sig .tc .vmem S1x128 .f32) (harg12 : arg12.IsWhole) (arg13 : Memref sig .tc .vmem S1x32x32x128 .f32) (harg13 : arg13.IsWhole) (arg14 : Memref sig .tc .vmem S16x2x16x256 .bf16) (harg14 : arg14.IsWhole) (arg15 : Memref sig .tc .vmem S34x34x256 .bf16) (harg15 : arg15.IsWhole) (arg16 : Memref sig .tc .vmem S34x34x128 .bf16) (harg16 : arg16.IsWhole)
    (x0 : Vec F S1x16x16x256 .f32) (x1 : Vec F S1x32x32x128 .f32) (x2 : Vec F S256x512 .bf16) (x3 : Vec F S1x512 .f32) (x4 : Vec F S2304x128 .bf16) (x5 : Vec F S1x128 .f32) (x6 : Vec F S1x128 .f32) (x7 : Vec F S1x128 .f32) (x8 : Vec F S1152x128 .bf16) (x9 : Vec F S1x128 .f32) (x10 : Vec F S1152x128 .bf16) (x11 : Vec F S1x128 .f32) (y : S1x32x32x128.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11).1 S1x32x32x128.size (by sl_kernel_rfl) y

/-- One staging buffer of the output window, through which its contents are stated (which one does not matter). -/
abbrev VO : View sig .tc .vmem S1x32x32x128 .f32 := (Memref.whole cc0_stg12_0 : Memref sig .tc .vmem S1x32x32x128 .f32).view

/-- What the run leaves in the output's staging buffer: its pieces read back (over anything). -/
def outBlock (c : Dev nD) (i : grid0.Coords) (arg1 : Memref sig .tc .vmem S1x16x16x256 .f32) (harg1 : arg1.IsWhole) (arg2 : Memref sig .tc .vmem S1x32x32x128 .f32) (harg2 : arg2.IsWhole) (arg3 : Memref sig .tc .vmem S256x512 .bf16) (harg3 : arg3.IsWhole) (arg4 : Memref sig .tc .vmem S1x512 .f32) (harg4 : arg4.IsWhole) (arg5 : Memref sig .tc .vmem S2304x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1152x128 .bf16) (harg9 : arg9.IsWhole) (arg10 : Memref sig .tc .vmem S1x128 .f32) (harg10 : arg10.IsWhole) (arg11 : Memref sig .tc .vmem S1152x128 .bf16) (harg11 : arg11.IsWhole) (arg12 : Memref sig .tc .vmem S1x128 .f32) (harg12 : arg12.IsWhole) (arg13 : Memref sig .tc .vmem S1x32x32x128 .f32) (harg13 : arg13.IsWhole) (arg14 : Memref sig .tc .vmem S16x2x16x256 .bf16) (harg14 : arg14.IsWhole) (arg15 : Memref sig .tc .vmem S34x34x256 .bf16) (harg15 : arg15.IsWhole) (arg16 : Memref sig .tc .vmem S34x34x128 .bf16) (harg16 : arg16.IsWhole)
    (x0 : Vec F S1x16x16x256 .f32) (x1 : Vec F S1x32x32x128 .f32) (x2 : Vec F S256x512 .bf16) (x3 : Vec F S1x512 .f32) (x4 : Vec F S2304x128 .bf16) (x5 : Vec F S1x128 .f32) (x6 : Vec F S1x128 .f32) (x7 : Vec F S1x128 .f32) (x8 : Vec F S1152x128 .bf16) (x9 : Vec F S1x128 .f32) (x10 : Vec F S1152x128 .bf16) (x11 : Vec F S1x128 .f32) : Vec F S1x32x32x128 .f32 :=
  VO.read (Elt F) (VO.writes (Elt F) VO.junk (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11).1)

/-! ## The point's staging memrefs -/

abbrev ms0 (t : Fin cfg0.N) : Memref sig .tc .vmem S1x16x16x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x32x32x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2304x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1152x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1152x128 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x32x32x128 .f32 := win0_12.stage (cfg0.slots t 12)
abbrev hs12 (t : Fin cfg0.N) : (ms12 t).IsWhole := hstage0_12 ((cfg0.slots t 12).cast nbuf0_12)

variable (m : (ℓ : Loc nD τ sig) → Buf (Elt F) ℓ) (ρ : Dev nD → PrngReg)

/-- What the output's staging buffer holds after the body at point `t`: the run's block at the point's memrefs and input blocks. -/
def outAt (c : Dev nD) (t : Fin cfg0.N) : Vec F S1x32x32x128 .f32 :=
  outBlock c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-! ## The pipeline's proof data -/

/-- On core `c`: the arrays as the region finds them; after the body at point `t` each input's buffer still at its block and
    the output's at `outAt`; the invariant is the scratch buffers and the generator register at something; nothing owed. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outAt m c t
  Φ _ := Pipeline.ΦA spec0 c
  q _ := fullShare
  owed _ := 0

def dats (_ : Fin 1) (c : Dev nD) : Dat τ (Elt F) Unit ℕ (UR sig nD τ) ℕ cfg0 c := dat m c

theorem A_eq (c : Dev nD) (w : Fin cfg0.W) : (dat m c).A w = V m c (Pipeline.arrRef spec0 w) := by
  dsimp only [dat]

theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]
theorem after4 (c : Dev nD) (t : Fin cfg0.N) : (dat m c).after 4 t = iblk m c 4 t := by dsimp only [dat]
theorem after5 (c : Dev nD) (t : Fin cfg0.N) : (dat m c).after 5 t = iblk m c 5 t := by dsimp only [dat]
theorem after6 (c : Dev nD) (t : Fin cfg0.N) : (dat m c).after 6 t = iblk m c 6 t := by dsimp only [dat]
theorem after7 (c : Dev nD) (t : Fin cfg0.N) : (dat m c).after 7 t = iblk m c 7 t := by dsimp only [dat]
theorem after8 (c : Dev nD) (t : Fin cfg0.N) : (dat m c).after 8 t = iblk m c 8 t := by dsimp only [dat]
theorem after9 (c : Dev nD) (t : Fin cfg0.N) : (dat m c).after 9 t = iblk m c 9 t := by dsimp only [dat]
theorem after10 (c : Dev nD) (t : Fin cfg0.N) : (dat m c).after 10 t = iblk m c 10 t := by dsimp only [dat]
theorem after11 (c : Dev nD) (t : Fin cfg0.N) : (dat m c).after 11 t = iblk m c 11 t := by dsimp only [dat]
theorem after12 (c : Dev nD) (t : Fin cfg0.N) : (dat m c).after 12 t = outAt m c t := by dsimp only [dat]

/-- Each input's current staging buffer holds its block at every point, fetched there or not. -/
theorem before0 (c : Dev nD) (t : Fin cfg0.N) (d) : (dat m c).before 0 t d = iblk m c 0 t :=
  before0_0_of m (dat m c) (A_eq m c 0) (after0 m c) t d
theorem before1 (c : Dev nD) (t : Fin cfg0.N) (d) : (dat m c).before 1 t d = iblk m c 1 t :=
  before0_1_of m (dat m c) (A_eq m c 1) (after1 m c) t d
theorem before2 (c : Dev nD) (t : Fin cfg0.N) (d) : (dat m c).before 2 t d = iblk m c 2 t :=
  before0_2_of m (dat m c) (A_eq m c 2) (after2 m c) t d
theorem before3 (c : Dev nD) (t : Fin cfg0.N) (d) : (dat m c).before 3 t d = iblk m c 3 t :=
  before0_3_of m (dat m c) (A_eq m c 3) (after3 m c) t d
theorem before4 (c : Dev nD) (t : Fin cfg0.N) (d) : (dat m c).before 4 t d = iblk m c 4 t :=
  before0_4_of m (dat m c) (A_eq m c 4) (after4 m c) t d
theorem before5 (c : Dev nD) (t : Fin cfg0.N) (d) : (dat m c).before 5 t d = iblk m c 5 t :=
  before0_5_of m (dat m c) (A_eq m c 5) (after5 m c) t d
theorem before6 (c : Dev nD) (t : Fin cfg0.N) (d) : (dat m c).before 6 t d = iblk m c 6 t :=
  before0_6_of m (dat m c) (A_eq m c 6) (after6 m c) t d
theorem before7 (c : Dev nD) (t : Fin cfg0.N) (d) : (dat m c).before 7 t d = iblk m c 7 t :=
  before0_7_of m (dat m c) (A_eq m c 7) (after7 m c) t d
theorem before8 (c : Dev nD) (t : Fin cfg0.N) (d) : (dat m c).before 8 t d = iblk m c 8 t :=
  before0_8_of m (dat m c) (A_eq m c 8) (after8 m c) t d
theorem before9 (c : Dev nD) (t : Fin cfg0.N) (d) : (dat m c).before 9 t d = iblk m c 9 t :=
  before0_9_of m (dat m c) (A_eq m c 9) (after9 m c) t d
theorem before10 (c : Dev nD) (t : Fin cfg0.N) (d) : (dat m c).before 10 t d = iblk m c 10 t :=
  before0_10_of m (dat m c) (A_eq m c 10) (after10 m c) t d
theorem before11 (c : Dev nD) (t : Fin cfg0.N) (d) : (dat m c).before 11 t d = iblk m c 11 t :=
  before0_11_of m (dat m c) (A_eq m c 11) (after11 m c) t d

/-! ## The body obligation -/

/-- What the body is called with at point `t`, the windows one by one, -/
def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d))
    ∗ (∃ d, owns (c : Thread nD τ) (ms5 t) fullShare ((dat m c).before 5 t d))
    ∗ (∃ d, owns (c : Thread nD τ) (ms6 t) fullShare ((dat m c).before 6 t d))
    ∗ (∃ d, owns (c : Thread nD τ) (ms7 t) fullShare ((dat m c).before 7 t d))
    ∗ (∃ d, owns (c : Thread nD τ) (ms8 t) fullShare ((dat m c).before 8 t d))
    ∗ (∃ d, owns (c : Thread nD τ) (ms9 t) fullShare ((dat m c).before 9 t d))
    ∗ (∃ d, owns (c : Thread nD τ) (ms10 t) fullShare ((dat m c).before 10 t d))
    ∗ (∃ d, owns (c : Thread nD τ) (ms11 t) fullShare ((dat m c).before 11 t d))
    ∗ (∃ d, owns (c : Thread nD τ) (ms12 t) fullShare ((dat m c).before 12 t d)))

/-- and what it returns. -/
def bodyPost (c : Dev nD) (t : Fin cfg0.N) : sProp 𝕄 :=
  iprop((dat m c).Φ t.succ ∗ (dat m c).owesAt () t.succ
    ∗ owns (c : Thread nD τ) (ms0 t) fullShare ((dat m c).after 0 t)
    ∗ owns (c : Thread nD τ) (ms1 t) fullShare ((dat m c).after 1 t)
    ∗ owns (c : Thread nD τ) (ms2 t) fullShare ((dat m c).after 2 t)
    ∗ owns (c : Thread nD τ) (ms3 t) fullShare ((dat m c).after 3 t)
    ∗ owns (c : Thread nD τ) (ms4 t) fullShare ((dat m c).after 4 t)
    ∗ owns (c : Thread nD τ) (ms5 t) fullShare ((dat m c).after 5 t)
    ∗ owns (c : Thread nD τ) (ms6 t) fullShare ((dat m c).after 6 t)
    ∗ owns (c : Thread nD τ) (ms7 t) fullShare ((dat m c).after 7 t)
    ∗ owns (c : Thread nD τ) (ms8 t) fullShare ((dat m c).after 8 t)
    ∗ owns (c : Thread nD τ) (ms9 t) fullShare ((dat m c).after 9 t)
    ∗ owns (c : Thread nD τ) (ms10 t) fullShare ((dat m c).after 10 t)
    ∗ owns (c : Thread nD τ) (ms11 t) fullShare ((dat m c).after 11 t)
    ∗ owns (c : Thread nD τ) (ms12 t) fullShare ((dat m c).after 12 t))

set_option maxHeartbeats 2000000 in
/-- The body at any point: the inputs' memrefs hold their blocks, so the run applies; the invariant lends the three scratch
    buffers at some contents and takes them back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dat m c).Φ t.succ = (dat m c).Φ t.castSucc from rfl,
    show (dat m c).owesAt () t.succ = (dat m c).owesAt () t.castSucc from rfl,
    after0, after1, after2, after3, after4, after5, after6, after7, after8, after9, after10, after11, after12]
  rw [show (dat m c).Φ t.castSucc = Pipeline.ΦA spec0 c from rfl, PhiA_eq]
  unfold outAt outBlock
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  isplitl [HS1]; · iexact HS1
  isplitl [HS2]; · iexact HS2
  iintro ⟨H0, H1, H2, H3, H4, H5, H6, H7, H8, H9, H10, H11, ⟨%e12, H12⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  unfold owns; iexists _; isplitr
  swap; · iexact H12
  ipureintro; exact View.read_writes_of_cover _ _ _ _ _ (cover c _ _ _ _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dat (F := F) m c) (defs₀ (F := F)) Variants.none () Set.univ := fun t => by
  rw [bigSep_W0, bigSep_W0]
  exact sound_body m c t

/-! ## The run and the frame -/

/-- Every weakly fair execution of @main on the TensorCores terminates, nothing faulting, and ends with every array of the
    pipeline at what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.Kernel.Body

end
-- ==== Proof.BodyIdeal.lean ====
/-
  The fused up-block kernel read at any float instance: its body and its frame.

  One grid point handles one image. The body zeroes the two padded scratch images, computes the transposed
  convolution as one matrix product and writes it pixel-shuffled, copies it and the bridge image into the interior of
  the padded concatenated image (each a read-modify-write of the rows it touches), runs the first 3x3 convolution as
  nine shifted-window products, parks that result in the output block, normalises it over channels, writes the
  normalised image into the interior of the second padded image, convolves, rectifies, writes back, convolves again,
  and finally stores the parked result plus the last convolution into the output block.

  Here that body is run ONCE on arbitrary whole staging memrefs holding arbitrary input blocks: it terminates without a
  fault, gives every input buffer back as it found it, leaves the three scratch buffers at something, and leaves the
  output buffer written with a list of pieces the run itself finds (`kernelRun`). The pieces cover the block
  (`cover`), so the output buffer's contents are a function of the input blocks alone (`outBlock`). From that:
  the pipeline's proof data (`dat`), the obligation at every grid point (`body_obligation`) and the run of @main
  (`run_main`): every weakly fair execution terminates, nothing faulting, every argument array unchanged.
-/
import proofs.«131778_g2000005761611187_pallasbulk_1314_2_alg».proof.Proof.Gen.KernelIdeal.Frame
import proofs.«131778_g2000005761611187_pallasbulk_1314_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scratch buffers -/

/-- The pixel-shuffled deconvolution image, the zero-padded concatenated image and the zero-padded activation image. -/
abbrev scM0 : Memref sig .tc .vmem S16x2x16x256 .bf16 := Memref.whole cc0_scratch0
abbrev scM1 : Memref sig .tc .vmem S34x34x256 .bf16 := Memref.whole cc0_scratch1
abbrev scM2 : Memref sig .tc .vmem S34x34x128 .bf16 := Memref.whole cc0_scratch2

/-- The invariant between points, with the scratch buffers as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## The body on any staging memrefs -/

set_option maxHeartbeats 4000000 in
/-- The body, run once on any whole staging memrefs: the twelve input buffers held at `x0 … x11`, the output's and the three
    scratch buffers at anything. It returns with the inputs as they were, the scratch buffers at something, and the output's
    buffer written with the pieces `L12` (last store first) — a list the run itself finds. -/
noncomputable def kernelRun (c : Dev nD) (i : grid0.Coords) (arg1 : Memref sig .tc .vmem S1x16x16x256 .f32) (harg1 : arg1.IsWhole) (arg2 : Memref sig .tc .vmem S1x32x32x128 .f32) (harg2 : arg2.IsWhole) (arg3 : Memref sig .tc .vmem S256x512 .bf16) (harg3 : arg3.IsWhole) (arg4 : Memref sig .tc .vmem S1x512 .f32) (harg4 : arg4.IsWhole) (arg5 : Memref sig .tc .vmem S2304x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1152x128 .bf16) (harg9 : arg9.IsWhole) (arg10 : Memref sig .tc .vmem S1x128 .f32) (harg10 : arg10.IsWhole) (arg11 : Memref sig .tc .vmem S1152x128 .bf16) (harg11 : arg11.IsWhole) (arg12 : Memref sig .tc .vmem S1x128 .f32) (harg12 : arg12.IsWhole) (arg13 : Memref sig .tc .vmem S1x32x32x128 .f32) (harg13 : arg13.IsWhole) (arg14 : Memref sig .tc .vmem S16x2x16x256 .bf16) (harg14 : arg14.IsWhole) (arg15 : Memref sig .tc .vmem S34x34x256 .bf16) (harg15 : arg15.IsWhole) (arg16 : Memref sig .tc .vmem S34x34x128 .bf16) (harg16 : arg16.IsWhole)
    (x0 : Vec F S1x16x16x256 .f32) (x1 : Vec F S1x32x32x128 .f32) (x2 : Vec F S256x512 .bf16) (x3 : Vec F S1x512 .f32) (x4 : Vec F S2304x128 .bf16) (x5 : Vec F S1x128 .f32) (x6 : Vec F S1x128 .f32) (x7 : Vec F S1x128 .f32) (x8 : Vec F S1152x128 .bf16) (x9 : Vec F S1x128 .f32) (x10 : Vec F S1152x128 .bf16) (x11 : Vec F S1x128 .f32) :
    { L12 : List (View.Piece (Elt F) S1x32x32x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The run's pieces for the output cover its block: the last store writes the block whole. -/
theorem cover (c : Dev nD) (i : grid0.Coords) (arg1 : Memref sig .tc .vmem S1x16x16x256 .f32) (harg1 : arg1.IsWhole) (arg2 : Memref sig .tc .vmem S1x32x32x128 .f32) (harg2 : arg2.IsWhole) (arg3 : Memref sig .tc .vmem S256x512 .bf16) (harg3 : arg3.IsWhole) (arg4 : Memref sig .tc .vmem S1x512 .f32) (harg4 : arg4.IsWhole) (arg5 : Memref sig .tc .vmem S2304x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1152x128 .bf16) (harg9 : arg9.IsWhole) (arg10 : Memref sig .tc .vmem S1x128 .f32) (harg10 : arg10.IsWhole) (arg11 : Memref sig .tc .vmem S1152x128 .bf16) (harg11 : arg11.IsWhole) (arg12 : Memref sig .tc .vmem S1x128 .f32) (harg12 : arg12.IsWhole) (arg13 : Memref sig .tc .vmem S1x32x32x128 .f32) (harg13 : arg13.IsWhole) (arg14 : Memref sig .tc .vmem S16x2x16x256 .bf16) (harg14 : arg14.IsWhole) (arg15 : Memref sig .tc .vmem S34x34x256 .bf16) (harg15 : arg15.IsWhole) (arg16 : Memref sig .tc .vmem S34x34x128 .bf16) (harg16 : arg16.IsWhole)
    (x0 : Vec F S1x16x16x256 .f32) (x1 : Vec F S1x32x32x128 .f32) (x2 : Vec F S256x512 .bf16) (x3 : Vec F S1x512 .f32) (x4 : Vec F S2304x128 .bf16) (x5 : Vec F S1x128 .f32) (x6 : Vec F S1x128 .f32) (x7 : Vec F S1x128 .f32) (x8 : Vec F S1152x128 .bf16) (x9 : Vec F S1x128 .f32) (x10 : Vec F S1152x128 .bf16) (x11 : Vec F S1x128 .f32) (y : S1x32x32x128.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11).1 S1x32x32x128.size (by sl_kernel_rfl) y

/-- One staging buffer of the output window, through which its contents are stated (which one does not matter). -/
abbrev VO : View sig .tc .vmem S1x32x32x128 .f32 := (Memref.whole cc0_stg12_0 : Memref sig .tc .vmem S1x32x32x128 .f32).view

/-- What the run leaves in the output's staging buffer: its pieces read back (over anything). -/
def outBlock (c : Dev nD) (i : grid0.Coords) (arg1 : Memref sig .tc .vmem S1x16x16x256 .f32) (harg1 : arg1.IsWhole) (arg2 : Memref sig .tc .vmem S1x32x32x128 .f32) (harg2 : arg2.IsWhole) (arg3 : Memref sig .tc .vmem S256x512 .bf16) (harg3 : arg3.IsWhole) (arg4 : Memref sig .tc .vmem S1x512 .f32) (harg4 : arg4.IsWhole) (arg5 : Memref sig .tc .vmem S2304x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1152x128 .bf16) (harg9 : arg9.IsWhole) (arg10 : Memref sig .tc .vmem S1x128 .f32) (harg10 : arg10.IsWhole) (arg11 : Memref sig .tc .vmem S1152x128 .bf16) (harg11 : arg11.IsWhole) (arg12 : Memref sig .tc .vmem S1x128 .f32) (harg12 : arg12.IsWhole) (arg13 : Memref sig .tc .vmem S1x32x32x128 .f32) (harg13 : arg13.IsWhole) (arg14 : Memref sig .tc .vmem S16x2x16x256 .bf16) (harg14 : arg14.IsWhole) (arg15 : Memref sig .tc .vmem S34x34x256 .bf16) (harg15 : arg15.IsWhole) (arg16 : Memref sig .tc .vmem S34x34x128 .bf16) (harg16 : arg16.IsWhole)
    (x0 : Vec F S1x16x16x256 .f32) (x1 : Vec F S1x32x32x128 .f32) (x2 : Vec F S256x512 .bf16) (x3 : Vec F S1x512 .f32) (x4 : Vec F S2304x128 .bf16) (x5 : Vec F S1x128 .f32) (x6 : Vec F S1x128 .f32) (x7 : Vec F S1x128 .f32) (x8 : Vec F S1152x128 .bf16) (x9 : Vec F S1x128 .f32) (x10 : Vec F S1152x128 .bf16) (x11 : Vec F S1x128 .f32) : Vec F S1x32x32x128 .f32 :=
  VO.read (Elt F) (VO.writes (Elt F) VO.junk (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11).1)

/-! ## The point's staging memrefs -/

abbrev ms0 (t : Fin cfg0.N) : Memref sig .tc .vmem S1x16x16x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x32x32x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2304x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1152x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1152x128 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x32x32x128 .f32 := win0_12.stage (cfg0.slots t 12)
abbrev hs12 (t : Fin cfg0.N) : (ms12 t).IsWhole := hstage0_12 ((cfg0.slots t 12).cast nbuf0_12)

variable (m : (ℓ : Loc nD τ sig) → Buf (Elt F) ℓ) (ρ : Dev nD → PrngReg)

/-- What the output's staging buffer holds after the body at point `t`: the run's block at the point's memrefs and input blocks. -/
def outAt (c : Dev nD) (t : Fin cfg0.N) : Vec F S1x32x32x128 .f32 :=
  outBlock c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) scM2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-! ## The pipeline's proof data -/

/-- On core `c`: the arrays as the region finds them; after the body at point `t` each input's buffer still at its block and
    the output's at `outAt`; the invariant is the scratch buffers and the generator register at something; nothing owed. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outAt m c t
  Φ _ := Pipeline.ΦA spec0 c
  q _ := fullShare
  owed _ := 0

def dats (_ : Fin 1) (c : Dev nD) : Dat τ (Elt F) Unit ℕ (UR sig nD τ) ℕ cfg0 c := dat m c

theorem A_eq (c : Dev nD) (w : Fin cfg0.W) : (dat m c).A w = V m c (Pipeline.arrRef spec0 w) := by
  dsimp only [dat]

theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]
theorem after4 (c : Dev nD) (t : Fin cfg0.N) : (dat m c).after 4 t = iblk m c 4 t := by dsimp only [dat]
theorem after5 (c : Dev nD) (t : Fin cfg0.N) : (dat m c).after 5 t = iblk m c 5 t := by dsimp only [dat]
theorem after6 (c : Dev nD) (t : Fin cfg0.N) : (dat m c).after 6 t = iblk m c 6 t := by dsimp only [dat]
theorem after7 (c : Dev nD) (t : Fin cfg0.N) : (dat m c).after 7 t = iblk m c 7 t := by dsimp only [dat]
theorem after8 (c : Dev nD) (t : Fin cfg0.N) : (dat m c).after 8 t = iblk m c 8 t := by dsimp only [dat]
theorem after9 (c : Dev nD) (t : Fin cfg0.N) : (dat m c).after 9 t = iblk m c 9 t := by dsimp only [dat]
theorem after10 (c : Dev nD) (t : Fin cfg0.N) : (dat m c).after 10 t = iblk m c 10 t := by dsimp only [dat]
theorem after11 (c : Dev nD) (t : Fin cfg0.N) : (dat m c).after 11 t = iblk m c 11 t := by dsimp only [dat]
theorem after12 (c : Dev nD) (t : Fin cfg0.N) : (dat m c).after 12 t = outAt m c t := by dsimp only [dat]

/-- Each input's current staging buffer holds its block at every point, fetched there or not. -/
theorem before0 (c : Dev nD) (t : Fin cfg0.N) (d) : (dat m c).before 0 t d = iblk m c 0 t :=
  before0_0_of m (dat m c) (A_eq m c 0) (after0 m c) t d
theorem before1 (c : Dev nD) (t : Fin cfg0.N) (d) : (dat m c).before 1 t d = iblk m c 1 t :=
  before0_1_of m (dat m c) (A_eq m c 1) (after1 m c) t d
theorem before2 (c : Dev nD) (t : Fin cfg0.N) (d) : (dat m c).before 2 t d = iblk m c 2 t :=
  before0_2_of m (dat m c) (A_eq m c 2) (after2 m c) t d
theorem before3 (c : Dev nD) (t : Fin cfg0.N) (d) : (dat m c).before 3 t d = iblk m c 3 t :=
  before0_3_of m (dat m c) (A_eq m c 3) (after3 m c) t d
theorem before4 (c : Dev nD) (t : Fin cfg0.N) (d) : (dat m c).before 4 t d = iblk m c 4 t :=
  before0_4_of m (dat m c) (A_eq m c 4) (after4 m c) t d
theorem before5 (c : Dev nD) (t : Fin cfg0.N) (d) : (dat m c).before 5 t d = iblk m c 5 t :=
  before0_5_of m (dat m c) (A_eq m c 5) (after5 m c) t d
theorem before6 (c : Dev nD) (t : Fin cfg0.N) (d) : (dat m c).before 6 t d = iblk m c 6 t :=
  before0_6_of m (dat m c) (A_eq m c 6) (after6 m c) t d
theorem before7 (c : Dev nD) (t : Fin cfg0.N) (d) : (dat m c).before 7 t d = iblk m c 7 t :=
  before0_7_of m (dat m c) (A_eq m c 7) (after7 m c) t d
theorem before8 (c : Dev nD) (t : Fin cfg0.N) (d) : (dat m c).before 8 t d = iblk m c 8 t :=
  before0_8_of m (dat m c) (A_eq m c 8) (after8 m c) t d
theorem before9 (c : Dev nD) (t : Fin cfg0.N) (d) : (dat m c).before 9 t d = iblk m c 9 t :=
  before0_9_of m (dat m c) (A_eq m c 9) (after9 m c) t d
theorem before10 (c : Dev nD) (t : Fin cfg0.N) (d) : (dat m c).before 10 t d = iblk m c 10 t :=
  before0_10_of m (dat m c) (A_eq m c 10) (after10 m c) t d
theorem before11 (c : Dev nD) (t : Fin cfg0.N) (d) : (dat m c).before 11 t d = iblk m c 11 t :=
  before0_11_of m (dat m c) (A_eq m c 11) (after11 m c) t d

/-! ## The body obligation -/

/-- What the body is called with at point `t`, the windows one by one, -/
def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d))
    ∗ (∃ d, owns (c : Thread nD τ) (ms5 t) fullShare ((dat m c).before 5 t d))
    ∗ (∃ d, owns (c : Thread nD τ) (ms6 t) fullShare ((dat m c).before 6 t d))
    ∗ (∃ d, owns (c : Thread nD τ) (ms7 t) fullShare ((dat m c).before 7 t d))
    ∗ (∃ d, owns (c : Thread nD τ) (ms8 t) fullShare ((dat m c).before 8 t d))
    ∗ (∃ d, owns (c : Thread nD τ) (ms9 t) fullShare ((dat m c).before 9 t d))
    ∗ (∃ d, owns (c : Thread nD τ) (ms10 t) fullShare ((dat m c).before 10 t d))
    ∗ (∃ d, owns (c : Thread nD τ) (ms11 t) fullShare ((dat m c).before 11 t d))
    ∗ (∃ d, owns (c : Thread nD τ) (ms12 t) fullShare ((dat m c).before 12 t d)))

/-- and what it returns. -/
def bodyPost (c : Dev nD) (t : Fin cfg0.N) : sProp 𝕄 :=
  iprop((dat m c).Φ t.succ ∗ (dat m c).owesAt () t.succ
    ∗ owns (c : Thread nD τ) (ms0 t) fullShare ((dat m c).after 0 t)
    ∗ owns (c : Thread nD τ) (ms1 t) fullShare ((dat m c).after 1 t)
    ∗ owns (c : Thread nD τ) (ms2 t) fullShare ((dat m c).after 2 t)
    ∗ owns (c : Thread nD τ) (ms3 t) fullShare ((dat m c).after 3 t)
    ∗ owns (c : Thread nD τ) (ms4 t) fullShare ((dat m c).after 4 t)
    ∗ owns (c : Thread nD τ) (ms5 t) fullShare ((dat m c).after 5 t)
    ∗ owns (c : Thread nD τ) (ms6 t) fullShare ((dat m c).after 6 t)
    ∗ owns (c : Thread nD τ) (ms7 t) fullShare ((dat m c).after 7 t)
    ∗ owns (c : Thread nD τ) (ms8 t) fullShare ((dat m c).after 8 t)
    ∗ owns (c : Thread nD τ) (ms9 t) fullShare ((dat m c).after 9 t)
    ∗ owns (c : Thread nD τ) (ms10 t) fullShare ((dat m c).after 10 t)
    ∗ owns (c : Thread nD τ) (ms11 t) fullShare ((dat m c).after 11 t)
    ∗ owns (c : Thread nD τ) (ms12 t) fullShare ((dat m c).after 12 t))

set_option maxHeartbeats 2000000 in
/-- The body at any point: the inputs' memrefs hold their blocks, so the run applies; the invariant lends the three scratch
    buffers at some contents and takes them back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dat m c).Φ t.succ = (dat m c).Φ t.castSucc from rfl,
    show (dat m c).owesAt () t.succ = (dat m c).owesAt () t.castSucc from rfl,
    after0, after1, after2, after3, after4, after5, after6, after7, after8, after9, after10, after11, after12]
  rw [show (dat m c).Φ t.castSucc = Pipeline.ΦA spec0 c from rfl, PhiA_eq]
  unfold outAt outBlock
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  isplitl [HS1]; · iexact HS1
  isplitl [HS2]; · iexact HS2
  iintro ⟨H0, H1, H2, H3, H4, H5, H6, H7, H8, H9, H10, H11, ⟨%e12, H12⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  unfold owns; iexists _; isplitr
  swap; · iexact H12
  ipureintro; exact View.read_writes_of_cover _ _ _ _ _ (cover c _ _ _ _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dat (F := F) m c) (defs₀ (F := F)) Variants.none () Set.univ := fun t => by
  rw [bigSep_W0, bigSep_W0]
  exact sound_body m c t

/-! ## The run and the frame -/

/-- Every weakly fair execution of @main on the TensorCores terminates, nothing faulting, and ends with every array of the
    pipeline at what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelIdeal.Body

end
-- ==== Proof.LibPlainMatmul.lean ====
import Idealize.ShloMosaic.Lib.ValueIdx
import Idealize.ShloMosaic.PureOps.Ideal.Laws

/-!
# A plain matrix product read at an index

The product of a left operand `[M, K]` and a right operand `[K, N]` into a zero accumulator `[M, N]` — contracting the
left operand's axis 1 with the right operand's axis 0, no batch axis — has, over the extended reals, at `(p, q)` the
element `∑ k, l[p, k] · r[k, q]`: the contraction index is its one coordinate, the left operand's index at `(p, q)`
and `k` is `(p, k)`, the right operand's `(k, q)`.

The statement comes twice: for the record of dimension numbers written out with its well-formedness proof as an
argument (`…_lit`), and for an arbitrary record whose fields are fixed by equations (each `rfl` for a literal record).
-/

noncomputable section

open scoped BigOperators

namespace Idealize.ShloMosaic.PlainMatmul

open Idealize.ShloMosaic Idealize.ShloMosaic.ValueIdx

/-- The dimension numbers of a plain product: `[M, K] · [K, N] → [M, N]`. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- The plain product into the zero accumulator, at `(p, q)`, is `∑ k, l[p, k] · r[k, q]`. -/
theorem matmul_plain_lit {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ =>
        show ((plainDims M K N wf).lhsIdx (ix2 p q) _ 0).val = p.val
        unfold DotDims.lhsIdx
        rw [dif_neg (show ¬ (0 : Fin 2) ∈ (plainDims M K N wf).lhsBatch from List.not_mem_nil),
          dif_pos (show (0 : Fin 2) ∈ (plainDims M K N wf).lhsNonContracting from List.mem_singleton.mpr rfl)]
        rfl
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ =>
        show ((plainDims M K N wf).rhsIdx (ix2 p q) _ 1).val = q.val
        unfold DotDims.rhsIdx
        rw [dif_neg (show ¬ (1 : Fin 2) ∈ (plainDims M K N wf).rhsBatch from List.not_mem_nil),
          dif_pos (show (1 : Fin 2) ∈ (plainDims M K N wf).rhsNonContracting from List.mem_singleton.mpr rfl)]
        rfl)
  rw [el, er]

/-- The same for ANY record of dimension numbers of these shapes whose fields are those of a plain product. -/
theorem matmul_plain_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at hlc hrc hln hrn hlb hrb
  subst hlc hrc hln hrn hlb hrb
  exact matmul_plain_lit wf prec l r p q

end Idealize.ShloMosaic.PlainMatmul

end
-- ==== Proof.LibCanonRmw.lean ====
/-
  What a read-modify-write store leaves, as a function of the pieces.

  A store of rows that are only part of their memory words loads the words' rows, replaces the stored part, and stores the
  rows back. In a run's list of pieces (last write first) that is a piece over the loaded rectangle `r` whose payload is
  `updateSlice old new start`, with `old` the load of `r` after the earlier writes `L`. Read back as contents, the list
  holds, at an index of `r`: the new value where the index falls in the replaced part, and otherwise exactly what the
  earlier writes left there; off `r` it holds what the earlier writes left. So such a store is an overwrite of the
  replaced part and nothing else — the border of a zero-filled padded image stays zero.
-/
import Idealize.ShloMosaic.Lib.Pipeline.FrameBody
import Idealize.ShloMosaic.PureOps.ShapeOps

namespace Cert.Lib.CanonRmw

open Idealize.ShloMosaic Idealize.ShloMosaic.View

variable {sig : RefSig} {κ : Kind} {sp : Space} {s : Shape} {e : EltTy} {Val : EltTy → Type} [∀ e, Nonempty (Val e)]

/-- A load of rectangle `r` after the writes `L` reads, at `x`, what the writes left at `r`'s index of `x`. -/
theorem readCov_toLoadRect_apply (v : View sig κ sp s e) (L : List (Piece Val s e)) (r : Rect s) (x : r.shape.Idx) :
    v.readCov L r.toLoadRect x = canon L (r.emb x) := by
  rw [readCov_eq_canon']; rfl

/-- Under a read-modify-write piece, at an index of its rectangle: the update of what the earlier writes left. -/
theorem canon_cons_rmw_emb (v : View sig κ sp s e) (L : List (Piece Val s e)) (r : Rect s) {u : Shape}
    (new : u.Idx → Val e) (start : Fin r.shape.rank → Nat) (h : r.shape.Slices start u) (x : r.shape.Idx) :
    canon (⟨r, updateSlice (v.readCov L r.toLoadRect) new start h⟩ :: L) (r.emb x)
      = updateSlice (fun x' => canon L (r.emb x')) new start h x := by
  rw [canon_cons_emb]
  congr 1
  funext x'
  exact readCov_toLoadRect_apply v L r x'

/-- Off the piece's rectangle: what the earlier writes left. -/
theorem canon_cons_rmw_of_not_mem (v : View sig κ sp s e) (L : List (Piece Val s e)) (r : Rect s) {u : Shape}
    (new : u.Idx → Val e) (start : Fin r.shape.rank → Nat) (h : r.shape.Slices start u) {y : s.Idx} (hy : y ∉ r.set) :
    canon (⟨r, updateSlice (v.readCov L r.toLoadRect) new start h⟩ :: L) y = canon L y :=
  canon_cons_of_not_mem _ L hy

/-- `updateSlice` where every coordinate falls in the replaced part: the new value, re-based. -/
theorem updateSlice_of_mem {α : Type} {s' u : Shape} (x : s'.Idx → α) (upd : u.Idx → α) (start : Fin s'.rank → Nat)
    (h : s'.Slices start u) (i : s'.Idx)
    (hin : ∀ a : Fin s'.rank, start a ≤ (i a).val ∧ (i a).val < start a + u.size (a.cast h.1.symm)) (j : u.Idx)
    (hj : ∀ b : Fin u.rank, (j b).val = (i (b.cast h.1)).val - start (b.cast h.1)) :
    updateSlice x upd start h i = upd j := by
  unfold updateSlice
  rw [dif_pos hin]
  congr 1
  funext b
  exact Fin.ext (hj b).symm

/-- `updateSlice` where some coordinate falls outside the replaced part: the old value. -/
theorem updateSlice_of_not_mem {α : Type} {s' u : Shape} (x : s'.Idx → α) (upd : u.Idx → α) (start : Fin s'.rank → Nat)
    (h : s'.Slices start u) (i : s'.Idx)
    (hout : ¬ ∀ a : Fin s'.rank, start a ≤ (i a).val ∧ (i a).val < start a + u.size (a.cast h.1.symm)) :
    updateSlice x upd start h i = x i := by
  unfold updateSlice
  rw [dif_neg hout]

end Cert.Lib.CanonRmw
-- ==== Proof.LibTapSum.lean ====
/-
  A sum over a flattened (tap, channel) axis as a double sum.

  A 3x3 convolution computed as ONE product over a gathered patch matrix contracts an axis of length T * C whose index
  q = k * C + c carries the tap k and the channel c; computed as T accumulated products it contracts the channel axis T
  times. The two are one finite sum, regrouped: for any commutative monoid,
      ∑ q : Fin (T * C), f q = ∑ k : Fin T, ∑ c : Fin C, f (k * C + c).
-/
import Mathlib.Algebra.BigOperators.Fin
import Mathlib.Logic.Equiv.Fin.Basic

namespace Cert.Lib.TapSum

/-- The flattened index of tap `k` and channel `c`: `k * C + c`. -/
def flat {T C : ℕ} (k : Fin T) (c : Fin C) : Fin (T * C) := finProdFinEquiv (k, c)

theorem flat_val {T C : ℕ} (k : Fin T) (c : Fin C) : (flat k c).val = c.val + C * k.val := rfl

/-- A sum over the flattened axis is the sum over taps of the sums over channels. -/
theorem sum_flat {M : Type} [AddCommMonoid M] (T C : ℕ) (f : Fin (T * C) → M) :
    ∑ q, f q = ∑ k : Fin T, ∑ c : Fin C, f (flat k c) := by
  rw [← Equiv.sum_comp (finProdFinEquiv (m := T) (n := C)) f, Fintype.sum_prod_type]
  rfl

/-- Every flattened index is the index of exactly one (tap, channel) pair: its quotient and remainder by `C`. -/
theorem flat_divNat_modNat {T C : ℕ} (q : Fin (T * C)) : flat q.divNat q.modNat = q :=
  finProdFinEquiv.apply_symm_apply q

end Cert.Lib.TapSum
-- ==== Proof.Spec.lean ====
/-
  The up block as mathematics: what each program computes for one image, and for the whole batch, over the extended reals.

  Everything is a plain function of `Fin` coordinates. Two arrangements are written out, one per program, so that each
  program's result can be transcribed into its own arrangement and the two arrangements compared here, program-free.

    up      the 2x2 stride-2 transposed convolution, pixel-shuffled: up[I, J, c] is row (I/2)*16 + J/2 of x (as a
            [256, 256] matrix) times column (I%2)*256 + (J%2)*128 + c of the packed weights, plus that column's bias;
    catImg  up and the bridge side by side on the channel axis (256 channels);
    pad     an image inside a one-pixel border of zeros (34 x 34);
    convK   a 3x3 convolution as the bias plus, tap by tap, the channel sums     (the kernel's arrangement);
    convR   the same as ONE sum over the flattened (tap, channel) axis, the bias added last (the reference's);
    nrm     an entry minus its row's mean, times rsqrt(the row's variance + 1e-5), the variance the mean of the squares;
    lrelu   h where 0 <= h, else 0.2 * h.
  The kernel scales and shifts the normalised image (nrm * g + b) and convolves with w1; the reference shifts by b / g and
  convolves with w1 * g. The literals 128.0, 1e-5 and 0.2 are kept as their float words: the same words on both sides.
-/
import Idealize.ShloMosaic.PureOps.Ideal
import proofs.«131778_g2000005761611187_pallasbulk_1314_2_alg».proof.Proof.LibTapSum

noncomputable section

namespace Cert.Spec

open Idealize.ShloMosaic
open scoped BigOperators

abbrev E := EReal

def c128 : E := Ideal.ofBits .f32 0x43000000#32
def eps : E := Ideal.ofBits .f32 0x3727C5AC#32
def slope : E := Ideal.ofBits .f32 0x3E4CCCCD#32

/-! ## Images -/

/-- An image inside a one-pixel border of zeros. -/
def pad {C : ℕ} (A : Fin 32 → Fin 32 → Fin C → E) (a b : Fin 34) (ch : Fin C) : E :=
  if h : 1 ≤ a.val ∧ a.val ≤ 32 ∧ 1 ≤ b.val ∧ b.val ≤ 32 then A ⟨a.val - 1, by omega⟩ ⟨b.val - 1, by omega⟩ ch else 0

/-- Two 128-channel images side by side on the channel axis. -/
def catImg (U B : Fin 32 → Fin 32 → Fin 128 → E) (i j : Fin 32) (ch : Fin 256) : E :=
  if h : ch.val < 128 then U i j ⟨ch.val, h⟩ else B i j ⟨ch.val - 128, by have := ch.isLt; omega⟩

/-- Row (or column) `i` of the image shifted by the tap's offset `d`, in the padded grid. -/
def win (i : Fin 32) (d : Fin 3) : Fin 34 := ⟨i.val + d.val, by have := i.isLt; have := d.isLt; omega⟩
/-- Tap `k = 3 * ky + kx`: its row offset and its column offset. -/
def tapRow (k : Fin 9) : Fin 3 := ⟨k.val / 3, by have := k.isLt; omega⟩
def tapCol (k : Fin 9) : Fin 3 := ⟨k.val % 3, Nat.mod_lt _ (by decide)⟩

/-- The transposed convolution, pixel-shuffled to a 32 x 32 x 128 image. -/
def up (x : Fin 16 → Fin 16 → Fin 256 → E) (wup : Fin 256 → Fin 512 → E) (bup : Fin 512 → E)
    (I J : Fin 32) (c : Fin 128) : E :=
  (∑ ci : Fin 256, x ⟨I.val / 2, by have := I.isLt; omega⟩ ⟨J.val / 2, by have := J.isLt; omega⟩ ci
      * wup ci ⟨(I.val % 2) * 256 + (J.val % 2) * 128 + c.val, by have := c.isLt; omega⟩)
    + bup ⟨(I.val % 2) * 256 + (J.val % 2) * 128 + c.val, by have := c.isLt; omega⟩

/-! ## A 3x3 convolution, two ways -/

/-- The bias plus, tap by tap, the sums over channels; the weights' row for (tap k, channel ch) is `k * C + ch`. -/
def convK {C : ℕ} (P : Fin 34 → Fin 34 → Fin C → E) (w : Fin (9 * C) → Fin 128 → E) (bias : Fin 128 → E)
    (i j : Fin 32) (o : Fin 128) : E :=
  bias o + ∑ k : Fin 9, ∑ ch : Fin C, P (win i (tapRow k)) (win j (tapCol k)) ch * w (Cert.Lib.TapSum.flat k ch) o

/-- One sum over the flattened axis `q = k * C + ch`, the bias added last. -/
def convR {C : ℕ} (P : Fin 34 → Fin 34 → Fin C → E) (w : Fin (9 * C) → Fin 128 → E) (bias : Fin 128 → E)
    (i j : Fin 32) (o : Fin 128) : E :=
  (∑ q : Fin (9 * C), P (win i (tapRow q.divNat)) (win j (tapCol q.divNat)) q.modNat * w q o) + bias o

/-! ## Normalisation over channels, and the rectifier -/

def mean (y : Fin 128 → E) : E := Ideal.div (∑ o, y o) c128

def nrm (y : Fin 128 → E) (o : Fin 128) : E :=
  (y o - mean y) * Ideal.rsqrt (mean (fun o' => (y o' - mean y) * (y o' - mean y)) + eps)

def lrelu (h : E) : E := if 0 ≤ h then h else h * slope

/-! ## One image, the kernel's arrangement -/

section Kernel
variable (U Br : Fin 32 → Fin 32 → Fin 128 → E) (wuc : Fin (9 * 256) → Fin 128 → E) (buc g bln : Fin 128 → E)
  (w1 : Fin (9 * 128) → Fin 128 → E) (b1 : Fin 128 → E) (w2 : Fin (9 * 128) → Fin 128 → E) (b2 : Fin 128 → E)

def yK : Fin 32 → Fin 32 → Fin 128 → E := convK (pad (catImg U Br)) wuc buc
def tK : Fin 32 → Fin 32 → Fin 128 → E := fun i j o => nrm (yK U Br wuc buc i j) o * g o + bln o
def hK : Fin 32 → Fin 32 → Fin 128 → E := fun i j o => lrelu (convK (pad (tK U Br wuc buc g bln)) w1 b1 i j o)
def outK : Fin 32 → Fin 32 → Fin 128 → E :=
  fun i j o => yK U Br wuc buc i j o + convK (pad (hK U Br wuc buc g bln w1 b1)) w2 b2 i j o
end Kernel

/-- What the kernel's body leaves in the output block, from its twelve input blocks. -/
def kBlock (x : Fin 16 → Fin 16 → Fin 256 → E) (br : Fin 32 → Fin 32 → Fin 128 → E) (wup : Fin 256 → Fin 512 → E)
    (bup : Fin 512 → E) (wuc : Fin (9 * 256) → Fin 128 → E) (buc g bln : Fin 128 → E)
    (w1 : Fin (9 * 128) → Fin 128 → E) (b1 : Fin 128 → E) (w2 : Fin (9 * 128) → Fin 128 → E) (b2 : Fin 128 → E) :
    Fin 32 → Fin 32 → Fin 128 → E :=
  outK (up x wup bup) br wuc buc g bln w1 b1 w2 b2

/-! ## One image, the reference's arrangement -/

section Reference
variable (U Br : Fin 32 → Fin 32 → Fin 128 → E) (wuc : Fin (9 * 256) → Fin 128 → E) (buc lns : Fin 128 → E)
  (w1p : Fin (9 * 128) → Fin 128 → E) (b1 : Fin 128 → E) (w2 : Fin (9 * 128) → Fin 128 → E) (b2 : Fin 128 → E)

def yR : Fin 32 → Fin 32 → Fin 128 → E := convR (pad (catImg U Br)) wuc buc
def tR : Fin 32 → Fin 32 → Fin 128 → E := fun i j o => nrm (yR U Br wuc buc i j) o + lns o
def hR : Fin 32 → Fin 32 → Fin 128 → E := fun i j o => lrelu (convR (pad (tR U Br wuc buc lns)) w1p b1 i j o)
def outR : Fin 32 → Fin 32 → Fin 128 → E :=
  fun i j o => convR (pad (hR U Br wuc buc lns w1p b1)) w2 b2 i j o + yR U Br wuc buc i j o
end Reference

/-- What the reference's second kernel leaves in its output block, from its nine input blocks (the first is the up image). -/
def rBlock (U br : Fin 32 → Fin 32 → Fin 128 → E) (wuc : Fin (9 * 256) → Fin 128 → E) (buc lns : Fin 128 → E)
    (w1p : Fin (9 * 128) → Fin 128 → E) (b1 : Fin 128 → E) (w2 : Fin (9 * 128) → Fin 128 → E) (b2 : Fin 128 → E) :
    Fin 32 → Fin 32 → Fin 128 → E :=
  outR U br wuc buc lns w1p b1 w2 b2

/-! ## The parameter packing both programs do before their kernels -/

/-- w_up [4, 256, 128] transposed to [256, 4, 128] and flattened to [256, 512]: column `k * 128 + c` is tap k, channel c. -/
def wupP (w_up : Fin 4 → Fin 256 → Fin 128 → E) (ci : Fin 256) (col : Fin 512) : E :=
  w_up ⟨col.val / 128, by have := col.isLt; omega⟩ ci ⟨col.val % 128, Nat.mod_lt _ (by decide)⟩
/-- b_up tiled four times. -/
def bupP (b_up : Fin 128 → E) (col : Fin 512) : E := b_up ⟨col.val % 128, Nat.mod_lt _ (by decide)⟩
/-- A [9, C, 128] weight stack flattened to [9 * C, 128]: row `k * C + ch`. -/
def stackP {C : ℕ} (w : Fin 9 → Fin C → Fin 128 → E) (q : Fin (9 * C)) (o : Fin 128) : E := w q.divNat q.modNat o
/-- The reference's w1 with the scale folded in: row (k, ch) times g[ch]. -/
def w1gP (w1 : Fin 9 → Fin 128 → Fin 128 → E) (g : Fin 128 → E) (q : Fin (9 * 128)) (o : Fin 128) : E :=
  w1 q.divNat q.modNat o * g q.modNat
/-- The reference's shift: b / g. -/
def lnsP (b g : Fin 128 → E) (o : Fin 128) : E := Ideal.div (b o) (g o)

/-! ## The whole batch -/

section Batch
variable (x : Fin 24 → Fin 16 → Fin 16 → Fin 256 → E) (bridge : Fin 24 → Fin 32 → Fin 32 → Fin 128 → E)
  (w_up : Fin 4 → Fin 256 → Fin 128 → E) (b_up : Fin 128 → E) (w_uc : Fin 9 → Fin 256 → Fin 128 → E)
  (b_uc ln_g ln_b : Fin 128 → E) (w1 : Fin 9 → Fin 128 → Fin 128 → E) (b1 : Fin 128 → E)
  (w2 : Fin 9 → Fin 128 → Fin 128 → E) (b2 : Fin 128 → E)

/-- The kernel's result array. -/
def kernelOut (n : Fin 24) (i j : Fin 32) (o : Fin 128) : E :=
  kBlock (x n) (bridge n) (wupP w_up) (bupP b_up) (stackP w_uc) b_uc ln_g ln_b (stackP w1) b1 (stackP w2) b2 i j o

/-- The reference's result array. -/
def refOut (n : Fin 24) (i j : Fin 32) (o : Fin 128) : E :=
  rBlock (up (x n) (wupP w_up) (bupP b_up)) (bridge n) (stackP w_uc) b_uc (lnsP ln_b ln_g) (w1gP w1 ln_g) b1
    (stackP w2) b2 i j o
end Batch

end Cert.Spec

end
-- ==== Proof.KBlockUp.lean ====
/-
  The transposed convolution inside the fused body, over the extended reals.

  The image x (16 x 16 positions, 256 channels) is flattened to a [256, 256] matrix — position (a, b) is row 16 a + b — and
  multiplied by the packed weights [256, 512]; the bias row is added. Column `col` of the result carries the output tap
  and channel. The left half of the columns (0:256) and the right half (256:512) are written as the two slices
  [:, 0] and [:, 1] of a 16 x 2 x 16 x 256 image: entry (a, d, b, c') is row 16 a + b, column 256 d + c'.
-/
import proofs.«131778_g2000005761611187_pallasbulk_1314_2_alg».proof.Proof.Gen.KernelIdeal.Skeleton
import proofs.«131778_g2000005761611187_pallasbulk_1314_2_alg».proof.Proof.LibPlainMatmul
import proofs.«131778_g2000005761611187_pallasbulk_1314_2_alg».proof.Proof.LibCanonRmw
import proofs.«131778_g2000005761611187_pallasbulk_1314_2_alg».proof.Proof.Spec
import Idealize.ShloMosaic.Lib.Pipeline.Value
import Idealize.ShloMosaic.Lib.ValueIdx

set_option maxRecDepth 16384

noncomputable section

namespace Cert.KernelIdeal.Value

open Cert.KernelIdeal Cert.KernelIdeal.Gen
open Idealize.ShloMosaic Idealize.ShloMosaic.ValueIdx

variable (x0 : FVec Ideal S1x16x16x256 .f32) (x2 : FVec Ideal S256x512 .bf16) (x3 : FVec Ideal S1x512 .f32)

/-- Row `r` of the flattened image is position (r / 16, r % 16). -/
abbrev rowA (r : Fin 256) : Fin 16 := ⟨r.val / 16, by have := r.isLt; omega⟩
abbrev rowB (r : Fin 256) : Fin 16 := ⟨r.val % 16, Nat.mod_lt _ (by decide)⟩

/-- The product plus the bias, at (r, col). -/
theorem pay4_apply (r : Fin 256) (col : Fin 512) :
    k0_pay4 (F := Ideal) x0 x2 x3 (ix2 r col)
      = (∑ ci : Fin 256, x0 (ix4 0 (rowA r) (rowB r) ci) * x2 (ix2 ci col)) + x3 (ix2 0 col) := by
  unfold k0_pay4
  show matmul (F := Ideal) dot_S256x256_S256x512_S256x512_1_0_0_1_n_n none
        (truncf .bf16 (shapeCast S256x256 (shapeCast S16x16x256 x0 shapeCasts_S1x16x16x256_S16x16x256) shapeCasts_S16x16x256_S256x256) bitsLt_bf16_f32)
        (shapeCast S256x512 x2 shapeCasts_S256x512_S256x512) (constant (F := Ideal) S256x512 .f32 0x00000000#32) (ix2 r col)
      + broadcastTo S256x512 (shapeCast S1x512 x3 shapeCasts_S1x512_S1x512) broadcasts_S1x512_S256x512 (ix2 r col) = _
  congr 1
  · refine (PlainMatmul.matmul_plain_apply (M := 256) (K := 256) (N := 512) dot_S256x256_S256x512_S256x512_1_0_0_1_n_n
      rfl rfl rfl rfl rfl rfl none _ _ r col).trans ?_
    refine Finset.sum_congr rfl fun ci _ => ?_
    rw [shapeCast_self]
    congr 1
    show shapeCast S256x256 (shapeCast S16x16x256 x0 shapeCasts_S1x16x16x256_S16x16x256) shapeCasts_S16x16x256_S256x256 (ix2 r ci) = _
    rw [shapeCast_apply _ _ (ix2 r ci) (ix3 (rowA r) (rowB r) ci) (by
      rw [Shape.rowMajor_val_three, Shape.rowMajor_val_two]
      show ((r.val / 16) * 16 + r.val % 16) * 256 + ci.val = r.val * 256 + ci.val
      have := Nat.div_add_mod r.val 16
      omega)]
    rw [shapeCast_apply x0 _ (ix3 (rowA r) (rowB r) ci) (ix4 0 (rowA r) (rowB r) ci) (by
      rw [Shape.rowMajor_val_four, Shape.rowMajor_val_three]
      show ((0 * 16 + r.val / 16) * 16 + r.val % 16) * 256 + ci.val = ((r.val / 16) * 16 + r.val % 16) * 256 + ci.val
      omega)]
  · rw [shapeCast_self]
    exact broadcastTo_apply x3 _ (ix2 r col) (ix2 0 col) (fun a => by
      match a with
      | ⟨0, _⟩ => rfl
      | ⟨1, _⟩ => rfl)

/-- The left half of the columns as the slice [:, 0] of the shuffled image: entry (a, 0, b, c') is row 16 a + b, column c'. -/
theorem pay5_apply (a b : Fin 16) (c' : Fin 256) :
    k0_pay5 (F := Ideal) x0 x2 x3 (ix4 a 0 b c')
      = k0_pay4 (F := Ideal) x0 x2 x3 (ix2 ⟨a.val * 16 + b.val, by have := a.isLt; have := b.isLt; omega⟩ ⟨c'.val, by have := c'.isLt; omega⟩) := by
  unfold k0_pay5
  show shapeCast S16x1x16x256 (shapeCast S16x16x256 (extractStridedSlice S256x256 ![0, 0] (k0_pay4 (F := Ideal) x0 x2 x3)
      slices_S256x512_o0_0_S256x256) shapeCasts_S256x256_S16x16x256) shapeCasts_S16x16x256_S16x1x16x256 (ix4 a 0 b c') = _
  rw [shapeCast_apply _ _ (ix4 a 0 b c') (ix3 a b c') (by
    rw [Shape.rowMajor_val_three, Shape.rowMajor_val_four]
    show (a.val * 16 + b.val) * 256 + c'.val = ((a.val * 1 + 0) * 16 + b.val) * 256 + c'.val
    omega)]
  rw [shapeCast_apply _ _ (ix3 a b c') (ix2 ⟨a.val * 16 + b.val, by have := a.isLt; have := b.isLt; omega⟩ c') (by
    rw [Shape.rowMajor_val_two, Shape.rowMajor_val_three]
    rfl)]
  exact extractStridedSlice_apply _ _ _ _ _ (fun d => by
    match d with
    | ⟨0, _⟩ => show a.val * 16 + b.val = 0 + (a.val * 16 + b.val); omega
    | ⟨1, _⟩ => show c'.val = 0 + c'.val; omega)

/-- The right half as the slice [:, 1]: entry (a, 0, b, c') of this piece is row 16 a + b, column 256 + c'. -/
theorem pay6_apply (a b : Fin 16) (c' : Fin 256) :
    k0_pay6 (F := Ideal) x0 x2 x3 (ix4 a 0 b c')
      = k0_pay4 (F := Ideal) x0 x2 x3 (ix2 ⟨a.val * 16 + b.val, by have := a.isLt; have := b.isLt; omega⟩ ⟨256 + c'.val, by have := c'.isLt; omega⟩) := by
  unfold k0_pay6
  show shapeCast S16x1x16x256 (shapeCast S16x16x256 (extractStridedSlice S256x256 ![0, 256] (k0_pay4 (F := Ideal) x0 x2 x3)
      slices_S256x512_o0_256_S256x256) shapeCasts_S256x256_S16x16x256) shapeCasts_S16x16x256_S16x1x16x256 (ix4 a 0 b c') = _
  rw [shapeCast_apply _ _ (ix4 a 0 b c') (ix3 a b c') (by
    rw [Shape.rowMajor_val_three, Shape.rowMajor_val_four]
    show (a.val * 16 + b.val) * 256 + c'.val = ((a.val * 1 + 0) * 16 + b.val) * 256 + c'.val
    omega)]
  rw [shapeCast_apply _ _ (ix3 a b c') (ix2 ⟨a.val * 16 + b.val, by have := a.isLt; have := b.isLt; omega⟩ c') (by
    rw [Shape.rowMajor_val_two, Shape.rowMajor_val_three]
    rfl)]
  exact extractStridedSlice_apply _ _ _ _ _ (fun d => by
    match d with
    | ⟨0, _⟩ => show a.val * 16 + b.val = 0 + (a.val * 16 + b.val); omega
    | ⟨1, _⟩ => show 256 + c'.val = 256 + c'.val; rfl)

end Cert.KernelIdeal.Value

end
-- ==== Proof.KBlockUp2.lean ====
/-
  The up image: the pixel shuffle.

  The two column halves of the transposed convolution are stored as the slices [:, 0] and [:, 1] of a 16 x 2 x 16 x 256
  image; read back whole, entry (a, d, b, c') is the half d at (a, b, c'). Row-major, that image IS the 32 x 32 x 128 up
  image: entry (I, J, c) sits at (I / 2, I % 2, J / 2, (J % 2) * 128 + c). Together: the up image at (I, J, c) is row
  16 (I / 2) + J / 2 of the flattened input times column 256 (I % 2) + 128 (J % 2) + c of the packed weights, plus that
  column's bias — `Spec.up`.
-/
import proofs.«131778_g2000005761611187_pallasbulk_1314_2_alg».proof.Proof.Gen.KernelIdeal.Skeleton
import proofs.«131778_g2000005761611187_pallasbulk_1314_2_alg».proof.Proof.LibPlainMatmul
import proofs.«131778_g2000005761611187_pallasbulk_1314_2_alg».proof.Proof.LibCanonRmw
import proofs.«131778_g2000005761611187_pallasbulk_1314_2_alg».proof.Proof.Spec
import Idealize.ShloMosaic.Lib.Pipeline.Value
import Idealize.ShloMosaic.Lib.ValueIdx
import proofs.«131778_g2000005761611187_pallasbulk_1314_2_alg».proof.Proof.KBlockUp
set_option maxRecDepth 16384

noncomputable section

namespace Cert.KernelIdeal.Value

open Cert.KernelIdeal Cert.KernelIdeal.Gen
open Idealize.ShloMosaic Idealize.ShloMosaic.ValueIdx

open Idealize.ShloMosaic.View

/-- Two slab stores read back: the slab index picks the store. -/
theorem canon_halves (w1 w0 : Vec Ideal S16x1x16x256 .bf16) (a : Fin 16) (d : Fin 2) (b : Fin 16) (c' : Fin 256) :
    canon (Val := Elt Ideal) (s := S16x2x16x256) (e := .bf16) [⟨(Rect.unit (s := S16x2x16x256) ![0, 1, 0, 0] S16x1x16x256.size inb_S16x2x16x256_S16x1x16x256_0_1_0_0), w1⟩, ⟨(Rect.unit (s := S16x2x16x256) ![0, 0, 0, 0] S16x1x16x256.size inb_S16x2x16x256_S16x1x16x256_0_0_0_0), w0⟩] (ix4 a d b c')
      = if d.val = 1 then w1 (ix4 a 0 b c') else w0 (ix4 a 0 b c') := by
  by_cases hd : d.val = 1
  · rw [if_pos hd]
    have e : (ix4 a d b c' : S16x2x16x256.Idx) = (Rect.unit (s := S16x2x16x256) ![0, 1, 0, 0] S16x1x16x256.size inb_S16x2x16x256_S16x1x16x256_0_1_0_0).emb (ix4 a 0 b c') := by
      funext k; apply Fin.ext; rw [Rect.emb_apply]
      match k with
      | ⟨0, _⟩ => show a.val = 0 + 1 * a.val; omega
      | ⟨1, _⟩ => show d.val = 1 + 1 * 0; omega
      | ⟨2, _⟩ => show b.val = 0 + 1 * b.val; omega
      | ⟨3, _⟩ => show c'.val = 0 + 1 * c'.val; omega
    rw [e]; exact canon_cons_emb (Val := Elt Ideal) (Rect.unit (s := S16x2x16x256) ![0, 1, 0, 0] S16x1x16x256.size inb_S16x2x16x256_S16x1x16x256_0_1_0_0) w1 [⟨(Rect.unit (s := S16x2x16x256) ![0, 0, 0, 0] S16x1x16x256.size inb_S16x2x16x256_S16x1x16x256_0_0_0_0), w0⟩] (ix4 a 0 b c')
  · rw [if_neg hd]
    have hd0 : d.val = 0 := by have := d.isLt; omega
    rw [canon_cons_of_not_mem _ _ (by
      rw [Rect.mem_set_unit]; intro h
      have h1 := h 1
      change 1 ≤ d.val ∧ d.val < 1 + 1 at h1
      omega)]
    have e : (ix4 a d b c' : S16x2x16x256.Idx) = (Rect.unit (s := S16x2x16x256) ![0, 0, 0, 0] S16x1x16x256.size inb_S16x2x16x256_S16x1x16x256_0_0_0_0).emb (ix4 a 0 b c') := by
      funext k; apply Fin.ext; rw [Rect.emb_apply]
      match k with
      | ⟨0, _⟩ => show a.val = 0 + 1 * a.val; omega
      | ⟨1, _⟩ => show d.val = 0 + 1 * 0; omega
      | ⟨2, _⟩ => show b.val = 0 + 1 * b.val; omega
      | ⟨3, _⟩ => show c'.val = 0 + 1 * c'.val; omega
    rw [e]; exact canon_cons_emb (Val := Elt Ideal) (Rect.unit (s := S16x2x16x256) ![0, 0, 0, 0] S16x1x16x256.size inb_S16x2x16x256_S16x1x16x256_0_0_0_0) w0 [] (ix4 a 0 b c')

/-- The shuffled image reshaped: entry (I, J, c) sits at (I / 2, I % 2, J / 2, (J % 2) * 128 + c). -/
theorem pay7_apply (v : FVec Ideal S16x2x16x256 .bf16) (I J : Fin 32) (c : Fin 128) :
    k0_pay7 (F := Ideal) v (ix3 I J c)
      = v (ix4 ⟨I.val / 2, by have := I.isLt; omega⟩ ⟨I.val % 2, Nat.mod_lt _ (by decide)⟩ ⟨J.val / 2, by have := J.isLt; omega⟩
            ⟨(J.val % 2) * 128 + c.val, by have := c.isLt; omega⟩) := by
  unfold k0_pay7
  show shapeCast S32x32x128 (shapeCast S32x32x128 v shapeCasts_S16x2x16x256_S32x32x128) shapeCasts_S32x32x128_S32x32x128 (ix3 I J c) = _
  rw [shapeCast_self]
  exact shapeCast_apply v _ _ _ (by
    rw [Shape.rowMajor_val_four, Shape.rowMajor_val_three]
    show (((I.val / 2) * 2 + I.val % 2) * 16 + J.val / 2) * 256 + ((J.val % 2) * 128 + c.val) = (I.val * 32 + J.val) * 128 + c.val
    have := Nat.div_add_mod I.val 2
    have := Nat.div_add_mod J.val 2
    omega)

variable (x0 : FVec Ideal S1x16x16x256 .f32) (x2 : FVec Ideal S256x512 .bf16) (x3 : FVec Ideal S1x512 .f32)

/-- The up image the body writes into the concatenated image is `Spec.up` of the input block, the packed weights and the
    bias row. -/
theorem up_eq (I J : Fin 32) (c : Fin 128) :
    k0_pay7 (F := Ideal) (canon (Val := Elt Ideal) (s := S16x2x16x256) (e := .bf16) [⟨(Rect.unit (s := S16x2x16x256) ![0, 1, 0, 0] S16x1x16x256.size inb_S16x2x16x256_S16x1x16x256_0_1_0_0), k0_pay6 (F := Ideal) x0 x2 x3⟩, ⟨(Rect.unit (s := S16x2x16x256) ![0, 0, 0, 0] S16x1x16x256.size inb_S16x2x16x256_S16x1x16x256_0_0_0_0), k0_pay5 (F := Ideal) x0 x2 x3⟩]) (ix3 I J c)
      = Cert.Spec.up (fun a b ci => x0 (ix4 0 a b ci)) (fun ci col => x2 (ix2 ci col)) (fun col => x3 (ix2 0 col)) I J c := by
  rw [pay7_apply, canon_halves]
  unfold Cert.Spec.up
  have hI := I.isLt; have hJ := J.isLt; have hc := c.isLt
  by_cases hd : I.val % 2 = 1
  · rw [if_pos hd, pay6_apply, pay4_apply]
    have er : rowA ⟨(I.val / 2) * 16 + J.val / 2, by omega⟩ = ⟨I.val / 2, by omega⟩ := Fin.ext (by show ((I.val / 2) * 16 + J.val / 2) / 16 = I.val / 2; omega)
    have eb : rowB ⟨(I.val / 2) * 16 + J.val / 2, by omega⟩ = ⟨J.val / 2, by omega⟩ := Fin.ext (by show ((I.val / 2) * 16 + J.val / 2) % 16 = J.val / 2; omega)
    have ec : (⟨256 + ((J.val % 2) * 128 + c.val), by omega⟩ : Fin 512) = ⟨(I.val % 2) * 256 + (J.val % 2) * 128 + c.val, by omega⟩ := Fin.ext (by show 256 + ((J.val % 2) * 128 + c.val) = (I.val % 2) * 256 + (J.val % 2) * 128 + c.val; omega)
    rw [er, eb, ec]
  · have hd0 : I.val % 2 = 0 := by omega
    rw [if_neg hd, pay5_apply, pay4_apply]
    have er : rowA ⟨(I.val / 2) * 16 + J.val / 2, by omega⟩ = ⟨I.val / 2, by omega⟩ := Fin.ext (by show ((I.val / 2) * 16 + J.val / 2) / 16 = I.val / 2; omega)
    have eb : rowB ⟨(I.val / 2) * 16 + J.val / 2, by omega⟩ = ⟨J.val / 2, by omega⟩ := Fin.ext (by show ((I.val / 2) * 16 + J.val / 2) % 16 = J.val / 2; omega)
    have ec : (⟨(J.val % 2) * 128 + c.val, by omega⟩ : Fin 512) = ⟨(I.val % 2) * 256 + (J.val % 2) * 128 + c.val, by omega⟩ := Fin.ext (by show (J.val % 2) * 128 + c.val = (I.val % 2) * 256 + (J.val % 2) * 128 + c.val; omega)
    rw [er, eb, ec]

end Cert.KernelIdeal.Value

end
-- ==== Proof.LibPadRmw.lean ====
/-
  One interior store into a padded image, read back.

  A 34 x 34 x C image keeps a one-pixel border. Storing a 32 x 32 x 128 block at rows 1..32, columns 1..32, channels
  c0 .. c0+127 is done as a read-modify-write of whole rows: rows 1..32, ALL 34 columns, channels c0 .. c0+127 are
  loaded, columns 1..32 replaced by the block, and the rows stored back. Read back at (a, b, ch): the block's entry
  (a-1, b-1, ch-c0) when 1 ≤ a, b ≤ 32 and c0 ≤ ch < c0+128; otherwise exactly what the earlier writes left there — in
  particular the border columns 0 and 33 of the stored rows keep what they had.
-/
import proofs.«131778_g2000005761611187_pallasbulk_1314_2_alg».proof.Proof.LibCanonRmw
import Idealize.ShloMosaic.Lib.ValueIdx

namespace Cert.Lib.PadRmw

open Idealize.ShloMosaic Idealize.ShloMosaic.View Idealize.ShloMosaic.ValueIdx Cert.Lib.CanonRmw

variable {sig : RefSig} {κ : Kind} {sp : Space} {e : EltTy} {Val : EltTy → Type} [∀ e, Nonempty (Val e)]

theorem rmw_step {C : ℕ} (v : View sig κ sp (⟨3, ![34, 34, C]⟩ : Shape) e)
    (L : List (Piece Val (⟨3, ![34, 34, C]⟩ : Shape) e)) (c0 : ℕ)
    (inb : ∀ k, (![1, 0, c0] : Fin 3 → ℕ) k + (![32, 34, 128] : Fin 3 → ℕ) k ≤ (⟨3, ![34, 34, C]⟩ : Shape).size k)
    (hs : (⟨3, ![32, 34, 128]⟩ : Shape).Slices ![0, 1, 0] (⟨3, ![32, 32, 128]⟩ : Shape))
    (N : (⟨3, ![32, 32, 128]⟩ : Shape).Idx → Val e) (a b : Fin 34) (ch : Fin C) :
    canon (⟨Rect.unit (s := (⟨3, ![34, 34, C]⟩ : Shape)) ![1, 0, c0] ![32, 34, 128] inb,
            updateSlice (v.readCov L (Rect.unit (s := (⟨3, ![34, 34, C]⟩ : Shape)) ![1, 0, c0] ![32, 34, 128] inb).toLoadRect) N ![0, 1, 0] hs⟩ :: L)
        (ix3 a b ch)
      = if h : 1 ≤ a.val ∧ a.val ≤ 32 ∧ 1 ≤ b.val ∧ b.val ≤ 32 ∧ c0 ≤ ch.val ∧ ch.val < c0 + 128 then
          N (ix3 ⟨a.val - 1, by omega⟩ ⟨b.val - 1, by omega⟩ ⟨ch.val - c0, by omega⟩)
        else canon L (ix3 a b ch) := by
  by_cases hm : 1 ≤ a.val ∧ a.val ≤ 32 ∧ c0 ≤ ch.val ∧ ch.val < c0 + 128
  · -- the index lies in the stored rows: it is the rows' index (a-1, b, ch-c0)
    obtain ⟨ha1, ha2, hc1, hc2⟩ := hm
    have hb := b.isLt
    have e1 : (ix3 a b ch : (⟨3, ![34, 34, C]⟩ : Shape).Idx)
        = (Rect.unit (s := (⟨3, ![34, 34, C]⟩ : Shape)) ![1, 0, c0] ![32, 34, 128] inb).emb
            (ix3 (n0 := 32) (n1 := 34) (n2 := 128) ⟨a.val - 1, by omega⟩ ⟨b.val, hb⟩ ⟨ch.val - c0, by omega⟩) := by
      funext k; apply Fin.ext; rw [Rect.emb_apply]
      match k with
      | ⟨0, _⟩ => show a.val = 1 + 1 * (a.val - 1); omega
      | ⟨1, _⟩ => show b.val = 0 + 1 * b.val; omega
      | ⟨2, _⟩ => show ch.val = c0 + 1 * (ch.val - c0); omega
    by_cases hbb : 1 ≤ b.val ∧ b.val ≤ 32
    · rw [dif_pos ⟨ha1, ha2, hbb.1, hbb.2, hc1, hc2⟩, e1, canon_cons_rmw_emb]
      refine updateSlice_of_mem _ N _ hs _ (fun k => ?_) _ (fun k => ?_)
      · match k with
        | ⟨0, _⟩ => show 0 ≤ a.val - 1 ∧ a.val - 1 < 0 + 32; omega
        | ⟨1, _⟩ => show 1 ≤ b.val ∧ b.val < 1 + 32; omega
        | ⟨2, _⟩ => show 0 ≤ ch.val - c0 ∧ ch.val - c0 < 0 + 128; omega
      · match k with
        | ⟨0, _⟩ => show a.val - 1 = a.val - 1 - 0; omega
        | ⟨1, _⟩ => show b.val - 1 = b.val - 1; rfl
        | ⟨2, _⟩ => show ch.val - c0 = ch.val - c0 - 0; omega
    · rw [dif_neg (fun h => hbb ⟨h.2.2.1, h.2.2.2.1⟩), e1, canon_cons_rmw_emb]
      refine updateSlice_of_not_mem _ N _ hs _ (fun h => hbb ?_)
      have h1 := h 1
      change 1 ≤ b.val ∧ b.val < 1 + 32 at h1
      omega
  · rw [dif_neg (fun h => hm ⟨h.1, h.2.1, h.2.2.2.2.1, h.2.2.2.2.2⟩)]
    refine canon_cons_rmw_of_not_mem v L _ N _ hs (fun hy => hm ?_)
    rw [Rect.mem_set_unit] at hy
    have h0 := hy 0
    have h2 := hy 2
    change 1 ≤ a.val ∧ a.val < 1 + 32 at h0
    change c0 ≤ ch.val ∧ ch.val < c0 + 128 at h2
    omega

end Cert.Lib.PadRmw
-- ==== Proof.KBlockCat.lean ====
/-
  The padded concatenated image.

  The 34 x 34 x 256 scratch image is filled with zeros; the up image is stored into rows 1..32, columns 1..32 of channels
  0..127 and the bridge image into the same positions of channels 128..255, each as a read-modify-write of whole rows.
  Read back at (a, b, ch) it is the concatenation of the two images at (a-1, b-1) inside the border and 0 on it:
  `Spec.pad (Spec.catImg U B)`. A window of it at offsets (ky, kx) reads the image shifted by the tap.
-/
import proofs.«131778_g2000005761611187_pallasbulk_1314_2_alg».proof.Proof.Gen.KernelIdeal.Skeleton
import proofs.«131778_g2000005761611187_pallasbulk_1314_2_alg».proof.Proof.LibPlainMatmul
import proofs.«131778_g2000005761611187_pallasbulk_1314_2_alg».proof.Proof.LibCanonRmw
import proofs.«131778_g2000005761611187_pallasbulk_1314_2_alg».proof.Proof.Spec
import Idealize.ShloMosaic.Lib.Pipeline.Value
import Idealize.ShloMosaic.Lib.ValueIdx
import proofs.«131778_g2000005761611187_pallasbulk_1314_2_alg».proof.Proof.LibPadRmw
set_option maxRecDepth 16384

noncomputable section

namespace Cert.KernelIdeal.Value

open Cert.KernelIdeal Cert.KernelIdeal.Gen
open Idealize.ShloMosaic Idealize.ShloMosaic.ValueIdx

open Idealize.ShloMosaic.View Cert.Lib.PadRmw Cert.Lib.CanonRmw

theorem hz3 : (![0, 0, 0] : Fin 3 → Nat) = fun _ => 0 := funext fun a => by fin_cases a <;> rfl

/-- The bf16 zero word is 0. -/
theorem ofBits_zero_bf16 : Ideal.ofBits .bf16 0x0000#16 = 0 := by simp [Ideal.ofBits, Ideal.ieee]

/-- The zero fill of the concatenated image. -/
theorem pay2_apply (y : S34x34x256.Idx) : k0_pay2 (F := Ideal) y = 0 := by
  unfold k0_pay2
  show shapeCast S34x34x256 (broadcast S34x34x256 (Scalar.ofBits (F := Ideal) .bf16 0x0000#16)) shapeCasts_S34x34x256_S34x34x256 y = 0
  rw [shapeCast_self]
  exact ofBits_zero_bf16

variable {sig' : RefSig} {κ : Kind} {sp : Space}

/-- The pieces after the zero fill, -/
abbrev catL1 : List (Piece (Elt Ideal) S34x34x256 .bf16) := [⟨(Rect.unit (s := S34x34x256) ![0, 0, 0] S34x34x256.size inb_S34x34x256_S34x34x256_0_0_0), k0_pay2 (F := Ideal)⟩]
/-- after the up image's store, -/
abbrev catL2 (v : View sig' κ sp S34x34x256 .bf16) (U : FVec Ideal S32x32x128 .bf16) : List (Piece (Elt Ideal) S34x34x256 .bf16) :=
  ⟨(Rect.unit (s := S34x34x256) ![1, 0, 0] S32x34x128.size inb_S34x34x256_S32x34x128_1_0_0), updateSlice (v.readCov catL1 (Rect.unit (s := S34x34x256) ![1, 0, 0] S32x34x128.size inb_S34x34x256_S32x34x128_1_0_0).toLoadRect) U ![0, 1, 0] slices_S32x34x128_S32x32x128_0_1_0⟩ :: catL1
/-- and after the bridge image's store. -/
abbrev catL3 (v : View sig' κ sp S34x34x256 .bf16) (U B : FVec Ideal S32x32x128 .bf16) : List (Piece (Elt Ideal) S34x34x256 .bf16) :=
  ⟨(Rect.unit (s := S34x34x256) ![1, 0, 128] S32x34x128.size inb_S34x34x256_S32x34x128_1_0_128), updateSlice (v.readCov (catL2 v U) (Rect.unit (s := S34x34x256) ![1, 0, 128] S32x34x128.size inb_S34x34x256_S32x34x128_1_0_128).toLoadRect) B ![0, 1, 0] slices_S32x34x128_S32x32x128_0_1_0⟩ :: catL2 v U

set_option maxHeartbeats 1000000 in
/-- The concatenated image after the zero fill and the two interior stores, at (a, b, ch). -/
theorem cat_apply (v : View sig' κ sp S34x34x256 .bf16) (U B : FVec Ideal S32x32x128 .bf16) (a b : Fin 34) (ch : Fin 256) :
    canon (Val := Elt Ideal) (s := S34x34x256) (e := .bf16) (catL3 v U B) (ix3 a b ch)
      = Cert.Spec.pad (Cert.Spec.catImg (fun i j c => U (ix3 i j c)) (fun i j c => B (ix3 i j c))) a b ch := by
  have hch := ch.isLt
  refine (rmw_step (C := 256) (Val := Elt Ideal) (e := .bf16) v (catL2 v U) 128 inb_S34x34x256_S32x34x128_1_0_128 slices_S32x34x128_S32x32x128_0_1_0 B a b ch).trans ?_
  unfold Cert.Spec.pad Cert.Spec.catImg
  by_cases h3 : 1 ≤ a.val ∧ a.val ≤ 32 ∧ 1 ≤ b.val ∧ b.val ≤ 32 ∧ 128 ≤ ch.val ∧ ch.val < 128 + 128
  · rw [dif_pos h3, dif_pos ⟨h3.1, h3.2.1, h3.2.2.1, h3.2.2.2.1⟩, dif_neg (by omega)]
  · rw [dif_neg h3]
    refine (rmw_step (C := 256) (Val := Elt Ideal) (e := .bf16) v catL1 0 inb_S34x34x256_S32x34x128_1_0_0 slices_S32x34x128_S32x32x128_0_1_0 U a b ch).trans ?_
    by_cases h2 : 1 ≤ a.val ∧ a.val ≤ 32 ∧ 1 ≤ b.val ∧ b.val ≤ 32 ∧ 0 ≤ ch.val ∧ ch.val < 0 + 128
    · rw [dif_pos h2, dif_pos ⟨h2.1, h2.2.1, h2.2.2.1, h2.2.2.2.1⟩, dif_pos (by omega)]
      rfl
    · rw [dif_neg h2, canon_unit_zero hz3, pay2_apply]
      by_cases hi : 1 ≤ a.val ∧ a.val ≤ 32 ∧ 1 ≤ b.val ∧ b.val ≤ 32
      · exfalso; omega
      · rw [dif_neg hi]

end Cert.KernelIdeal.Value

end
-- ==== Proof.KBlockTaps.lean ====
/-
  The pieces a 3x3 convolution is assembled from, over the extended reals.

  A window of a padded image (32 x 32 positions, C channels) is flattened to 1024 rows; position `p` is row `p / 32`,
  column `p % 32` of the window. One TAP is that matrix times a [C, 128] slab of the weights into a zero accumulator:
  at (p, o) it is the sum over channels of window[p / 32, p % 32, ch] * slab[ch, o]. The bias is a [1, 128] row broadcast
  down the 1024 rows. The body adds taps onto the bias a few at a time; each such group is the bias-or-carry plus its taps.
-/
import proofs.«131778_g2000005761611187_pallasbulk_1314_2_alg».proof.Proof.Gen.KernelIdeal.Skeleton
import proofs.«131778_g2000005761611187_pallasbulk_1314_2_alg».proof.Proof.LibPlainMatmul
import Idealize.ShloMosaic.Lib.Pipeline.Value
import Idealize.ShloMosaic.Lib.ValueIdx

noncomputable section

namespace Cert.KernelIdeal.Value

open Cert.KernelIdeal Cert.KernelIdeal.Gen
open Idealize.ShloMosaic Idealize.ShloMosaic.ValueIdx

/-- Position `p` of the flattened 32 x 32 image is row `p / 32`, column `p % 32`. -/
abbrev rowOf (p : Fin 1024) : Fin 32 := ⟨p.val / 32, by have := p.isLt; omega⟩
abbrev colOf (p : Fin 1024) : Fin 32 := ⟨p.val % 32, Nat.mod_lt _ (by decide)⟩

/-- A tap over 256 channels (the concatenated image) at (p, o). -/
theorem tap256_apply (W : FVec Ideal S32x32x256 .bf16) (Wt : FVec Ideal S256x128 .bf16) (p : Fin 1024) (o : Fin 128) :
    matmul dot_S1024x256_S256x128_S1024x128_1_0_0_1_n_n none (shapeCast S1024x256 W shapeCasts_S32x32x256_S1024x256)
        (shapeCast S256x128 Wt shapeCasts_S256x128_S256x128) (constant S1024x128 .f32 0x00000000#32) (ix2 p o)
      = ∑ ch : Fin 256, W (ix3 (rowOf p) (colOf p) ch) * Wt (ix2 ch o) := by
  refine (PlainMatmul.matmul_plain_apply (M := 1024) (K := 256) (N := 128) dot_S1024x256_S256x128_S1024x128_1_0_0_1_n_n
    rfl rfl rfl rfl rfl rfl none _ _ p o).trans ?_
  refine Finset.sum_congr rfl fun ch _ => ?_
  rw [shapeCast_self]
  rw [shapeCast_apply W _ (ix2 p ch) (ix3 (rowOf p) (colOf p) ch) (by
    rw [Shape.rowMajor_val_three, Shape.rowMajor_val_two]
    show ((p.val / 32) * 32 + p.val % 32) * 256 + ch.val = p.val * 256 + ch.val
    have := Nat.div_add_mod p.val 32
    omega)]

/-- A tap over 128 channels (the activation images) at (p, o). -/
theorem tap128_apply (W : FVec Ideal S32x32x128 .bf16) (Wt : FVec Ideal S128x128 .bf16) (p : Fin 1024) (o : Fin 128) :
    matmul dot_S1024x128_S128x128_S1024x128_1_0_0_1_n_n none (shapeCast S1024x128 W shapeCasts_S32x32x128_S1024x128)
        (shapeCast S128x128 Wt shapeCasts_S128x128_S128x128) (constant S1024x128 .f32 0x00000000#32) (ix2 p o)
      = ∑ ch : Fin 128, W (ix3 (rowOf p) (colOf p) ch) * Wt (ix2 ch o) := by
  refine (PlainMatmul.matmul_plain_apply (M := 1024) (K := 128) (N := 128) dot_S1024x128_S128x128_S1024x128_1_0_0_1_n_n
    rfl rfl rfl rfl rfl rfl none _ _ p o).trans ?_
  refine Finset.sum_congr rfl fun ch _ => ?_
  rw [shapeCast_self]
  rw [shapeCast_apply W _ (ix2 p ch) (ix3 (rowOf p) (colOf p) ch) (by
    rw [Shape.rowMajor_val_three, Shape.rowMajor_val_two]
    show ((p.val / 32) * 32 + p.val % 32) * 128 + ch.val = p.val * 128 + ch.val
    have := Nat.div_add_mod p.val 32
    omega)]

/-- The bias row broadcast down the rows, at (p, o): the row's entry o. -/
theorem bias_apply (b : FVec Ideal S1x128 .f32) (p : Fin 1024) (o : Fin 128) :
    broadcastTo S1024x128 (shapeCast S1x128 (shapeCast S1x128 b shapeCasts_S1x128_S1x128) shapeCasts_S1x128_S1x128)
        broadcasts_S1x128_S1024x128 (ix2 p o) = b (ix2 0 o) := by
  rw [shapeCast_self, shapeCast_self]
  exact broadcastTo_apply b _ (ix2 p o) (ix2 0 o) (fun a => by
    match a with
    | ⟨0, _⟩ => rfl
    | ⟨1, _⟩ => rfl)

end Cert.KernelIdeal.Value

end
-- ==== Proof.KBlockPays.lean ====
/-
  The groups of taps the body adds, at (p, o): each is its carry (or the bias row) plus its taps, a tap being the sum over
  channels of window[p / 32, p % 32, ch] * slab[ch, o].
-/
import proofs.«131778_g2000005761611187_pallasbulk_1314_2_alg».proof.Proof.Gen.KernelIdeal.Skeleton
import proofs.«131778_g2000005761611187_pallasbulk_1314_2_alg».proof.Proof.LibPlainMatmul
import proofs.«131778_g2000005761611187_pallasbulk_1314_2_alg».proof.Proof.LibCanonRmw
import proofs.«131778_g2000005761611187_pallasbulk_1314_2_alg».proof.Proof.Spec
import Idealize.ShloMosaic.Lib.Pipeline.Value
import Idealize.ShloMosaic.Lib.ValueIdx
import proofs.«131778_g2000005761611187_pallasbulk_1314_2_alg».proof.Proof.KBlockTaps
set_option maxRecDepth 16384

noncomputable section

namespace Cert.KernelIdeal.Value

open Cert.KernelIdeal Cert.KernelIdeal.Gen
open Idealize.ShloMosaic Idealize.ShloMosaic.ValueIdx

open scoped BigOperators

/-- First convolution: the bias plus taps 0 and 1. -/
theorem pay9_apply (b : Vec Ideal S1x128 .f32) (w0 : Vec Ideal S32x32x256 .bf16) (s0 : Vec Ideal S256x128 .bf16) (w1 : Vec Ideal S32x32x256 .bf16) (s1 : Vec Ideal S256x128 .bf16) (p : Fin 1024) (o : Fin 128) :
    k0_pay9 (F := Ideal) b w0 s0 w1 s1 (ix2 p o)
      = b (ix2 0 o)
          + (∑ ch : Fin 256, w0 (ix3 (rowOf p) (colOf p) ch) * s0 (ix2 ch o))
          + (∑ ch : Fin 256, w1 (ix3 (rowOf p) (colOf p) ch) * s1 (ix2 ch o)) := by
  unfold k0_pay9
  show broadcastTo S1024x128 (shapeCast S1x128 (shapeCast S1x128 b shapeCasts_S1x128_S1x128) shapeCasts_S1x128_S1x128) broadcasts_S1x128_S1024x128 (ix2 p o)
        + matmul (F := Ideal) dot_S1024x256_S256x128_S1024x128_1_0_0_1_n_n none (shapeCast S1024x256 w0 shapeCasts_S32x32x256_S1024x256) (shapeCast S256x128 s0 shapeCasts_S256x128_S256x128) (constant (F := Ideal) S1024x128 .f32 0x00000000#32) (ix2 p o)
        + matmul (F := Ideal) dot_S1024x256_S256x128_S1024x128_1_0_0_1_n_n none (shapeCast S1024x256 w1 shapeCasts_S32x32x256_S1024x256) (shapeCast S256x128 s1 shapeCasts_S256x128_S256x128) (constant (F := Ideal) S1024x128 .f32 0x00000000#32) (ix2 p o) = _
  rw [bias_apply, tap256_apply, tap256_apply]

/-- First convolution: taps 2 to 6 onto the carry. -/
theorem pay10_apply (acc : FVec Ideal S1024x128 .f32) (w2 : Vec Ideal S32x32x256 .bf16) (s2 : Vec Ideal S256x128 .bf16) (w3 : Vec Ideal S32x32x256 .bf16) (s3 : Vec Ideal S256x128 .bf16) (w4 : Vec Ideal S32x32x256 .bf16) (s4 : Vec Ideal S256x128 .bf16) (w5 : Vec Ideal S32x32x256 .bf16) (s5 : Vec Ideal S256x128 .bf16) (w6 : Vec Ideal S32x32x256 .bf16) (s6 : Vec Ideal S256x128 .bf16) (p : Fin 1024) (o : Fin 128) :
    k0_pay10 (F := Ideal) acc w2 s2 w3 s3 w4 s4 w5 s5 w6 s6 (ix2 p o)
      = acc (ix2 p o)
          + (∑ ch : Fin 256, w2 (ix3 (rowOf p) (colOf p) ch) * s2 (ix2 ch o))
          + (∑ ch : Fin 256, w3 (ix3 (rowOf p) (colOf p) ch) * s3 (ix2 ch o))
          + (∑ ch : Fin 256, w4 (ix3 (rowOf p) (colOf p) ch) * s4 (ix2 ch o))
          + (∑ ch : Fin 256, w5 (ix3 (rowOf p) (colOf p) ch) * s5 (ix2 ch o))
          + (∑ ch : Fin 256, w6 (ix3 (rowOf p) (colOf p) ch) * s6 (ix2 ch o)) := by
  unfold k0_pay10
  show acc (ix2 p o)
        + matmul (F := Ideal) dot_S1024x256_S256x128_S1024x128_1_0_0_1_n_n none (shapeCast S1024x256 w2 shapeCasts_S32x32x256_S1024x256) (shapeCast S256x128 s2 shapeCasts_S256x128_S256x128) (constant (F := Ideal) S1024x128 .f32 0x00000000#32) (ix2 p o)
        + matmul (F := Ideal) dot_S1024x256_S256x128_S1024x128_1_0_0_1_n_n none (shapeCast S1024x256 w3 shapeCasts_S32x32x256_S1024x256) (shapeCast S256x128 s3 shapeCasts_S256x128_S256x128) (constant (F := Ideal) S1024x128 .f32 0x00000000#32) (ix2 p o)
        + matmul (F := Ideal) dot_S1024x256_S256x128_S1024x128_1_0_0_1_n_n none (shapeCast S1024x256 w4 shapeCasts_S32x32x256_S1024x256) (shapeCast S256x128 s4 shapeCasts_S256x128_S256x128) (constant (F := Ideal) S1024x128 .f32 0x00000000#32) (ix2 p o)
        + matmul (F := Ideal) dot_S1024x256_S256x128_S1024x128_1_0_0_1_n_n none (shapeCast S1024x256 w5 shapeCasts_S32x32x256_S1024x256) (shapeCast S256x128 s5 shapeCasts_S256x128_S256x128) (constant (F := Ideal) S1024x128 .f32 0x00000000#32) (ix2 p o)
        + matmul (F := Ideal) dot_S1024x256_S256x128_S1024x128_1_0_0_1_n_n none (shapeCast S1024x256 w6 shapeCasts_S32x32x256_S1024x256) (shapeCast S256x128 s6 shapeCasts_S256x128_S256x128) (constant (F := Ideal) S1024x128 .f32 0x00000000#32) (ix2 p o) = _
  rw [tap256_apply, tap256_apply, tap256_apply, tap256_apply, tap256_apply]

/-- First convolution: taps 7 and 8 onto the carry. -/
theorem pay11_apply (acc : FVec Ideal S1024x128 .f32) (w7 : Vec Ideal S32x32x256 .bf16) (s7 : Vec Ideal S256x128 .bf16) (w8 : Vec Ideal S32x32x256 .bf16) (s8 : Vec Ideal S256x128 .bf16) (p : Fin 1024) (o : Fin 128) :
    k0_pay11 (F := Ideal) acc w7 s7 w8 s8 (ix2 p o)
      = acc (ix2 p o)
          + (∑ ch : Fin 256, w7 (ix3 (rowOf p) (colOf p) ch) * s7 (ix2 ch o))
          + (∑ ch : Fin 256, w8 (ix3 (rowOf p) (colOf p) ch) * s8 (ix2 ch o)) := by
  unfold k0_pay11
  show acc (ix2 p o)
        + matmul (F := Ideal) dot_S1024x256_S256x128_S1024x128_1_0_0_1_n_n none (shapeCast S1024x256 w7 shapeCasts_S32x32x256_S1024x256) (shapeCast S256x128 s7 shapeCasts_S256x128_S256x128) (constant (F := Ideal) S1024x128 .f32 0x00000000#32) (ix2 p o)
        + matmul (F := Ideal) dot_S1024x256_S256x128_S1024x128_1_0_0_1_n_n none (shapeCast S1024x256 w8 shapeCasts_S32x32x256_S1024x256) (shapeCast S256x128 s8 shapeCasts_S256x128_S256x128) (constant (F := Ideal) S1024x128 .f32 0x00000000#32) (ix2 p o) = _
  rw [tap256_apply, tap256_apply]

/-- Second convolution: the bias plus taps 0 to 2. -/
theorem pay15_apply (b : Vec Ideal S1x128 .f32) (w0 : Vec Ideal S32x32x128 .bf16) (s0 : Vec Ideal S128x128 .bf16) (w1 : Vec Ideal S32x32x128 .bf16) (s1 : Vec Ideal S128x128 .bf16) (w2 : Vec Ideal S32x32x128 .bf16) (s2 : Vec Ideal S128x128 .bf16) (p : Fin 1024) (o : Fin 128) :
    k0_pay15 (F := Ideal) b w0 s0 w1 s1 w2 s2 (ix2 p o)
      = b (ix2 0 o)
          + (∑ ch : Fin 128, w0 (ix3 (rowOf p) (colOf p) ch) * s0 (ix2 ch o))
          + (∑ ch : Fin 128, w1 (ix3 (rowOf p) (colOf p) ch) * s1 (ix2 ch o))
          + (∑ ch : Fin 128, w2 (ix3 (rowOf p) (colOf p) ch) * s2 (ix2 ch o)) := by
  unfold k0_pay15
  show broadcastTo S1024x128 (shapeCast S1x128 (shapeCast S1x128 b shapeCasts_S1x128_S1x128) shapeCasts_S1x128_S1x128) broadcasts_S1x128_S1024x128 (ix2 p o)
        + matmul (F := Ideal) dot_S1024x128_S128x128_S1024x128_1_0_0_1_n_n none (shapeCast S1024x128 w0 shapeCasts_S32x32x128_S1024x128) (shapeCast S128x128 s0 shapeCasts_S128x128_S128x128) (constant (F := Ideal) S1024x128 .f32 0x00000000#32) (ix2 p o)
        + matmul (F := Ideal) dot_S1024x128_S128x128_S1024x128_1_0_0_1_n_n none (shapeCast S1024x128 w1 shapeCasts_S32x32x128_S1024x128) (shapeCast S128x128 s1 shapeCasts_S128x128_S128x128) (constant (F := Ideal) S1024x128 .f32 0x00000000#32) (ix2 p o)
        + matmul (F := Ideal) dot_S1024x128_S128x128_S1024x128_1_0_0_1_n_n none (shapeCast S1024x128 w2 shapeCasts_S32x32x128_S1024x128) (shapeCast S128x128 s2 shapeCasts_S128x128_S128x128) (constant (F := Ideal) S1024x128 .f32 0x00000000#32) (ix2 p o) = _
  rw [bias_apply, tap128_apply, tap128_apply, tap128_apply]

/-- Second convolution: taps 3 to 7 onto the carry. -/
theorem pay16_apply (acc : FVec Ideal S1024x128 .f32) (w3 : Vec Ideal S32x32x128 .bf16) (s3 : Vec Ideal S128x128 .bf16) (w4 : Vec Ideal S32x32x128 .bf16) (s4 : Vec Ideal S128x128 .bf16) (w5 : Vec Ideal S32x32x128 .bf16) (s5 : Vec Ideal S128x128 .bf16) (w6 : Vec Ideal S32x32x128 .bf16) (s6 : Vec Ideal S128x128 .bf16) (w7 : Vec Ideal S32x32x128 .bf16) (s7 : Vec Ideal S128x128 .bf16) (p : Fin 1024) (o : Fin 128) :
    k0_pay16 (F := Ideal) acc w3 s3 w4 s4 w5 s5 w6 s6 w7 s7 (ix2 p o)
      = acc (ix2 p o)
          + (∑ ch : Fin 128, w3 (ix3 (rowOf p) (colOf p) ch) * s3 (ix2 ch o))
          + (∑ ch : Fin 128, w4 (ix3 (rowOf p) (colOf p) ch) * s4 (ix2 ch o))
          + (∑ ch : Fin 128, w5 (ix3 (rowOf p) (colOf p) ch) * s5 (ix2 ch o))
          + (∑ ch : Fin 128, w6 (ix3 (rowOf p) (colOf p) ch) * s6 (ix2 ch o))
          + (∑ ch : Fin 128, w7 (ix3 (rowOf p) (colOf p) ch) * s7 (ix2 ch o)) := by
  unfold k0_pay16
  show acc (ix2 p o)
        + matmul (F := Ideal) dot_S1024x128_S128x128_S1024x128_1_0_0_1_n_n none (shapeCast S1024x128 w3 shapeCasts_S32x32x128_S1024x128) (shapeCast S128x128 s3 shapeCasts_S128x128_S128x128) (constant (F := Ideal) S1024x128 .f32 0x00000000#32) (ix2 p o)
        + matmul (F := Ideal) dot_S1024x128_S128x128_S1024x128_1_0_0_1_n_n none (shapeCast S1024x128 w4 shapeCasts_S32x32x128_S1024x128) (shapeCast S128x128 s4 shapeCasts_S128x128_S128x128) (constant (F := Ideal) S1024x128 .f32 0x00000000#32) (ix2 p o)
        + matmul (F := Ideal) dot_S1024x128_S128x128_S1024x128_1_0_0_1_n_n none (shapeCast S1024x128 w5 shapeCasts_S32x32x128_S1024x128) (shapeCast S128x128 s5 shapeCasts_S128x128_S128x128) (constant (F := Ideal) S1024x128 .f32 0x00000000#32) (ix2 p o)
        + matmul (F := Ideal) dot_S1024x128_S128x128_S1024x128_1_0_0_1_n_n none (shapeCast S1024x128 w6 shapeCasts_S32x32x128_S1024x128) (shapeCast S128x128 s6 shapeCasts_S128x128_S128x128) (constant (F := Ideal) S1024x128 .f32 0x00000000#32) (ix2 p o)
        + matmul (F := Ideal) dot_S1024x128_S128x128_S1024x128_1_0_0_1_n_n none (shapeCast S1024x128 w7 shapeCasts_S32x32x128_S1024x128) (shapeCast S128x128 s7 shapeCasts_S128x128_S128x128) (constant (F := Ideal) S1024x128 .f32 0x00000000#32) (ix2 p o) = _
  rw [tap128_apply, tap128_apply, tap128_apply, tap128_apply, tap128_apply]

/-- Third convolution: the bias plus taps 0 and 1. -/
theorem pay18_apply (b : Vec Ideal S1x128 .f32) (w0 : Vec Ideal S32x32x128 .bf16) (s0 : Vec Ideal S128x128 .bf16) (w1 : Vec Ideal S32x32x128 .bf16) (s1 : Vec Ideal S128x128 .bf16) (p : Fin 1024) (o : Fin 128) :
    k0_pay18 (F := Ideal) b w0 s0 w1 s1 (ix2 p o)
      = b (ix2 0 o)
          + (∑ ch : Fin 128, w0 (ix3 (rowOf p) (colOf p) ch) * s0 (ix2 ch o))
          + (∑ ch : Fin 128, w1 (ix3 (rowOf p) (colOf p) ch) * s1 (ix2 ch o)) := by
  unfold k0_pay18
  show broadcastTo S1024x128 (shapeCast S1x128 (shapeCast S1x128 b shapeCasts_S1x128_S1x128) shapeCasts_S1x128_S1x128) broadcasts_S1x128_S1024x128 (ix2 p o)
        + matmul (F := Ideal) dot_S1024x128_S128x128_S1024x128_1_0_0_1_n_n none (shapeCast S1024x128 w0 shapeCasts_S32x32x128_S1024x128) (shapeCast S128x128 s0 shapeCasts_S128x128_S128x128) (constant (F := Ideal) S1024x128 .f32 0x00000000#32) (ix2 p o)
        + matmul (F := Ideal) dot_S1024x128_S128x128_S1024x128_1_0_0_1_n_n none (shapeCast S1024x128 w1 shapeCasts_S32x32x128_S1024x128) (shapeCast S128x128 s1 shapeCasts_S128x128_S128x128) (constant (F := Ideal) S1024x128 .f32 0x00000000#32) (ix2 p o) = _
  rw [bias_apply, tap128_apply, tap128_apply]

end Cert.KernelIdeal.Value

end
-- ==== Proof.LibPadWindow.lean ====
/-
  Reading windows.

  A load of the 32 x 32 x C window at offsets (ky, kx, 0) of a 34 x 34 x C image, after the writes L, reads at (i, j, ch)
  what the writes left at (ky + i, kx + j, ch). A load of a rectangle of a whole input buffer holding X reads X at the
  rectangle's index. A bias-or-carry plus nine terms added one after the other is the carry plus their sum.
-/
import proofs.«131778_g2000005761611187_pallasbulk_1314_2_alg».proof.Proof.LibCanonRmw
import Idealize.ShloMosaic.Lib.ValueIdx
import Idealize.ShloMosaic.Lib.Pipeline.Frame

namespace Cert.Lib.PadWindow

open Idealize.ShloMosaic Idealize.ShloMosaic.View Idealize.ShloMosaic.ValueIdx Cert.Lib.CanonRmw
open scoped BigOperators

variable {sig : RefSig} {κ : Kind} {sp : Space} {e : EltTy} {Val : EltTy → Type} [∀ e, Nonempty (Val e)]

/-- A shifted window of a padded image, at (i, j, ch). -/
theorem window_apply {C : ℕ} (v : View sig κ sp (⟨3, ![34, 34, C]⟩ : Shape) e)
    (L : List (Piece Val (⟨3, ![34, 34, C]⟩ : Shape) e)) (ky kx : ℕ)
    (inb : ∀ k, (![ky, kx, 0] : Fin 3 → ℕ) k + (![32, 32, C] : Fin 3 → ℕ) k ≤ (⟨3, ![34, 34, C]⟩ : Shape).size k)
    (i j : Fin 32) (ch : Fin C) :
    v.readCov L (Rect.unit (s := (⟨3, ![34, 34, C]⟩ : Shape)) ![ky, kx, 0] ![32, 32, C] inb).toLoadRect (ix3 i j ch)
      = canon L (ix3 ⟨ky + i.val, by have h0 := inb 0; change ky + 32 ≤ 34 at h0; have := i.isLt; omega⟩
                  ⟨kx + j.val, by have h1 := inb 1; change kx + 32 ≤ 34 at h1; have := j.isLt; omega⟩ ch) := by
  rw [readCov_toLoadRect_apply]
  congr 1
  funext k; apply Fin.ext; rw [Rect.emb_apply]
  match k with
  | ⟨0, _⟩ => show ky + 1 * i.val = ky + i.val; omega
  | ⟨1, _⟩ => show kx + 1 * j.val = kx + j.val; omega
  | ⟨2, _⟩ => show 0 + 1 * ch.val = ch.val; omega

/-- A load of a rectangle of a whole buffer holding `X` reads `X` at the rectangle's index. -/
theorem readAt_unread_apply {s : Shape} {m : Memref sig κ sp s e} (h : m.IsWhole) (X : s.Idx → Val e) (r : Rect s)
    (j : r.shape.Idx) : m.view.readAt Val r.toLoadRect (h.unread X) j = X (r.emb j) := by
  rw [View.readAt_apply, h.read_unread]; rfl

/-- Nine terms added one after the other onto a carry. -/
theorem nested9 {M : Type} [AddCommMonoid M] (β : M) (τ : Fin 9 → M) :
    β + τ 0 + τ 1 + τ 2 + τ 3 + τ 4 + τ 5 + τ 6 + τ 7 + τ 8 = β + ∑ k, τ k := by
  rw [Fin.sum_univ_castSucc, Fin.sum_univ_eight]
  simp only [add_assoc]
  rfl

end Cert.Lib.PadWindow
-- ==== Proof.KBlockConv.lean ====
/-
  The first convolution assembled.

  Nine windows of a padded image P (window k at (i, j, ch) is P at (i + k / 3, j + k % 3, ch)) and nine slabs of the weights
  (slab k at (ch, o) is row k * 256 + ch) go through the body's three groups of taps; the result at position p, channel o is
  the bias plus the sum over the nine taps of the channel sums: `Spec.convK`.
-/
import proofs.«131778_g2000005761611187_pallasbulk_1314_2_alg».proof.Proof.Gen.KernelIdeal.Skeleton
import proofs.«131778_g2000005761611187_pallasbulk_1314_2_alg».proof.Proof.LibPlainMatmul
import proofs.«131778_g2000005761611187_pallasbulk_1314_2_alg».proof.Proof.LibCanonRmw
import proofs.«131778_g2000005761611187_pallasbulk_1314_2_alg».proof.Proof.Spec
import Idealize.ShloMosaic.Lib.Pipeline.Value
import Idealize.ShloMosaic.Lib.ValueIdx
import proofs.«131778_g2000005761611187_pallasbulk_1314_2_alg».proof.Proof.KBlockPays
import proofs.«131778_g2000005761611187_pallasbulk_1314_2_alg».proof.Proof.LibPadWindow
set_option maxRecDepth 16384

noncomputable section

namespace Cert.KernelIdeal.Value

open Cert.KernelIdeal Cert.KernelIdeal.Gen
open Idealize.ShloMosaic Idealize.ShloMosaic.ValueIdx

open scoped BigOperators
open Cert.Lib.PadWindow

/-- A slab of a whole [R, 128] buffer holding X, at rows off0 .. off0 + C - 1: entry (ch, o) is X at (off0 + ch, o). -/
theorem slab_apply {sig' : RefSig} {κ : Kind} {sp : Space} {R C : ℕ} {e : EltTy}
    {m : Memref sig' κ sp (⟨2, ![R, 128]⟩ : Shape) e} (h : m.IsWhole) (X : (⟨2, ![R, 128]⟩ : Shape).Idx → Elt Ideal e) (off0 : ℕ)
    (inb : ∀ k, (![off0, 0] : Fin 2 → ℕ) k + (![C, 128] : Fin 2 → ℕ) k ≤ (⟨2, ![R, 128]⟩ : Shape).size k) (ch : Fin C) (o : Fin 128) :
    m.view.readAt (Elt Ideal) (Rect.unit (s := (⟨2, ![R, 128]⟩ : Shape)) ![off0, 0] ![C, 128] inb).toLoadRect (h.unread X) (ix2 ch o)
      = X (ix2 ⟨off0 + ch.val, by have h0 := inb 0; change off0 + C ≤ R at h0; have := ch.isLt; omega⟩ o) := by
  rw [readAt_unread_apply]
  congr 1
  funext k; apply Fin.ext; rw [Rect.emb_apply]
  match k with
  | ⟨0, _⟩ => show off0 + 1 * ch.val = off0 + ch.val; omega
  | ⟨1, _⟩ => show 0 + 1 * o.val = o.val; omega

/-- A load of a whole buffer holding X through the zero-offset whole rectangle reads X. -/
theorem readAt_whole {sig' : RefSig} {κ : Kind} {sp : Space} {S : Shape} {e : EltTy} {m : Memref sig' κ sp S e} (h : m.IsWhole)
    (X : S.Idx → Elt Ideal e) {off : Fin S.rank → ℕ} (hz : off = fun _ => 0) (inb : ∀ a, off a + S.size a ≤ S.size a) :
    m.view.readAt (Elt Ideal) (Rect.unit off S.size inb).toLoadRect (h.unread X) = X := by
  rw [View.readAt_eq_ld, h.read_unread, View.ld_unit_zero hz]

/-- The first convolution: bias, then taps 0–1, 2–6, 7–8. -/
theorem conv1_eq (P : Fin 34 → Fin 34 → Fin 256 → Cert.Spec.E) (Wt : Fin (9 * 256) → Fin 128 → Cert.Spec.E)
    (b : Vec Ideal S1x128 .f32) (w : Fin 9 → Vec Ideal S32x32x256 .bf16) (s : Fin 9 → Vec Ideal S256x128 .bf16)
    (hw : ∀ k i j ch, w k (ix3 i j ch) = P (Cert.Spec.win i (Cert.Spec.tapRow k)) (Cert.Spec.win j (Cert.Spec.tapCol k)) ch)
    (hs : ∀ k ch o, s k (ix2 ch o) = Wt (Cert.Lib.TapSum.flat k ch) o) (p : Fin 1024) (o : Fin 128) :
    k0_pay11 (F := Ideal) (k0_pay10 (F := Ideal) (k0_pay9 (F := Ideal) b (w 0) (s 0) (w 1) (s 1)) (w 2) (s 2) (w 3) (s 3) (w 4) (s 4) (w 5) (s 5) (w 6) (s 6)) (w 7) (s 7) (w 8) (s 8) (ix2 p o)
      = Cert.Spec.convK P Wt (fun o => b (ix2 0 o)) (rowOf p) (colOf p) o := by
  rw [pay11_apply, pay10_apply, pay9_apply]
  simp only [hw, hs]
  unfold Cert.Spec.convK
  exact nested9 (b (ix2 0 o)) (fun k => ∑ ch : Fin 256, P (Cert.Spec.win (rowOf p) (Cert.Spec.tapRow k)) (Cert.Spec.win (colOf p) (Cert.Spec.tapCol k)) ch * Wt (Cert.Lib.TapSum.flat k ch) o)

end Cert.KernelIdeal.Value

end
-- ==== Proof.KBlockA.lean ====
/-
  The body's first half, in the specification's terms: the up image and the bridge image as stored into the concatenated
  scratch image, and that image's contents after the zero fill and the two interior stores.
-/
import proofs.«131778_g2000005761611187_pallasbulk_1314_2_alg».proof.Proof.Gen.KernelIdeal.Skeleton
import proofs.«131778_g2000005761611187_pallasbulk_1314_2_alg».proof.Proof.LibPlainMatmul
import proofs.«131778_g2000005761611187_pallasbulk_1314_2_alg».proof.Proof.LibCanonRmw
import proofs.«131778_g2000005761611187_pallasbulk_1314_2_alg».proof.Proof.Spec
import Idealize.ShloMosaic.Lib.Pipeline.Value
import Idealize.ShloMosaic.Lib.ValueIdx
import proofs.«131778_g2000005761611187_pallasbulk_1314_2_alg».proof.Proof.BodyIdeal
import proofs.«131778_g2000005761611187_pallasbulk_1314_2_alg».proof.Proof.KBlockUp2
import proofs.«131778_g2000005761611187_pallasbulk_1314_2_alg».proof.Proof.KBlockCat
import proofs.«131778_g2000005761611187_pallasbulk_1314_2_alg».proof.Proof.KBlockConv
set_option maxRecDepth 16384

noncomputable section

namespace Cert.KernelIdeal.Value

open Cert.KernelIdeal Cert.KernelIdeal.Gen
open Idealize.ShloMosaic Idealize.ShloMosaic.ValueIdx

open Idealize.ShloMosaic.View Idealize.ShloMosaic.TcCoe Cert.Lib.CanonRmw Cert.Lib.PadWindow

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A load of the whole image after the writes L reads what the writes left. -/
theorem readCov_whole {sig' : RefSig} {κ : Kind} {sp : Space} {S : Shape} {e : EltTy} (v : View sig' κ sp S e)
    (L : List (Piece (Elt Ideal) S e)) {off : Fin S.rank → ℕ} (hz : off = fun _ => 0) (inb : ∀ a, off a + S.size a ≤ S.size a) :
    v.readCov L (Rect.unit off S.size inb).toLoadRect = canon L := by
  rw [readCov_eq_canon']
  exact View.ld_unit_zero hz inb (canon L)

/-- The bridge block as stored: entry (I, J, c) of the block's one image. -/
theorem pay8_apply (x1 : FVec Ideal S1x32x32x128 .f32) (I J : Fin 32) (cc : Fin 128) :
    k0_pay8 (F := Ideal) x1 (ix3 I J cc) = x1 (ix4 0 I J cc) := by
  unfold k0_pay8
  show shapeCast S32x32x128 (shapeCast S32x32x128 x1 shapeCasts_S1x32x32x128_S32x32x128) shapeCasts_S32x32x128_S32x32x128 (ix3 I J cc) = _
  rw [shapeCast_self]
  exact shapeCast_apply x1 _ _ _ (by
    rw [Shape.rowMajor_val_four, Shape.rowMajor_val_three]
    show ((0 * 32 + I.val) * 32 + J.val) * 128 + cc.val = (I.val * 32 + J.val) * 128 + cc.val
    omega)

section
variable (c : Dev nD) (arg1 : Memref sig .tc .vmem S1x16x16x256 .f32) (harg1 : arg1.IsWhole) (arg2 : Memref sig .tc .vmem S1x32x32x128 .f32) (harg2 : arg2.IsWhole) (arg3 : Memref sig .tc .vmem S256x512 .bf16) (harg3 : arg3.IsWhole) (arg4 : Memref sig .tc .vmem S1x512 .f32) (harg4 : arg4.IsWhole) (arg5 : Memref sig .tc .vmem S2304x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1152x128 .bf16) (harg9 : arg9.IsWhole) (arg10 : Memref sig .tc .vmem S1x128 .f32) (harg10 : arg10.IsWhole) (arg11 : Memref sig .tc .vmem S1152x128 .bf16) (harg11 : arg11.IsWhole) (arg12 : Memref sig .tc .vmem S1x128 .f32) (harg12 : arg12.IsWhole) (arg13 : Memref sig .tc .vmem S1x32x32x128 .f32) (harg13 : arg13.IsWhole) (arg14 : Memref sig .tc .vmem S16x2x16x256 .bf16) (harg14 : arg14.IsWhole) (arg15 : Memref sig .tc .vmem S34x34x256 .bf16) (harg15 : arg15.IsWhole) (arg16 : Memref sig .tc .vmem S34x34x128 .bf16) (harg16 : arg16.IsWhole)
    (x0 : Vec Ideal S1x16x16x256 .f32) (x1 : Vec Ideal S1x32x32x128 .f32) (x2 : Vec Ideal S256x512 .bf16) (x3 : Vec Ideal S1x512 .f32) (x4 : Vec Ideal S2304x128 .bf16) (x5 : Vec Ideal S1x128 .f32) (x6 : Vec Ideal S1x128 .f32) (x7 : Vec Ideal S1x128 .f32) (x8 : Vec Ideal S1152x128 .bf16) (x9 : Vec Ideal S1x128 .f32) (x10 : Vec Ideal S1152x128 .bf16) (x11 : Vec Ideal S1x128 .f32)

/-- The up image the body stores is `Spec.up` of the input block, the packed weights and the bias row. -/
theorem up_stored (I J : Fin 32) (cc : Fin 128) :
    k0_pay7 (F := Ideal) (Cert.KernelIdeal.Body.kernelRun.sl.v31 (F := Ideal) c arg1 harg1 arg3 harg3 arg4 harg4 arg14 x0 x2 x3) (ix3 I J cc) = (Cert.Spec.up (fun a b ci => x0 (ix4 0 a b ci)) (fun ci col => x2 (ix2 ci col)) (fun col => x3 (ix2 0 col))) I J cc := by
  unfold Cert.KernelIdeal.Body.kernelRun.sl.v31 Cert.KernelIdeal.Body.kernelRun.sl.HS0_2 Cert.KernelIdeal.Body.kernelRun.sl.r
  rw [readCov_whole _ _ hz4, readAt_whole harg1 x0 hz4, readAt_whole harg3 x2 hz2, readAt_whole harg4 x3 hz2]
  exact up_eq x0 x2 x3 I J cc

/-- The concatenated image after the body's stores, at (a, b, ch). -/
theorem cat_stored (a b : Fin 34) (ch : Fin 256) :
    canon (Val := Elt Ideal) (s := S34x34x256) (e := .bf16) (Cert.KernelIdeal.Body.kernelRun.sl.HS1_3 (F := Ideal) c arg1 harg1 arg2 harg2 arg3 harg3 arg4 harg4 arg14 arg15 x0 x1 x2 x3) (ix3 a b ch) = (Cert.Spec.pad (Cert.Spec.catImg (Cert.Spec.up (fun a b ci => x0 (ix4 0 a b ci)) (fun ci col => x2 (ix2 ci col)) (fun col => x3 (ix2 0 col))) (fun a b ch => x1 (ix4 0 a b ch)))) a b ch := by
  unfold Cert.KernelIdeal.Body.kernelRun.sl.HS1_3 Cert.KernelIdeal.Body.kernelRun.sl.old_1 Cert.KernelIdeal.Body.kernelRun.sl.HS1_2
    Cert.KernelIdeal.Body.kernelRun.sl.old Cert.KernelIdeal.Body.kernelRun.sl.HS1_1
  refine (cat_apply arg15.view (k0_pay7 (F := Ideal) (Cert.KernelIdeal.Body.kernelRun.sl.v31 (F := Ideal) c arg1 harg1 arg3 harg3 arg4 harg4 arg14 x0 x2 x3)) (k0_pay8 (F := Ideal) (View.readAt (Elt Ideal) arg2.view (Rect.unit (s := S1x32x32x128) ![0, 0, 0, 0] S1x32x32x128.size inb_S1x32x32x128_S1x32x32x128_0_0_0_0).toLoadRect (harg2.unread x1))) a b ch).trans ?_
  have eU : (fun i j cc => k0_pay7 (F := Ideal) (Cert.KernelIdeal.Body.kernelRun.sl.v31 (F := Ideal) c arg1 harg1 arg3 harg3 arg4 harg4 arg14 x0 x2 x3) (ix3 i j cc)) = (Cert.Spec.up (fun a b ci => x0 (ix4 0 a b ci)) (fun ci col => x2 (ix2 ci col)) (fun col => x3 (ix2 0 col))) :=
    funext fun i => funext fun j => funext fun cc => up_stored c arg1 harg1 arg3 harg3 arg4 harg4 arg14 x0 x2 x3 i j cc
  have eB : (fun i j cc => k0_pay8 (F := Ideal) (View.readAt (Elt Ideal) arg2.view (Rect.unit (s := S1x32x32x128) ![0, 0, 0, 0] S1x32x32x128.size inb_S1x32x32x128_S1x32x32x128_0_0_0_0).toLoadRect (harg2.unread x1)) (ix3 i j cc)) = (fun a b ch => x1 (ix4 0 a b ch)) :=
    funext fun i => funext fun j => funext fun cc => by rw [readAt_whole harg2 x1 hz4]; exact pay8_apply x1 i j cc
  rw [eU, eB]
end

end Cert.KernelIdeal.Value

end
-- ==== Proof.KBlockB.lean ====
/-
  The first convolution's value.

  The nine windows of the concatenated image (window k = 3 ky + kx is the image shifted by (ky, kx)) and the nine 256-row
  slabs of the packed weights, as families indexed by the tap; the body's chain over them is `Spec.yK`.
-/
import proofs.«131778_g2000005761611187_pallasbulk_1314_2_alg».proof.Proof.Gen.KernelIdeal.Skeleton
import proofs.«131778_g2000005761611187_pallasbulk_1314_2_alg».proof.Proof.LibPlainMatmul
import proofs.«131778_g2000005761611187_pallasbulk_1314_2_alg».proof.Proof.LibCanonRmw
import proofs.«131778_g2000005761611187_pallasbulk_1314_2_alg».proof.Proof.Spec
import Idealize.ShloMosaic.Lib.Pipeline.Value
import Idealize.ShloMosaic.Lib.ValueIdx
import proofs.«131778_g2000005761611187_pallasbulk_1314_2_alg».proof.Proof.KBlockA
set_option maxRecDepth 16384

noncomputable section

namespace Cert.KernelIdeal.Value

open Cert.KernelIdeal Cert.KernelIdeal.Gen
open Idealize.ShloMosaic Idealize.ShloMosaic.ValueIdx

open Idealize.ShloMosaic.View Idealize.ShloMosaic.TcCoe Cert.Lib.CanonRmw Cert.Lib.PadWindow

section
variable (c : Dev nD) (arg1 : Memref sig .tc .vmem S1x16x16x256 .f32) (harg1 : arg1.IsWhole) (arg2 : Memref sig .tc .vmem S1x32x32x128 .f32) (harg2 : arg2.IsWhole) (arg3 : Memref sig .tc .vmem S256x512 .bf16) (harg3 : arg3.IsWhole) (arg4 : Memref sig .tc .vmem S1x512 .f32) (harg4 : arg4.IsWhole) (arg5 : Memref sig .tc .vmem S2304x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1152x128 .bf16) (harg9 : arg9.IsWhole) (arg10 : Memref sig .tc .vmem S1x128 .f32) (harg10 : arg10.IsWhole) (arg11 : Memref sig .tc .vmem S1152x128 .bf16) (harg11 : arg11.IsWhole) (arg12 : Memref sig .tc .vmem S1x128 .f32) (harg12 : arg12.IsWhole) (arg13 : Memref sig .tc .vmem S1x32x32x128 .f32) (harg13 : arg13.IsWhole) (arg14 : Memref sig .tc .vmem S16x2x16x256 .bf16) (harg14 : arg14.IsWhole) (arg15 : Memref sig .tc .vmem S34x34x256 .bf16) (harg15 : arg15.IsWhole) (arg16 : Memref sig .tc .vmem S34x34x128 .bf16) (harg16 : arg16.IsWhole)
    (x0 : Vec Ideal S1x16x16x256 .f32) (x1 : Vec Ideal S1x32x32x128 .f32) (x2 : Vec Ideal S256x512 .bf16) (x3 : Vec Ideal S1x512 .f32) (x4 : Vec Ideal S2304x128 .bf16) (x5 : Vec Ideal S1x128 .f32) (x6 : Vec Ideal S1x128 .f32) (x7 : Vec Ideal S1x128 .f32) (x8 : Vec Ideal S1152x128 .bf16) (x9 : Vec Ideal S1x128 .f32) (x10 : Vec Ideal S1152x128 .bf16) (x11 : Vec Ideal S1x128 .f32)

/-- The nine windows of the concatenated image, by tap. -/
def catWin : Fin 9 → Vec Ideal S32x32x256 .bf16
  | ⟨0, _⟩ => (Cert.KernelIdeal.Body.kernelRun.sl.v46 (F := Ideal) c arg1 harg1 arg2 harg2 arg3 harg3 arg4 harg4 arg14 arg15 x0 x1 x2 x3)
  | ⟨1, _⟩ => (Cert.KernelIdeal.Body.kernelRun.sl.v52 (F := Ideal) c arg1 harg1 arg2 harg2 arg3 harg3 arg4 harg4 arg14 arg15 x0 x1 x2 x3)
  | ⟨2, _⟩ => (Cert.KernelIdeal.Body.kernelRun.sl.v58 (F := Ideal) c arg1 harg1 arg2 harg2 arg3 harg3 arg4 harg4 arg14 arg15 x0 x1 x2 x3)
  | ⟨3, _⟩ => (Cert.KernelIdeal.Body.kernelRun.sl.v64 (F := Ideal) c arg1 harg1 arg2 harg2 arg3 harg3 arg4 harg4 arg14 arg15 x0 x1 x2 x3)
  | ⟨4, _⟩ => (Cert.KernelIdeal.Body.kernelRun.sl.v70 (F := Ideal) c arg1 harg1 arg2 harg2 arg3 harg3 arg4 harg4 arg14 arg15 x0 x1 x2 x3)
  | ⟨5, _⟩ => (Cert.KernelIdeal.Body.kernelRun.sl.v76 (F := Ideal) c arg1 harg1 arg2 harg2 arg3 harg3 arg4 harg4 arg14 arg15 x0 x1 x2 x3)
  | ⟨6, _⟩ => (Cert.KernelIdeal.Body.kernelRun.sl.v82 (F := Ideal) c arg1 harg1 arg2 harg2 arg3 harg3 arg4 harg4 arg14 arg15 x0 x1 x2 x3)
  | ⟨7, _⟩ => (Cert.KernelIdeal.Body.kernelRun.sl.v88 (F := Ideal) c arg1 harg1 arg2 harg2 arg3 harg3 arg4 harg4 arg14 arg15 x0 x1 x2 x3)
  | ⟨8, _⟩ => (Cert.KernelIdeal.Body.kernelRun.sl.v94 (F := Ideal) c arg1 harg1 arg2 harg2 arg3 harg3 arg4 harg4 arg14 arg15 x0 x1 x2 x3)

/-- The nine slabs of the first convolution's weights, by tap. -/
def wucSlab : Fin 9 → Vec Ideal S256x128 .bf16
  | ⟨0, _⟩ => (View.readAt (Elt Ideal) arg5.view (Rect.unit (s := S2304x128) ![0, 0] S256x128.size inb_S2304x128_S256x128_0_0).toLoadRect (harg5.unread x4))
  | ⟨1, _⟩ => (View.readAt (Elt Ideal) arg5.view (Rect.unit (s := S2304x128) ![256, 0] S256x128.size inb_S2304x128_S256x128_256_0).toLoadRect (harg5.unread x4))
  | ⟨2, _⟩ => (View.readAt (Elt Ideal) arg5.view (Rect.unit (s := S2304x128) ![512, 0] S256x128.size inb_S2304x128_S256x128_512_0).toLoadRect (harg5.unread x4))
  | ⟨3, _⟩ => (View.readAt (Elt Ideal) arg5.view (Rect.unit (s := S2304x128) ![768, 0] S256x128.size inb_S2304x128_S256x128_768_0).toLoadRect (harg5.unread x4))
  | ⟨4, _⟩ => (View.readAt (Elt Ideal) arg5.view (Rect.unit (s := S2304x128) ![1024, 0] S256x128.size inb_S2304x128_S256x128_1024_0).toLoadRect (harg5.unread x4))
  | ⟨5, _⟩ => (View.readAt (Elt Ideal) arg5.view (Rect.unit (s := S2304x128) ![1280, 0] S256x128.size inb_S2304x128_S256x128_1280_0).toLoadRect (harg5.unread x4))
  | ⟨6, _⟩ => (View.readAt (Elt Ideal) arg5.view (Rect.unit (s := S2304x128) ![1536, 0] S256x128.size inb_S2304x128_S256x128_1536_0).toLoadRect (harg5.unread x4))
  | ⟨7, _⟩ => (View.readAt (Elt Ideal) arg5.view (Rect.unit (s := S2304x128) ![1792, 0] S256x128.size inb_S2304x128_S256x128_1792_0).toLoadRect (harg5.unread x4))
  | ⟨8, _⟩ => (View.readAt (Elt Ideal) arg5.view (Rect.unit (s := S2304x128) ![2048, 0] S256x128.size inb_S2304x128_S256x128_2048_0).toLoadRect (harg5.unread x4))

theorem catWin_apply (k : Fin 9) (i j : Fin 32) (ch : Fin 256) :
    catWin c arg1 harg1 arg2 harg2 arg3 harg3 arg4 harg4 arg14 arg15 x0 x1 x2 x3 k (ix3 i j ch) = (Cert.Spec.pad (Cert.Spec.catImg (Cert.Spec.up (fun a b ci => x0 (ix4 0 a b ci)) (fun ci col => x2 (ix2 ci col)) (fun col => x3 (ix2 0 col))) (fun a b ch => x1 (ix4 0 a b ch)))) (Cert.Spec.win i (Cert.Spec.tapRow k)) (Cert.Spec.win j (Cert.Spec.tapCol k)) ch := by
  have hi := i.isLt; have hj := j.isLt
  match k with
  | ⟨0, _⟩ =>
    show (Cert.KernelIdeal.Body.kernelRun.sl.v46 (F := Ideal) c arg1 harg1 arg2 harg2 arg3 harg3 arg4 harg4 arg14 arg15 x0 x1 x2 x3) (ix3 i j ch) = _
    unfold Cert.KernelIdeal.Body.kernelRun.sl.v46
    refine (window_apply (C := 256) arg15.view _ 0 0 inb_S34x34x256_S32x32x256_0_0_0 i j ch).trans ?_
    rw [cat_stored]
    have e1 : (⟨0 + i.val, by omega⟩ : Fin 34) = Cert.Spec.win i (Cert.Spec.tapRow ⟨0, by decide⟩) := Fin.ext (by show 0 + i.val = i.val + 0; omega)
    have e2 : (⟨0 + j.val, by omega⟩ : Fin 34) = Cert.Spec.win j (Cert.Spec.tapCol ⟨0, by decide⟩) := Fin.ext (by show 0 + j.val = j.val + 0; omega)
    rw [e1, e2]
  | ⟨1, _⟩ =>
    show (Cert.KernelIdeal.Body.kernelRun.sl.v52 (F := Ideal) c arg1 harg1 arg2 harg2 arg3 harg3 arg4 harg4 arg14 arg15 x0 x1 x2 x3) (ix3 i j ch) = _
    unfold Cert.KernelIdeal.Body.kernelRun.sl.v52
    refine (window_apply (C := 256) arg15.view _ 0 1 inb_S34x34x256_S32x32x256_0_1_0 i j ch).trans ?_
    rw [cat_stored]
    have e1 : (⟨0 + i.val, by omega⟩ : Fin 34) = Cert.Spec.win i (Cert.Spec.tapRow ⟨1, by decide⟩) := Fin.ext (by show 0 + i.val = i.val + 0; omega)
    have e2 : (⟨1 + j.val, by omega⟩ : Fin 34) = Cert.Spec.win j (Cert.Spec.tapCol ⟨1, by decide⟩) := Fin.ext (by show 1 + j.val = j.val + 1; omega)
    rw [e1, e2]
  | ⟨2, _⟩ =>
    show (Cert.KernelIdeal.Body.kernelRun.sl.v58 (F := Ideal) c arg1 harg1 arg2 harg2 arg3 harg3 arg4 harg4 arg14 arg15 x0 x1 x2 x3) (ix3 i j ch) = _
    unfold Cert.KernelIdeal.Body.kernelRun.sl.v58
    refine (window_apply (C := 256) arg15.view _ 0 2 inb_S34x34x256_S32x32x256_0_2_0 i j ch).trans ?_
    rw [cat_stored]
    have e1 : (⟨0 + i.val, by omega⟩ : Fin 34) = Cert.Spec.win i (Cert.Spec.tapRow ⟨2, by decide⟩) := Fin.ext (by show 0 + i.val = i.val + 0; omega)
    have e2 : (⟨2 + j.val, by omega⟩ : Fin 34) = Cert.Spec.win j (Cert.Spec.tapCol ⟨2, by decide⟩) := Fin.ext (by show 2 + j.val = j.val + 2; omega)
    rw [e1, e2]
  | ⟨3, _⟩ =>
    show (Cert.KernelIdeal.Body.kernelRun.sl.v64 (F := Ideal) c arg1 harg1 arg2 harg2 arg3 harg3 arg4 harg4 arg14 arg15 x0 x1 x2 x3) (ix3 i j ch) = _
    unfold Cert.KernelIdeal.Body.kernelRun.sl.v64
    refine (window_apply (C := 256) arg15.view _ 1 0 inb_S34x34x256_S32x32x256_1_0_0 i j ch).trans ?_
    rw [cat_stored]
    have e1 : (⟨1 + i.val, by omega⟩ : Fin 34) = Cert.Spec.win i (Cert.Spec.tapRow ⟨3, by decide⟩) := Fin.ext (by show 1 + i.val = i.val + 1; omega)
    have e2 : (⟨0 + j.val, by omega⟩ : Fin 34) = Cert.Spec.win j (Cert.Spec.tapCol ⟨3, by decide⟩) := Fin.ext (by show 0 + j.val = j.val + 0; omega)
    rw [e1, e2]
  | ⟨4, _⟩ =>
    show (Cert.KernelIdeal.Body.kernelRun.sl.v70 (F := Ideal) c arg1 harg1 arg2 harg2 arg3 harg3 arg4 harg4 arg14 arg15 x0 x1 x2 x3) (ix3 i j ch) = _
    unfold Cert.KernelIdeal.Body.kernelRun.sl.v70
    refine (window_apply (C := 256) arg15.view _ 1 1 inb_S34x34x256_S32x32x256_1_1_0 i j ch).trans ?_
    rw [cat_stored]
    have e1 : (⟨1 + i.val, by omega⟩ : Fin 34) = Cert.Spec.win i (Cert.Spec.tapRow ⟨4, by decide⟩) := Fin.ext (by show 1 + i.val = i.val + 1; omega)
    have e2 : (⟨1 + j.val, by omega⟩ : Fin 34) = Cert.Spec.win j (Cert.Spec.tapCol ⟨4, by decide⟩) := Fin.ext (by show 1 + j.val = j.val + 1; omega)
    rw [e1, e2]
  | ⟨5, _⟩ =>
    show (Cert.KernelIdeal.Body.kernelRun.sl.v76 (F := Ideal) c arg1 harg1 arg2 harg2 arg3 harg3 arg4 harg4 arg14 arg15 x0 x1 x2 x3) (ix3 i j ch) = _
    unfold Cert.KernelIdeal.Body.kernelRun.sl.v76
    refine (window_apply (C := 256) arg15.view _ 1 2 inb_S34x34x256_S32x32x256_1_2_0 i j ch).trans ?_
    rw [cat_stored]
    have e1 : (⟨1 + i.val, by omega⟩ : Fin 34) = Cert.Spec.win i (Cert.Spec.tapRow ⟨5, by decide⟩) := Fin.ext (by show 1 + i.val = i.val + 1; omega)
    have e2 : (⟨2 + j.val, by omega⟩ : Fin 34) = Cert.Spec.win j (Cert.Spec.tapCol ⟨5, by decide⟩) := Fin.ext (by show 2 + j.val = j.val + 2; omega)
    rw [e1, e2]
  | ⟨6, _⟩ =>
    show (Cert.KernelIdeal.Body.kernelRun.sl.v82 (F := Ideal) c arg1 harg1 arg2 harg2 arg3 harg3 arg4 harg4 arg14 arg15 x0 x1 x2 x3) (ix3 i j ch) = _
    unfold Cert.KernelIdeal.Body.kernelRun.sl.v82
    refine (window_apply (C := 256) arg15.view _ 2 0 inb_S34x34x256_S32x32x256_2_0_0 i j ch).trans ?_
    rw [cat_stored]
    have e1 : (⟨2 + i.val, by omega⟩ : Fin 34) = Cert.Spec.win i (Cert.Spec.tapRow ⟨6, by decide⟩) := Fin.ext (by show 2 + i.val = i.val + 2; omega)
    have e2 : (⟨0 + j.val, by omega⟩ : Fin 34) = Cert.Spec.win j (Cert.Spec.tapCol ⟨6, by decide⟩) := Fin.ext (by show 0 + j.val = j.val + 0; omega)
    rw [e1, e2]
  | ⟨7, _⟩ =>
    show (Cert.KernelIdeal.Body.kernelRun.sl.v88 (F := Ideal) c arg1 harg1 arg2 harg2 arg3 harg3 arg4 harg4 arg14 arg15 x0 x1 x2 x3) (ix3 i j ch) = _
    unfold Cert.KernelIdeal.Body.kernelRun.sl.v88
    refine (window_apply (C := 256) arg15.view _ 2 1 inb_S34x34x256_S32x32x256_2_1_0 i j ch).trans ?_
    rw [cat_stored]
    have e1 : (⟨2 + i.val, by omega⟩ : Fin 34) = Cert.Spec.win i (Cert.Spec.tapRow ⟨7, by decide⟩) := Fin.ext (by show 2 + i.val = i.val + 2; omega)
    have e2 : (⟨1 + j.val, by omega⟩ : Fin 34) = Cert.Spec.win j (Cert.Spec.tapCol ⟨7, by decide⟩) := Fin.ext (by show 1 + j.val = j.val + 1; omega)
    rw [e1, e2]
  | ⟨8, _⟩ =>
    show (Cert.KernelIdeal.Body.kernelRun.sl.v94 (F := Ideal) c arg1 harg1 arg2 harg2 arg3 harg3 arg4 harg4 arg14 arg15 x0 x1 x2 x3) (ix3 i j ch) = _
    unfold Cert.KernelIdeal.Body.kernelRun.sl.v94
    refine (window_apply (C := 256) arg15.view _ 2 2 inb_S34x34x256_S32x32x256_2_2_0 i j ch).trans ?_
    rw [cat_stored]
    have e1 : (⟨2 + i.val, by omega⟩ : Fin 34) = Cert.Spec.win i (Cert.Spec.tapRow ⟨8, by decide⟩) := Fin.ext (by show 2 + i.val = i.val + 2; omega)
    have e2 : (⟨2 + j.val, by omega⟩ : Fin 34) = Cert.Spec.win j (Cert.Spec.tapCol ⟨8, by decide⟩) := Fin.ext (by show 2 + j.val = j.val + 2; omega)
    rw [e1, e2]

theorem wucSlab_apply (k : Fin 9) (ch : Fin 256) (o : Fin 128) :
    wucSlab arg5 harg5 x4 k (ix2 ch o) = (fun q o => x4 (ix2 q o)) (Cert.Lib.TapSum.flat k ch) o := by
  have hch := ch.isLt
  match k with
  | ⟨0, _⟩ =>
    show (View.readAt (Elt Ideal) arg5.view (Rect.unit (s := S2304x128) ![0, 0] S256x128.size inb_S2304x128_S256x128_0_0).toLoadRect (harg5.unread x4)) (ix2 ch o) = _
    refine (slab_apply (R := 2304) (C := 256) harg5 x4 0 inb_S2304x128_S256x128_0_0 ch o).trans ?_
    show x4 (ix2 _ o) = x4 (ix2 _ o)
    congr 2
    exact Fin.ext (by show 0 + ch.val = ch.val + 256 * 0; omega)
  | ⟨1, _⟩ =>
    show (View.readAt (Elt Ideal) arg5.view (Rect.unit (s := S2304x128) ![256, 0] S256x128.size inb_S2304x128_S256x128_256_0).toLoadRect (harg5.unread x4)) (ix2 ch o) = _
    refine (slab_apply (R := 2304) (C := 256) harg5 x4 256 inb_S2304x128_S256x128_256_0 ch o).trans ?_
    show x4 (ix2 _ o) = x4 (ix2 _ o)
    congr 2
    exact Fin.ext (by show 256 + ch.val = ch.val + 256 * 1; omega)
  | ⟨2, _⟩ =>
    show (View.readAt (Elt Ideal) arg5.view (Rect.unit (s := S2304x128) ![512, 0] S256x128.size inb_S2304x128_S256x128_512_0).toLoadRect (harg5.unread x4)) (ix2 ch o) = _
    refine (slab_apply (R := 2304) (C := 256) harg5 x4 512 inb_S2304x128_S256x128_512_0 ch o).trans ?_
    show x4 (ix2 _ o) = x4 (ix2 _ o)
    congr 2
    exact Fin.ext (by show 512 + ch.val = ch.val + 256 * 2; omega)
  | ⟨3, _⟩ =>
    show (View.readAt (Elt Ideal) arg5.view (Rect.unit (s := S2304x128) ![768, 0] S256x128.size inb_S2304x128_S256x128_768_0).toLoadRect (harg5.unread x4)) (ix2 ch o) = _
    refine (slab_apply (R := 2304) (C := 256) harg5 x4 768 inb_S2304x128_S256x128_768_0 ch o).trans ?_
    show x4 (ix2 _ o) = x4 (ix2 _ o)
    congr 2
    exact Fin.ext (by show 768 + ch.val = ch.val + 256 * 3; omega)
  | ⟨4, _⟩ =>
    show (View.readAt (Elt Ideal) arg5.view (Rect.unit (s := S2304x128) ![1024, 0] S256x128.size inb_S2304x128_S256x128_1024_0).toLoadRect (harg5.unread x4)) (ix2 ch o) = _
    refine (slab_apply (R := 2304) (C := 256) harg5 x4 1024 inb_S2304x128_S256x128_1024_0 ch o).trans ?_
    show x4 (ix2 _ o) = x4 (ix2 _ o)
    congr 2
    exact Fin.ext (by show 1024 + ch.val = ch.val + 256 * 4; omega)
  | ⟨5, _⟩ =>
    show (View.readAt (Elt Ideal) arg5.view (Rect.unit (s := S2304x128) ![1280, 0] S256x128.size inb_S2304x128_S256x128_1280_0).toLoadRect (harg5.unread x4)) (ix2 ch o) = _
    refine (slab_apply (R := 2304) (C := 256) harg5 x4 1280 inb_S2304x128_S256x128_1280_0 ch o).trans ?_
    show x4 (ix2 _ o) = x4 (ix2 _ o)
    congr 2
    exact Fin.ext (by show 1280 + ch.val = ch.val + 256 * 5; omega)
  | ⟨6, _⟩ =>
    show (View.readAt (Elt Ideal) arg5.view (Rect.unit (s := S2304x128) ![1536, 0] S256x128.size inb_S2304x128_S256x128_1536_0).toLoadRect (harg5.unread x4)) (ix2 ch o) = _
    refine (slab_apply (R := 2304) (C := 256) harg5 x4 1536 inb_S2304x128_S256x128_1536_0 ch o).trans ?_
    show x4 (ix2 _ o) = x4 (ix2 _ o)
    congr 2
    exact Fin.ext (by show 1536 + ch.val = ch.val + 256 * 6; omega)
  | ⟨7, _⟩ =>
    show (View.readAt (Elt Ideal) arg5.view (Rect.unit (s := S2304x128) ![1792, 0] S256x128.size inb_S2304x128_S256x128_1792_0).toLoadRect (harg5.unread x4)) (ix2 ch o) = _
    refine (slab_apply (R := 2304) (C := 256) harg5 x4 1792 inb_S2304x128_S256x128_1792_0 ch o).trans ?_
    show x4 (ix2 _ o) = x4 (ix2 _ o)
    congr 2
    exact Fin.ext (by show 1792 + ch.val = ch.val + 256 * 7; omega)
  | ⟨8, _⟩ =>
    show (View.readAt (Elt Ideal) arg5.view (Rect.unit (s := S2304x128) ![2048, 0] S256x128.size inb_S2304x128_S256x128_2048_0).toLoadRect (harg5.unread x4)) (ix2 ch o) = _
    refine (slab_apply (R := 2304) (C := 256) harg5 x4 2048 inb_S2304x128_S256x128_2048_0 ch o).trans ?_
    show x4 (ix2 _ o) = x4 (ix2 _ o)
    congr 2
    exact Fin.ext (by show 2048 + ch.val = ch.val + 256 * 8; omega)

/-- The first convolution at position p, channel o. -/
theorem y_eq (p : Fin 1024) (o : Fin 128) :
    k0_pay11 (F := Ideal) (Cert.KernelIdeal.Body.kernelRun.sl.r_2 (F := Ideal) c arg1 harg1 arg2 harg2 arg3 harg3 arg4 harg4 arg5 harg5 arg6 harg6 arg14 arg15 x0 x1 x2 x3 x4 x5) (Cert.KernelIdeal.Body.kernelRun.sl.v88 (F := Ideal) c arg1 harg1 arg2 harg2 arg3 harg3 arg4 harg4 arg14 arg15 x0 x1 x2 x3) (View.readAt (Elt Ideal) arg5.view (Rect.unit (s := S2304x128) ![1792, 0] S256x128.size inb_S2304x128_S256x128_1792_0).toLoadRect (harg5.unread x4)) (Cert.KernelIdeal.Body.kernelRun.sl.v94 (F := Ideal) c arg1 harg1 arg2 harg2 arg3 harg3 arg4 harg4 arg14 arg15 x0 x1 x2 x3) (View.readAt (Elt Ideal) arg5.view (Rect.unit (s := S2304x128) ![2048, 0] S256x128.size inb_S2304x128_S256x128_2048_0).toLoadRect (harg5.unread x4)) (ix2 p o)
      = Cert.Spec.yK (Cert.Spec.up (fun a b ci => x0 (ix4 0 a b ci)) (fun ci col => x2 (ix2 ci col)) (fun col => x3 (ix2 0 col))) (fun a b ch => x1 (ix4 0 a b ch)) (fun q o => x4 (ix2 q o)) (fun o => x5 (ix2 0 o)) (rowOf p) (colOf p) o := by
  unfold Cert.KernelIdeal.Body.kernelRun.sl.r_2 Cert.KernelIdeal.Body.kernelRun.sl.r_1
  have hb : (fun o => (View.readAt (Elt Ideal) arg6.view (Rect.unit (s := S1x128) ![0, 0] S1x128.size inb_S1x128_S1x128_0_0).toLoadRect (harg6.unread x5)) (ix2 0 o)) = (fun o => x5 (ix2 0 o)) := by rw [readAt_whole harg6 x5 hz2]
  unfold Cert.Spec.yK
  rw [← hb]
  exact conv1_eq (Cert.Spec.pad (Cert.Spec.catImg (Cert.Spec.up (fun a b ci => x0 (ix4 0 a b ci)) (fun ci col => x2 (ix2 ci col)) (fun col => x3 (ix2 0 col))) (fun a b ch => x1 (ix4 0 a b ch)))) (fun q o => x4 (ix2 q o)) (View.readAt (Elt Ideal) arg6.view (Rect.unit (s := S1x128) ![0, 0] S1x128.size inb_S1x128_S1x128_0_0).toLoadRect (harg6.unread x5)) (catWin c arg1 harg1 arg2 harg2 arg3 harg3 arg4 harg4 arg14 arg15 x0 x1 x2 x3) (wucSlab arg5 harg5 x4)
    (catWin_apply c arg1 harg1 arg2 harg2 arg3 harg3 arg4 harg4 arg14 arg15 x0 x1 x2 x3) (wucSlab_apply arg5 harg5 x4) p o
end

end Cert.KernelIdeal.Value

end
-- ==== Proof.KBlockPad.lean ====
/-
  The padded activation image.

  The 34 x 34 x 128 scratch image is filled with zeros; a 32 x 32 x 128 image is stored into rows 1..32, columns 1..32 as
  a read-modify-write of whole rows, and later a second image is stored over the same interior. Read back at (a, b, ch)
  after either store it is the stored image at (a-1, b-1) inside the border and 0 on it: the second store overwrites the
  whole interior, and off the interior both stores leave what the zero fill put there.
-/
import proofs.«131778_g2000005761611187_pallasbulk_1314_2_alg».proof.Proof.KBlockCat

set_option maxRecDepth 16384

noncomputable section

namespace Cert.KernelIdeal.Value

open Cert.KernelIdeal Cert.KernelIdeal.Gen
open Idealize.ShloMosaic Idealize.ShloMosaic.ValueIdx

open Idealize.ShloMosaic.View Cert.Lib.PadRmw Cert.Lib.CanonRmw

/-- The zero fill of the activation image. -/
theorem pay3_apply (y : S34x34x128.Idx) : k0_pay3 (F := Ideal) y = 0 := by
  unfold k0_pay3
  show shapeCast S34x34x128 (broadcast S34x34x128 (Scalar.ofBits (F := Ideal) .bf16 0x0000#16)) shapeCasts_S34x34x128_S34x34x128 y = 0
  rw [shapeCast_self]
  exact ofBits_zero_bf16

variable {sig' : RefSig} {κ : Kind} {sp : Space}

/-- The pieces after the zero fill, -/
abbrev tpL1 : List (Piece (Elt Ideal) S34x34x128 .bf16) := [⟨Rect.unit (s := S34x34x128) ![0, 0, 0] S34x34x128.size inb_S34x34x128_S34x34x128_0_0_0, k0_pay3 (F := Ideal)⟩]
/-- after the first image's store, -/
abbrev tpL2 (v : View sig' κ sp S34x34x128 .bf16) (T : FVec Ideal S32x32x128 .bf16) : List (Piece (Elt Ideal) S34x34x128 .bf16) :=
  ⟨Rect.unit (s := S34x34x128) ![1, 0, 0] S32x34x128.size inb_S34x34x128_S32x34x128_1_0_0, updateSlice (v.readCov tpL1 (Rect.unit (s := S34x34x128) ![1, 0, 0] S32x34x128.size inb_S34x34x128_S32x34x128_1_0_0).toLoadRect) T ![0, 1, 0] slices_S32x34x128_S32x32x128_0_1_0⟩ :: tpL1
/-- and after the second image's store over the same interior. -/
abbrev tpL3 (v : View sig' κ sp S34x34x128 .bf16) (T H : FVec Ideal S32x32x128 .bf16) : List (Piece (Elt Ideal) S34x34x128 .bf16) :=
  ⟨Rect.unit (s := S34x34x128) ![1, 0, 0] S32x34x128.size inb_S34x34x128_S32x34x128_1_0_0, updateSlice (v.readCov (tpL2 v T) (Rect.unit (s := S34x34x128) ![1, 0, 0] S32x34x128.size inb_S34x34x128_S32x34x128_1_0_0).toLoadRect) H ![0, 1, 0] slices_S32x34x128_S32x32x128_0_1_0⟩ :: tpL2 v T

set_option maxHeartbeats 1000000 in
/-- The activation image after the zero fill and the first interior store, at (a, b, ch). -/
theorem tp2_apply (v : View sig' κ sp S34x34x128 .bf16) (T : FVec Ideal S32x32x128 .bf16) (a b : Fin 34) (ch : Fin 128) :
    canon (Val := Elt Ideal) (s := S34x34x128) (e := .bf16) (tpL2 v T) (ix3 a b ch)
      = Cert.Spec.pad (fun i j c => T (ix3 i j c)) a b ch := by
  have hch := ch.isLt
  refine (rmw_step (C := 128) (Val := Elt Ideal) (e := .bf16) v tpL1 0 inb_S34x34x128_S32x34x128_1_0_0 slices_S32x34x128_S32x32x128_0_1_0 T a b ch).trans ?_
  unfold Cert.Spec.pad
  by_cases h2 : 1 ≤ a.val ∧ a.val ≤ 32 ∧ 1 ≤ b.val ∧ b.val ≤ 32 ∧ 0 ≤ ch.val ∧ ch.val < 0 + 128
  · rw [dif_pos h2, dif_pos ⟨h2.1, h2.2.1, h2.2.2.1, h2.2.2.2.1⟩]
    rfl
  · rw [dif_neg h2, canon_unit_zero hz3, pay3_apply]
    by_cases hi : 1 ≤ a.val ∧ a.val ≤ 32 ∧ 1 ≤ b.val ∧ b.val ≤ 32
    · exfalso; omega
    · rw [dif_neg hi]

set_option maxHeartbeats 1000000 in
/-- The activation image after the second store over the same interior, at (a, b, ch). -/
theorem tp3_apply (v : View sig' κ sp S34x34x128 .bf16) (T H : FVec Ideal S32x32x128 .bf16) (a b : Fin 34) (ch : Fin 128) :
    canon (Val := Elt Ideal) (s := S34x34x128) (e := .bf16) (tpL3 v T H) (ix3 a b ch)
      = Cert.Spec.pad (fun i j c => H (ix3 i j c)) a b ch := by
  have hch := ch.isLt
  refine (rmw_step (C := 128) (Val := Elt Ideal) (e := .bf16) v (tpL2 v T) 0 inb_S34x34x128_S32x34x128_1_0_0 slices_S32x34x128_S32x32x128_0_1_0 H a b ch).trans ?_
  by_cases h2 : 1 ≤ a.val ∧ a.val ≤ 32 ∧ 1 ≤ b.val ∧ b.val ≤ 32 ∧ 0 ≤ ch.val ∧ ch.val < 0 + 128
  · unfold Cert.Spec.pad
    rw [dif_pos h2, dif_pos ⟨h2.1, h2.2.1, h2.2.2.1, h2.2.2.2.1⟩]
    rfl
  · rw [dif_neg h2, tp2_apply]
    unfold Cert.Spec.pad
    by_cases hi : 1 ≤ a.val ∧ a.val ≤ 32 ∧ 1 ≤ b.val ∧ b.val ≤ 32
    · exfalso; omega
    · rw [dif_neg hi, dif_neg hi]

end Cert.KernelIdeal.Value

end
-- ==== Proof.KBlockConv2.lean ====
/-
  The second and third convolutions assembled.

  Nine windows of a padded 128-channel image P (window k at (i, j, ch) is P at (i + k / 3, j + k % 3, ch)) and nine slabs
  of the weights (slab k at (ch, o) is row k * 128 + ch) go through the body's groups of taps. The second convolution adds
  the bias and taps 0–2, then taps 3–7, then tap 8 and applies the rectifier, re-laid as a 32 x 32 image: at (i, j, o) it
  is the rectifier of `Spec.convK`. The third adds the bias and taps 0–1, then taps 2–6, then taps 7–8, and adds the
  result, re-laid as an image, to the first feature map y: at (i, j, o) it is y plus `Spec.convK`.

  The last group of each convolution is re-laid from the 1024 flattened positions to the 32 x 32 image; position p is
  row p / 32, column p % 32. The statements take the position p of (i, j) with its row and column, and the three groups
  not read elsewhere (the rectified last tap of the second convolution, the middle and last groups of the third) as
  facts about the body's terms at that position.
-/
import proofs.«131778_g2000005761611187_pallasbulk_1314_2_alg».proof.Proof.Gen.KernelIdeal.Skeleton
import proofs.«131778_g2000005761611187_pallasbulk_1314_2_alg».proof.Proof.Spec
import Idealize.ShloMosaic.Lib.Pipeline.Value
import Idealize.ShloMosaic.Lib.ValueIdx
import proofs.«131778_g2000005761611187_pallasbulk_1314_2_alg».proof.Proof.KBlockPays
import proofs.«131778_g2000005761611187_pallasbulk_1314_2_alg».proof.Proof.LibPadWindow

set_option maxRecDepth 16384

noncomputable section

namespace Cert.KernelIdeal.Value

open Cert.KernelIdeal Cert.KernelIdeal.Gen
open Idealize.ShloMosaic Idealize.ShloMosaic.ValueIdx Idealize.ShloMosaic.View

open scoped BigOperators
open Cert.Lib.PadWindow

/-- The second convolution and its rectifier: bias, then taps 0–2, 3–7, 8. -/
theorem conv2_eq (P : Fin 34 → Fin 34 → Fin 128 → Cert.Spec.E) (Wt : Fin (9 * 128) → Fin 128 → Cert.Spec.E)
    (b : Vec Ideal S1x128 .f32) (w : Fin 9 → Vec Ideal S32x32x128 .bf16) (s : Fin 9 → Vec Ideal S128x128 .bf16)
    (hw : ∀ k i j ch, w k (ix3 i j ch) = P (Cert.Spec.win i (Cert.Spec.tapRow k)) (Cert.Spec.win j (Cert.Spec.tapCol k)) ch)
    (hs : ∀ k ch o, s k (ix2 ch o) = Wt (Cert.Lib.TapSum.flat k ch) o) (i j : Fin 32) (o : Fin 128)
    (p : Fin 1024) (hr : rowOf p = i) (hc : colOf p = j)
    (h17 : ∀ (acc : FVec Ideal S1024x128 .f32) (w8 : Vec Ideal S32x32x128 .bf16) (s8 : Vec Ideal S128x128 .bf16),
      k0_pay17 (F := Ideal) acc w8 s8 (ix3 i j o)
        = Cert.Spec.lrelu (acc (ix2 p o) + ∑ ch : Fin 128, w8 (ix3 (rowOf p) (colOf p) ch) * s8 (ix2 ch o))) :
    k0_pay17 (F := Ideal) (k0_pay16 (F := Ideal) (k0_pay15 (F := Ideal) b (w 0) (s 0) (w 1) (s 1) (w 2) (s 2)) (w 3) (s 3) (w 4) (s 4) (w 5) (s 5) (w 6) (s 6) (w 7) (s 7)) (w 8) (s 8) (ix3 i j o)
      = Cert.Spec.lrelu (Cert.Spec.convK P Wt (fun o => b (ix2 0 o)) i j o) := by
  rw [h17, pay16_apply, pay15_apply, hr, hc]
  simp only [hw, hs]
  unfold Cert.Spec.convK
  exact congrArg Cert.Spec.lrelu (nested9 (b (ix2 0 o)) (fun k => ∑ ch : Fin 128, P (Cert.Spec.win i (Cert.Spec.tapRow k)) (Cert.Spec.win j (Cert.Spec.tapCol k)) ch * Wt (Cert.Lib.TapSum.flat k ch) o))

/-- The third convolution added to the first feature map: bias, then taps 0–1, 2–6, 7–8. -/
theorem conv3_eq (P : Fin 34 → Fin 34 → Fin 128 → Cert.Spec.E) (Wt : Fin (9 * 128) → Fin 128 → Cert.Spec.E)
    (b : Vec Ideal S1x128 .f32) (w : Fin 9 → Vec Ideal S32x32x128 .bf16) (s : Fin 9 → Vec Ideal S128x128 .bf16)
    (hw : ∀ k i j ch, w k (ix3 i j ch) = P (Cert.Spec.win i (Cert.Spec.tapRow k)) (Cert.Spec.win j (Cert.Spec.tapCol k)) ch)
    (hs : ∀ k ch o, s k (ix2 ch o) = Wt (Cert.Lib.TapSum.flat k ch) o) (i j : Fin 32) (o : Fin 128)
    (y : Vec Ideal S1x32x32x128 .f32)
    (p : Fin 1024) (hr : rowOf p = i) (hc : colOf p = j)
    (h20 : ∀ (acc : FVec Ideal S1024x128 .f32) (w2 : Vec Ideal S32x32x128 .bf16) (s2 : Vec Ideal S128x128 .bf16)
        (w3 : Vec Ideal S32x32x128 .bf16) (s3 : Vec Ideal S128x128 .bf16) (w4 : Vec Ideal S32x32x128 .bf16) (s4 : Vec Ideal S128x128 .bf16)
        (w5 : Vec Ideal S32x32x128 .bf16) (s5 : Vec Ideal S128x128 .bf16) (w6 : Vec Ideal S32x32x128 .bf16) (s6 : Vec Ideal S128x128 .bf16),
      k0_pay20 (F := Ideal) acc (k0_pay19 (F := Ideal) w2) s2 w3 s3 w4 s4 w5 s5 w6 s6 (ix2 p o)
        = acc (ix2 p o)
            + (∑ ch : Fin 128, w2 (ix3 (rowOf p) (colOf p) ch) * s2 (ix2 ch o))
            + (∑ ch : Fin 128, w3 (ix3 (rowOf p) (colOf p) ch) * s3 (ix2 ch o))
            + (∑ ch : Fin 128, w4 (ix3 (rowOf p) (colOf p) ch) * s4 (ix2 ch o))
            + (∑ ch : Fin 128, w5 (ix3 (rowOf p) (colOf p) ch) * s5 (ix2 ch o))
            + (∑ ch : Fin 128, w6 (ix3 (rowOf p) (colOf p) ch) * s6 (ix2 ch o)))
    (h1 : ∀ (acc : FVec Ideal S1024x128 .f32) (w7 : Vec Ideal S32x32x128 .bf16) (s7 : Vec Ideal S128x128 .bf16)
        (w8 : Vec Ideal S32x32x128 .bf16) (s8 : Vec Ideal S128x128 .bf16) (y : Vec Ideal S1x32x32x128 .f32),
      k0_pay1 (F := Ideal) acc (k0_pay21 (F := Ideal) w7) s7 w8 s8 y (ix4 0 i j o)
        = y (ix4 0 i j o)
            + (acc (ix2 p o)
                + (∑ ch : Fin 128, w7 (ix3 (rowOf p) (colOf p) ch) * s7 (ix2 ch o))
                + (∑ ch : Fin 128, w8 (ix3 (rowOf p) (colOf p) ch) * s8 (ix2 ch o)))) :
    k0_pay1 (F := Ideal) (k0_pay20 (F := Ideal) (k0_pay18 (F := Ideal) b (w 0) (s 0) (w 1) (s 1)) (k0_pay19 (F := Ideal) (w 2)) (s 2) (w 3) (s 3) (w 4) (s 4) (w 5) (s 5) (w 6) (s 6)) (k0_pay21 (F := Ideal) (w 7)) (s 7) (w 8) (s 8) y (ix4 0 i j o)
      = y (ix4 0 i j o) + Cert.Spec.convK P Wt (fun o => b (ix2 0 o)) i j o := by
  rw [h1, h20, pay18_apply, hr, hc]
  simp only [hw, hs]
  unfold Cert.Spec.convK
  exact congrArg (y (ix4 0 i j o) + ·) (nested9 (b (ix2 0 o)) (fun k => ∑ ch : Fin 128, P (Cert.Spec.win i (Cert.Spec.tapRow k)) (Cert.Spec.win j (Cert.Spec.tapCol k)) ch * Wt (Cert.Lib.TapSum.flat k ch) o))

end Cert.KernelIdeal.Value

end
-- ==== Proof.KBlockPays2a.lean ====
/-
  The body's row-wise steps over the extended reals, at an index.

  A [1024, 128] value holds one row per position p = 32 * i + j of the 32 x 32 image and one lane per output channel.
  Stored as a [32, 32, 128] image its entry (i, j, o) is the value at (32 * i + j, o); as a [1, 32, 32, 128] block the
  same behind a leading unit axis. The normalisation takes each row's mean (the lane sum over 128) as a [1024, 1] column,
  subtracts it along the row, takes the mean of the squares the same way, adds 1e-5, and multiplies by the reciprocal
  square root; then the scale row multiplies and the shift row is added lane by lane.
-/
import proofs.«131778_g2000005761611187_pallasbulk_1314_2_alg».proof.Proof.Gen.KernelIdeal.Skeleton
import proofs.«131778_g2000005761611187_pallasbulk_1314_2_alg».proof.Proof.Spec
import proofs.«131778_g2000005761611187_pallasbulk_1314_2_alg».proof.Proof.KBlockTaps
import Idealize.ShloMosaic.Lib.Pipeline.Value
import Idealize.ShloMosaic.Lib.ValueIdx
import Idealize.ShloMosaic.PureOps.Ideal.Laws
set_option maxRecDepth 16384

noncomputable section

namespace Cert.KernelIdeal.Value

open Cert.KernelIdeal Cert.KernelIdeal.Gen
open Idealize.ShloMosaic Idealize.ShloMosaic.ValueIdx

open scoped BigOperators

/-- Row i, column j of the 32 x 32 image is position 32 * i + j of its flattening. -/
abbrev posOf (i j : Fin 32) : Fin 1024 := ⟨i.val * 32 + j.val, by have := i.isLt; have := j.isLt; omega⟩

namespace Rows

variable {α : Type}

/-- A [1024, 128] value viewed as a [32, 32, 128] image, at (i, j, o). -/
theorem image_apply (v : S1024x128.Idx → α) (i j : Fin 32) (o : Fin 128) :
    shapeCast S32x32x128 v shapeCasts_S1024x128_S32x32x128 (ix3 i j o) = v (ix2 (posOf i j) o) :=
  shapeCast_apply v _ (ix3 i j o) (ix2 (posOf i j) o) (by
    rw [Shape.rowMajor_val_two, Shape.rowMajor_val_three]
    show (i.val * 32 + j.val) * 128 + o.val = (i.val * 32 + j.val) * 128 + o.val
    rfl)

/-- A [32, 32, 128] image behind a leading unit axis, at (0, i, j, o). -/
theorem block_apply (v : S32x32x128.Idx → α) (i j : Fin 32) (o : Fin 128) :
    shapeCast S1x32x32x128 v shapeCasts_S32x32x128_S1x32x32x128 (ix4 0 i j o) = v (ix3 i j o) :=
  shapeCast_apply v _ (ix4 0 i j o) (ix3 i j o) (by
    rw [Shape.rowMajor_val_three, Shape.rowMajor_val_four]
    show (i.val * 32 + j.val) * 128 + o.val = ((0 * 32 + i.val) * 32 + j.val) * 128 + o.val
    omega)

/-- A [1, 32, 32, 128] block with its unit axis dropped, at (i, j, o). -/
theorem unblock_apply (v : S1x32x32x128.Idx → α) (i j : Fin 32) (o : Fin 128) :
    shapeCast S32x32x128 v shapeCasts_S1x32x32x128_S32x32x128 (ix3 i j o) = v (ix4 0 i j o) :=
  shapeCast_apply v _ (ix3 i j o) (ix4 0 i j o) (by
    rw [Shape.rowMajor_val_three, Shape.rowMajor_val_four]
    show ((0 * 32 + i.val) * 32 + j.val) * 128 + o.val = (i.val * 32 + j.val) * 128 + o.val
    omega)

/-- A [1, 128] row broadcast down the 1024 rows, at (p, o): the row's entry o. -/
theorem row_apply (b : S1x128.Idx → α) (p : Fin 1024) (o : Fin 128) :
    broadcastTo S1024x128 (shapeCast S1x128 b shapeCasts_S1x128_S1x128) broadcasts_S1x128_S1024x128 (ix2 p o) = b (ix2 0 o) := by
  rw [shapeCast_self]
  exact broadcastTo_apply b _ (ix2 p o) (ix2 0 o) (fun a => by
    match a with
    | ⟨0, _⟩ => rfl
    | ⟨1, _⟩ => rfl)

/-- A [1024, 1] column broadcast along the 128 lanes, at (p, o): the column's entry p. -/
theorem col_apply (v : S1024x1.Idx → α) (p : Fin 1024) (o : Fin 128) :
    broadcastTo S1024x128 v broadcasts_S1024x1_S1024x128 (ix2 p o) = v (ix2 p 0) :=
  broadcastTo_apply v _ (ix2 p o) (ix2 p 0) (fun a => by
    match a with
    | ⟨0, _⟩ => rfl
    | ⟨1, _⟩ => rfl)

/-- The lane sum of a [1024, 128] value as a [1024, 1] column, at row p: the sum over the row's 128 entries. -/
theorem rowSum_apply (Z : FVec Ideal S1024x128 .f32) (p : Fin 1024) :
    shapeCast S1024x1 (multiReduction (F := Ideal) .add [1] S1024 Z 0x00000000#32 reduces_S1024x128_S1024 (.inl rfl) rfl) shapeCasts_S1024_S1024x1 (ix2 p 0)
      = ∑ k : Fin 128, Z (ix2 p k) := by
  refine (shapeCast_apply _ _ (ix2 p 0) (ix1 p) (by
    rw [Shape.rowMajor_val_one, Shape.rowMajor_val_two]
    show p.val = p.val * 1 + 0
    omega)).trans ?_
  refine (Ideal.multiReduction_add_single Z _ reduces_S1024x128_S1024 _ _ (ix1 p)).trans ?_
  refine Finset.sum_congr rfl fun k _ => congrArg Z (funext fun c => ?_)
  match c with
  | ⟨0, _⟩ => exact Fin.ext rfl
  | ⟨1, _⟩ => exact Fin.ext rfl

/-- The rows' means, as a column. -/
abbrev meanCol (Y : FVec Ideal S1024x128 .f32) : FVec Ideal S1024x1 .f32 :=
  divf (shapeCast S1024x1 (multiReduction (F := Ideal) .add [1] S1024 Y 0x00000000#32 reduces_S1024x128_S1024 (.inl rfl) rfl) shapeCasts_S1024_S1024x1) (broadcast S1024x1 (Scalar.ofBits (F := Ideal) .f32 0x43000000#32))

theorem meanCol_apply (Y : FVec Ideal S1024x128 .f32) (p : Fin 1024) :
    meanCol Y (ix2 p 0) = Cert.Spec.mean (fun o' => Y (ix2 p o')) := by
  show Ideal.div (shapeCast S1024x1 (multiReduction (F := Ideal) .add [1] S1024 Y 0x00000000#32 reduces_S1024x128_S1024 (.inl rfl) rfl) shapeCasts_S1024_S1024x1 (ix2 p 0)) (Ideal.ofBits .f32 0x43000000#32) = _
  rw [rowSum_apply]
  rfl

/-- The rows minus their means. -/
abbrev centred (Y : FVec Ideal S1024x128 .f32) : FVec Ideal S1024x128 .f32 :=
  subf Y (broadcastTo S1024x128 (meanCol Y) broadcasts_S1024x1_S1024x128)

theorem centred_apply (Y : FVec Ideal S1024x128 .f32) (p : Fin 1024) (o : Fin 128) :
    centred Y (ix2 p o) = Y (ix2 p o) - Cert.Spec.mean (fun o' => Y (ix2 p o')) := by
  show Y (ix2 p o) - broadcastTo S1024x128 (meanCol Y) broadcasts_S1024x1_S1024x128 (ix2 p o) = _
  rw [col_apply, meanCol_apply]

/-- The rows' variances (the means of the squared differences), as a column. -/
abbrev varCol (Y : FVec Ideal S1024x128 .f32) : FVec Ideal S1024x1 .f32 :=
  divf (shapeCast S1024x1 (multiReduction (F := Ideal) .add [1] S1024 (mulf (centred Y) (centred Y)) 0x00000000#32 reduces_S1024x128_S1024 (.inl rfl) rfl) shapeCasts_S1024_S1024x1) (broadcast S1024x1 (Scalar.ofBits (F := Ideal) .f32 0x43000000#32))

theorem varCol_apply (Y : FVec Ideal S1024x128 .f32) (p : Fin 1024) :
    varCol Y (ix2 p 0)
      = Cert.Spec.mean (fun o' => (Y (ix2 p o') - Cert.Spec.mean (fun o'' => Y (ix2 p o'')))
          * (Y (ix2 p o') - Cert.Spec.mean (fun o'' => Y (ix2 p o'')))) := by
  show Ideal.div (shapeCast S1024x1 (multiReduction (F := Ideal) .add [1] S1024 (mulf (centred Y) (centred Y)) 0x00000000#32 reduces_S1024x128_S1024 (.inl rfl) rfl) shapeCasts_S1024_S1024x1 (ix2 p 0)) (Ideal.ofBits .f32 0x43000000#32) = _
  rw [rowSum_apply]
  show Ideal.div _ Cert.Spec.c128 = Ideal.div _ Cert.Spec.c128
  refine congrArg (fun s => Ideal.div s Cert.Spec.c128) (Finset.sum_congr rfl fun k _ => ?_)
  show centred Y (ix2 p k) * centred Y (ix2 p k) = _
  rw [centred_apply]

/-- The normalised rows times the scale row, at (p, o). -/
theorem nrm_rows (Y : FVec Ideal S1024x128 .f32) (g : Vec Ideal S1x128 .f32) (p : Fin 1024) (o : Fin 128) :
    mulf (mulf (centred Y)
            (broadcastTo S1024x128 (rsqrt (addf (varCol Y) (broadcast S1024x1 (Scalar.ofBits (F := Ideal) .f32 0x3727C5AC#32)))) broadcasts_S1024x1_S1024x128))
        (broadcastTo S1024x128 (shapeCast S1x128 g shapeCasts_S1x128_S1x128) broadcasts_S1x128_S1024x128) (ix2 p o)
      = Cert.Spec.nrm (fun o' => Y (ix2 p o')) o * g (ix2 0 o) := by
  show centred Y (ix2 p o)
        * broadcastTo S1024x128 (rsqrt (addf (varCol Y) (broadcast S1024x1 (Scalar.ofBits (F := Ideal) .f32 0x3727C5AC#32)))) broadcasts_S1024x1_S1024x128 (ix2 p o)
        * broadcastTo S1024x128 (shapeCast S1x128 g shapeCasts_S1x128_S1x128) broadcasts_S1x128_S1024x128 (ix2 p o) = _
  rw [col_apply, row_apply, centred_apply]
  show (Y (ix2 p o) - Cert.Spec.mean (fun o' => Y (ix2 p o')))
        * Ideal.rsqrt (varCol Y (ix2 p 0) + Ideal.ofBits .f32 0x3727C5AC#32) * g (ix2 0 o) = _
  rw [varCol_apply]
  rfl

end Rows

/-- The first convolution's result stored as the output block: entry (0, i, j, o) is the result at (32 * i + j, o). -/
theorem pay12_apply (acc : FVec Ideal S1024x128 .f32) (w7 : Vec Ideal S32x32x256 .bf16) (s7 : Vec Ideal S256x128 .bf16)
    (w8 : Vec Ideal S32x32x256 .bf16) (s8 : Vec Ideal S256x128 .bf16) (i j : Fin 32) (o : Fin 128) :
    k0_pay12 (F := Ideal) acc w7 s7 w8 s8 (ix4 0 i j o) = k0_pay11 (F := Ideal) acc w7 s7 w8 s8 (ix2 (posOf i j) o) := by
  unfold k0_pay12
  refine (Rows.block_apply _ i j o).trans ?_
  exact Rows.image_apply _ i j o

/-- The first convolution's result normalised over its channels and scaled, at (p, o). -/
theorem pay13_apply (acc : FVec Ideal S1024x128 .f32) (w7 : Vec Ideal S32x32x256 .bf16) (s7 : Vec Ideal S256x128 .bf16)
    (w8 : Vec Ideal S32x32x256 .bf16) (s8 : Vec Ideal S256x128 .bf16) (g : Vec Ideal S1x128 .f32) (p : Fin 1024) (o : Fin 128) :
    k0_pay13 (F := Ideal) acc w7 s7 w8 s8 g (ix2 p o)
      = Cert.Spec.nrm (fun o' => k0_pay11 (F := Ideal) acc w7 s7 w8 s8 (ix2 p o')) o * g (ix2 0 o) := by
  unfold k0_pay13
  exact Rows.nrm_rows (k0_pay11 (F := Ideal) acc w7 s7 w8 s8) g p o

/-- The scaled image plus the shift row, stored as a [32, 32, 128] image, at (i, j, o). -/
theorem pay14_apply (v125 : FVec Ideal S1024x128 .f32) (bln : Vec Ideal S1x128 .f32) (i j : Fin 32) (o : Fin 128) :
    k0_pay14 (F := Ideal) v125 bln (ix3 i j o) = v125 (ix2 (posOf i j) o) + bln (ix2 0 o) := by
  unfold k0_pay14
  rw [shapeCast_self]
  refine (Rows.image_apply (addf v125 (broadcastTo S1024x128 (shapeCast S1x128 bln shapeCasts_S1x128_S1x128) broadcasts_S1x128_S1024x128)) i j o).trans ?_
  show v125 (ix2 (posOf i j) o)
      + broadcastTo S1024x128 (shapeCast S1x128 bln shapeCasts_S1x128_S1x128) broadcasts_S1x128_S1024x128 (ix2 (posOf i j) o) = _
  rw [Rows.row_apply]

end Cert.KernelIdeal.Value

end
-- ==== Proof.KBlockPays2b.lean ====
/-
  The body's rectifier and its last two groups of taps, over the extended reals, at an index.

  The rectifier keeps an entry h where 0 <= h and multiplies it by 0.2 elsewhere; the rectified [1024, 128] value is stored
  as a [32, 32, 128] image, entry (i, j, o) from position 32 * i + j. The third convolution adds taps 2 to 6 onto its carry,
  then taps 7 and 8, and the sum is added to the first convolution's result read back from the output block.
-/
import proofs.«131778_g2000005761611187_pallasbulk_1314_2_alg».proof.Proof.Gen.KernelIdeal.Skeleton
import proofs.«131778_g2000005761611187_pallasbulk_1314_2_alg».proof.Proof.Spec
import proofs.«131778_g2000005761611187_pallasbulk_1314_2_alg».proof.Proof.KBlockTaps
import proofs.«131778_g2000005761611187_pallasbulk_1314_2_alg».proof.Proof.KBlockPays2a
import Idealize.ShloMosaic.Lib.Pipeline.Value
import Idealize.ShloMosaic.Lib.ValueIdx
import Idealize.ShloMosaic.PureOps.Ideal.Laws
set_option maxRecDepth 16384

noncomputable section

namespace Cert.KernelIdeal.Value

open Cert.KernelIdeal Cert.KernelIdeal.Gen
open Idealize.ShloMosaic Idealize.ShloMosaic.ValueIdx

open scoped BigOperators

namespace Rows

/-- The rectifier at an index: the entry where it is at least 0, else 0.2 times it. -/
theorem lrelu_apply (H : FVec Ideal S1024x128 .f32) (q : S1024x128.Idx) :
    select (cmpf .oge H (broadcast S1024x128 (Scalar.ofBits (F := Ideal) .f32 0x00000000#32))) H (mulf H (broadcast S1024x128 (Scalar.ofBits (F := Ideal) .f32 0x3E4CCCCD#32))) q = Cert.Spec.lrelu (H q) := by
  show Scalar.select (Ideal.cmp .oge (H q) (Ideal.ofBits .f32 0x00000000#32)) (H q) (H q * Ideal.ofBits .f32 0x3E4CCCCD#32)
      = Cert.Spec.lrelu (H q)
  rw [Ideal.ofBits_zero_f32]
  unfold Cert.Spec.lrelu Scalar.select Ideal.cmp
  by_cases h : (0 : EReal) ≤ H q
  · rw [if_pos h, if_pos (by simp [h])]
  · rw [if_neg h, if_neg (by simp [h])]
    rfl

/-- The rectified value stored as a [32, 32, 128] image, at (i, j, o). -/
theorem lrelu_image_apply (H : FVec Ideal S1024x128 .f32) (i j : Fin 32) (o : Fin 128) :
    shapeCast S32x32x128 (truncf (F := Ideal) .bf16
        (shapeCast S32x32x128 (select (cmpf .oge H (broadcast S1024x128 (Scalar.ofBits (F := Ideal) .f32 0x00000000#32))) H (mulf H (broadcast S1024x128 (Scalar.ofBits (F := Ideal) .f32 0x3E4CCCCD#32)))) shapeCasts_S1024x128_S32x32x128)
        bitsLt_bf16_f32) shapeCasts_S32x32x128_S32x32x128 (ix3 i j o)
      = Cert.Spec.lrelu (H (ix2 (posOf i j) o)) := by
  rw [shapeCast_self]
  refine (image_apply (select (cmpf .oge H (broadcast S1024x128 (Scalar.ofBits (F := Ideal) .f32 0x00000000#32))) H (mulf H (broadcast S1024x128 (Scalar.ofBits (F := Ideal) .f32 0x3E4CCCCD#32)))) i j o).trans ?_
  exact lrelu_apply H (ix2 (posOf i j) o)

end Rows

/-- The second convolution's last tap onto its carry, rectified and stored as an image, at (i, j, o). -/
theorem pay17_apply (acc : FVec Ideal S1024x128 .f32) (w8 : Vec Ideal S32x32x128 .bf16) (s8 : Vec Ideal S128x128 .bf16)
    (i j : Fin 32) (o : Fin 128) :
    k0_pay17 (F := Ideal) acc w8 s8 (ix3 i j o)
      = Cert.Spec.lrelu (acc (ix2 (posOf i j) o) + (∑ ch : Fin 128, w8 (ix3 (rowOf (posOf i j)) (colOf (posOf i j)) ch) * s8 (ix2 ch o))) := by
  unfold k0_pay17
  refine (Rows.lrelu_image_apply (addf acc (matmul (F := Ideal) dot_S1024x128_S128x128_S1024x128_1_0_0_1_n_n none (shapeCast S1024x128 w8 shapeCasts_S32x32x128_S1024x128) (shapeCast S128x128 s8 shapeCasts_S128x128_S128x128) (constant (F := Ideal) S1024x128 .f32 0x00000000#32))) i j o).trans ?_
  show Cert.Spec.lrelu (acc (ix2 (posOf i j) o) + matmul (F := Ideal) dot_S1024x128_S128x128_S1024x128_1_0_0_1_n_n none (shapeCast S1024x128 w8 shapeCasts_S32x32x128_S1024x128) (shapeCast S128x128 s8 shapeCasts_S128x128_S128x128) (constant (F := Ideal) S1024x128 .f32 0x00000000#32) (ix2 (posOf i j) o)) = _
  rw [tap128_apply]

/-- Third convolution: taps 2 to 6 onto the carry (tap 2's window already flattened). -/
theorem pay20_apply (acc : FVec Ideal S1024x128 .f32) (w2 : Vec Ideal S32x32x128 .bf16) (s2 : Vec Ideal S128x128 .bf16)
    (w3 : Vec Ideal S32x32x128 .bf16) (s3 : Vec Ideal S128x128 .bf16) (w4 : Vec Ideal S32x32x128 .bf16) (s4 : Vec Ideal S128x128 .bf16)
    (w5 : Vec Ideal S32x32x128 .bf16) (s5 : Vec Ideal S128x128 .bf16) (w6 : Vec Ideal S32x32x128 .bf16) (s6 : Vec Ideal S128x128 .bf16)
    (p : Fin 1024) (o : Fin 128) :
    k0_pay20 (F := Ideal) acc (k0_pay19 (F := Ideal) w2) s2 w3 s3 w4 s4 w5 s5 w6 s6 (ix2 p o)
      = acc (ix2 p o)
          + (∑ ch : Fin 128, w2 (ix3 (rowOf p) (colOf p) ch) * s2 (ix2 ch o))
          + (∑ ch : Fin 128, w3 (ix3 (rowOf p) (colOf p) ch) * s3 (ix2 ch o))
          + (∑ ch : Fin 128, w4 (ix3 (rowOf p) (colOf p) ch) * s4 (ix2 ch o))
          + (∑ ch : Fin 128, w5 (ix3 (rowOf p) (colOf p) ch) * s5 (ix2 ch o))
          + (∑ ch : Fin 128, w6 (ix3 (rowOf p) (colOf p) ch) * s6 (ix2 ch o)) := by
  unfold k0_pay20 k0_pay19
  show acc (ix2 p o)
        + matmul (F := Ideal) dot_S1024x128_S128x128_S1024x128_1_0_0_1_n_n none (shapeCast S1024x128 w2 shapeCasts_S32x32x128_S1024x128) (shapeCast S128x128 s2 shapeCasts_S128x128_S128x128) (constant (F := Ideal) S1024x128 .f32 0x00000000#32) (ix2 p o)
        + matmul (F := Ideal) dot_S1024x128_S128x128_S1024x128_1_0_0_1_n_n none (shapeCast S1024x128 w3 shapeCasts_S32x32x128_S1024x128) (shapeCast S128x128 s3 shapeCasts_S128x128_S128x128) (constant (F := Ideal) S1024x128 .f32 0x00000000#32) (ix2 p o)
        + matmul (F := Ideal) dot_S1024x128_S128x128_S1024x128_1_0_0_1_n_n none (shapeCast S1024x128 w4 shapeCasts_S32x32x128_S1024x128) (shapeCast S128x128 s4 shapeCasts_S128x128_S128x128) (constant (F := Ideal) S1024x128 .f32 0x00000000#32) (ix2 p o)
        + matmul (F := Ideal) dot_S1024x128_S128x128_S1024x128_1_0_0_1_n_n none (shapeCast S1024x128 w5 shapeCasts_S32x32x128_S1024x128) (shapeCast S128x128 s5 shapeCasts_S128x128_S128x128) (constant (F := Ideal) S1024x128 .f32 0x00000000#32) (ix2 p o)
        + matmul (F := Ideal) dot_S1024x128_S128x128_S1024x128_1_0_0_1_n_n none (shapeCast S1024x128 w6 shapeCasts_S32x32x128_S1024x128) (shapeCast S128x128 s6 shapeCasts_S128x128_S128x128) (constant (F := Ideal) S1024x128 .f32 0x00000000#32) (ix2 p o) = _
  rw [tap128_apply, tap128_apply, tap128_apply, tap128_apply, tap128_apply]

/-- The output block: the first convolution's result read back plus the third convolution's carry with taps 7 and 8,
    at (0, i, j, o). -/
theorem pay1_apply (acc : FVec Ideal S1024x128 .f32) (w7 : Vec Ideal S32x32x128 .bf16) (s7 : Vec Ideal S128x128 .bf16)
    (w8 : Vec Ideal S32x32x128 .bf16) (s8 : Vec Ideal S128x128 .bf16) (y : Vec Ideal S1x32x32x128 .f32)
    (i j : Fin 32) (o : Fin 128) :
    k0_pay1 (F := Ideal) acc (k0_pay21 (F := Ideal) w7) s7 w8 s8 y (ix4 0 i j o)
      = y (ix4 0 i j o)
          + (acc (ix2 (posOf i j) o)
              + (∑ ch : Fin 128, w7 (ix3 (rowOf (posOf i j)) (colOf (posOf i j)) ch) * s7 (ix2 ch o))
              + (∑ ch : Fin 128, w8 (ix3 (rowOf (posOf i j)) (colOf (posOf i j)) ch) * s8 (ix2 ch o))) := by
  unfold k0_pay1 k0_pay21
  refine (Rows.block_apply _ i j o).trans ?_
  show shapeCast S32x32x128 y shapeCasts_S1x32x32x128_S32x32x128 (ix3 i j o)
        + shapeCast S32x32x128 (addf (addf acc (matmul (F := Ideal) dot_S1024x128_S128x128_S1024x128_1_0_0_1_n_n none (shapeCast S1024x128 w7 shapeCasts_S32x32x128_S1024x128) (shapeCast S128x128 s7 shapeCasts_S128x128_S128x128) (constant (F := Ideal) S1024x128 .f32 0x00000000#32))) (matmul (F := Ideal) dot_S1024x128_S128x128_S1024x128_1_0_0_1_n_n none (shapeCast S1024x128 w8 shapeCasts_S32x32x128_S1024x128) (shapeCast S128x128 s8 shapeCasts_S128x128_S128x128) (constant (F := Ideal) S1024x128 .f32 0x00000000#32))) shapeCasts_S1024x128_S32x32x128 (ix3 i j o) = _
  rw [Rows.unblock_apply, Rows.image_apply]
  show y (ix4 0 i j o) + (acc (ix2 (posOf i j) o) + matmul (F := Ideal) dot_S1024x128_S128x128_S1024x128_1_0_0_1_n_n none (shapeCast S1024x128 w7 shapeCasts_S32x32x128_S1024x128) (shapeCast S128x128 s7 shapeCasts_S128x128_S128x128) (constant (F := Ideal) S1024x128 .f32 0x00000000#32) (ix2 (posOf i j) o) + matmul (F := Ideal) dot_S1024x128_S128x128_S1024x128_1_0_0_1_n_n none (shapeCast S1024x128 w8 shapeCasts_S32x32x128_S1024x128) (shapeCast S128x128 s8 shapeCasts_S128x128_S128x128) (constant (F := Ideal) S1024x128 .f32 0x00000000#32) (ix2 (posOf i j) o)) = _
  rw [tap128_apply, tap128_apply]

end Cert.KernelIdeal.Value

end
-- ==== Proof.KBlockPays2.lean ====
/-
  The body's payloads at an index, second half: the row-wise steps of the normalisation and the stores that re-lay a
  [1024, 128] value as an image or an output block, and the rectifier and the last groups of taps.
-/
import proofs.«131778_g2000005761611187_pallasbulk_1314_2_alg».proof.Proof.KBlockPays2a
import proofs.«131778_g2000005761611187_pallasbulk_1314_2_alg».proof.Proof.KBlockPays2b
-- ==== Proof.KernelIface.lean ====
/-
  The kernel side's interfaces, as statements.

  `BlockStmt`: what one run of the body leaves in the output block is the kernel's arrangement (`Spec.kBlock`) of its twelve
  input blocks, read as plain functions of their coordinates. `result`: the whole result array the run of @main should end
  with, as a function of the twelve argument arrays at launch (`Spec.kernelOut`).
-/
import proofs.«131778_g2000005761611187_pallasbulk_1314_2_alg».proof.Proof.BodyIdeal
import proofs.«131778_g2000005761611187_pallasbulk_1314_2_alg».proof.Proof.Spec
import Idealize.ShloMosaic.Lib.ValueIdx

noncomputable section

namespace Cert.KernelIdeal.Iface

open Cert.KernelIdeal Cert.KernelIdeal.Gen
open Idealize.ShloMosaic Idealize.ShloMosaic.TcCoe Idealize.ShloMosaic.ValueIdx Idealize.SL.Sem

/-- The body's output block, entry by entry, is the kernel's arrangement of the input blocks. -/
def BlockStmt : Prop :=
  ∀ (c : Dev nD) (i : grid0.Coords) (arg1 : Memref sig .tc .vmem S1x16x16x256 .f32) (harg1 : arg1.IsWhole) (arg2 : Memref sig .tc .vmem S1x32x32x128 .f32) (harg2 : arg2.IsWhole) (arg3 : Memref sig .tc .vmem S256x512 .bf16) (harg3 : arg3.IsWhole) (arg4 : Memref sig .tc .vmem S1x512 .f32) (harg4 : arg4.IsWhole) (arg5 : Memref sig .tc .vmem S2304x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1152x128 .bf16) (harg9 : arg9.IsWhole) (arg10 : Memref sig .tc .vmem S1x128 .f32) (harg10 : arg10.IsWhole) (arg11 : Memref sig .tc .vmem S1152x128 .bf16) (harg11 : arg11.IsWhole) (arg12 : Memref sig .tc .vmem S1x128 .f32) (harg12 : arg12.IsWhole) (arg13 : Memref sig .tc .vmem S1x32x32x128 .f32) (harg13 : arg13.IsWhole) (arg14 : Memref sig .tc .vmem S16x2x16x256 .bf16) (harg14 : arg14.IsWhole) (arg15 : Memref sig .tc .vmem S34x34x256 .bf16) (harg15 : arg15.IsWhole) (arg16 : Memref sig .tc .vmem S34x34x128 .bf16) (harg16 : arg16.IsWhole)
    (x0 : Vec Ideal S1x16x16x256 .f32) (x1 : Vec Ideal S1x32x32x128 .f32) (x2 : Vec Ideal S256x512 .bf16) (x3 : Vec Ideal S1x512 .f32) (x4 : Vec Ideal S2304x128 .bf16) (x5 : Vec Ideal S1x128 .f32) (x6 : Vec Ideal S1x128 .f32) (x7 : Vec Ideal S1x128 .f32) (x8 : Vec Ideal S1152x128 .bf16) (x9 : Vec Ideal S1x128 .f32) (x10 : Vec Ideal S1152x128 .bf16) (x11 : Vec Ideal S1x128 .f32),
    Cert.KernelIdeal.Body.outBlock (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11
      = fun y => Cert.Spec.kBlock (fun a b ci => x0 (ix4 0 a b ci)) (fun a b ch => x1 (ix4 0 a b ch)) (fun ci col => x2 (ix2 ci col))
          (fun col => x3 (ix2 0 col)) (fun q o => x4 (ix2 q o)) (fun o => x5 (ix2 0 o)) (fun o => x6 (ix2 0 o))
          (fun o => x7 (ix2 0 o)) (fun q o => x8 (ix2 q o)) (fun o => x9 (ix2 0 o)) (fun q o => x10 (ix2 q o))
          (fun o => x11 (ix2 0 o)) (y 1) (y 2) (y 3)

variable (m : (ℓ : Loc nD τ sig) → Buf (Elt Ideal) ℓ) (c : Dev nD)

/-- The twelve argument arrays on core `c` as plain functions of their coordinates. -/
def A0 : Fin 24 → Fin 16 → Fin 16 → Fin 256 → Cert.Spec.E := fun n a b ci => m ((c.tc : Thread nD τ).loc main_arg0) (ix4 n a b ci)
def A1 : Fin 24 → Fin 32 → Fin 32 → Fin 128 → Cert.Spec.E := fun n a b ch => m ((c.tc : Thread nD τ).loc main_arg1) (ix4 n a b ch)
def A2 : Fin 4 → Fin 256 → Fin 128 → Cert.Spec.E := fun k ci ch => m ((c.tc : Thread nD τ).loc main_arg2) (ix3 k ci ch)
def A3 : Fin 128 → Cert.Spec.E := fun o => m ((c.tc : Thread nD τ).loc main_arg3) (ix1 o)
def A4 : Fin 9 → Fin 256 → Fin 128 → Cert.Spec.E := fun k ch o => m ((c.tc : Thread nD τ).loc main_arg4) (ix3 k ch o)
def A5 : Fin 128 → Cert.Spec.E := fun o => m ((c.tc : Thread nD τ).loc main_arg5) (ix1 o)
def A6 : Fin 128 → Cert.Spec.E := fun o => m ((c.tc : Thread nD τ).loc main_arg6) (ix1 o)
def A7 : Fin 128 → Cert.Spec.E := fun o => m ((c.tc : Thread nD τ).loc main_arg7) (ix1 o)
def A8 : Fin 9 → Fin 128 → Fin 128 → Cert.Spec.E := fun k ch o => m ((c.tc : Thread nD τ).loc main_arg8) (ix3 k ch o)
def A9 : Fin 128 → Cert.Spec.E := fun o => m ((c.tc : Thread nD τ).loc main_arg9) (ix1 o)
def A10 : Fin 9 → Fin 128 → Fin 128 → Cert.Spec.E := fun k ch o => m ((c.tc : Thread nD τ).loc main_arg10) (ix3 k ch o)
def A11 : Fin 128 → Cert.Spec.E := fun o => m ((c.tc : Thread nD τ).loc main_arg11) (ix1 o)

/-- The result array the kernel's run ends with. -/
def result : Buf (Elt Ideal) ((c.tc : Thread nD τ).loc main_v18) :=
  fun idx => Cert.Spec.kernelOut (A0 m c) (A1 m c) (A2 m c) (A3 m c) (A4 m c) (A5 m c) (A6 m c) (A7 m c) (A8 m c) (A9 m c) (A10 m c) (A11 m c) (idx 0) (idx 1) (idx 2) (idx 3)

/-- What the region finds in the arrays its windows stage (after the host's packing): each the packed form of an argument. -/
structure ArraysStmt : Prop where
  wup : Cert.KernelIdeal.Gen.V (F := Ideal) m c main_v2 = fun idx => Cert.Spec.wupP (A2 m c) (idx 0) (idx 1)
  bup : Cert.KernelIdeal.Gen.V (F := Ideal) m c main_v6 = fun idx => Cert.Spec.bupP (A3 m c) (idx 1)
  wuc : Cert.KernelIdeal.Gen.V (F := Ideal) m c main_v8 = fun idx => Cert.Spec.stackP (A4 m c) (idx 0) (idx 1)
  buc : Cert.KernelIdeal.Gen.V (F := Ideal) m c main_v9 = fun idx => A5 m c (idx 1)
  g   : Cert.KernelIdeal.Gen.V (F := Ideal) m c main_v10 = fun idx => A6 m c (idx 1)
  bln : Cert.KernelIdeal.Gen.V (F := Ideal) m c main_v11 = fun idx => A7 m c (idx 1)
  w1  : Cert.KernelIdeal.Gen.V (F := Ideal) m c main_v13 = fun idx => Cert.Spec.stackP (A8 m c) (idx 0) (idx 1)
  b1  : Cert.KernelIdeal.Gen.V (F := Ideal) m c main_v14 = fun idx => A9 m c (idx 1)
  w2  : Cert.KernelIdeal.Gen.V (F := Ideal) m c main_v16 = fun idx => Cert.Spec.stackP (A10 m c) (idx 0) (idx 1)
  b2  : Cert.KernelIdeal.Gen.V (F := Ideal) m c main_v17 = fun idx => A11 m c (idx 1)

end Cert.KernelIdeal.Iface

end
-- ==== Proof.KBlockC.lean ====
/-
  The rest of the body, in the specification's terms, and the block statement.

  The first convolution's result is parked in the output block and read back; normalised over channels, scaled and shifted
  it goes into the padded activation image; its nine windows and the nine 128-row slabs of w1 give the second convolution,
  rectified; that goes into the padded image again; its windows and the slabs of w2 give the third convolution, which is
  added to the parked result: `Spec.outK`.
-/
import proofs.«131778_g2000005761611187_pallasbulk_1314_2_alg».proof.Proof.Gen.KernelIdeal.Skeleton
import proofs.«131778_g2000005761611187_pallasbulk_1314_2_alg».proof.Proof.LibPlainMatmul
import proofs.«131778_g2000005761611187_pallasbulk_1314_2_alg».proof.Proof.LibCanonRmw
import proofs.«131778_g2000005761611187_pallasbulk_1314_2_alg».proof.Proof.Spec
import Idealize.ShloMosaic.Lib.Pipeline.Value
import Idealize.ShloMosaic.Lib.ValueIdx
import proofs.«131778_g2000005761611187_pallasbulk_1314_2_alg».proof.Proof.KBlockB
import proofs.«131778_g2000005761611187_pallasbulk_1314_2_alg».proof.Proof.KBlockPad
import proofs.«131778_g2000005761611187_pallasbulk_1314_2_alg».proof.Proof.KBlockConv2
import proofs.«131778_g2000005761611187_pallasbulk_1314_2_alg».proof.Proof.KBlockPays2
import proofs.«131778_g2000005761611187_pallasbulk_1314_2_alg».proof.Proof.KernelIface
set_option maxRecDepth 16384

noncomputable section

namespace Cert.KernelIdeal.Value

open Cert.KernelIdeal Cert.KernelIdeal.Gen
open Idealize.ShloMosaic Idealize.ShloMosaic.ValueIdx

open Idealize.ShloMosaic.View Idealize.ShloMosaic.TcCoe Cert.Lib.CanonRmw Cert.Lib.PadWindow

theorem rowOf_posOf (i j : Fin 32) : rowOf (posOf i j) = i := by
  apply Fin.ext; show (i.val * 32 + j.val) / 32 = i.val; have := j.isLt; omega
theorem colOf_posOf (i j : Fin 32) : colOf (posOf i j) = j := by
  apply Fin.ext; show (i.val * 32 + j.val) % 32 = j.val; have := j.isLt; omega

section
variable (c : Dev nD) (arg1 : Memref sig .tc .vmem S1x16x16x256 .f32) (harg1 : arg1.IsWhole) (arg2 : Memref sig .tc .vmem S1x32x32x128 .f32) (harg2 : arg2.IsWhole) (arg3 : Memref sig .tc .vmem S256x512 .bf16) (harg3 : arg3.IsWhole) (arg4 : Memref sig .tc .vmem S1x512 .f32) (harg4 : arg4.IsWhole) (arg5 : Memref sig .tc .vmem S2304x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1152x128 .bf16) (harg9 : arg9.IsWhole) (arg10 : Memref sig .tc .vmem S1x128 .f32) (harg10 : arg10.IsWhole) (arg11 : Memref sig .tc .vmem S1152x128 .bf16) (harg11 : arg11.IsWhole) (arg12 : Memref sig .tc .vmem S1x128 .f32) (harg12 : arg12.IsWhole) (arg13 : Memref sig .tc .vmem S1x32x32x128 .f32) (harg13 : arg13.IsWhole) (arg14 : Memref sig .tc .vmem S16x2x16x256 .bf16) (harg14 : arg14.IsWhole) (arg15 : Memref sig .tc .vmem S34x34x256 .bf16) (harg15 : arg15.IsWhole) (arg16 : Memref sig .tc .vmem S34x34x128 .bf16) (harg16 : arg16.IsWhole)
    (x0 : Vec Ideal S1x16x16x256 .f32) (x1 : Vec Ideal S1x32x32x128 .f32) (x2 : Vec Ideal S256x512 .bf16) (x3 : Vec Ideal S1x512 .f32) (x4 : Vec Ideal S2304x128 .bf16) (x5 : Vec Ideal S1x128 .f32) (x6 : Vec Ideal S1x128 .f32) (x7 : Vec Ideal S1x128 .f32) (x8 : Vec Ideal S1152x128 .bf16) (x9 : Vec Ideal S1x128 .f32) (x10 : Vec Ideal S1152x128 .bf16) (x11 : Vec Ideal S1x128 .f32)

/-- The parked result read back. -/
theorem y_parked (a b : Fin 32) (o : Fin 128) : (Cert.KernelIdeal.Body.kernelRun.sl.v261 (F := Ideal) c arg1 harg1 arg2 harg2 arg3 harg3 arg4 harg4 arg5 harg5 arg6 harg6 arg13 arg14 arg15 x0 x1 x2 x3 x4 x5) (ix4 0 a b o) = (Cert.Spec.yK (Cert.Spec.up (fun a b ci => x0 (ix4 0 a b ci)) (fun ci col => x2 (ix2 ci col)) (fun col => x3 (ix2 0 col))) (fun a b ch => x1 (ix4 0 a b ch)) (fun q o => x4 (ix2 q o)) (fun o => x5 (ix2 0 o))) a b o := by
  unfold Cert.KernelIdeal.Body.kernelRun.sl.v261 Cert.KernelIdeal.Body.kernelRun.sl.H12_1
  rw [readCov_whole _ _ hz4, View.canon_unit_zero hz4, pay12_apply, y_eq, rowOf_posOf, colOf_posOf]

/-- The normalised, scaled and shifted image the body stores. -/
theorem t_stored (i j : Fin 32) (o : Fin 128) : (k0_pay14 (F := Ideal) (Cert.KernelIdeal.Body.kernelRun.sl.r_3 (F := Ideal) c arg1 harg1 arg2 harg2 arg3 harg3 arg4 harg4 arg5 harg5 arg6 harg6 arg7 harg7 arg14 arg15 x0 x1 x2 x3 x4 x5 x6) (View.readAt (Elt Ideal) arg8.view (Rect.unit (s := S1x128) ![0, 0] S1x128.size inb_S1x128_S1x128_0_0).toLoadRect (harg8.unread x7))) (ix3 i j o) = (Cert.Spec.tK (Cert.Spec.up (fun a b ci => x0 (ix4 0 a b ci)) (fun ci col => x2 (ix2 ci col)) (fun col => x3 (ix2 0 col))) (fun a b ch => x1 (ix4 0 a b ch)) (fun q o => x4 (ix2 q o)) (fun o => x5 (ix2 0 o)) (fun o => x6 (ix2 0 o)) (fun o => x7 (ix2 0 o))) i j o := by
  unfold Cert.KernelIdeal.Body.kernelRun.sl.r_3
  rw [pay14_apply, pay13_apply, readAt_whole harg7 x6 hz2, readAt_whole harg8 x7 hz2]
  have e : (fun o' => k0_pay11 (F := Ideal) (Cert.KernelIdeal.Body.kernelRun.sl.r_2 (F := Ideal) c arg1 harg1 arg2 harg2 arg3 harg3 arg4 harg4 arg5 harg5 arg6 harg6 arg14 arg15 x0 x1 x2 x3 x4 x5) (Cert.KernelIdeal.Body.kernelRun.sl.v88 (F := Ideal) c arg1 harg1 arg2 harg2 arg3 harg3 arg4 harg4 arg14 arg15 x0 x1 x2 x3) (View.readAt (Elt Ideal) arg5.view (Rect.unit (s := S2304x128) ![1792, 0] S256x128.size inb_S2304x128_S256x128_1792_0).toLoadRect (harg5.unread x4)) (Cert.KernelIdeal.Body.kernelRun.sl.v94 (F := Ideal) c arg1 harg1 arg2 harg2 arg3 harg3 arg4 harg4 arg14 arg15 x0 x1 x2 x3) (View.readAt (Elt Ideal) arg5.view (Rect.unit (s := S2304x128) ![2048, 0] S256x128.size inb_S2304x128_S256x128_2048_0).toLoadRect (harg5.unread x4)) (ix2 (posOf i j) o')) = (Cert.Spec.yK (Cert.Spec.up (fun a b ci => x0 (ix4 0 a b ci)) (fun ci col => x2 (ix2 ci col)) (fun col => x3 (ix2 0 col))) (fun a b ch => x1 (ix4 0 a b ch)) (fun q o => x4 (ix2 q o)) (fun o => x5 (ix2 0 o))) i j :=
    funext fun o' => by rw [y_eq, rowOf_posOf, colOf_posOf]
  rw [e]
  rfl

set_option maxHeartbeats 1000000 in
/-- The padded activation image after the first interior store. -/
theorem tp1_stored (a b : Fin 34) (ch : Fin 128) :
    canon (Val := Elt Ideal) (s := S34x34x128) (e := .bf16) (Cert.KernelIdeal.Body.kernelRun.sl.HS2_2 (F := Ideal) c arg1 harg1 arg2 harg2 arg3 harg3 arg4 harg4 arg5 harg5 arg6 harg6 arg7 harg7 arg8 harg8 arg14 arg15 arg16 x0 x1 x2 x3 x4 x5 x6 x7) (ix3 a b ch) = (Cert.Spec.pad (Cert.Spec.tK (Cert.Spec.up (fun a b ci => x0 (ix4 0 a b ci)) (fun ci col => x2 (ix2 ci col)) (fun col => x3 (ix2 0 col))) (fun a b ch => x1 (ix4 0 a b ch)) (fun q o => x4 (ix2 q o)) (fun o => x5 (ix2 0 o)) (fun o => x6 (ix2 0 o)) (fun o => x7 (ix2 0 o)))) a b ch := by
  unfold Cert.KernelIdeal.Body.kernelRun.sl.HS2_2 Cert.KernelIdeal.Body.kernelRun.sl.old_2 Cert.KernelIdeal.Body.kernelRun.sl.HS2_1
  refine (tp2_apply arg16.view (k0_pay14 (F := Ideal) (Cert.KernelIdeal.Body.kernelRun.sl.r_3 (F := Ideal) c arg1 harg1 arg2 harg2 arg3 harg3 arg4 harg4 arg5 harg5 arg6 harg6 arg7 harg7 arg14 arg15 x0 x1 x2 x3 x4 x5 x6) (View.readAt (Elt Ideal) arg8.view (Rect.unit (s := S1x128) ![0, 0] S1x128.size inb_S1x128_S1x128_0_0).toLoadRect (harg8.unread x7))) a b ch).trans ?_
  have eT : (fun i j cc => (k0_pay14 (F := Ideal) (Cert.KernelIdeal.Body.kernelRun.sl.r_3 (F := Ideal) c arg1 harg1 arg2 harg2 arg3 harg3 arg4 harg4 arg5 harg5 arg6 harg6 arg7 harg7 arg14 arg15 x0 x1 x2 x3 x4 x5 x6) (View.readAt (Elt Ideal) arg8.view (Rect.unit (s := S1x128) ![0, 0] S1x128.size inb_S1x128_S1x128_0_0).toLoadRect (harg8.unread x7))) (ix3 i j cc)) = (Cert.Spec.tK (Cert.Spec.up (fun a b ci => x0 (ix4 0 a b ci)) (fun ci col => x2 (ix2 ci col)) (fun col => x3 (ix2 0 col))) (fun a b ch => x1 (ix4 0 a b ch)) (fun q o => x4 (ix2 q o)) (fun o => x5 (ix2 0 o)) (fun o => x6 (ix2 0 o)) (fun o => x7 (ix2 0 o))) :=
    funext fun i => funext fun j => funext fun cc => t_stored c arg1 harg1 arg2 harg2 arg3 harg3 arg4 harg4 arg5 harg5 arg6 harg6 arg7 harg7 arg8 harg8 arg14 arg15 x0 x1 x2 x3 x4 x5 x6 x7 i j cc
  rw [eT]

def tWin : Fin 9 → Vec Ideal S32x32x128 .bf16
  | ⟨0, _⟩ => (Cert.KernelIdeal.Body.kernelRun.sl.v139 (F := Ideal) c arg1 harg1 arg2 harg2 arg3 harg3 arg4 harg4 arg5 harg5 arg6 harg6 arg7 harg7 arg8 harg8 arg14 arg15 arg16 x0 x1 x2 x3 x4 x5 x6 x7)
  | ⟨1, _⟩ => (Cert.KernelIdeal.Body.kernelRun.sl.v145 (F := Ideal) c arg1 harg1 arg2 harg2 arg3 harg3 arg4 harg4 arg5 harg5 arg6 harg6 arg7 harg7 arg8 harg8 arg14 arg15 arg16 x0 x1 x2 x3 x4 x5 x6 x7)
  | ⟨2, _⟩ => (Cert.KernelIdeal.Body.kernelRun.sl.v151 (F := Ideal) c arg1 harg1 arg2 harg2 arg3 harg3 arg4 harg4 arg5 harg5 arg6 harg6 arg7 harg7 arg8 harg8 arg14 arg15 arg16 x0 x1 x2 x3 x4 x5 x6 x7)
  | ⟨3, _⟩ => (Cert.KernelIdeal.Body.kernelRun.sl.v157 (F := Ideal) c arg1 harg1 arg2 harg2 arg3 harg3 arg4 harg4 arg5 harg5 arg6 harg6 arg7 harg7 arg8 harg8 arg14 arg15 arg16 x0 x1 x2 x3 x4 x5 x6 x7)
  | ⟨4, _⟩ => (Cert.KernelIdeal.Body.kernelRun.sl.v163 (F := Ideal) c arg1 harg1 arg2 harg2 arg3 harg3 arg4 harg4 arg5 harg5 arg6 harg6 arg7 harg7 arg8 harg8 arg14 arg15 arg16 x0 x1 x2 x3 x4 x5 x6 x7)
  | ⟨5, _⟩ => (Cert.KernelIdeal.Body.kernelRun.sl.v169 (F := Ideal) c arg1 harg1 arg2 harg2 arg3 harg3 arg4 harg4 arg5 harg5 arg6 harg6 arg7 harg7 arg8 harg8 arg14 arg15 arg16 x0 x1 x2 x3 x4 x5 x6 x7)
  | ⟨6, _⟩ => (Cert.KernelIdeal.Body.kernelRun.sl.v175 (F := Ideal) c arg1 harg1 arg2 harg2 arg3 harg3 arg4 harg4 arg5 harg5 arg6 harg6 arg7 harg7 arg8 harg8 arg14 arg15 arg16 x0 x1 x2 x3 x4 x5 x6 x7)
  | ⟨7, _⟩ => (Cert.KernelIdeal.Body.kernelRun.sl.v181 (F := Ideal) c arg1 harg1 arg2 harg2 arg3 harg3 arg4 harg4 arg5 harg5 arg6 harg6 arg7 harg7 arg8 harg8 arg14 arg15 arg16 x0 x1 x2 x3 x4 x5 x6 x7)
  | ⟨8, _⟩ => (Cert.KernelIdeal.Body.kernelRun.sl.v187 (F := Ideal) c arg1 harg1 arg2 harg2 arg3 harg3 arg4 harg4 arg5 harg5 arg6 harg6 arg7 harg7 arg8 harg8 arg14 arg15 arg16 x0 x1 x2 x3 x4 x5 x6 x7)

def w1Slab : Fin 9 → Vec Ideal S128x128 .bf16
  | ⟨0, _⟩ => (View.readAt (Elt Ideal) arg9.view (Rect.unit (s := S1152x128) ![0, 0] S128x128.size inb_S1152x128_S128x128_0_0).toLoadRect (harg9.unread x8))
  | ⟨1, _⟩ => (View.readAt (Elt Ideal) arg9.view (Rect.unit (s := S1152x128) ![128, 0] S128x128.size inb_S1152x128_S128x128_128_0).toLoadRect (harg9.unread x8))
  | ⟨2, _⟩ => (View.readAt (Elt Ideal) arg9.view (Rect.unit (s := S1152x128) ![256, 0] S128x128.size inb_S1152x128_S128x128_256_0).toLoadRect (harg9.unread x8))
  | ⟨3, _⟩ => (View.readAt (Elt Ideal) arg9.view (Rect.unit (s := S1152x128) ![384, 0] S128x128.size inb_S1152x128_S128x128_384_0).toLoadRect (harg9.unread x8))
  | ⟨4, _⟩ => (View.readAt (Elt Ideal) arg9.view (Rect.unit (s := S1152x128) ![512, 0] S128x128.size inb_S1152x128_S128x128_512_0).toLoadRect (harg9.unread x8))
  | ⟨5, _⟩ => (View.readAt (Elt Ideal) arg9.view (Rect.unit (s := S1152x128) ![640, 0] S128x128.size inb_S1152x128_S128x128_640_0).toLoadRect (harg9.unread x8))
  | ⟨6, _⟩ => (View.readAt (Elt Ideal) arg9.view (Rect.unit (s := S1152x128) ![768, 0] S128x128.size inb_S1152x128_S128x128_768_0).toLoadRect (harg9.unread x8))
  | ⟨7, _⟩ => (View.readAt (Elt Ideal) arg9.view (Rect.unit (s := S1152x128) ![896, 0] S128x128.size inb_S1152x128_S128x128_896_0).toLoadRect (harg9.unread x8))
  | ⟨8, _⟩ => (View.readAt (Elt Ideal) arg9.view (Rect.unit (s := S1152x128) ![1024, 0] S128x128.size inb_S1152x128_S128x128_1024_0).toLoadRect (harg9.unread x8))

theorem tWin_apply (k : Fin 9) (i j : Fin 32) (ch : Fin 128) :
    tWin c arg1 harg1 arg2 harg2 arg3 harg3 arg4 harg4 arg5 harg5 arg6 harg6 arg7 harg7 arg8 harg8 arg14 arg15 arg16 x0 x1 x2 x3 x4 x5 x6 x7 k (ix3 i j ch) = (Cert.Spec.pad (Cert.Spec.tK (Cert.Spec.up (fun a b ci => x0 (ix4 0 a b ci)) (fun ci col => x2 (ix2 ci col)) (fun col => x3 (ix2 0 col))) (fun a b ch => x1 (ix4 0 a b ch)) (fun q o => x4 (ix2 q o)) (fun o => x5 (ix2 0 o)) (fun o => x6 (ix2 0 o)) (fun o => x7 (ix2 0 o)))) (Cert.Spec.win i (Cert.Spec.tapRow k)) (Cert.Spec.win j (Cert.Spec.tapCol k)) ch := by
  have hi := i.isLt; have hj := j.isLt
  match k with
  | ⟨0, _⟩ =>
    show (Cert.KernelIdeal.Body.kernelRun.sl.v139 (F := Ideal) c arg1 harg1 arg2 harg2 arg3 harg3 arg4 harg4 arg5 harg5 arg6 harg6 arg7 harg7 arg8 harg8 arg14 arg15 arg16 x0 x1 x2 x3 x4 x5 x6 x7) (ix3 i j ch) = _
    unfold Cert.KernelIdeal.Body.kernelRun.sl.v139
    refine (window_apply (C := 128) arg16.view _ 0 0 inb_S34x34x128_S32x32x128_0_0_0 i j ch).trans ?_
    rw [tp1_stored]
    have e1 : (⟨0 + i.val, by omega⟩ : Fin 34) = Cert.Spec.win i (Cert.Spec.tapRow ⟨0, by decide⟩) := Fin.ext (by show 0 + i.val = i.val + 0; omega)
    have e2 : (⟨0 + j.val, by omega⟩ : Fin 34) = Cert.Spec.win j (Cert.Spec.tapCol ⟨0, by decide⟩) := Fin.ext (by show 0 + j.val = j.val + 0; omega)
    rw [e1, e2]
  | ⟨1, _⟩ =>
    show (Cert.KernelIdeal.Body.kernelRun.sl.v145 (F := Ideal) c arg1 harg1 arg2 harg2 arg3 harg3 arg4 harg4 arg5 harg5 arg6 harg6 arg7 harg7 arg8 harg8 arg14 arg15 arg16 x0 x1 x2 x3 x4 x5 x6 x7) (ix3 i j ch) = _
    unfold Cert.KernelIdeal.Body.kernelRun.sl.v145
    refine (window_apply (C := 128) arg16.view _ 0 1 inb_S34x34x128_S32x32x128_0_1_0 i j ch).trans ?_
    rw [tp1_stored]
    have e1 : (⟨0 + i.val, by omega⟩ : Fin 34) = Cert.Spec.win i (Cert.Spec.tapRow ⟨1, by decide⟩) := Fin.ext (by show 0 + i.val = i.val + 0; omega)
    have e2 : (⟨1 + j.val, by omega⟩ : Fin 34) = Cert.Spec.win j (Cert.Spec.tapCol ⟨1, by decide⟩) := Fin.ext (by show 1 + j.val = j.val + 1; omega)
    rw [e1, e2]
  | ⟨2, _⟩ =>
    show (Cert.KernelIdeal.Body.kernelRun.sl.v151 (F := Ideal) c arg1 harg1 arg2 harg2 arg3 harg3 arg4 harg4 arg5 harg5 arg6 harg6 arg7 harg7 arg8 harg8 arg14 arg15 arg16 x0 x1 x2 x3 x4 x5 x6 x7) (ix3 i j ch) = _
    unfold Cert.KernelIdeal.Body.kernelRun.sl.v151
    refine (window_apply (C := 128) arg16.view _ 0 2 inb_S34x34x128_S32x32x128_0_2_0 i j ch).trans ?_
    rw [tp1_stored]
    have e1 : (⟨0 + i.val, by omega⟩ : Fin 34) = Cert.Spec.win i (Cert.Spec.tapRow ⟨2, by decide⟩) := Fin.ext (by show 0 + i.val = i.val + 0; omega)
    have e2 : (⟨2 + j.val, by omega⟩ : Fin 34) = Cert.Spec.win j (Cert.Spec.tapCol ⟨2, by decide⟩) := Fin.ext (by show 2 + j.val = j.val + 2; omega)
    rw [e1, e2]
  | ⟨3, _⟩ =>
    show (Cert.KernelIdeal.Body.kernelRun.sl.v157 (F := Ideal) c arg1 harg1 arg2 harg2 arg3 harg3 arg4 harg4 arg5 harg5 arg6 harg6 arg7 harg7 arg8 harg8 arg14 arg15 arg16 x0 x1 x2 x3 x4 x5 x6 x7) (ix3 i j ch) = _
    unfold Cert.KernelIdeal.Body.kernelRun.sl.v157
    refine (window_apply (C := 128) arg16.view _ 1 0 inb_S34x34x128_S32x32x128_1_0_0 i j ch).trans ?_
    rw [tp1_stored]
    have e1 : (⟨1 + i.val, by omega⟩ : Fin 34) = Cert.Spec.win i (Cert.Spec.tapRow ⟨3, by decide⟩) := Fin.ext (by show 1 + i.val = i.val + 1; omega)
    have e2 : (⟨0 + j.val, by omega⟩ : Fin 34) = Cert.Spec.win j (Cert.Spec.tapCol ⟨3, by decide⟩) := Fin.ext (by show 0 + j.val = j.val + 0; omega)
    rw [e1, e2]
  | ⟨4, _⟩ =>
    show (Cert.KernelIdeal.Body.kernelRun.sl.v163 (F := Ideal) c arg1 harg1 arg2 harg2 arg3 harg3 arg4 harg4 arg5 harg5 arg6 harg6 arg7 harg7 arg8 harg8 arg14 arg15 arg16 x0 x1 x2 x3 x4 x5 x6 x7) (ix3 i j ch) = _
    unfold Cert.KernelIdeal.Body.kernelRun.sl.v163
    refine (window_apply (C := 128) arg16.view _ 1 1 inb_S34x34x128_S32x32x128_1_1_0 i j ch).trans ?_
    rw [tp1_stored]
    have e1 : (⟨1 + i.val, by omega⟩ : Fin 34) = Cert.Spec.win i (Cert.Spec.tapRow ⟨4, by decide⟩) := Fin.ext (by show 1 + i.val = i.val + 1; omega)
    have e2 : (⟨1 + j.val, by omega⟩ : Fin 34) = Cert.Spec.win j (Cert.Spec.tapCol ⟨4, by decide⟩) := Fin.ext (by show 1 + j.val = j.val + 1; omega)
    rw [e1, e2]
  | ⟨5, _⟩ =>
    show (Cert.KernelIdeal.Body.kernelRun.sl.v169 (F := Ideal) c arg1 harg1 arg2 harg2 arg3 harg3 arg4 harg4 arg5 harg5 arg6 harg6 arg7 harg7 arg8 harg8 arg14 arg15 arg16 x0 x1 x2 x3 x4 x5 x6 x7) (ix3 i j ch) = _
    unfold Cert.KernelIdeal.Body.kernelRun.sl.v169
    refine (window_apply (C := 128) arg16.view _ 1 2 inb_S34x34x128_S32x32x128_1_2_0 i j ch).trans ?_
    rw [tp1_stored]
    have e1 : (⟨1 + i.val, by omega⟩ : Fin 34) = Cert.Spec.win i (Cert.Spec.tapRow ⟨5, by decide⟩) := Fin.ext (by show 1 + i.val = i.val + 1; omega)
    have e2 : (⟨2 + j.val, by omega⟩ : Fin 34) = Cert.Spec.win j (Cert.Spec.tapCol ⟨5, by decide⟩) := Fin.ext (by show 2 + j.val = j.val + 2; omega)
    rw [e1, e2]
  | ⟨6, _⟩ =>
    show (Cert.KernelIdeal.Body.kernelRun.sl.v175 (F := Ideal) c arg1 harg1 arg2 harg2 arg3 harg3 arg4 harg4 arg5 harg5 arg6 harg6 arg7 harg7 arg8 harg8 arg14 arg15 arg16 x0 x1 x2 x3 x4 x5 x6 x7) (ix3 i j ch) = _
    unfold Cert.KernelIdeal.Body.kernelRun.sl.v175
    refine (window_apply (C := 128) arg16.view _ 2 0 inb_S34x34x128_S32x32x128_2_0_0 i j ch).trans ?_
    rw [tp1_stored]
    have e1 : (⟨2 + i.val, by omega⟩ : Fin 34) = Cert.Spec.win i (Cert.Spec.tapRow ⟨6, by decide⟩) := Fin.ext (by show 2 + i.val = i.val + 2; omega)
    have e2 : (⟨0 + j.val, by omega⟩ : Fin 34) = Cert.Spec.win j (Cert.Spec.tapCol ⟨6, by decide⟩) := Fin.ext (by show 0 + j.val = j.val + 0; omega)
    rw [e1, e2]
  | ⟨7, _⟩ =>
    show (Cert.KernelIdeal.Body.kernelRun.sl.v181 (F := Ideal) c arg1 harg1 arg2 harg2 arg3 harg3 arg4 harg4 arg5 harg5 arg6 harg6 arg7 harg7 arg8 harg8 arg14 arg15 arg16 x0 x1 x2 x3 x4 x5 x6 x7) (ix3 i j ch) = _
    unfold Cert.KernelIdeal.Body.kernelRun.sl.v181
    refine (window_apply (C := 128) arg16.view _ 2 1 inb_S34x34x128_S32x32x128_2_1_0 i j ch).trans ?_
    rw [tp1_stored]
    have e1 : (⟨2 + i.val, by omega⟩ : Fin 34) = Cert.Spec.win i (Cert.Spec.tapRow ⟨7, by decide⟩) := Fin.ext (by show 2 + i.val = i.val + 2; omega)
    have e2 : (⟨1 + j.val, by omega⟩ : Fin 34) = Cert.Spec.win j (Cert.Spec.tapCol ⟨7, by decide⟩) := Fin.ext (by show 1 + j.val = j.val + 1; omega)
    rw [e1, e2]
  | ⟨8, _⟩ =>
    show (Cert.KernelIdeal.Body.kernelRun.sl.v187 (F := Ideal) c arg1 harg1 arg2 harg2 arg3 harg3 arg4 harg4 arg5 harg5 arg6 harg6 arg7 harg7 arg8 harg8 arg14 arg15 arg16 x0 x1 x2 x3 x4 x5 x6 x7) (ix3 i j ch) = _
    unfold Cert.KernelIdeal.Body.kernelRun.sl.v187
    refine (window_apply (C := 128) arg16.view _ 2 2 inb_S34x34x128_S32x32x128_2_2_0 i j ch).trans ?_
    rw [tp1_stored]
    have e1 : (⟨2 + i.val, by omega⟩ : Fin 34) = Cert.Spec.win i (Cert.Spec.tapRow ⟨8, by decide⟩) := Fin.ext (by show 2 + i.val = i.val + 2; omega)
    have e2 : (⟨2 + j.val, by omega⟩ : Fin 34) = Cert.Spec.win j (Cert.Spec.tapCol ⟨8, by decide⟩) := Fin.ext (by show 2 + j.val = j.val + 2; omega)
    rw [e1, e2]

theorem w1Slab_apply (k : Fin 9) (ch : Fin 128) (o : Fin 128) :
    w1Slab arg9 harg9 x8 k (ix2 ch o) = (fun q o => x8 (ix2 q o)) (Cert.Lib.TapSum.flat k ch) o := by
  have hch := ch.isLt
  match k with
  | ⟨0, _⟩ =>
    show (View.readAt (Elt Ideal) arg9.view (Rect.unit (s := S1152x128) ![0, 0] S128x128.size inb_S1152x128_S128x128_0_0).toLoadRect (harg9.unread x8)) (ix2 ch o) = _
    refine (slab_apply (R := 1152) (C := 128) harg9 x8 0 inb_S1152x128_S128x128_0_0 ch o).trans ?_
    show x8 (ix2 _ o) = x8 (ix2 _ o)
    congr 2
    exact Fin.ext (by show 0 + ch.val = ch.val + 128 * 0; omega)
  | ⟨1, _⟩ =>
    show (View.readAt (Elt Ideal) arg9.view (Rect.unit (s := S1152x128) ![128, 0] S128x128.size inb_S1152x128_S128x128_128_0).toLoadRect (harg9.unread x8)) (ix2 ch o) = _
    refine (slab_apply (R := 1152) (C := 128) harg9 x8 128 inb_S1152x128_S128x128_128_0 ch o).trans ?_
    show x8 (ix2 _ o) = x8 (ix2 _ o)
    congr 2
    exact Fin.ext (by show 128 + ch.val = ch.val + 128 * 1; omega)
  | ⟨2, _⟩ =>
    show (View.readAt (Elt Ideal) arg9.view (Rect.unit (s := S1152x128) ![256, 0] S128x128.size inb_S1152x128_S128x128_256_0).toLoadRect (harg9.unread x8)) (ix2 ch o) = _
    refine (slab_apply (R := 1152) (C := 128) harg9 x8 256 inb_S1152x128_S128x128_256_0 ch o).trans ?_
    show x8 (ix2 _ o) = x8 (ix2 _ o)
    congr 2
    exact Fin.ext (by show 256 + ch.val = ch.val + 128 * 2; omega)
  | ⟨3, _⟩ =>
    show (View.readAt (Elt Ideal) arg9.view (Rect.unit (s := S1152x128) ![384, 0] S128x128.size inb_S1152x128_S128x128_384_0).toLoadRect (harg9.unread x8)) (ix2 ch o) = _
    refine (slab_apply (R := 1152) (C := 128) harg9 x8 384 inb_S1152x128_S128x128_384_0 ch o).trans ?_
    show x8 (ix2 _ o) = x8 (ix2 _ o)
    congr 2
    exact Fin.ext (by show 384 + ch.val = ch.val + 128 * 3; omega)
  | ⟨4, _⟩ =>
    show (View.readAt (Elt Ideal) arg9.view (Rect.unit (s := S1152x128) ![512, 0] S128x128.size inb_S1152x128_S128x128_512_0).toLoadRect (harg9.unread x8)) (ix2 ch o) = _
    refine (slab_apply (R := 1152) (C := 128) harg9 x8 512 inb_S1152x128_S128x128_512_0 ch o).trans ?_
    show x8 (ix2 _ o) = x8 (ix2 _ o)
    congr 2
    exact Fin.ext (by show 512 + ch.val = ch.val + 128 * 4; omega)
  | ⟨5, _⟩ =>
    show (View.readAt (Elt Ideal) arg9.view (Rect.unit (s := S1152x128) ![640, 0] S128x128.size inb_S1152x128_S128x128_640_0).toLoadRect (harg9.unread x8)) (ix2 ch o) = _
    refine (slab_apply (R := 1152) (C := 128) harg9 x8 640 inb_S1152x128_S128x128_640_0 ch o).trans ?_
    show x8 (ix2 _ o) = x8 (ix2 _ o)
    congr 2
    exact Fin.ext (by show 640 + ch.val = ch.val + 128 * 5; omega)
  | ⟨6, _⟩ =>
    show (View.readAt (Elt Ideal) arg9.view (Rect.unit (s := S1152x128) ![768, 0] S128x128.size inb_S1152x128_S128x128_768_0).toLoadRect (harg9.unread x8)) (ix2 ch o) = _
    refine (slab_apply (R := 1152) (C := 128) harg9 x8 768 inb_S1152x128_S128x128_768_0 ch o).trans ?_
    show x8 (ix2 _ o) = x8 (ix2 _ o)
    congr 2
    exact Fin.ext (by show 768 + ch.val = ch.val + 128 * 6; omega)
  | ⟨7, _⟩ =>
    show (View.readAt (Elt Ideal) arg9.view (Rect.unit (s := S1152x128) ![896, 0] S128x128.size inb_S1152x128_S128x128_896_0).toLoadRect (harg9.unread x8)) (ix2 ch o) = _
    refine (slab_apply (R := 1152) (C := 128) harg9 x8 896 inb_S1152x128_S128x128_896_0 ch o).trans ?_
    show x8 (ix2 _ o) = x8 (ix2 _ o)
    congr 2
    exact Fin.ext (by show 896 + ch.val = ch.val + 128 * 7; omega)
  | ⟨8, _⟩ =>
    show (View.readAt (Elt Ideal) arg9.view (Rect.unit (s := S1152x128) ![1024, 0] S128x128.size inb_S1152x128_S128x128_1024_0).toLoadRect (harg9.unread x8)) (ix2 ch o) = _
    refine (slab_apply (R := 1152) (C := 128) harg9 x8 1024 inb_S1152x128_S128x128_1024_0 ch o).trans ?_
    show x8 (ix2 _ o) = x8 (ix2 _ o)
    congr 2
    exact Fin.ext (by show 1024 + ch.val = ch.val + 128 * 8; omega)

/-- The rectified second convolution the body stores. -/
theorem h_stored (i j : Fin 32) (o : Fin 128) : (k0_pay17 (F := Ideal) (Cert.KernelIdeal.Body.kernelRun.sl.r_5 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9) (Cert.KernelIdeal.Body.kernelRun.sl.v187 (F := Ideal) c arg1 harg1 arg2 harg2 arg3 harg3 arg4 harg4 arg5 harg5 arg6 harg6 arg7 harg7 arg8 harg8 arg14 arg15 arg16 x0 x1 x2 x3 x4 x5 x6 x7) (View.readAt (Elt Ideal) arg9.view (Rect.unit (s := S1152x128) ![1024, 0] S128x128.size inb_S1152x128_S128x128_1024_0).toLoadRect (harg9.unread x8))) (ix3 i j o) = (Cert.Spec.hK (Cert.Spec.up (fun a b ci => x0 (ix4 0 a b ci)) (fun ci col => x2 (ix2 ci col)) (fun col => x3 (ix2 0 col))) (fun a b ch => x1 (ix4 0 a b ch)) (fun q o => x4 (ix2 q o)) (fun o => x5 (ix2 0 o)) (fun o => x6 (ix2 0 o)) (fun o => x7 (ix2 0 o)) (fun q o => x8 (ix2 q o)) (fun o => x9 (ix2 0 o))) i j o := by
  unfold Cert.KernelIdeal.Body.kernelRun.sl.r_5 Cert.KernelIdeal.Body.kernelRun.sl.r_4
  have hb : (fun o => (View.readAt (Elt Ideal) arg10.view (Rect.unit (s := S1x128) ![0, 0] S1x128.size inb_S1x128_S1x128_0_0).toLoadRect (harg10.unread x9)) (ix2 0 o)) = (fun o => x9 (ix2 0 o)) := by rw [readAt_whole harg10 x9 hz2]
  unfold Cert.Spec.hK
  rw [← hb]
  exact conv2_eq (Cert.Spec.pad (Cert.Spec.tK (Cert.Spec.up (fun a b ci => x0 (ix4 0 a b ci)) (fun ci col => x2 (ix2 ci col)) (fun col => x3 (ix2 0 col))) (fun a b ch => x1 (ix4 0 a b ch)) (fun q o => x4 (ix2 q o)) (fun o => x5 (ix2 0 o)) (fun o => x6 (ix2 0 o)) (fun o => x7 (ix2 0 o)))) (fun q o => x8 (ix2 q o)) (View.readAt (Elt Ideal) arg10.view (Rect.unit (s := S1x128) ![0, 0] S1x128.size inb_S1x128_S1x128_0_0).toLoadRect (harg10.unread x9)) (tWin c arg1 harg1 arg2 harg2 arg3 harg3 arg4 harg4 arg5 harg5 arg6 harg6 arg7 harg7 arg8 harg8 arg14 arg15 arg16 x0 x1 x2 x3 x4 x5 x6 x7) (w1Slab arg9 harg9 x8)
    (tWin_apply c arg1 harg1 arg2 harg2 arg3 harg3 arg4 harg4 arg5 harg5 arg6 harg6 arg7 harg7 arg8 harg8 arg14 arg15 arg16 x0 x1 x2 x3 x4 x5 x6 x7) (w1Slab_apply arg9 harg9 x8) i j o (posOf i j) (rowOf_posOf i j) (colOf_posOf i j)
    (fun acc w8 s8 => pay17_apply acc w8 s8 i j o)

set_option maxHeartbeats 1000000 in
/-- The padded activation image after the second interior store. -/
theorem tp2_stored (a b : Fin 34) (ch : Fin 128) :
    canon (Val := Elt Ideal) (s := S34x34x128) (e := .bf16) (Cert.KernelIdeal.Body.kernelRun.sl.HS2_3 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9) (ix3 a b ch) = (Cert.Spec.pad (Cert.Spec.hK (Cert.Spec.up (fun a b ci => x0 (ix4 0 a b ci)) (fun ci col => x2 (ix2 ci col)) (fun col => x3 (ix2 0 col))) (fun a b ch => x1 (ix4 0 a b ch)) (fun q o => x4 (ix2 q o)) (fun o => x5 (ix2 0 o)) (fun o => x6 (ix2 0 o)) (fun o => x7 (ix2 0 o)) (fun q o => x8 (ix2 q o)) (fun o => x9 (ix2 0 o)))) a b ch := by
  unfold Cert.KernelIdeal.Body.kernelRun.sl.HS2_3 Cert.KernelIdeal.Body.kernelRun.sl.old_3 Cert.KernelIdeal.Body.kernelRun.sl.HS2_2 Cert.KernelIdeal.Body.kernelRun.sl.old_2 Cert.KernelIdeal.Body.kernelRun.sl.HS2_1
  refine (tp3_apply arg16.view (k0_pay14 (F := Ideal) (Cert.KernelIdeal.Body.kernelRun.sl.r_3 (F := Ideal) c arg1 harg1 arg2 harg2 arg3 harg3 arg4 harg4 arg5 harg5 arg6 harg6 arg7 harg7 arg14 arg15 x0 x1 x2 x3 x4 x5 x6) (View.readAt (Elt Ideal) arg8.view (Rect.unit (s := S1x128) ![0, 0] S1x128.size inb_S1x128_S1x128_0_0).toLoadRect (harg8.unread x7))) (k0_pay17 (F := Ideal) (Cert.KernelIdeal.Body.kernelRun.sl.r_5 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9) (Cert.KernelIdeal.Body.kernelRun.sl.v187 (F := Ideal) c arg1 harg1 arg2 harg2 arg3 harg3 arg4 harg4 arg5 harg5 arg6 harg6 arg7 harg7 arg8 harg8 arg14 arg15 arg16 x0 x1 x2 x3 x4 x5 x6 x7) (View.readAt (Elt Ideal) arg9.view (Rect.unit (s := S1152x128) ![1024, 0] S128x128.size inb_S1152x128_S128x128_1024_0).toLoadRect (harg9.unread x8))) a b ch).trans ?_
  have eH : (fun i j cc => (k0_pay17 (F := Ideal) (Cert.KernelIdeal.Body.kernelRun.sl.r_5 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9) (Cert.KernelIdeal.Body.kernelRun.sl.v187 (F := Ideal) c arg1 harg1 arg2 harg2 arg3 harg3 arg4 harg4 arg5 harg5 arg6 harg6 arg7 harg7 arg8 harg8 arg14 arg15 arg16 x0 x1 x2 x3 x4 x5 x6 x7) (View.readAt (Elt Ideal) arg9.view (Rect.unit (s := S1152x128) ![1024, 0] S128x128.size inb_S1152x128_S128x128_1024_0).toLoadRect (harg9.unread x8))) (ix3 i j cc)) = (Cert.Spec.hK (Cert.Spec.up (fun a b ci => x0 (ix4 0 a b ci)) (fun ci col => x2 (ix2 ci col)) (fun col => x3 (ix2 0 col))) (fun a b ch => x1 (ix4 0 a b ch)) (fun q o => x4 (ix2 q o)) (fun o => x5 (ix2 0 o)) (fun o => x6 (ix2 0 o)) (fun o => x7 (ix2 0 o)) (fun q o => x8 (ix2 q o)) (fun o => x9 (ix2 0 o))) :=
    funext fun i => funext fun j => funext fun cc => h_stored c arg1 harg1 arg2 harg2 arg3 harg3 arg4 harg4 arg5 harg5 arg6 harg6 arg7 harg7 arg8 harg8 arg9 harg9 arg10 harg10 arg14 arg15 arg16 x0 x1 x2 x3 x4 x5 x6 x7 x8 x9 i j cc
  rw [eH]

def hWin : Fin 9 → Vec Ideal S32x32x128 .bf16
  | ⟨0, _⟩ => (Cert.KernelIdeal.Body.kernelRun.sl.v207 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9)
  | ⟨1, _⟩ => (Cert.KernelIdeal.Body.kernelRun.sl.v213 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9)
  | ⟨2, _⟩ => (Cert.KernelIdeal.Body.kernelRun.sl.v219 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9)
  | ⟨3, _⟩ => (Cert.KernelIdeal.Body.kernelRun.sl.v225 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9)
  | ⟨4, _⟩ => (Cert.KernelIdeal.Body.kernelRun.sl.v231 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9)
  | ⟨5, _⟩ => (Cert.KernelIdeal.Body.kernelRun.sl.v237 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9)
  | ⟨6, _⟩ => (Cert.KernelIdeal.Body.kernelRun.sl.v243 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9)
  | ⟨7, _⟩ => (Cert.KernelIdeal.Body.kernelRun.sl.v249 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9)
  | ⟨8, _⟩ => (Cert.KernelIdeal.Body.kernelRun.sl.v255 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9)

def w2Slab : Fin 9 → Vec Ideal S128x128 .bf16
  | ⟨0, _⟩ => (View.readAt (Elt Ideal) arg11.view (Rect.unit (s := S1152x128) ![0, 0] S128x128.size inb_S1152x128_S128x128_0_0).toLoadRect (harg11.unread x10))
  | ⟨1, _⟩ => (View.readAt (Elt Ideal) arg11.view (Rect.unit (s := S1152x128) ![128, 0] S128x128.size inb_S1152x128_S128x128_128_0).toLoadRect (harg11.unread x10))
  | ⟨2, _⟩ => (View.readAt (Elt Ideal) arg11.view (Rect.unit (s := S1152x128) ![256, 0] S128x128.size inb_S1152x128_S128x128_256_0).toLoadRect (harg11.unread x10))
  | ⟨3, _⟩ => (View.readAt (Elt Ideal) arg11.view (Rect.unit (s := S1152x128) ![384, 0] S128x128.size inb_S1152x128_S128x128_384_0).toLoadRect (harg11.unread x10))
  | ⟨4, _⟩ => (View.readAt (Elt Ideal) arg11.view (Rect.unit (s := S1152x128) ![512, 0] S128x128.size inb_S1152x128_S128x128_512_0).toLoadRect (harg11.unread x10))
  | ⟨5, _⟩ => (View.readAt (Elt Ideal) arg11.view (Rect.unit (s := S1152x128) ![640, 0] S128x128.size inb_S1152x128_S128x128_640_0).toLoadRect (harg11.unread x10))
  | ⟨6, _⟩ => (View.readAt (Elt Ideal) arg11.view (Rect.unit (s := S1152x128) ![768, 0] S128x128.size inb_S1152x128_S128x128_768_0).toLoadRect (harg11.unread x10))
  | ⟨7, _⟩ => (View.readAt (Elt Ideal) arg11.view (Rect.unit (s := S1152x128) ![896, 0] S128x128.size inb_S1152x128_S128x128_896_0).toLoadRect (harg11.unread x10))
  | ⟨8, _⟩ => (View.readAt (Elt Ideal) arg11.view (Rect.unit (s := S1152x128) ![1024, 0] S128x128.size inb_S1152x128_S128x128_1024_0).toLoadRect (harg11.unread x10))

theorem hWin_apply (k : Fin 9) (i j : Fin 32) (ch : Fin 128) :
    hWin c arg1 harg1 arg2 harg2 arg3 harg3 arg4 harg4 arg5 harg5 arg6 harg6 arg7 harg7 arg8 harg8 arg9 harg9 arg10 harg10 arg14 arg15 arg16 x0 x1 x2 x3 x4 x5 x6 x7 x8 x9 k (ix3 i j ch) = (Cert.Spec.pad (Cert.Spec.hK (Cert.Spec.up (fun a b ci => x0 (ix4 0 a b ci)) (fun ci col => x2 (ix2 ci col)) (fun col => x3 (ix2 0 col))) (fun a b ch => x1 (ix4 0 a b ch)) (fun q o => x4 (ix2 q o)) (fun o => x5 (ix2 0 o)) (fun o => x6 (ix2 0 o)) (fun o => x7 (ix2 0 o)) (fun q o => x8 (ix2 q o)) (fun o => x9 (ix2 0 o)))) (Cert.Spec.win i (Cert.Spec.tapRow k)) (Cert.Spec.win j (Cert.Spec.tapCol k)) ch := by
  have hi := i.isLt; have hj := j.isLt
  match k with
  | ⟨0, _⟩ =>
    show (Cert.KernelIdeal.Body.kernelRun.sl.v207 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9) (ix3 i j ch) = _
    unfold Cert.KernelIdeal.Body.kernelRun.sl.v207
    refine (window_apply (C := 128) arg16.view _ 0 0 inb_S34x34x128_S32x32x128_0_0_0 i j ch).trans ?_
    rw [tp2_stored]
    have e1 : (⟨0 + i.val, by omega⟩ : Fin 34) = Cert.Spec.win i (Cert.Spec.tapRow ⟨0, by decide⟩) := Fin.ext (by show 0 + i.val = i.val + 0; omega)
    have e2 : (⟨0 + j.val, by omega⟩ : Fin 34) = Cert.Spec.win j (Cert.Spec.tapCol ⟨0, by decide⟩) := Fin.ext (by show 0 + j.val = j.val + 0; omega)
    rw [e1, e2]
  | ⟨1, _⟩ =>
    show (Cert.KernelIdeal.Body.kernelRun.sl.v213 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9) (ix3 i j ch) = _
    unfold Cert.KernelIdeal.Body.kernelRun.sl.v213
    refine (window_apply (C := 128) arg16.view _ 0 1 inb_S34x34x128_S32x32x128_0_1_0 i j ch).trans ?_
    rw [tp2_stored]
    have e1 : (⟨0 + i.val, by omega⟩ : Fin 34) = Cert.Spec.win i (Cert.Spec.tapRow ⟨1, by decide⟩) := Fin.ext (by show 0 + i.val = i.val + 0; omega)
    have e2 : (⟨1 + j.val, by omega⟩ : Fin 34) = Cert.Spec.win j (Cert.Spec.tapCol ⟨1, by decide⟩) := Fin.ext (by show 1 + j.val = j.val + 1; omega)
    rw [e1, e2]
  | ⟨2, _⟩ =>
    show (Cert.KernelIdeal.Body.kernelRun.sl.v219 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9) (ix3 i j ch) = _
    unfold Cert.KernelIdeal.Body.kernelRun.sl.v219
    refine (window_apply (C := 128) arg16.view _ 0 2 inb_S34x34x128_S32x32x128_0_2_0 i j ch).trans ?_
    rw [tp2_stored]
    have e1 : (⟨0 + i.val, by omega⟩ : Fin 34) = Cert.Spec.win i (Cert.Spec.tapRow ⟨2, by decide⟩) := Fin.ext (by show 0 + i.val = i.val + 0; omega)
    have e2 : (⟨2 + j.val, by omega⟩ : Fin 34) = Cert.Spec.win j (Cert.Spec.tapCol ⟨2, by decide⟩) := Fin.ext (by show 2 + j.val = j.val + 2; omega)
    rw [e1, e2]
  | ⟨3, _⟩ =>
    show (Cert.KernelIdeal.Body.kernelRun.sl.v225 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9) (ix3 i j ch) = _
    unfold Cert.KernelIdeal.Body.kernelRun.sl.v225
    refine (window_apply (C := 128) arg16.view _ 1 0 inb_S34x34x128_S32x32x128_1_0_0 i j ch).trans ?_
    rw [tp2_stored]
    have e1 : (⟨1 + i.val, by omega⟩ : Fin 34) = Cert.Spec.win i (Cert.Spec.tapRow ⟨3, by decide⟩) := Fin.ext (by show 1 + i.val = i.val + 1; omega)
    have e2 : (⟨0 + j.val, by omega⟩ : Fin 34) = Cert.Spec.win j (Cert.Spec.tapCol ⟨3, by decide⟩) := Fin.ext (by show 0 + j.val = j.val + 0; omega)
    rw [e1, e2]
  | ⟨4, _⟩ =>
    show (Cert.KernelIdeal.Body.kernelRun.sl.v231 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9) (ix3 i j ch) = _
    unfold Cert.KernelIdeal.Body.kernelRun.sl.v231
    refine (window_apply (C := 128) arg16.view _ 1 1 inb_S34x34x128_S32x32x128_1_1_0 i j ch).trans ?_
    rw [tp2_stored]
    have e1 : (⟨1 + i.val, by omega⟩ : Fin 34) = Cert.Spec.win i (Cert.Spec.tapRow ⟨4, by decide⟩) := Fin.ext (by show 1 + i.val = i.val + 1; omega)
    have e2 : (⟨1 + j.val, by omega⟩ : Fin 34) = Cert.Spec.win j (Cert.Spec.tapCol ⟨4, by decide⟩) := Fin.ext (by show 1 + j.val = j.val + 1; omega)
    rw [e1, e2]
  | ⟨5, _⟩ =>
    show (Cert.KernelIdeal.Body.kernelRun.sl.v237 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9) (ix3 i j ch) = _
    unfold Cert.KernelIdeal.Body.kernelRun.sl.v237
    refine (window_apply (C := 128) arg16.view _ 1 2 inb_S34x34x128_S32x32x128_1_2_0 i j ch).trans ?_
    rw [tp2_stored]
    have e1 : (⟨1 + i.val, by omega⟩ : Fin 34) = Cert.Spec.win i (Cert.Spec.tapRow ⟨5, by decide⟩) := Fin.ext (by show 1 + i.val = i.val + 1; omega)
    have e2 : (⟨2 + j.val, by omega⟩ : Fin 34) = Cert.Spec.win j (Cert.Spec.tapCol ⟨5, by decide⟩) := Fin.ext (by show 2 + j.val = j.val + 2; omega)
    rw [e1, e2]
  | ⟨6, _⟩ =>
    show (Cert.KernelIdeal.Body.kernelRun.sl.v243 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9) (ix3 i j ch) = _
    unfold Cert.KernelIdeal.Body.kernelRun.sl.v243
    refine (window_apply (C := 128) arg16.view _ 2 0 inb_S34x34x128_S32x32x128_2_0_0 i j ch).trans ?_
    rw [tp2_stored]
    have e1 : (⟨2 + i.val, by omega⟩ : Fin 34) = Cert.Spec.win i (Cert.Spec.tapRow ⟨6, by decide⟩) := Fin.ext (by show 2 + i.val = i.val + 2; omega)
    have e2 : (⟨0 + j.val, by omega⟩ : Fin 34) = Cert.Spec.win j (Cert.Spec.tapCol ⟨6, by decide⟩) := Fin.ext (by show 0 + j.val = j.val + 0; omega)
    rw [e1, e2]
  | ⟨7, _⟩ =>
    show (Cert.KernelIdeal.Body.kernelRun.sl.v249 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9) (ix3 i j ch) = _
    unfold Cert.KernelIdeal.Body.kernelRun.sl.v249
    refine (window_apply (C := 128) arg16.view _ 2 1 inb_S34x34x128_S32x32x128_2_1_0 i j ch).trans ?_
    rw [tp2_stored]
    have e1 : (⟨2 + i.val, by omega⟩ : Fin 34) = Cert.Spec.win i (Cert.Spec.tapRow ⟨7, by decide⟩) := Fin.ext (by show 2 + i.val = i.val + 2; omega)
    have e2 : (⟨1 + j.val, by omega⟩ : Fin 34) = Cert.Spec.win j (Cert.Spec.tapCol ⟨7, by decide⟩) := Fin.ext (by show 1 + j.val = j.val + 1; omega)
    rw [e1, e2]
  | ⟨8, _⟩ =>
    show (Cert.KernelIdeal.Body.kernelRun.sl.v255 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9) (ix3 i j ch) = _
    unfold Cert.KernelIdeal.Body.kernelRun.sl.v255
    refine (window_apply (C := 128) arg16.view _ 2 2 inb_S34x34x128_S32x32x128_2_2_0 i j ch).trans ?_
    rw [tp2_stored]
    have e1 : (⟨2 + i.val, by omega⟩ : Fin 34) = Cert.Spec.win i (Cert.Spec.tapRow ⟨8, by decide⟩) := Fin.ext (by show 2 + i.val = i.val + 2; omega)
    have e2 : (⟨2 + j.val, by omega⟩ : Fin 34) = Cert.Spec.win j (Cert.Spec.tapCol ⟨8, by decide⟩) := Fin.ext (by show 2 + j.val = j.val + 2; omega)
    rw [e1, e2]

theorem w2Slab_apply (k : Fin 9) (ch : Fin 128) (o : Fin 128) :
    w2Slab arg11 harg11 x10 k (ix2 ch o) = (fun q o => x10 (ix2 q o)) (Cert.Lib.TapSum.flat k ch) o := by
  have hch := ch.isLt
  match k with
  | ⟨0, _⟩ =>
    show (View.readAt (Elt Ideal) arg11.view (Rect.unit (s := S1152x128) ![0, 0] S128x128.size inb_S1152x128_S128x128_0_0).toLoadRect (harg11.unread x10)) (ix2 ch o) = _
    refine (slab_apply (R := 1152) (C := 128) harg11 x10 0 inb_S1152x128_S128x128_0_0 ch o).trans ?_
    show x10 (ix2 _ o) = x10 (ix2 _ o)
    congr 2
    exact Fin.ext (by show 0 + ch.val = ch.val + 128 * 0; omega)
  | ⟨1, _⟩ =>
    show (View.readAt (Elt Ideal) arg11.view (Rect.unit (s := S1152x128) ![128, 0] S128x128.size inb_S1152x128_S128x128_128_0).toLoadRect (harg11.unread x10)) (ix2 ch o) = _
    refine (slab_apply (R := 1152) (C := 128) harg11 x10 128 inb_S1152x128_S128x128_128_0 ch o).trans ?_
    show x10 (ix2 _ o) = x10 (ix2 _ o)
    congr 2
    exact Fin.ext (by show 128 + ch.val = ch.val + 128 * 1; omega)
  | ⟨2, _⟩ =>
    show (View.readAt (Elt Ideal) arg11.view (Rect.unit (s := S1152x128) ![256, 0] S128x128.size inb_S1152x128_S128x128_256_0).toLoadRect (harg11.unread x10)) (ix2 ch o) = _
    refine (slab_apply (R := 1152) (C := 128) harg11 x10 256 inb_S1152x128_S128x128_256_0 ch o).trans ?_
    show x10 (ix2 _ o) = x10 (ix2 _ o)
    congr 2
    exact Fin.ext (by show 256 + ch.val = ch.val + 128 * 2; omega)
  | ⟨3, _⟩ =>
    show (View.readAt (Elt Ideal) arg11.view (Rect.unit (s := S1152x128) ![384, 0] S128x128.size inb_S1152x128_S128x128_384_0).toLoadRect (harg11.unread x10)) (ix2 ch o) = _
    refine (slab_apply (R := 1152) (C := 128) harg11 x10 384 inb_S1152x128_S128x128_384_0 ch o).trans ?_
    show x10 (ix2 _ o) = x10 (ix2 _ o)
    congr 2
    exact Fin.ext (by show 384 + ch.val = ch.val + 128 * 3; omega)
  | ⟨4, _⟩ =>
    show (View.readAt (Elt Ideal) arg11.view (Rect.unit (s := S1152x128) ![512, 0] S128x128.size inb_S1152x128_S128x128_512_0).toLoadRect (harg11.unread x10)) (ix2 ch o) = _
    refine (slab_apply (R := 1152) (C := 128) harg11 x10 512 inb_S1152x128_S128x128_512_0 ch o).trans ?_
    show x10 (ix2 _ o) = x10 (ix2 _ o)
    congr 2
    exact Fin.ext (by show 512 + ch.val = ch.val + 128 * 4; omega)
  | ⟨5, _⟩ =>
    show (View.readAt (Elt Ideal) arg11.view (Rect.unit (s := S1152x128) ![640, 0] S128x128.size inb_S1152x128_S128x128_640_0).toLoadRect (harg11.unread x10)) (ix2 ch o) = _
    refine (slab_apply (R := 1152) (C := 128) harg11 x10 640 inb_S1152x128_S128x128_640_0 ch o).trans ?_
    show x10 (ix2 _ o) = x10 (ix2 _ o)
    congr 2
    exact Fin.ext (by show 640 + ch.val = ch.val + 128 * 5; omega)
  | ⟨6, _⟩ =>
    show (View.readAt (Elt Ideal) arg11.view (Rect.unit (s := S1152x128) ![768, 0] S128x128.size inb_S1152x128_S128x128_768_0).toLoadRect (harg11.unread x10)) (ix2 ch o) = _
    refine (slab_apply (R := 1152) (C := 128) harg11 x10 768 inb_S1152x128_S128x128_768_0 ch o).trans ?_
    show x10 (ix2 _ o) = x10 (ix2 _ o)
    congr 2
    exact Fin.ext (by show 768 + ch.val = ch.val + 128 * 6; omega)
  | ⟨7, _⟩ =>
    show (View.readAt (Elt Ideal) arg11.view (Rect.unit (s := S1152x128) ![896, 0] S128x128.size inb_S1152x128_S128x128_896_0).toLoadRect (harg11.unread x10)) (ix2 ch o) = _
    refine (slab_apply (R := 1152) (C := 128) harg11 x10 896 inb_S1152x128_S128x128_896_0 ch o).trans ?_
    show x10 (ix2 _ o) = x10 (ix2 _ o)
    congr 2
    exact Fin.ext (by show 896 + ch.val = ch.val + 128 * 7; omega)
  | ⟨8, _⟩ =>
    show (View.readAt (Elt Ideal) arg11.view (Rect.unit (s := S1152x128) ![1024, 0] S128x128.size inb_S1152x128_S128x128_1024_0).toLoadRect (harg11.unread x10)) (ix2 ch o) = _
    refine (slab_apply (R := 1152) (C := 128) harg11 x10 1024 inb_S1152x128_S128x128_1024_0 ch o).trans ?_
    show x10 (ix2 _ o) = x10 (ix2 _ o)
    congr 2
    exact Fin.ext (by show 1024 + ch.val = ch.val + 128 * 8; omega)

/-- What the last store leaves at (0, a, b, o): the parked result plus the third convolution. -/
theorem out_eq (a b : Fin 32) (o : Fin 128) :
    k0_pay1 (F := Ideal) (Cert.KernelIdeal.Body.kernelRun.sl.r_8 (F := Ideal) c arg1 harg1 arg2 harg2 arg3 harg3 arg4 harg4 arg5 harg5 arg6 harg6 arg7 harg7 arg8 harg8 arg9 harg9 arg10 harg10 arg11 harg11 arg12 harg12 arg14 arg15 arg16 x0 x1 x2 x3 x4 x5 x6 x7 x8 x9 x10 x11) (Cert.KernelIdeal.Body.kernelRun.sl.r_9 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9) (View.readAt (Elt Ideal) arg11.view (Rect.unit (s := S1152x128) ![896, 0] S128x128.size inb_S1152x128_S128x128_896_0).toLoadRect (harg11.unread x10)) (Cert.KernelIdeal.Body.kernelRun.sl.v255 (F := Ideal) c arg1 harg1 arg2 harg2 arg3 harg3 arg4 harg4 arg5 harg5 arg6 harg6 arg7 harg7 arg8 harg8 arg9 harg9 arg10 harg10 arg14 arg15 arg16 x0 x1 x2 x3 x4 x5 x6 x7 x8 x9) (View.readAt (Elt Ideal) arg11.view (Rect.unit (s := S1152x128) ![1024, 0] S128x128.size inb_S1152x128_S128x128_1024_0).toLoadRect (harg11.unread x10)) (Cert.KernelIdeal.Body.kernelRun.sl.v261 (F := Ideal) c arg1 harg1 arg2 harg2 arg3 harg3 arg4 harg4 arg5 harg5 arg6 harg6 arg13 arg14 arg15 x0 x1 x2 x3 x4 x5) (ix4 0 a b o)
      = Cert.Spec.kBlock (fun a b ci => x0 (ix4 0 a b ci)) (fun a b ch => x1 (ix4 0 a b ch)) (fun ci col => x2 (ix2 ci col)) (fun col => x3 (ix2 0 col)) (fun q o => x4 (ix2 q o)) (fun o => x5 (ix2 0 o)) (fun o => x6 (ix2 0 o)) (fun o => x7 (ix2 0 o)) (fun q o => x8 (ix2 q o)) (fun o => x9 (ix2 0 o)) (fun q o => x10 (ix2 q o)) (fun o => x11 (ix2 0 o)) a b o := by
  unfold Cert.KernelIdeal.Body.kernelRun.sl.r_8 Cert.KernelIdeal.Body.kernelRun.sl.r_9 Cert.KernelIdeal.Body.kernelRun.sl.r_7 Cert.KernelIdeal.Body.kernelRun.sl.r_6
  have hb : (fun o => (View.readAt (Elt Ideal) arg12.view (Rect.unit (s := S1x128) ![0, 0] S1x128.size inb_S1x128_S1x128_0_0).toLoadRect (harg12.unread x11)) (ix2 0 o)) = (fun o => x11 (ix2 0 o)) := by rw [readAt_whole harg12 x11 hz2]
  unfold Cert.Spec.kBlock Cert.Spec.outK
  rw [← hb, ← y_parked c arg1 harg1 arg2 harg2 arg3 harg3 arg4 harg4 arg5 harg5 arg6 harg6 arg13 arg14 arg15 x0 x1 x2 x3 x4 x5 a b o]
  exact conv3_eq (Cert.Spec.pad (Cert.Spec.hK (Cert.Spec.up (fun a b ci => x0 (ix4 0 a b ci)) (fun ci col => x2 (ix2 ci col)) (fun col => x3 (ix2 0 col))) (fun a b ch => x1 (ix4 0 a b ch)) (fun q o => x4 (ix2 q o)) (fun o => x5 (ix2 0 o)) (fun o => x6 (ix2 0 o)) (fun o => x7 (ix2 0 o)) (fun q o => x8 (ix2 q o)) (fun o => x9 (ix2 0 o)))) (fun q o => x10 (ix2 q o)) (View.readAt (Elt Ideal) arg12.view (Rect.unit (s := S1x128) ![0, 0] S1x128.size inb_S1x128_S1x128_0_0).toLoadRect (harg12.unread x11)) (hWin c arg1 harg1 arg2 harg2 arg3 harg3 arg4 harg4 arg5 harg5 arg6 harg6 arg7 harg7 arg8 harg8 arg9 harg9 arg10 harg10 arg14 arg15 arg16 x0 x1 x2 x3 x4 x5 x6 x7 x8 x9) (w2Slab arg11 harg11 x10)
    (hWin_apply c arg1 harg1 arg2 harg2 arg3 harg3 arg4 harg4 arg5 harg5 arg6 harg6 arg7 harg7 arg8 harg8 arg9 harg9 arg10 harg10 arg14 arg15 arg16 x0 x1 x2 x3 x4 x5 x6 x7 x8 x9) (w2Slab_apply arg11 harg11 x10) a b o (Cert.KernelIdeal.Body.kernelRun.sl.v261 (F := Ideal) c arg1 harg1 arg2 harg2 arg3 harg3 arg4 harg4 arg5 harg5 arg6 harg6 arg13 arg14 arg15 x0 x1 x2 x3 x4 x5) (posOf a b) (rowOf_posOf a b) (colOf_posOf a b)
    (fun acc w2 s2 w3 s3 w4 s4 w5 s5 w6 s6 => pay20_apply acc w2 s2 w3 s3 w4 s4 w5 s5 w6 s6 (posOf a b) o)
    (fun acc w7 s7 w8 s8 y => pay1_apply acc w7 s7 w8 s8 y a b o)
end

set_option maxHeartbeats 2000000 in
/-- The body's output block is the kernel's arrangement of its input blocks. -/
theorem block : Cert.KernelIdeal.Iface.BlockStmt := by
  intro c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11
  funext y
  obtain ⟨a, b, o, rfl⟩ : ∃ (a b : Fin 32) (o : Fin 128), y = ix4 (0 : Fin 1) a b o := ⟨y 1, y 2, y 3, by
    funext k
    match k with
    | ⟨0, _⟩ => exact Fin.ext (by have h := (y ⟨0, by decide⟩).isLt; change (y ⟨0, by decide⟩).val < 1 at h; show (y ⟨0, by decide⟩).val = 0; omega)
    | ⟨1, _⟩ => rfl
    | ⟨2, _⟩ => rfl
    | ⟨3, _⟩ => rfl⟩
  unfold Cert.KernelIdeal.Body.outBlock
  rw [View.read_writes_eq_canon _ _ _ (Cert.KernelIdeal.Body.cover c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11)]
  unfold Cert.KernelIdeal.Body.kernelRun
  dsimp only
  rw [View.canon_cons_unit_zero hz4]
  exact out_eq c arg1 harg1 arg2 harg2 arg3 harg3 arg4 harg4 arg5 harg5 arg6 harg6 arg7 harg7 arg8 harg8 arg9 harg9 arg10 harg10 arg11 harg11 arg12 harg12 arg13 arg14 arg15 arg16 x0 x1 x2 x3 x4 x5 x6 x7 x8 x9 x10 x11 a b o

end Cert.KernelIdeal.Value

end
-- ==== Proof.KernelArrays.lean ====
/-
  The packed parameter arrays the kernel's windows stage, read entry by entry.

  Before its one region the program repacks its parameters: the deconvolution weights [4, 256, 128] are transposed to
  [256, 4, 128] and flattened to [256, 512], so that column k * 128 + c is tap k, channel c; the deconvolution bias is
  tiled four times into a [1, 512] row; each 3x3 weight stack [9, C, 128] is flattened to [9 * C, 128], row k * C + ch;
  every other vector of 128 entries becomes a [1, 128] row. A change of float format is the identity over the extended reals.
  Each repacked array, at an index, is therefore ONE entry of the argument it came from, and which entry is arithmetic
  on row-major positions: a reshape keeps the position, a transpose permutes the coordinates, a tiling drops the tile's number.
-/
import proofs.«131778_g2000005761611187_pallasbulk_1314_2_alg».proof.Proof.KernelIface
import Idealize.ShloMosaic.Lib.Pipeline.Value
import Idealize.ShloMosaic.Lib.ValueIdx
import Idealize.ShloMosaic.Lib.StableHlo.Run

set_option maxRecDepth 16384

noncomputable section

namespace Cert.KernelIdeal.Value

open Cert.KernelIdeal Cert.KernelIdeal.Gen Cert.KernelIdeal.Iface
open Idealize.ShloMosaic Idealize.ShloMosaic.TcCoe Idealize.ShloMosaic.ValueIdx Idealize.SL.Sem

/-! ## Each repacking at an index, over any contents -/

section Reads
variable {α : Type}

/-- A vector of 128 entries laid out as one row: entry (0, o) is entry o. -/
theorem row_apply (x : S128.Idx → α) (idx : S1x128.Idx) :
    shapeCast S1x128 x shapeCasts_S128_S1x128 idx = x (ix1 (idx 1)) :=
  shapeCast_apply x _ idx (ix1 (idx 1)) (by
    rw [Shape.rowMajor_val_one, Shape.rowMajor_val_two]
    show (idx 1).val = (idx 0).val * 128 + (idx 1).val
    have h0 : (idx 0).val < 1 := (idx 0).isLt
    omega)

/-- A stack of nine [256, 128] slabs flattened: row q is slab q / 256, row q % 256 of it. -/
theorem stack256_apply (x : S9x256x128.Idx → α) (idx : S2304x128.Idx) :
    shapeCast S2304x128 x shapeCasts_S9x256x128_S2304x128 idx
      = x (ix3 (Fin.divNat (m := 9) (n := 256) (idx 0)) (Fin.modNat (m := 9) (n := 256) (idx 0)) (idx 1)) :=
  shapeCast_apply x _ idx _ (by
    rw [Shape.rowMajor_val_three, Shape.rowMajor_val_two]
    show (((idx 0).val / 256) * 256 + (idx 0).val % 256) * 128 + (idx 1).val = (idx 0).val * 128 + (idx 1).val
    have := Nat.div_add_mod (idx 0).val 256
    omega)

/-- A stack of nine [128, 128] slabs flattened: row q is slab q / 128, row q % 128 of it. -/
theorem stack128_apply (x : S9x128x128.Idx → α) (idx : S1152x128.Idx) :
    shapeCast S1152x128 x shapeCasts_S9x128x128_S1152x128 idx
      = x (ix3 (Fin.divNat (m := 9) (n := 128) (idx 0)) (Fin.modNat (m := 9) (n := 128) (idx 0)) (idx 1)) :=
  shapeCast_apply x _ idx _ (by
    rw [Shape.rowMajor_val_three, Shape.rowMajor_val_two]
    show (((idx 0).val / 128) * 128 + (idx 0).val % 128) * 128 + (idx 1).val = (idx 0).val * 128 + (idx 1).val
    have := Nat.div_add_mod (idx 0).val 128
    omega)

/-- The deconvolution weights with the tap axis moved inside and merged with the channel axis: entry (ci, col) is
    tap col / 128, input channel ci, output channel col % 128. -/
theorem tapsInside_apply (x : S4x256x128.Idx → α) (idx : S256x512.Idx) :
    shapeCast S256x512 (transpose S256x4x128 [1, 0, 2] x transposes_S4x256x128_S256x4x128_1_0_2)
        shapeCasts_S256x4x128_S256x512 idx
      = x (ix3 (⟨(idx 1).val / 128, by have h : (idx 1).val < 512 := (idx 1).isLt; omega⟩ : Fin 4) (idx 0)
            (⟨(idx 1).val % 128, Nat.mod_lt _ (by decide)⟩ : Fin 128)) := by
  refine (shapeCast_apply _ _ idx
    (ix3 (idx 0) (⟨(idx 1).val / 128, by have h : (idx 1).val < 512 := (idx 1).isLt; omega⟩ : Fin 4)
      (⟨(idx 1).val % 128, Nat.mod_lt _ (by decide)⟩ : Fin 128)) (by
    rw [Shape.rowMajor_val_three, Shape.rowMajor_val_two]
    show ((idx 0).val * 4 + (idx 1).val / 128) * 128 + (idx 1).val % 128 = (idx 0).val * 512 + (idx 1).val
    have := Nat.div_add_mod (idx 1).val 128
    omega)).trans ?_
  exact transpose_apply _ x _ _ _ (fun b => by
    match b with
    | ⟨0, _⟩ => rfl
    | ⟨1, _⟩ => rfl
    | ⟨2, _⟩ => rfl)

/-- A row of 128 entries tiled four times into a row of 512: entry (0, col) is entry col % 128. -/
theorem tiled_apply (x : S128.Idx → α) (idx : S1x512.Idx) :
    shapeCast S1x512 (shapeCast S512 (broadcastInDim S4x128 ![0, 1] bcast_S1x128_S4x128_0_1
        (shapeCast S1x128 x shapeCasts_S128_S1x128)) shapeCasts_S4x128_S512) shapeCasts_S512_S1x512 idx
      = x (ix1 (⟨(idx 1).val % 128, Nat.mod_lt _ (by decide)⟩ : Fin 128)) := by
  refine (shapeCast_apply _ _ idx (ix1 (idx 1)) (by
    rw [Shape.rowMajor_val_one, Shape.rowMajor_val_two]
    show (idx 1).val = (idx 0).val * 512 + (idx 1).val
    have h0 : (idx 0).val < 1 := (idx 0).isLt
    omega)).trans ?_
  refine (shapeCast_apply _ _ (ix1 (idx 1))
    (ix2 (⟨(idx 1).val / 128, by have h : (idx 1).val < 512 := (idx 1).isLt; omega⟩ : Fin 4)
      (⟨(idx 1).val % 128, Nat.mod_lt _ (by decide)⟩ : Fin 128)) (by
    rw [Shape.rowMajor_val_one, Shape.rowMajor_val_two]
    show ((idx 1).val / 128) * 128 + (idx 1).val % 128 = (idx 1).val
    have := Nat.div_add_mod (idx 1).val 128
    omega)).trans ?_
  refine (broadcastInDim_apply _ _ _ _
    (ix2 (0 : Fin 1) (⟨(idx 1).val % 128, Nat.mod_lt _ (by decide)⟩ : Fin 128)) (fun a => by
    match a with
    | ⟨0, _⟩ => rfl
    | ⟨1, _⟩ => rfl)).trans ?_
  exact row_apply x _

end Reads

/-! ## The ten packed arrays the region finds -/

variable (m : (ℓ : Loc nD τ sig) → Buf (Elt Ideal) ℓ) (c : Dev nD)

theorem wup_eq : Gen.V (F := Ideal) m c main_v2 = fun idx => Cert.Spec.wupP (A2 m c) (idx 0) (idx 1) := by
  have e : (Gen.V (F := Ideal) m c main_v2 : S256x512.Idx → EReal)
      = shapeCast S256x512 (transpose S256x4x128 [1, 0, 2] (m ((c.tc : Thread nD τ).loc main_arg2))
          transposes_S4x256x128_S256x4x128_1_0_2) shapeCasts_S256x4x128_S256x512 := by
    dsimp only [Gen.V, Gen.hostOps0]; after_results; rfl
  exact e.trans (funext fun idx => tapsInside_apply _ idx)

theorem bup_eq : Gen.V (F := Ideal) m c main_v6 = fun idx => Cert.Spec.bupP (A3 m c) (idx 1) := by
  have e : (Gen.V (F := Ideal) m c main_v6 : S1x512.Idx → EReal)
      = shapeCast S1x512 (shapeCast S512 (broadcastInDim S4x128 ![0, 1] bcast_S1x128_S4x128_0_1
          (shapeCast S1x128 (m ((c.tc : Thread nD τ).loc main_arg3)) shapeCasts_S128_S1x128)) shapeCasts_S4x128_S512)
          shapeCasts_S512_S1x512 := by
    dsimp only [Gen.V, Gen.hostOps0]; after_results; rfl
  exact e.trans (funext fun idx => tiled_apply _ idx)

theorem wuc_eq : Gen.V (F := Ideal) m c main_v8 = fun idx => Cert.Spec.stackP (A4 m c) (idx 0) (idx 1) := by
  have e : (Gen.V (F := Ideal) m c main_v8 : S2304x128.Idx → EReal)
      = shapeCast S2304x128 (m ((c.tc : Thread nD τ).loc main_arg4)) shapeCasts_S9x256x128_S2304x128 := by
    dsimp only [Gen.V, Gen.hostOps0]; after_results; rfl
  exact e.trans (funext fun idx => stack256_apply _ idx)

theorem buc_eq : Gen.V (F := Ideal) m c main_v9 = fun idx => A5 m c (idx 1) := by
  have e : (Gen.V (F := Ideal) m c main_v9 : S1x128.Idx → EReal)
      = shapeCast S1x128 (m ((c.tc : Thread nD τ).loc main_arg5)) shapeCasts_S128_S1x128 := by
    dsimp only [Gen.V, Gen.hostOps0]; after_results; rfl
  exact e.trans (funext fun idx => row_apply _ idx)

theorem g_eq : Gen.V (F := Ideal) m c main_v10 = fun idx => A6 m c (idx 1) := by
  have e : (Gen.V (F := Ideal) m c main_v10 : S1x128.Idx → EReal)
      = shapeCast S1x128 (m ((c.tc : Thread nD τ).loc main_arg6)) shapeCasts_S128_S1x128 := by
    dsimp only [Gen.V, Gen.hostOps0]; after_results; rfl
  exact e.trans (funext fun idx => row_apply _ idx)

theorem bln_eq : Gen.V (F := Ideal) m c main_v11 = fun idx => A7 m c (idx 1) := by
  have e : (Gen.V (F := Ideal) m c main_v11 : S1x128.Idx → EReal)
      = shapeCast S1x128 (m ((c.tc : Thread nD τ).loc main_arg7)) shapeCasts_S128_S1x128 := by
    dsimp only [Gen.V, Gen.hostOps0]; after_results; rfl
  exact e.trans (funext fun idx => row_apply _ idx)

theorem w1_eq : Gen.V (F := Ideal) m c main_v13 = fun idx => Cert.Spec.stackP (A8 m c) (idx 0) (idx 1) := by
  have e : (Gen.V (F := Ideal) m c main_v13 : S1152x128.Idx → EReal)
      = shapeCast S1152x128 (m ((c.tc : Thread nD τ).loc main_arg8)) shapeCasts_S9x128x128_S1152x128 := by
    dsimp only [Gen.V, Gen.hostOps0]; after_results; rfl
  exact e.trans (funext fun idx => stack128_apply _ idx)

theorem b1_eq : Gen.V (F := Ideal) m c main_v14 = fun idx => A9 m c (idx 1) := by
  have e : (Gen.V (F := Ideal) m c main_v14 : S1x128.Idx → EReal)
      = shapeCast S1x128 (m ((c.tc : Thread nD τ).loc main_arg9)) shapeCasts_S128_S1x128 := by
    dsimp only [Gen.V, Gen.hostOps0]; after_results; rfl
  exact e.trans (funext fun idx => row_apply _ idx)

theorem w2_eq : Gen.V (F := Ideal) m c main_v16 = fun idx => Cert.Spec.stackP (A10 m c) (idx 0) (idx 1) := by
  have e : (Gen.V (F := Ideal) m c main_v16 : S1152x128.Idx → EReal)
      = shapeCast S1152x128 (m ((c.tc : Thread nD τ).loc main_arg10)) shapeCasts_S9x128x128_S1152x128 := by
    dsimp only [Gen.V, Gen.hostOps0]; after_results; rfl
  exact e.trans (funext fun idx => stack128_apply _ idx)

theorem b2_eq : Gen.V (F := Ideal) m c main_v17 = fun idx => A11 m c (idx 1) := by
  have e : (Gen.V (F := Ideal) m c main_v17 : S1x128.Idx → EReal)
      = shapeCast S1x128 (m ((c.tc : Thread nD τ).loc main_arg11)) shapeCasts_S128_S1x128 := by
    dsimp only [Gen.V, Gen.hostOps0]; after_results; rfl
  exact e.trans (funext fun idx => row_apply _ idx)

/-- What the region finds in the arrays its windows stage: each the packed form of an argument. -/
theorem arrays : Cert.KernelIdeal.Iface.ArraysStmt m c :=
  ⟨wup_eq m c, bup_eq m c, wuc_eq m c, buc_eq m c, g_eq m c, bln_eq m c, w1_eq m c, b1_eq m c, w2_eq m c, b2_eq m c⟩

end Cert.KernelIdeal.Value

end
-- ==== Proof.KernelRun.lean ====
/-
  The kernel's run of @main, with its result array named.

  The grid has 24 points and point t handles image t: its output block is rows [t, t + 1) of the result on the batch
  axis and all of the other three axes; its first two input blocks are image t of x and of the bridge; its other ten
  input blocks are the ten packed parameter arrays, whole, at every point. So, given that one run of the body leaves the
  kernel's arrangement of its input blocks in the output block, and that the packed arrays are the packed forms of the
  arguments, what point t writes back is block t of ONE function of the twelve arguments — the kernel's arrangement of
  image t, entry by entry. The 24 blocks tile the result array (entry (n, i, j, o) lies in block n), so the array ends
  holding that function, and the twelve argument arrays are as launched: the two the region stages are never written,
  and no operation before the region writes any of the twelve.
-/
import proofs.«131778_g2000005761611187_pallasbulk_1314_2_alg».proof.Proof.KernelIface
import Idealize.ShloMosaic.Lib.Pipeline.Value
import Idealize.ShloMosaic.Lib.ValueIdx
import Idealize.ShloMosaic.Lib.Tactic

set_option maxRecDepth 16384

noncomputable section

namespace Cert.KernelIdeal.Value

open Cert.KernelIdeal Cert.KernelIdeal.Gen Cert.KernelIdeal.Iface
open Idealize.ShloMosaic Idealize.ShloMosaic.TcCoe Idealize.ShloMosaic.ValueIdx Idealize.SL.Sem
open Idealize.ShloMosaic.Pipeline (Dat)

/-! ## Where each window's block sits in its array -/

variable (m : (ℓ : Loc nD τ sig) → Buf (Elt Ideal) ℓ) (ρ : Dev nD → PrngReg) (c : Dev nD)

/-- The grid point as a batch entry. -/
abbrev img (t : Fin cfg0.N) : Fin 24 := Fin.cast N_0 t

/-- The index maps of the three per-image windows, over the grid: batch block t, block 0 on the other axes. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_12.index t (0 : Fin 4) = t.val ∧ win0_12.index t (1 : Fin 4) = 0 ∧ win0_12.index t (2 : Fin 4) = 0 ∧ win0_12.index t (3 : Fin 4) = 0 :=
  (by decide +kernel : ∀ t : Fin grid0.N, _)

/-- The index maps of the ten parameter windows, over the grid: block (0, 0), the whole array, at every point. -/
theorem idx_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- Point t's block of x is image t. -/
theorem iblk0_apply (t : Fin cfg0.N) (x : S1x16x16x256.Idx) :
    (iblk m c 0 t : Vec Ideal S1x16x16x256 .f32) x = A0 m c (img t) (x 1) (x 2) (x 3) := by
  obtain ⟨e0, e1, e2, e3, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 4) * 1 + 1 * (x 0).val = t.val; have h : (x 0).val < 1 := (x 0).isLt; omega
  | ⟨1, _⟩ => show win0_0.index t (1 : Fin 4) * 16 + 1 * (x 1).val = (x 1).val; omega
  | ⟨2, _⟩ => show win0_0.index t (2 : Fin 4) * 16 + 1 * (x 2).val = (x 2).val; omega
  | ⟨3, _⟩ => show win0_0.index t (3 : Fin 4) * 256 + 1 * (x 3).val = (x 3).val; omega

/-- Point t's block of the bridge is image t. -/
theorem iblk1_apply (t : Fin cfg0.N) (x : S1x32x32x128.Idx) :
    (iblk m c 1 t : Vec Ideal S1x32x32x128 .f32) x = A1 m c (img t) (x 1) (x 2) (x 3) := by
  obtain ⟨-, -, -, -, e0, e1, e2, e3, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t (0 : Fin 4) * 1 + 1 * (x 0).val = t.val; have h : (x 0).val < 1 := (x 0).isLt; omega
  | ⟨1, _⟩ => show win0_1.index t (1 : Fin 4) * 32 + 1 * (x 1).val = (x 1).val; omega
  | ⟨2, _⟩ => show win0_1.index t (2 : Fin 4) * 32 + 1 * (x 2).val = (x 2).val; omega
  | ⟨3, _⟩ => show win0_1.index t (3 : Fin 4) * 128 + 1 * (x 3).val = (x 3).val; omega

/-! Each parameter window's block is its whole array, entry by entry. -/

theorem iblk2_apply (t : Fin cfg0.N) (x : S256x512.Idx) :
    (iblk m c 2 t : Vec Ideal S256x512 .bf16) x = V m c main_v2 x := by
  obtain ⟨e0, e1, -⟩ := idx_whole t
  unfold iblk
  rw [View.read_apply]
  show V m c main_v2 _ = V m c main_v2 _
  congr 1
  funext a
  apply Fin.ext
  match a with
  | ⟨0, _⟩ => show win0_2.index t (0 : Fin 2) * 256 + 1 * (x 0).val = (x 0).val; omega
  | ⟨1, _⟩ => show win0_2.index t (1 : Fin 2) * 512 + 1 * (x 1).val = (x 1).val; omega

theorem iblk3_apply (t : Fin cfg0.N) (x : S1x512.Idx) :
    (iblk m c 3 t : Vec Ideal S1x512 .f32) x = V m c main_v6 x := by
  obtain ⟨-, -, e0, e1, -⟩ := idx_whole t
  unfold iblk
  rw [View.read_apply]
  show V m c main_v6 _ = V m c main_v6 _
  congr 1
  funext a
  apply Fin.ext
  match a with
  | ⟨0, _⟩ => show win0_3.index t (0 : Fin 2) * 1 + 1 * (x 0).val = (x 0).val; omega
  | ⟨1, _⟩ => show win0_3.index t (1 : Fin 2) * 512 + 1 * (x 1).val = (x 1).val; omega

theorem iblk4_apply (t : Fin cfg0.N) (x : S2304x128.Idx) :
    (iblk m c 4 t : Vec Ideal S2304x128 .bf16) x = V m c main_v8 x := by
  obtain ⟨-, -, -, -, e0, e1, -⟩ := idx_whole t
  unfold iblk
  rw [View.read_apply]
  show V m c main_v8 _ = V m c main_v8 _
  congr 1
  funext a
  apply Fin.ext
  match a with
  | ⟨0, _⟩ => show win0_4.index t (0 : Fin 2) * 2304 + 1 * (x 0).val = (x 0).val; omega
  | ⟨1, _⟩ => show win0_4.index t (1 : Fin 2) * 128 + 1 * (x 1).val = (x 1).val; omega

theorem iblk5_apply (t : Fin cfg0.N) (x : S1x128.Idx) :
    (iblk m c 5 t : Vec Ideal S1x128 .f32) x = V m c main_v9 x := by
  obtain ⟨-, -, -, -, -, -, e0, e1, -⟩ := idx_whole t
  unfold iblk
  rw [View.read_apply]
  show V m c main_v9 _ = V m c main_v9 _
  congr 1
  funext a
  apply Fin.ext
  match a with
  | ⟨0, _⟩ => show win0_5.index t (0 : Fin 2) * 1 + 1 * (x 0).val = (x 0).val; omega
  | ⟨1, _⟩ => show win0_5.index t (1 : Fin 2) * 128 + 1 * (x 1).val = (x 1).val; omega

theorem iblk6_apply (t : Fin cfg0.N) (x : S1x128.Idx) :
    (iblk m c 6 t : Vec Ideal S1x128 .f32) x = V m c main_v10 x := by
  obtain ⟨-, -, -, -, -, -, -, -, e0, e1, -⟩ := idx_whole t
  unfold iblk
  rw [View.read_apply]
  show V m c main_v10 _ = V m c main_v10 _
  congr 1
  funext a
  apply Fin.ext
  match a with
  | ⟨0, _⟩ => show win0_6.index t (0 : Fin 2) * 1 + 1 * (x 0).val = (x 0).val; omega
  | ⟨1, _⟩ => show win0_6.index t (1 : Fin 2) * 128 + 1 * (x 1).val = (x 1).val; omega

theorem iblk7_apply (t : Fin cfg0.N) (x : S1x128.Idx) :
    (iblk m c 7 t : Vec Ideal S1x128 .f32) x = V m c main_v11 x := by
  obtain ⟨-, -, -, -, -, -, -, -, -, -, e0, e1, -⟩ := idx_whole t
  unfold iblk
  rw [View.read_apply]
  show V m c main_v11 _ = V m c main_v11 _
  congr 1
  funext a
  apply Fin.ext
  match a with
  | ⟨0, _⟩ => show win0_7.index t (0 : Fin 2) * 1 + 1 * (x 0).val = (x 0).val; omega
  | ⟨1, _⟩ => show win0_7.index t (1 : Fin 2) * 128 + 1 * (x 1).val = (x 1).val; omega

theorem iblk8_apply (t : Fin cfg0.N) (x : S1152x128.Idx) :
    (iblk m c 8 t : Vec Ideal S1152x128 .bf16) x = V m c main_v13 x := by
  obtain ⟨-, -, -, -, -, -, -, -, -, -, -, -, e0, e1, -⟩ := idx_whole t
  unfold iblk
  rw [View.read_apply]
  show V m c main_v13 _ = V m c main_v13 _
  congr 1
  funext a
  apply Fin.ext
  match a with
  | ⟨0, _⟩ => show win0_8.index t (0 : Fin 2) * 1152 + 1 * (x 0).val = (x 0).val; omega
  | ⟨1, _⟩ => show win0_8.index t (1 : Fin 2) * 128 + 1 * (x 1).val = (x 1).val; omega

theorem iblk9_apply (t : Fin cfg0.N) (x : S1x128.Idx) :
    (iblk m c 9 t : Vec Ideal S1x128 .f32) x = V m c main_v14 x := by
  obtain ⟨-, -, -, -, -, -, -, -, -, -, -, -, -, -, e0, e1, -⟩ := idx_whole t
  unfold iblk
  rw [View.read_apply]
  show V m c main_v14 _ = V m c main_v14 _
  congr 1
  funext a
  apply Fin.ext
  match a with
  | ⟨0, _⟩ => show win0_9.index t (0 : Fin 2) * 1 + 1 * (x 0).val = (x 0).val; omega
  | ⟨1, _⟩ => show win0_9.index t (1 : Fin 2) * 128 + 1 * (x 1).val = (x 1).val; omega

theorem iblk10_apply (t : Fin cfg0.N) (x : S1152x128.Idx) :
    (iblk m c 10 t : Vec Ideal S1152x128 .bf16) x = V m c main_v16 x := by
  obtain ⟨-, -, -, -, -, -, -, -, -, -, -, -, -, -, -, -, e0, e1, -⟩ := idx_whole t
  unfold iblk
  rw [View.read_apply]
  show V m c main_v16 _ = V m c main_v16 _
  congr 1
  funext a
  apply Fin.ext
  match a with
  | ⟨0, _⟩ => show win0_10.index t (0 : Fin 2) * 1152 + 1 * (x 0).val = (x 0).val; omega
  | ⟨1, _⟩ => show win0_10.index t (1 : Fin 2) * 128 + 1 * (x 1).val = (x 1).val; omega

theorem iblk11_apply (t : Fin cfg0.N) (x : S1x128.Idx) :
    (iblk m c 11 t : Vec Ideal S1x128 .f32) x = V m c main_v17 x := by
  obtain ⟨-, -, -, -, -, -, -, -, -, -, -, -, -, -, -, -, -, -, e0, e1⟩ := idx_whole t
  unfold iblk
  rw [View.read_apply]
  show V m c main_v17 _ = V m c main_v17 _
  congr 1
  funext a
  apply Fin.ext
  match a with
  | ⟨0, _⟩ => show win0_11.index t (0 : Fin 2) * 1 + 1 * (x 0).val = (x 0).val; omega
  | ⟨1, _⟩ => show win0_11.index t (1 : Fin 2) * 128 + 1 * (x 1).val = (x 1).val; omega

/-! ## From blocks to the array -/

/-- What point t writes back is block t of the result: the kernel's arrangement of image t. -/
theorem flushed_eq (hB : BlockStmt) (hA : ArraysStmt m c) (t : Fin cfg0.N) :
    (Body.dat m c).flushed 12 t = ((cfg0.win 12).blk t).view.read (Elt Ideal) (Iface.result m c) := by
  show (cfg0.win 12).cut (grid0.coords t) ((Body.dat m c).after 12 t) = _
  rw [Body.after12]
  unfold Body.outAt
  rw [hB]
  funext y
  have hi : ((cfg0.win 12).blk t).view.emb y = ix4 (img t) (y 1) (y 2) (y 3) := by
    obtain ⟨-, -, -, -, -, -, -, -, e0, e1, e2, e3⟩ := idx_facts t
    funext a
    apply Fin.ext
    match a with
    | ⟨0, _⟩ => show win0_12.index t (0 : Fin 4) * 1 + 1 * (y 0).val = t.val; have h : (y 0).val < 1 := (y 0).isLt; omega
    | ⟨1, _⟩ => show win0_12.index t (1 : Fin 4) * 32 + 1 * (y 1).val = (y 1).val; omega
    | ⟨2, _⟩ => show win0_12.index t (2 : Fin 4) * 32 + 1 * (y 2).val = (y 2).val; omega
    | ⟨3, _⟩ => show win0_12.index t (3 : Fin 4) * 128 + 1 * (y 3).val = (y 3).val; omega
  rw [View.read_apply, hi]
  have e0 : (fun (a : Fin 16) (b : Fin 16) (ci : Fin 256) => (iblk m c 0 t : Vec Ideal S1x16x16x256 .f32) (ix4 0 a b ci)) = A0 m c (img t) :=
    funext fun a => funext fun b => funext fun ci => iblk0_apply m c t _
  have e1 : (fun (a : Fin 32) (b : Fin 32) (ch : Fin 128) => (iblk m c 1 t : Vec Ideal S1x32x32x128 .f32) (ix4 0 a b ch)) = A1 m c (img t) :=
    funext fun a => funext fun b => funext fun ch => iblk1_apply m c t _
  have e2 : (fun (ci : Fin 256) (col : Fin 512) => (iblk m c 2 t : Vec Ideal S256x512 .bf16) (ix2 ci col)) = Spec.wupP (A2 m c) :=
    funext fun ci => funext fun col => (iblk2_apply m c t _).trans (congrFun hA.wup _)
  have e3 : (fun (col : Fin 512) => (iblk m c 3 t : Vec Ideal S1x512 .f32) (ix2 0 col)) = Spec.bupP (A3 m c) :=
    funext fun col => (iblk3_apply m c t _).trans (congrFun hA.bup _)
  have e4 : (fun (q : Fin (9 * 256)) (o : Fin 128) => (iblk m c 4 t : Vec Ideal S2304x128 .bf16) (ix2 q o)) = Spec.stackP (A4 m c) :=
    funext fun q => funext fun o => (iblk4_apply m c t _).trans (congrFun hA.wuc _)
  have e5 : (fun (o : Fin 128) => (iblk m c 5 t : Vec Ideal S1x128 .f32) (ix2 0 o)) = A5 m c :=
    funext fun o => (iblk5_apply m c t _).trans (congrFun hA.buc _)
  have e6 : (fun (o : Fin 128) => (iblk m c 6 t : Vec Ideal S1x128 .f32) (ix2 0 o)) = A6 m c :=
    funext fun o => (iblk6_apply m c t _).trans (congrFun hA.g _)
  have e7 : (fun (o : Fin 128) => (iblk m c 7 t : Vec Ideal S1x128 .f32) (ix2 0 o)) = A7 m c :=
    funext fun o => (iblk7_apply m c t _).trans (congrFun hA.bln _)
  have e8 : (fun (q : Fin (9 * 128)) (o : Fin 128) => (iblk m c 8 t : Vec Ideal S1152x128 .bf16) (ix2 q o)) = Spec.stackP (A8 m c) :=
    funext fun q => funext fun o => (iblk8_apply m c t _).trans (congrFun hA.w1 _)
  have e9 : (fun (o : Fin 128) => (iblk m c 9 t : Vec Ideal S1x128 .f32) (ix2 0 o)) = A9 m c :=
    funext fun o => (iblk9_apply m c t _).trans (congrFun hA.b1 _)
  have e10 : (fun (q : Fin (9 * 128)) (o : Fin 128) => (iblk m c 10 t : Vec Ideal S1152x128 .bf16) (ix2 q o)) = Spec.stackP (A10 m c) :=
    funext fun q => funext fun o => (iblk10_apply m c t _).trans (congrFun hA.w2 _)
  have e11 : (fun (o : Fin 128) => (iblk m c 11 t : Vec Ideal S1x128 .f32) (ix2 0 o)) = A11 m c :=
    funext fun o => (iblk11_apply m c t _).trans (congrFun hA.b2 _)
  rw [e0, e1, e2, e3, e4, e5, e6, e7, e8, e9, e10, e11]
  rfl

/-- An entry of the result array is in point `t`'s block iff each coordinate is in the block's range on its axis. -/
theorem mem_blk (t : Fin cfg0.N) (i : S24x32x32x128.Idx) :
    i ∈ ((cfg0.win 12).blk t).view.set ↔ ∀ a : Fin 4, win0_12.index t a * S1x32x32x128.size a ≤ (i a).val ∧ (i a).val < win0_12.index t a * S1x32x32x128.size a + S1x32x32x128.size a := by
  show i ∈ ((View.whole main_v18).slice (win0_12.rect t)).set ↔ _
  rw [View.set_slice_whole, Rect.mem_set_unit]
  exact Iff.rfl

/-- Every entry of the result array lies in the block of the point that handles its image. -/
theorem cover (i : S24x32x32x128.Idx) :
    ∃ t : Fin cfg0.N, (cfg0.win 12).flush t = true ∧ i ∈ ((cfg0.win 12).blk t).view.set := by
  have hi0 : (i 0).val < 24 := (i 0).isLt
  obtain ⟨t, ht⟩ : ∃ t : Fin cfg0.N, t.val = (i 0).val := ⟨⟨(i 0).val, lt_of_lt_of_eq hi0 N_0.symm⟩, rfl⟩
  obtain ⟨-, -, -, -, -, -, -, -, e0, e1, e2, e3⟩ := idx_facts t
  refine ⟨t, flush0_12 t, ?_⟩
  rw [mem_blk]
  intro a
  have h1 : (i 1).val < 32 := (i 1).isLt
  have h2 : (i 2).val < 32 := (i 2).isLt
  have h3 : (i 3).val < 128 := (i 3).isLt
  match a with
  | ⟨0, _⟩ => show win0_12.index t (0 : Fin 4) * 1 ≤ (i 0).val ∧ (i 0).val < win0_12.index t (0 : Fin 4) * 1 + 1; omega
  | ⟨1, _⟩ => show win0_12.index t (1 : Fin 4) * 32 ≤ (i 1).val ∧ (i 1).val < win0_12.index t (1 : Fin 4) * 32 + 32; omega
  | ⟨2, _⟩ => show win0_12.index t (2 : Fin 4) * 32 ≤ (i 2).val ∧ (i 2).val < win0_12.index t (2 : Fin 4) * 32 + 32; omega
  | ⟨3, _⟩ => show win0_12.index t (3 : Fin 4) * 128 ≤ (i 3).val ∧ (i 3).val < win0_12.index t (3 : Fin 4) * 128 + 128; omega

/-- The result array after the run: every image's block written once, each the kernel's arrangement of that image. -/
theorem final (hB : BlockStmt) (hA : ArraysStmt m c) : (Body.dat m c).arrAt 12 cfg0.N = Iface.result m c :=
  (Body.dat m c).arrAt_eq_of_cover 12 (Iface.result m c) (fun t _ => flushed_eq m c hB hA t) (cover)

/-- The kernel's run of @main: the result array at `Iface.result`, the twelve arguments unchanged. -/
theorem run (hB : Cert.KernelIdeal.Iface.BlockStmt) (hA : ∀ c, Cert.KernelIdeal.Iface.ArraysStmt m c) :
    θ_run (defs (F := Ideal)) (onTc (τ := τ) (main (F := Ideal))) ⟨m, fun _ => 0, ρ⟩ (fun r => ∀ c : Dev nD,
      r.2.mem ((c.tc : Thread nD τ).loc main_v18) = Cert.KernelIdeal.Iface.result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 12).trans (final m c hB (hA c)),
      ((h c).1 0).trans (((Body.dats m 0 c).arrAt_in 0 rfl _).trans ((Body.A_eq m c 0).trans (V_main_arg0 m c))),
      ((h c).1 1).trans (((Body.dats m 0 c).arrAt_in 1 rfl _).trans ((Body.A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩)
    (Body.run_main (F := Ideal) m ρ)

end Cert.KernelIdeal.Value
end
-- ==== Proof.RefBlockOps.lean ====
/-
  The second kernel's arithmetic, read entry by entry over the extended reals.

  Each payload of the body is one pure term over the vectors loaded before it. Read at an index of literal coordinates:
  a reshape of an image [32, 32, C] to [1024, C] puts pixel (i, j) at row 32 i + j; a product into the zero accumulator
  is the sum over the contracted axis; the bias and the shift are one row laid down every row; the mean and the variance
  are lane sums divided by 128.0; the rectifier keeps h where 0 <= h and scales it by 0.2 elsewhere.
-/
import proofs.«131778_g2000005761611187_pallasbulk_1314_2_alg».proof.Proof.Gen.ReferenceIdeal.Skeleton
import proofs.«131778_g2000005761611187_pallasbulk_1314_2_alg».proof.Proof.LibPlainMatmul
import proofs.«131778_g2000005761611187_pallasbulk_1314_2_alg».proof.Proof.Spec
import Idealize.ShloMosaic.Lib.Pipeline.Value
import Idealize.ShloMosaic.Lib.ValueIdx
import Idealize.ShloMosaic.PureOps.Ideal.Laws

noncomputable section

namespace Cert.ReferenceIdeal.Value.Blk.Ops

open Cert.ReferenceIdeal Cert.ReferenceIdeal.Gen
open Idealize.ShloMosaic Idealize.ShloMosaic.ValueIdx
open scoped BigOperators

/-- Row `p` of a flattened 32 x 32 image is pixel (p / 32, p % 32); pixel (i, j) is row 32 i + j. -/
abbrev rowOf (p : Fin 1024) : Fin 32 := ⟨p.val / 32, by have := p.isLt; omega⟩
abbrev colOf (p : Fin 1024) : Fin 32 := ⟨p.val % 32, Nat.mod_lt _ (by decide)⟩
abbrev pos (i j : Fin 32) : Fin 1024 := ⟨i.val * 32 + j.val, by have := i.isLt; have := j.isLt; omega⟩

theorem rowOf_pos (i j : Fin 32) : rowOf (pos i j) = i := Fin.ext (by show (i.val * 32 + j.val) / 32 = i.val; have := j.isLt; omega)
theorem colOf_pos (i j : Fin 32) : colOf (pos i j) = j := Fin.ext (by show (i.val * 32 + j.val) % 32 = j.val; have := j.isLt; omega)

/-! ## The zero fills -/

theorem pay3_apply (y : S34x34x256.Idx) : k1_pay3 (F := Ideal) y = 0 := by
  unfold k1_pay3
  show shapeCast S34x34x256 (broadcast S34x34x256 (Ideal.ofBits .f32 0x00000000#32)) shapeCasts_S34x34x256_S34x34x256 y = 0
  rw [shapeCast_self]
  exact Ideal.ofBits_zero_f32

theorem pay4_apply (y : S34x34x128.Idx) : k1_pay4 (F := Ideal) y = 0 := by
  unfold k1_pay4
  show shapeCast S34x34x128 (broadcast S34x34x128 (Ideal.ofBits .f32 0x00000000#32)) shapeCasts_S34x34x128_S34x34x128 y = 0
  rw [shapeCast_self]
  exact Ideal.ofBits_zero_f32

/-! ## Reshapes -/

/-- A block [1, 32, 32, 128] as an image [32, 32, 128]. -/
theorem img_apply (v : FVec Ideal S1x32x32x128 .f32) (i j : Fin 32) (c : Fin 128) :
    shapeCast S32x32x128 (shapeCast S32x32x128 v shapeCasts_S1x32x32x128_S32x32x128) shapeCasts_S32x32x128_S32x32x128 (ix3 i j c)
      = v (ix4 0 i j c) := by
  rw [shapeCast_self]
  exact shapeCast_apply v _ (ix3 i j c) (ix4 0 i j c) (by
    rw [Shape.rowMajor_val_four, Shape.rowMajor_val_three]
    show ((0 * 32 + i.val) * 32 + j.val) * 128 + c.val = (i.val * 32 + j.val) * 128 + c.val
    omega)

theorem pay5_apply (v : Vec Ideal S1x32x32x128 .f32) (i j : Fin 32) (c : Fin 128) :
    k1_pay5 (F := Ideal) v (ix3 i j c) = v (ix4 0 i j c) := img_apply v i j c
theorem pay6_apply (v : Vec Ideal S1x32x32x128 .f32) (i j : Fin 32) (c : Fin 128) :
    k1_pay6 (F := Ideal) v (ix3 i j c) = v (ix4 0 i j c) := img_apply v i j c

/-- An image [32, 32, 256] flattened to [1024, 256]. -/
def flat256 (v : FVec Ideal S32x32x256 .f32) : FVec Ideal S1024x256 .f32 :=
  shapeCast S1024x256 (shapeCast S1024x256 v shapeCasts_S32x32x256_S1024x256) shapeCasts_S1024x256_S1024x256

theorem flat256_apply (v : FVec Ideal S32x32x256 .f32) (p : Fin 1024) (c : Fin 256) :
    flat256 v (ix2 p c) = v (ix3 (rowOf p) (colOf p) c) := by
  unfold flat256
  rw [shapeCast_self]
  exact shapeCast_apply v _ (ix2 p c) (ix3 (rowOf p) (colOf p) c) (by
    rw [Shape.rowMajor_val_three, Shape.rowMajor_val_two]
    show ((p.val / 32) * 32 + p.val % 32) * 256 + c.val = p.val * 256 + c.val
    have := Nat.div_add_mod p.val 32
    omega)

/-- An image [32, 32, 128] flattened to [1024, 128]. -/
def flat128 (v : FVec Ideal S32x32x128 .f32) : FVec Ideal S1024x128 .f32 :=
  shapeCast S1024x128 (shapeCast S1024x128 v shapeCasts_S32x32x128_S1024x128) shapeCasts_S1024x128_S1024x128

theorem flat128_apply (v : FVec Ideal S32x32x128 .f32) (p : Fin 1024) (c : Fin 128) :
    flat128 v (ix2 p c) = v (ix3 (rowOf p) (colOf p) c) := by
  unfold flat128
  rw [shapeCast_self]
  exact shapeCast_apply v _ (ix2 p c) (ix3 (rowOf p) (colOf p) c) (by
    rw [Shape.rowMajor_val_three, Shape.rowMajor_val_two]
    show ((p.val / 32) * 32 + p.val % 32) * 128 + c.val = p.val * 128 + c.val
    have := Nat.div_add_mod p.val 32
    omega)

theorem pay7_eq (v : Vec Ideal S32x32x256 .f32) : k1_pay7 (F := Ideal) v = flat256 v := rfl
theorem pay8_eq (v : Vec Ideal S32x32x256 .f32) : k1_pay8 (F := Ideal) v = flat256 v := rfl
theorem pay9_eq (v : Vec Ideal S32x32x256 .f32) : k1_pay9 (F := Ideal) v = flat256 v := rfl
theorem pay10_eq (v : Vec Ideal S32x32x256 .f32) : k1_pay10 (F := Ideal) v = flat256 v := rfl
theorem pay11_eq (v : Vec Ideal S32x32x256 .f32) : k1_pay11 (F := Ideal) v = flat256 v := rfl
theorem pay12_eq (v : Vec Ideal S32x32x256 .f32) : k1_pay12 (F := Ideal) v = flat256 v := rfl
theorem pay15_eq (v : Vec Ideal S32x32x256 .f32) : k1_pay15 (F := Ideal) v = flat256 v := rfl
theorem pay16_eq (v : Vec Ideal S32x32x256 .f32) : k1_pay16 (F := Ideal) v = flat256 v := rfl
theorem pay14_eq (v : Vec Ideal S32x32x256 .f32) : k1_pay14 (F := Ideal) (k1_pay13 (F := Ideal) v) = flat256 v := rfl
theorem pay1_eq (v : Vec Ideal S32x32x128 .f32) : k1_pay1 (F := Ideal) v = flat128 v := rfl
theorem pay22_eq (v : Vec Ideal S32x32x128 .f32) : k1_pay22 (F := Ideal) v = flat128 v := rfl
theorem pay23_eq (v : Vec Ideal S32x32x128 .f32) : k1_pay23 (F := Ideal) v = flat128 v := rfl
theorem pay24_eq (v : Vec Ideal S32x32x128 .f32) : k1_pay24 (F := Ideal) v = flat128 v := rfl
theorem pay27_eq (v : Vec Ideal S32x32x128 .f32) : k1_pay27 (F := Ideal) v = flat128 v := rfl
theorem pay28_eq (v : Vec Ideal S32x32x128 .f32) : k1_pay28 (F := Ideal) v = flat128 v := rfl
theorem pay29_eq (v : Vec Ideal S32x32x128 .f32) : k1_pay29 (F := Ideal) v = flat128 v := rfl
theorem pay30_eq (v : Vec Ideal S32x32x128 .f32) : k1_pay30 (F := Ideal) v = flat128 v := rfl
theorem pay31_eq (v : Vec Ideal S32x32x128 .f32) : k1_pay31 (F := Ideal) v = flat128 v := rfl
theorem pay33_eq (v : Vec Ideal S32x32x128 .f32) : k1_pay33 (F := Ideal) v = flat128 v := rfl
theorem pay34_eq (v : Vec Ideal S32x32x128 .f32) : k1_pay34 (F := Ideal) v = flat128 v := rfl
theorem pay37_eq (v : Vec Ideal S32x32x128 .f32) : k1_pay37 (F := Ideal) v = flat128 v := rfl
theorem pay38_eq (v : Vec Ideal S32x32x128 .f32) : k1_pay38 (F := Ideal) v = flat128 v := rfl
theorem pay39_eq (v : Vec Ideal S32x32x128 .f32) : k1_pay39 (F := Ideal) v = flat128 v := rfl
theorem pay40_eq (v : Vec Ideal S32x32x128 .f32) : k1_pay40 (F := Ideal) v = flat128 v := rfl
theorem pay41_eq (v : Vec Ideal S32x32x128 .f32) : k1_pay41 (F := Ideal) v = flat128 v := rfl
theorem pay26_eq (v : Vec Ideal S32x32x128 .f32) : k1_pay26 (F := Ideal) (k1_pay25 (F := Ideal) v) = flat128 v := rfl
theorem pay36_eq (v : Vec Ideal S32x32x128 .f32) : k1_pay36 (F := Ideal) (k1_pay35 (F := Ideal) v) = flat128 v := rfl

/-- A matrix [1024, 128] as an image [32, 32, 128]. -/
theorem unflat_apply (v : FVec Ideal S1024x128 .f32) (i j : Fin 32) (o : Fin 128) :
    shapeCast S32x32x128 v shapeCasts_S1024x128_S32x32x128 (ix3 i j o) = v (ix2 (pos i j) o) :=
  shapeCast_apply v _ (ix3 i j o) (ix2 (pos i j) o) (by
    rw [Shape.rowMajor_val_three, Shape.rowMajor_val_two]
    rfl)

/-! ## Rows laid down every row, and a column laid along every row -/

theorem rowB_apply (b : FVec Ideal S1x128 .f32) (p : Fin 1024) (o : Fin 128) :
    broadcastTo S1024x128 (shapeCast S1x128 b shapeCasts_S1x128_S1x128) broadcasts_S1x128_S1024x128 (ix2 p o) = b (ix2 0 o) := by
  rw [shapeCast_self]
  exact broadcastTo_apply b _ (ix2 p o) (ix2 0 o) (fun a => by
    match a with
    | ⟨0, _⟩ => rfl
    | ⟨1, _⟩ => rfl)

theorem colB_apply (x : FVec Ideal S1024x1 .f32) (p : Fin 1024) (o : Fin 128) :
    broadcastTo S1024x128 x broadcasts_S1024x1_S1024x128 (ix2 p o) = x (ix2 p 0) :=
  broadcastTo_apply x _ (ix2 p o) (ix2 p 0) (fun a => by
    match a with
    | ⟨0, _⟩ => rfl
    | ⟨1, _⟩ => rfl)

/-! ## Products -/

theorem dot2304_apply (l : FVec Ideal S1024x2304 .f32) (r : FVec Ideal S2304x128 .f32) (p : Fin 1024) (o : Fin 128) :
    matmul dot_S1024x2304_S2304x128_S1024x128_1_0_0_1_n_n none l (shapeCast S2304x128 r shapeCasts_S2304x128_S2304x128)
        (constant S1024x128 .f32 0x00000000#32) (ix2 p o) = ∑ q : Fin 2304, l (ix2 p q) * r (ix2 q o) := by
  rw [shapeCast_self]
  exact PlainMatmul.matmul_plain_apply (M := 1024) (K := 2304) (N := 128) dot_S1024x2304_S2304x128_S1024x128_1_0_0_1_n_n
    rfl rfl rfl rfl rfl rfl none l r p o

theorem dot1152_apply (l : FVec Ideal S1024x1152 .f32) (r : FVec Ideal S1152x128 .f32) (p : Fin 1024) (o : Fin 128) :
    matmul dot_S1024x1152_S1152x128_S1024x128_1_0_0_1_n_n none l (shapeCast S1152x128 r shapeCasts_S1152x128_S1152x128)
        (constant S1024x128 .f32 0x00000000#32) (ix2 p o) = ∑ q : Fin 1152, l (ix2 p q) * r (ix2 q o) := by
  rw [shapeCast_self]
  exact PlainMatmul.matmul_plain_apply (M := 1024) (K := 1152) (N := 128) dot_S1024x1152_S1152x128_S1024x128_1_0_0_1_n_n
    rfl rfl rfl rfl rfl rfl none l r p o

/-- A product with the 2304-row weights plus a bias row, at (p, o). -/
theorem conv2304_apply (l : FVec Ideal S1024x2304 .f32) (r : FVec Ideal S2304x128 .f32) (b : FVec Ideal S1x128 .f32)
    (p : Fin 1024) (o : Fin 128) :
    addf (matmul dot_S1024x2304_S2304x128_S1024x128_1_0_0_1_n_n none l (shapeCast S2304x128 r shapeCasts_S2304x128_S2304x128)
        (constant S1024x128 .f32 0x00000000#32))
      (broadcastTo S1024x128 (shapeCast S1x128 b shapeCasts_S1x128_S1x128) broadcasts_S1x128_S1024x128) (ix2 p o)
      = (∑ q : Fin 2304, l (ix2 p q) * r (ix2 q o)) + b (ix2 0 o) := by
  show matmul dot_S1024x2304_S2304x128_S1024x128_1_0_0_1_n_n none l (shapeCast S2304x128 r shapeCasts_S2304x128_S2304x128)
        (constant S1024x128 .f32 0x00000000#32) (ix2 p o)
      + broadcastTo S1024x128 (shapeCast S1x128 b shapeCasts_S1x128_S1x128) broadcasts_S1x128_S1024x128 (ix2 p o) = _
  rw [dot2304_apply, rowB_apply]

/-- A product with the 1152-row weights plus a bias row, at (p, o). -/
theorem conv1152_apply (l : FVec Ideal S1024x1152 .f32) (r : FVec Ideal S1152x128 .f32) (b : FVec Ideal S1x128 .f32)
    (p : Fin 1024) (o : Fin 128) :
    addf (matmul dot_S1024x1152_S1152x128_S1024x128_1_0_0_1_n_n none l (shapeCast S1152x128 r shapeCasts_S1152x128_S1152x128)
        (constant S1024x128 .f32 0x00000000#32))
      (broadcastTo S1024x128 (shapeCast S1x128 b shapeCasts_S1x128_S1x128) broadcasts_S1x128_S1024x128) (ix2 p o)
      = (∑ q : Fin 1152, l (ix2 p q) * r (ix2 q o)) + b (ix2 0 o) := by
  show matmul dot_S1024x1152_S1152x128_S1024x128_1_0_0_1_n_n none l (shapeCast S1152x128 r shapeCasts_S1152x128_S1152x128)
        (constant S1024x128 .f32 0x00000000#32) (ix2 p o)
      + broadcastTo S1024x128 (shapeCast S1x128 b shapeCasts_S1x128_S1x128) broadcasts_S1x128_S1024x128 (ix2 p o) = _
  rw [dot1152_apply, rowB_apply]

/-- The first convolution's product plus its bias, at (p, o). -/
theorem pay17_apply (v63 : Vec Ideal S1024x2304 .f32) (v64 : Vec Ideal S2304x128 .f32) (v67 : Vec Ideal S1x128 .f32)
    (p : Fin 1024) (o : Fin 128) :
    k1_pay17 (F := Ideal) v63 v64 v67 (ix2 p o) = (∑ q : Fin 2304, v63 (ix2 p q) * v64 (ix2 q o)) + v67 (ix2 0 o) :=
  conv2304_apply v63 v64 v67 p o

theorem pay18_eq (v63 : Vec Ideal S1024x2304 .f32) (v64 : Vec Ideal S2304x128 .f32) (v67 : Vec Ideal S1x128 .f32) :
    k1_pay18 (F := Ideal) v63 v64 v67 = k1_pay17 (F := Ideal) v63 v64 v67 := by
  unfold k1_pay18
  exact shapeCast_self _ _

/-! ## The channel statistics -/

theorem lift_eq (p : Fin 1024) (o : Fin 128) : reduces_S1024x128_S1024.lift (ix1 p) o = ix2 p o := by
  funext c
  apply Fin.ext
  show Shape.Reduces.liftVal reduces_S1024x128_S1024 (ix1 p) o.val c = (ix2 p o c).val
  match c with
  | ⟨0, _⟩ => simp [Shape.Reduces.liftVal]
  | ⟨1, _⟩ => simp [Shape.Reduces.liftVal]

/-- A lane sum kept as a column, at row p: the sum of the row. -/
theorem laneSum_apply (src : FVec Ideal S1024x128 .f32) (p : Fin 1024) :
    shapeCast S1024x1 (multiReduction .add [1] S1024 src 0x00000000#32 reduces_S1024x128_S1024 (.inl rfl) rfl)
        shapeCasts_S1024_S1024x1 (ix2 p 0) = ∑ o : Fin 128, src (ix2 p o) := by
  refine (shapeCast_apply _ shapeCasts_S1024_S1024x1 (ix2 p 0) (ix1 p) (by
    rw [Shape.rowMajor_val_one, Shape.rowMajor_val_two]; show p.val = p.val * 1 + 0; omega)).trans ?_
  refine (Ideal.multiReduction_add_single src 0x00000000#32 reduces_S1024x128_S1024 (.inl rfl) rfl (ix1 p)).trans ?_
  exact Finset.sum_congr rfl fun o _ => congrArg src (lift_eq p o)

/-- The mean over the 128 channels, at row p. -/
theorem meanCol_apply (y : FVec Ideal S1024x128 .f32) (p : Fin 1024) :
    divf (shapeCast S1024x1 (multiReduction .add [1] S1024 y 0x00000000#32 reduces_S1024x128_S1024 (.inl rfl) rfl)
        shapeCasts_S1024_S1024x1) (broadcast S1024x1 (Ideal.ofBits .f32 0x43000000#32)) (ix2 p 0)
      = Spec.mean (fun o => y (ix2 p o)) := by
  show Ideal.div (shapeCast S1024x1 (multiReduction .add [1] S1024 y 0x00000000#32 reduces_S1024x128_S1024 (.inl rfl) rfl)
        shapeCasts_S1024_S1024x1 (ix2 p 0)) (Ideal.ofBits .f32 0x43000000#32) = _
  rw [laneSum_apply]
  rfl

/-- The mean of the squared deviations from a column `m`, at row p. -/
theorem varCol_apply (y : FVec Ideal S1024x128 .f32) (m : FVec Ideal S1024x1 .f32) (p : Fin 1024) :
    divf (shapeCast S1024x1 (multiReduction .add [1] S1024
          (mulf (subf y (broadcastTo S1024x128 m broadcasts_S1024x1_S1024x128))
            (subf y (broadcastTo S1024x128 m broadcasts_S1024x1_S1024x128)))
          0x00000000#32 reduces_S1024x128_S1024 (.inl rfl) rfl)
        shapeCasts_S1024_S1024x1) (broadcast S1024x1 (Ideal.ofBits .f32 0x43000000#32)) (ix2 p 0)
      = Spec.mean (fun o => (y (ix2 p o) - m (ix2 p 0)) * (y (ix2 p o) - m (ix2 p 0))) := by
  refine (meanCol_apply _ p).trans ?_
  refine congrArg Spec.mean (funext fun o => ?_)
  show (y (ix2 p o) - broadcastTo S1024x128 m broadcasts_S1024x1_S1024x128 (ix2 p o))
      * (y (ix2 p o) - broadcastTo S1024x128 m broadcasts_S1024x1_S1024x128 (ix2 p o)) = _
  rw [colB_apply]

theorem pay19_apply (v63 : Vec Ideal S1024x2304 .f32) (v64 : Vec Ideal S2304x128 .f32) (v67 : Vec Ideal S1x128 .f32) (p : Fin 1024) :
    k1_pay19 (F := Ideal) v63 v64 v67 (ix2 p 0) = Spec.mean (fun o => k1_pay17 (F := Ideal) v63 v64 v67 (ix2 p o)) :=
  meanCol_apply (k1_pay17 (F := Ideal) v63 v64 v67) p

theorem pay20_apply (v63 : Vec Ideal S1024x2304 .f32) (v64 : Vec Ideal S2304x128 .f32) (v67 : Vec Ideal S1x128 .f32) (p : Fin 1024) :
    k1_pay20 (F := Ideal) v63 v64 v67 (ix2 p 0)
      = Spec.mean (fun o => (k1_pay17 (F := Ideal) v63 v64 v67 (ix2 p o) - k1_pay19 (F := Ideal) v63 v64 v67 (ix2 p 0))
          * (k1_pay17 (F := Ideal) v63 v64 v67 (ix2 p o) - k1_pay19 (F := Ideal) v63 v64 v67 (ix2 p 0))) :=
  varCol_apply (k1_pay17 (F := Ideal) v63 v64 v67) (k1_pay19 (F := Ideal) v63 v64 v67) p

/-- The normalised row plus the shift row, as an image, at pixel (i, j), channel o. -/
theorem pay21_apply (v70 : FVec Ideal S1024x128 .f32) (v77 v84 : FVec Ideal S1024x1 .f32) (v92 : Vec Ideal S1x128 .f32)
    (i j : Fin 32) (o : Fin 128) :
    k1_pay21 (F := Ideal) v70 v77 v84 v92 (ix3 i j o)
      = (v70 (ix2 (pos i j) o) - v77 (ix2 (pos i j) 0)) * Ideal.rsqrt (v84 (ix2 (pos i j) 0) + Spec.eps) + v92 (ix2 0 o) := by
  unfold k1_pay21
  rw [shapeCast_self]
  refine (unflat_apply _ i j o).trans ?_
  show (v70 (ix2 (pos i j) o) - broadcastTo S1024x128 v77 broadcasts_S1024x1_S1024x128 (ix2 (pos i j) o))
        * broadcastTo S1024x128 (rsqrt (addf v84 (broadcast S1024x1 (Ideal.ofBits .f32 0x3727C5AC#32)))) broadcasts_S1024x1_S1024x128 (ix2 (pos i j) o)
      + broadcastTo S1024x128 (shapeCast S1x128 v92 shapeCasts_S1x128_S1x128) broadcasts_S1x128_S1024x128 (ix2 (pos i j) o) = _
  rw [colB_apply, colB_apply, rowB_apply]
  rfl

/-! ## The rectifier -/

theorem lrelu_eq (h : EReal) :
    Scalar.select (FloatOps.cmpf (F := Ideal) (φ := .f32) .oge h (Ideal.ofBits .f32 0x00000000#32)) h (h * Ideal.ofBits .f32 0x3E4CCCCD#32)
      = Spec.lrelu h := by
  rw [Ideal.ofBits_zero_f32]
  unfold Spec.lrelu Spec.slope
  show Scalar.select (Ideal.cmp .oge h 0) h (h * Ideal.ofBits .f32 0x3E4CCCCD#32) = _
  unfold Ideal.cmp
  by_cases hh : (0 : EReal) ≤ h
  · rw [if_pos hh, show BitVec.ofBool (decide ((0 : EReal) ≤ h)) = 1#1 from by rw [decide_eq_true hh]; rfl, select_one]
  · rw [if_neg hh, show BitVec.ofBool (decide ((0 : EReal) ≤ h)) = 0#1 from by rw [decide_eq_false hh]; rfl, select_zero]

/-- The second convolution's product plus its bias, rectified, as an image. -/
theorem pay32_apply (v145 : Vec Ideal S1024x1152 .f32) (v146 : Vec Ideal S1152x128 .f32) (v149 : Vec Ideal S1x128 .f32)
    (i j : Fin 32) (o : Fin 128) :
    k1_pay32 (F := Ideal) v145 v146 v149 (ix3 i j o)
      = Spec.lrelu ((∑ q : Fin 1152, v145 (ix2 (pos i j) q) * v146 (ix2 q o)) + v149 (ix2 0 o)) := by
  unfold k1_pay32
  rw [shapeCast_self]
  refine (unflat_apply _ i j o).trans ?_
  refine Eq.trans ?_ (congrArg Spec.lrelu (conv1152_apply v145 v146 v149 (pos i j) o))
  exact lrelu_eq _

/-- The third convolution's product plus its bias plus the kept first convolution, as the output block. -/
theorem pay2_apply (v207 : Vec Ideal S1024x1152 .f32) (v208 : Vec Ideal S1152x128 .f32) (v211 : Vec Ideal S1x128 .f32)
    (v215 : Vec Ideal S1024x128 .f32) (i j : Fin 32) (o : Fin 128) :
    k1_pay2 (F := Ideal) v207 v208 v211 v215 (ix4 0 i j o)
      = ((∑ q : Fin 1152, v207 (ix2 (pos i j) q) * v208 (ix2 q o)) + v211 (ix2 0 o)) + v215 (ix2 (pos i j) o) := by
  unfold k1_pay2
  refine (shapeCast_apply _ shapeCasts_S32x32x128_S1x32x32x128 (ix4 0 i j o) (ix3 i j o) (by
    rw [Shape.rowMajor_val_four, Shape.rowMajor_val_three]
    show (i.val * 32 + j.val) * 128 + o.val = ((0 * 32 + i.val) * 32 + j.val) * 128 + o.val
    omega)).trans ?_
  refine (unflat_apply _ i j o).trans ?_
  exact congrArg (· + v215 (ix2 (pos i j) o)) (conv1152_apply v207 v208 v211 (pos i j) o)

end Cert.ReferenceIdeal.Value.Blk.Ops

end
-- ==== Proof.RefBlockCanon.lean ====
/-
  Reading a list of stores at an index.

  A run's record of what it stored in a scratch image is a list of pieces, the last store first; the image's contents are
  read off the list: at an index, the payload of the first piece whose rectangle holds the index. All the rectangles here
  are unit-stride boxes, so "holds the index" is a pair of inequalities per axis, and the index inside the box is the
  index minus the box's corner. This file states that for boxes of rank three (the padded images) and for column blocks
  of a matrix (the gathered patches), together with what a load through a box reads after a list of stores, and the one
  combinatorial fact about a patch matrix: nine column blocks stored side by side, read at column q, give block q / C at
  column q % C, whatever was stored before them.
-/
import Idealize.ShloMosaic.Lib.Pipeline.FrameBody
import Idealize.ShloMosaic.Lib.Pipeline.Value
import Idealize.ShloMosaic.Lib.ValueIdx

namespace Cert.ReferenceIdeal.Value.Blk.Canon

open Idealize.ShloMosaic Idealize.ShloMosaic.View Idealize.ShloMosaic.ValueIdx

variable {e : EltTy} {Val : EltTy → Type} [∀ e, Nonempty (Val e)]

/-! ## Any rank -/

section AnyRank
variable {s : Shape}

/-- At an index inside the last store's box: that store's payload at the index re-based to the box. -/
theorem cons_unit_in (off size : Fin s.rank → Nat) (inb : ∀ a, off a + size a ≤ s.size a)
    (w : (Rect.unit off size inb).shape.Idx → Val e) (L : List (Piece Val s e)) (y : s.Idx)
    (x : (Rect.unit off size inb).shape.Idx) (h : ∀ a, (y a).val = off a + (x a).val) :
    canon (⟨Rect.unit off size inb, w⟩ :: L) y = w x := by
  have hy : y = (Rect.unit off size inb).emb x := funext fun a => Fin.ext (by
    rw [h a]; show _ = off a + 1 * (x a).val; omega)
  rw [hy]; exact canon_cons_emb _ w L x

/-- At an index outside the last store's box: what the earlier stores left. -/
theorem cons_unit_out (off size : Fin s.rank → Nat) (inb : ∀ a, off a + size a ≤ s.size a)
    (w : (Rect.unit off size inb).shape.Idx → Val e) (L : List (Piece Val s e)) (y : s.Idx)
    (h : ¬ ∀ a, off a ≤ (y a).val ∧ (y a).val < off a + size a) :
    canon (⟨Rect.unit off size inb, w⟩ :: L) y = canon L y :=
  canon_cons_of_not_mem _ L (fun hm => h ((Rect.mem_set_unit (off := off) (size := size) (inb := inb) (i := y)).mp hm))

/-- A load through a box after the stores `L`: the stores' contents at the box's corner plus the index. -/
theorem readCov_unit {sig : RefSig} {κ : Kind} {sp : Space} (v : View sig κ sp s e) (L : List (Piece Val s e))
    (off size : Fin s.rank → Nat) (inb : ∀ a, off a + size a ≤ s.size a)
    (x : (Rect.unit off size inb).shape.Idx) (y : s.Idx) (h : ∀ a, (y a).val = off a + (x a).val) :
    v.readCov L (Rect.unit off size inb).toLoadRect x = canon L y := by
  rw [readCov_eq_canon']
  show canon L ((Rect.unit off size inb).toLoadRect.idx x) = canon L y
  congr 1
  funext a
  apply Fin.ext
  rw [h a]
  show off a + 1 * (x a).val = _
  omega

end AnyRank

/-! ## Boxes of rank three -/

section Rank3
variable {n0 n1 n2 : Nat}

theorem cons_box_in (o0 o1 o2 z0 z1 z2 : Nat)
    (inb : ∀ a, (![o0, o1, o2] : Fin 3 → Nat) a + (![z0, z1, z2] : Fin 3 → Nat) a ≤ (⟨3, ![n0, n1, n2]⟩ : Shape).size a)
    (w : (⟨3, ![z0, z1, z2]⟩ : Shape).Idx → Val e) (L : List (Piece Val ⟨3, ![n0, n1, n2]⟩ e))
    (a : Fin n0) (b : Fin n1) (c : Fin n2) (a' : Fin z0) (b' : Fin z1) (c' : Fin z2)
    (h : a.val = o0 + a'.val ∧ b.val = o1 + b'.val ∧ c.val = o2 + c'.val) :
    canon (⟨Rect.unit (s := ⟨3, ![n0, n1, n2]⟩) ![o0, o1, o2] ![z0, z1, z2] inb, w⟩ :: L) (ix3 a b c) = w (ix3 a' b' c') :=
  cons_unit_in (s := ⟨3, ![n0, n1, n2]⟩) ![o0, o1, o2] ![z0, z1, z2] inb w L (ix3 a b c) (ix3 a' b' c') (fun d => by
    match d with
    | ⟨0, _⟩ => exact h.1
    | ⟨1, _⟩ => exact h.2.1
    | ⟨2, _⟩ => exact h.2.2)

theorem cons_box_out (o0 o1 o2 z0 z1 z2 : Nat)
    (inb : ∀ a, (![o0, o1, o2] : Fin 3 → Nat) a + (![z0, z1, z2] : Fin 3 → Nat) a ≤ (⟨3, ![n0, n1, n2]⟩ : Shape).size a)
    (w : (⟨3, ![z0, z1, z2]⟩ : Shape).Idx → Val e) (L : List (Piece Val ⟨3, ![n0, n1, n2]⟩ e))
    (a : Fin n0) (b : Fin n1) (c : Fin n2)
    (h : ¬ ((o0 ≤ a.val ∧ a.val < o0 + z0) ∧ (o1 ≤ b.val ∧ b.val < o1 + z1) ∧ (o2 ≤ c.val ∧ c.val < o2 + z2))) :
    canon (⟨Rect.unit (s := ⟨3, ![n0, n1, n2]⟩) ![o0, o1, o2] ![z0, z1, z2] inb, w⟩ :: L) (ix3 a b c) = canon L (ix3 a b c) :=
  cons_unit_out (s := ⟨3, ![n0, n1, n2]⟩) ![o0, o1, o2] ![z0, z1, z2] inb w L (ix3 a b c) (fun hall => h ⟨hall 0, hall 1, hall 2⟩)

theorem readCov_box {sig : RefSig} {κ : Kind} {sp : Space} (v : View sig κ sp ⟨3, ![n0, n1, n2]⟩ e)
    (L : List (Piece Val ⟨3, ![n0, n1, n2]⟩ e)) (o0 o1 o2 z0 z1 z2 : Nat)
    (inb : ∀ a, (![o0, o1, o2] : Fin 3 → Nat) a + (![z0, z1, z2] : Fin 3 → Nat) a ≤ (⟨3, ![n0, n1, n2]⟩ : Shape).size a)
    (a : Fin n0) (b : Fin n1) (c : Fin n2) (a' : Fin z0) (b' : Fin z1) (c' : Fin z2)
    (h : a.val = o0 + a'.val ∧ b.val = o1 + b'.val ∧ c.val = o2 + c'.val) :
    v.readCov L (Rect.unit (s := ⟨3, ![n0, n1, n2]⟩) ![o0, o1, o2] ![z0, z1, z2] inb).toLoadRect (ix3 a' b' c')
      = canon L (ix3 a b c) :=
  readCov_unit (s := ⟨3, ![n0, n1, n2]⟩) v L ![o0, o1, o2] ![z0, z1, z2] inb (ix3 a' b' c') (ix3 a b c) (fun d => by
    match d with
    | ⟨0, _⟩ => exact h.1
    | ⟨1, _⟩ => exact h.2.1
    | ⟨2, _⟩ => exact h.2.2)

/-- The last store fills the whole image: its payload, whatever the earlier stores were. -/
theorem cons_whole3 (inb : ∀ a, (![0, 0, 0] : Fin 3 → Nat) a + (⟨3, ![n0, n1, n2]⟩ : Shape).size a ≤ (⟨3, ![n0, n1, n2]⟩ : Shape).size a)
    (w : (⟨3, ![n0, n1, n2]⟩ : Shape).Idx → Val e) (L : List (Piece Val ⟨3, ![n0, n1, n2]⟩ e)) :
    canon (⟨Rect.unit (s := ⟨3, ![n0, n1, n2]⟩) ![0, 0, 0] (⟨3, ![n0, n1, n2]⟩ : Shape).size inb, w⟩ :: L) = w :=
  canon_cons_unit_zero (S := ⟨3, ![n0, n1, n2]⟩) (funext fun d => by
    match d with
    | ⟨0, _⟩ => rfl
    | ⟨1, _⟩ => rfl
    | ⟨2, _⟩ => rfl) inb w L

end Rank3

/-! ## Column blocks of a matrix -/

section Cols
variable {M N : Nat}

theorem cons_col_in (o C : Nat)
    (inb : ∀ a, (![0, o] : Fin 2 → Nat) a + (![M, C] : Fin 2 → Nat) a ≤ (⟨2, ![M, N]⟩ : Shape).size a)
    (w : (⟨2, ![M, C]⟩ : Shape).Idx → Val e) (L : List (Piece Val ⟨2, ![M, N]⟩ e))
    (p : Fin M) (q : Fin N) (c : Fin C) (h : q.val = o + c.val) :
    canon (⟨Rect.unit (s := ⟨2, ![M, N]⟩) ![0, o] ![M, C] inb, w⟩ :: L) (ix2 p q) = w (ix2 p c) :=
  cons_unit_in (s := ⟨2, ![M, N]⟩) ![0, o] ![M, C] inb w L (ix2 p q) (ix2 p c) (fun d => by
    match d with
    | ⟨0, _⟩ => show p.val = 0 + p.val; omega
    | ⟨1, _⟩ => exact h)

theorem cons_col_out (o C : Nat)
    (inb : ∀ a, (![0, o] : Fin 2 → Nat) a + (![M, C] : Fin 2 → Nat) a ≤ (⟨2, ![M, N]⟩ : Shape).size a)
    (w : (⟨2, ![M, C]⟩ : Shape).Idx → Val e) (L : List (Piece Val ⟨2, ![M, N]⟩ e))
    (p : Fin M) (q : Fin N) (h : q.val < o ∨ o + C ≤ q.val) :
    canon (⟨Rect.unit (s := ⟨2, ![M, N]⟩) ![0, o] ![M, C] inb, w⟩ :: L) (ix2 p q) = canon L (ix2 p q) :=
  cons_unit_out (s := ⟨2, ![M, N]⟩) ![0, o] ![M, C] inb w L (ix2 p q) (fun hall => by
    have h1 : o ≤ q.val ∧ q.val < o + C := hall 1
    omega)

theorem readCov_cols {sig : RefSig} {κ : Kind} {sp : Space} (v : View sig κ sp ⟨2, ![M, N]⟩ e)
    (L : List (Piece Val ⟨2, ![M, N]⟩ e)) (o C : Nat)
    (inb : ∀ a, (![0, o] : Fin 2 → Nat) a + (![M, C] : Fin 2 → Nat) a ≤ (⟨2, ![M, N]⟩ : Shape).size a)
    (p : Fin M) (q : Fin N) (c : Fin C) (h : q.val = o + c.val) :
    v.readCov L (Rect.unit (s := ⟨2, ![M, N]⟩) ![0, o] ![M, C] inb).toLoadRect (ix2 p c) = canon L (ix2 p q) :=
  readCov_unit (s := ⟨2, ![M, N]⟩) v L ![0, o] ![M, C] inb (ix2 p c) (ix2 p q) (fun d => by
    match d with
    | ⟨0, _⟩ => show p.val = 0 + p.val; omega
    | ⟨1, _⟩ => exact h)

end Cols

/-! ## Nine column blocks side by side -/

section Gather
variable {M N C : Nat}

/-- Nine stores of `[M, C]` blocks at columns `0, C, …, 8 C` of an `[M, N]` matrix (the last at `8 C` … the first at `0`),
    whatever was stored before: at column `q < 9 C` the contents are block `q / C` at column `q % C`. The blocks are
    given through ONE function `G` of the row and the column `q`: block `k` at `(p, c)` is `G p (k C + c)`. -/
theorem gather9 (hC : 0 < C) (G : Fin M → Fin (9 * C) → Val e)
    (o0 : Nat) (o1 : Nat) (o2 : Nat) (o3 : Nat) (o4 : Nat) (o5 : Nat) (o6 : Nat) (o7 : Nat) (o8 : Nat)
    (inb0 : ∀ a, (![0, o0] : Fin 2 → Nat) a + (![M, C] : Fin 2 → Nat) a ≤ (⟨2, ![M, N]⟩ : Shape).size a)
    (inb1 : ∀ a, (![0, o1] : Fin 2 → Nat) a + (![M, C] : Fin 2 → Nat) a ≤ (⟨2, ![M, N]⟩ : Shape).size a)
    (inb2 : ∀ a, (![0, o2] : Fin 2 → Nat) a + (![M, C] : Fin 2 → Nat) a ≤ (⟨2, ![M, N]⟩ : Shape).size a)
    (inb3 : ∀ a, (![0, o3] : Fin 2 → Nat) a + (![M, C] : Fin 2 → Nat) a ≤ (⟨2, ![M, N]⟩ : Shape).size a)
    (inb4 : ∀ a, (![0, o4] : Fin 2 → Nat) a + (![M, C] : Fin 2 → Nat) a ≤ (⟨2, ![M, N]⟩ : Shape).size a)
    (inb5 : ∀ a, (![0, o5] : Fin 2 → Nat) a + (![M, C] : Fin 2 → Nat) a ≤ (⟨2, ![M, N]⟩ : Shape).size a)
    (inb6 : ∀ a, (![0, o6] : Fin 2 → Nat) a + (![M, C] : Fin 2 → Nat) a ≤ (⟨2, ![M, N]⟩ : Shape).size a)
    (inb7 : ∀ a, (![0, o7] : Fin 2 → Nat) a + (![M, C] : Fin 2 → Nat) a ≤ (⟨2, ![M, N]⟩ : Shape).size a)
    (inb8 : ∀ a, (![0, o8] : Fin 2 → Nat) a + (![M, C] : Fin 2 → Nat) a ≤ (⟨2, ![M, N]⟩ : Shape).size a)
    (w0 : (⟨2, ![M, C]⟩ : Shape).Idx → Val e)
    (w1 : (⟨2, ![M, C]⟩ : Shape).Idx → Val e)
    (w2 : (⟨2, ![M, C]⟩ : Shape).Idx → Val e)
    (w3 : (⟨2, ![M, C]⟩ : Shape).Idx → Val e)
    (w4 : (⟨2, ![M, C]⟩ : Shape).Idx → Val e)
    (w5 : (⟨2, ![M, C]⟩ : Shape).Idx → Val e)
    (w6 : (⟨2, ![M, C]⟩ : Shape).Idx → Val e)
    (w7 : (⟨2, ![M, C]⟩ : Shape).Idx → Val e)
    (w8 : (⟨2, ![M, C]⟩ : Shape).Idx → Val e)
    (h0 : o0 = 0 * C) (h1 : o1 = 1 * C) (h2 : o2 = 2 * C) (h3 : o3 = 3 * C) (h4 : o4 = 4 * C) (h5 : o5 = 5 * C) (h6 : o6 = 6 * C) (h7 : o7 = 7 * C) (h8 : o8 = 8 * C)
    (g0 : ∀ (p : Fin M) (c : Fin C) (q : Fin (9 * C)), q.val = 0 * C + c.val → w0 (ix2 p c) = G p q)
    (g1 : ∀ (p : Fin M) (c : Fin C) (q : Fin (9 * C)), q.val = 1 * C + c.val → w1 (ix2 p c) = G p q)
    (g2 : ∀ (p : Fin M) (c : Fin C) (q : Fin (9 * C)), q.val = 2 * C + c.val → w2 (ix2 p c) = G p q)
    (g3 : ∀ (p : Fin M) (c : Fin C) (q : Fin (9 * C)), q.val = 3 * C + c.val → w3 (ix2 p c) = G p q)
    (g4 : ∀ (p : Fin M) (c : Fin C) (q : Fin (9 * C)), q.val = 4 * C + c.val → w4 (ix2 p c) = G p q)
    (g5 : ∀ (p : Fin M) (c : Fin C) (q : Fin (9 * C)), q.val = 5 * C + c.val → w5 (ix2 p c) = G p q)
    (g6 : ∀ (p : Fin M) (c : Fin C) (q : Fin (9 * C)), q.val = 6 * C + c.val → w6 (ix2 p c) = G p q)
    (g7 : ∀ (p : Fin M) (c : Fin C) (q : Fin (9 * C)), q.val = 7 * C + c.val → w7 (ix2 p c) = G p q)
    (g8 : ∀ (p : Fin M) (c : Fin C) (q : Fin (9 * C)), q.val = 8 * C + c.val → w8 (ix2 p c) = G p q)
    (L2 : List (Piece Val ⟨2, ![M, N]⟩ e)) (p : Fin M) (q : Fin (9 * C)) (q' : Fin N) (hq : q'.val = q.val) :
    canon (⟨Rect.unit (s := ⟨2, ![M, N]⟩) ![0, o8] ![M, C] inb8, w8⟩ ::
      ⟨Rect.unit (s := ⟨2, ![M, N]⟩) ![0, o7] ![M, C] inb7, w7⟩ ::
      ⟨Rect.unit (s := ⟨2, ![M, N]⟩) ![0, o6] ![M, C] inb6, w6⟩ ::
      ⟨Rect.unit (s := ⟨2, ![M, N]⟩) ![0, o5] ![M, C] inb5, w5⟩ ::
      ⟨Rect.unit (s := ⟨2, ![M, N]⟩) ![0, o4] ![M, C] inb4, w4⟩ ::
      ⟨Rect.unit (s := ⟨2, ![M, N]⟩) ![0, o3] ![M, C] inb3, w3⟩ ::
      ⟨Rect.unit (s := ⟨2, ![M, N]⟩) ![0, o2] ![M, C] inb2, w2⟩ ::
      ⟨Rect.unit (s := ⟨2, ![M, N]⟩) ![0, o1] ![M, C] inb1, w1⟩ ::
      ⟨Rect.unit (s := ⟨2, ![M, N]⟩) ![0, o0] ![M, C] inb0, w0⟩ :: L2) (ix2 p q') = G p q := by
  subst h0 h1 h2 h3 h4 h5 h6 h7 h8
  have hlt : q.val < 9 * C := q.isLt
  have hk : q.val / C < 9 := Nat.div_lt_of_lt_mul (show q.val < C * 9 by omega)
  have hdm := Nat.div_add_mod q.val C
  have hm : q.val % C < C := Nat.mod_lt q.val hC
  generalize hr : q.val % C = r at hdm hm
  generalize hkd : q.val / C = k at hk hdm
  interval_cases k
  ·
    refine (cons_col_out _ _ _ _ _ p q' (by omega)).trans ?_
    refine (cons_col_out _ _ _ _ _ p q' (by omega)).trans ?_
    refine (cons_col_out _ _ _ _ _ p q' (by omega)).trans ?_
    refine (cons_col_out _ _ _ _ _ p q' (by omega)).trans ?_
    refine (cons_col_out _ _ _ _ _ p q' (by omega)).trans ?_
    refine (cons_col_out _ _ _ _ _ p q' (by omega)).trans ?_
    refine (cons_col_out _ _ _ _ _ p q' (by omega)).trans ?_
    refine (cons_col_out _ _ _ _ _ p q' (by omega)).trans ?_
    refine (cons_col_in _ _ _ _ _ p q' ⟨r, hm⟩ (by show q'.val = 0 * C + r; omega)).trans ?_
    exact g0 p ⟨r, hm⟩ q (by show q.val = 0 * C + r; omega)
  ·
    refine (cons_col_out _ _ _ _ _ p q' (by omega)).trans ?_
    refine (cons_col_out _ _ _ _ _ p q' (by omega)).trans ?_
    refine (cons_col_out _ _ _ _ _ p q' (by omega)).trans ?_
    refine (cons_col_out _ _ _ _ _ p q' (by omega)).trans ?_
    refine (cons_col_out _ _ _ _ _ p q' (by omega)).trans ?_
    refine (cons_col_out _ _ _ _ _ p q' (by omega)).trans ?_
    refine (cons_col_out _ _ _ _ _ p q' (by omega)).trans ?_
    refine (cons_col_in _ _ _ _ _ p q' ⟨r, hm⟩ (by show q'.val = 1 * C + r; omega)).trans ?_
    exact g1 p ⟨r, hm⟩ q (by show q.val = 1 * C + r; omega)
  ·
    refine (cons_col_out _ _ _ _ _ p q' (by omega)).trans ?_
    refine (cons_col_out _ _ _ _ _ p q' (by omega)).trans ?_
    refine (cons_col_out _ _ _ _ _ p q' (by omega)).trans ?_
    refine (cons_col_out _ _ _ _ _ p q' (by omega)).trans ?_
    refine (cons_col_out _ _ _ _ _ p q' (by omega)).trans ?_
    refine (cons_col_out _ _ _ _ _ p q' (by omega)).trans ?_
    refine (cons_col_in _ _ _ _ _ p q' ⟨r, hm⟩ (by show q'.val = 2 * C + r; omega)).trans ?_
    exact g2 p ⟨r, hm⟩ q (by show q.val = 2 * C + r; omega)
  ·
    refine (cons_col_out _ _ _ _ _ p q' (by omega)).trans ?_
    refine (cons_col_out _ _ _ _ _ p q' (by omega)).trans ?_
    refine (cons_col_out _ _ _ _ _ p q' (by omega)).trans ?_
    refine (cons_col_out _ _ _ _ _ p q' (by omega)).trans ?_
    refine (cons_col_out _ _ _ _ _ p q' (by omega)).trans ?_
    refine (cons_col_in _ _ _ _ _ p q' ⟨r, hm⟩ (by show q'.val = 3 * C + r; omega)).trans ?_
    exact g3 p ⟨r, hm⟩ q (by show q.val = 3 * C + r; omega)
  ·
    refine (cons_col_out _ _ _ _ _ p q' (by omega)).trans ?_
    refine (cons_col_out _ _ _ _ _ p q' (by omega)).trans ?_
    refine (cons_col_out _ _ _ _ _ p q' (by omega)).trans ?_
    refine (cons_col_out _ _ _ _ _ p q' (by omega)).trans ?_
    refine (cons_col_in _ _ _ _ _ p q' ⟨r, hm⟩ (by show q'.val = 4 * C + r; omega)).trans ?_
    exact g4 p ⟨r, hm⟩ q (by show q.val = 4 * C + r; omega)
  ·
    refine (cons_col_out _ _ _ _ _ p q' (by omega)).trans ?_
    refine (cons_col_out _ _ _ _ _ p q' (by omega)).trans ?_
    refine (cons_col_out _ _ _ _ _ p q' (by omega)).trans ?_
    refine (cons_col_in _ _ _ _ _ p q' ⟨r, hm⟩ (by show q'.val = 5 * C + r; omega)).trans ?_
    exact g5 p ⟨r, hm⟩ q (by show q.val = 5 * C + r; omega)
  ·
    refine (cons_col_out _ _ _ _ _ p q' (by omega)).trans ?_
    refine (cons_col_out _ _ _ _ _ p q' (by omega)).trans ?_
    refine (cons_col_in _ _ _ _ _ p q' ⟨r, hm⟩ (by show q'.val = 6 * C + r; omega)).trans ?_
    exact g6 p ⟨r, hm⟩ q (by show q.val = 6 * C + r; omega)
  ·
    refine (cons_col_out _ _ _ _ _ p q' (by omega)).trans ?_
    refine (cons_col_in _ _ _ _ _ p q' ⟨r, hm⟩ (by show q'.val = 7 * C + r; omega)).trans ?_
    exact g7 p ⟨r, hm⟩ q (by show q.val = 7 * C + r; omega)
  ·
    refine (cons_col_in _ _ _ _ _ p q' ⟨r, hm⟩ (by show q'.val = 8 * C + r; omega)).trans ?_
    exact g8 p ⟨r, hm⟩ q (by show q.val = 8 * C + r; omega)

end Gather

end Cert.ReferenceIdeal.Value.Blk.Canon
-- ==== Proof.RefBlockPatch.lean ====
/-
  The gathered patch matrix of a padded image, and a product with flattened weights as a convolution.

  Row p of the patch matrix of a padded image P with C channels holds, at column q = k C + ch, the image's entry at pixel
  (p / 32, p % 32) shifted by tap k = 3 ky + kx, channel ch. A product of the patch matrix with a [9 C, 128] weight
  matrix, plus a bias row, is therefore the reference's arrangement of the 3x3 convolution.
-/
import proofs.«131778_g2000005761611187_pallasbulk_1314_2_alg».proof.Proof.RefBlockOps
import proofs.«131778_g2000005761611187_pallasbulk_1314_2_alg».proof.Proof.RefBlockCanon

noncomputable section

namespace Cert.ReferenceIdeal.Value.Blk.Patch

open Cert.ReferenceIdeal Cert.ReferenceIdeal.Gen
open Idealize.ShloMosaic Idealize.ShloMosaic.ValueIdx Idealize.ShloMosaic.View
open Cert.ReferenceIdeal.Value.Blk.Ops Cert.ReferenceIdeal.Value.Blk.Canon
open scoped BigOperators

/-- Entry (p, q) of the patch matrix of the padded image `P`. -/
def patch {C : ℕ} (P : Fin 34 → Fin 34 → Fin C → EReal) (p : Fin 1024) (q : Fin (9 * C)) : EReal :=
  P (Spec.win (rowOf p) (Spec.tapRow q.divNat)) (Spec.win (colOf p) (Spec.tapCol q.divNat)) q.modNat

/-- At column `(3 ky + kx) C + ch`: the image shifted by (ky, kx), channel ch. -/
theorem patch_at {C : ℕ} (hC : 0 < C) (P : Fin 34 → Fin 34 → Fin C → EReal) (p : Fin 1024) (q : Fin (9 * C))
    (ky kx : ℕ) (hky : ky < 3) (hkx : kx < 3) (cc : Fin C) (hq : q.val = (3 * ky + kx) * C + cc.val) :
    patch P p q = P (Spec.win (rowOf p) ⟨ky, hky⟩) (Spec.win (colOf p) ⟨kx, hkx⟩) cc := by
  have hd : q.val / C = 3 * ky + kx := by
    rw [hq, Nat.add_comm, Nat.add_mul_div_right _ _ hC, Nat.div_eq_of_lt cc.isLt, Nat.zero_add]
  have hm : q.val % C = cc.val := by
    rw [hq, Nat.add_comm, Nat.add_mul_mod_self_right, Nat.mod_eq_of_lt cc.isLt]
  have e1 : Spec.tapRow q.divNat = ⟨ky, hky⟩ := Fin.ext (by show q.val / C / 3 = ky; rw [hd]; omega)
  have e2 : Spec.tapCol q.divNat = ⟨kx, hkx⟩ := Fin.ext (by show q.val / C % 3 = kx; rw [hd]; omega)
  have e3 : q.modNat = cc := Fin.ext (by show q.val % C = cc.val; exact hm)
  unfold patch
  rw [e1, e2, e3]

/-- One stored block of the first patch matrix: the window of the 256-channel padded image at tap (ky, kx), flattened. -/
theorem tap256 {sig' : RefSig} {κ' : Kind} {sp' : Space} (v : View sig' κ' sp' S34x34x256 .f32)
    (L : List (Piece (Elt Ideal) S34x34x256 .f32)) (P : Fin 34 → Fin 34 → Fin 256 → EReal)
    (hP : ∀ a b ch, canon L (ix3 a b ch) = P a b ch) (ky kx : ℕ) (hky : ky < 3) (hkx : kx < 3)
    (inb : ∀ a, (![ky, kx, 0] : Fin 3 → Nat) a + (![32, 32, 256] : Fin 3 → Nat) a ≤ S34x34x256.size a)
    (k : ℕ) (hk : k = 3 * ky + kx) (p : Fin 1024) (cc : Fin 256) (q : Fin (9 * 256)) (hq : q.val = k * 256 + cc.val) :
    flat256 (v.readCov L (Rect.unit (s := S34x34x256) ![ky, kx, 0] ![32, 32, 256] inb).toLoadRect) (ix2 p cc) = patch P p q := by
  subst hk
  rw [flat256_apply, patch_at (by decide) P p q ky kx hky hkx cc hq]
  refine (readCov_box v L ky kx 0 32 32 256 inb (Spec.win (rowOf p) ⟨ky, hky⟩) (Spec.win (colOf p) ⟨kx, hkx⟩) cc
    (rowOf p) (colOf p) cc ?_).trans (hP _ _ _)
  refine ⟨?_, ?_, ?_⟩
  · show (rowOf p).val + ky = ky + (rowOf p).val; omega
  · show (colOf p).val + kx = kx + (colOf p).val; omega
  · omega

/-- One stored block of the later patch matrices: the window of a 128-channel padded image at tap (ky, kx), flattened. -/
theorem tap128 {sig' : RefSig} {κ' : Kind} {sp' : Space} (v : View sig' κ' sp' S34x34x128 .f32)
    (L : List (Piece (Elt Ideal) S34x34x128 .f32)) (P : Fin 34 → Fin 34 → Fin 128 → EReal)
    (hP : ∀ a b ch, canon L (ix3 a b ch) = P a b ch) (ky kx : ℕ) (hky : ky < 3) (hkx : kx < 3)
    (inb : ∀ a, (![ky, kx, 0] : Fin 3 → Nat) a + (![32, 32, 128] : Fin 3 → Nat) a ≤ S34x34x128.size a)
    (k : ℕ) (hk : k = 3 * ky + kx) (p : Fin 1024) (cc : Fin 128) (q : Fin (9 * 128)) (hq : q.val = k * 128 + cc.val) :
    flat128 (v.readCov L (Rect.unit (s := S34x34x128) ![ky, kx, 0] ![32, 32, 128] inb).toLoadRect) (ix2 p cc) = patch P p q := by
  subst hk
  rw [flat128_apply, patch_at (by decide) P p q ky kx hky hkx cc hq]
  refine (readCov_box v L ky kx 0 32 32 128 inb (Spec.win (rowOf p) ⟨ky, hky⟩) (Spec.win (colOf p) ⟨kx, hkx⟩) cc
    (rowOf p) (colOf p) cc ?_).trans (hP _ _ _)
  refine ⟨?_, ?_, ?_⟩
  · show (rowOf p).val + ky = ky + (rowOf p).val; omega
  · show (colOf p).val + kx = kx + (colOf p).val; omega
  · omega

/-- A product of a patch matrix with the flattened weights, plus the bias, is the convolution as one sum. -/
theorem conv_of_patch {C : ℕ} (P : Fin 34 → Fin 34 → Fin C → EReal) (w : Fin (9 * C) → Fin 128 → EReal) (bias : Fin 128 → EReal)
    (l : Fin (9 * C) → EReal) (p : Fin 1024) (o : Fin 128) (hl : ∀ q, l q = patch P p q) :
    (∑ q : Fin (9 * C), l q * w q o) + bias o = Spec.convR P w bias (rowOf p) (colOf p) o := by
  unfold Spec.convR
  congr 1
  exact Finset.sum_congr rfl fun q _ => by rw [hl q]; rfl

end Cert.ReferenceIdeal.Value.Blk.Patch

end
-- ==== Proof.RefBlockConv1.lean ====
/-
  The first convolution of the second kernel: the padded concatenation, its nine shifted windows gathered into the patch
  matrix, and the product with the flattened weights.

  The run leaves the concatenated image as three stores (the zero fill, then the up image into channels 0:128 of the
  interior, then the bridge into channels 128:256); read back entry by entry that is the zero-padded concatenation. Each
  of the nine windows is a load of that image at offsets (ky, kx, 0); flattened and stored at columns 256 k of the patch
  matrix they give, at (p, q), the padded image at pixel p shifted by tap q / 256, channel q % 256. The product with
  the weights plus the bias is then the convolution written as one sum over the flattened (tap, channel) axis.
-/
import proofs.«131778_g2000005761611187_pallasbulk_1314_2_alg».proof.Proof.Gen.ReferenceIdeal.Frame
import proofs.«131778_g2000005761611187_pallasbulk_1314_2_alg».proof.Proof.RefBlockPatch

noncomputable section

namespace Cert.ReferenceIdeal.Value.Blk

open Cert.ReferenceIdeal Cert.ReferenceIdeal.Gen
open Idealize.ShloMosaic Idealize.ShloMosaic.TcCoe Idealize.ShloMosaic.ValueIdx Idealize.ShloMosaic.View
open Cert.ReferenceIdeal.Value.Blk.Ops Cert.ReferenceIdeal.Value.Blk.Canon Cert.ReferenceIdeal.Value.Blk.Patch
open scoped BigOperators

theorem z2 : (![0, 0] : Fin 2 → Nat) = fun _ => 0 := by funext a; fin_cases a <;> rfl
theorem z4 : (![0, 0, 0, 0] : Fin 4 → Nat) = fun _ => 0 := by funext a; fin_cases a <;> rfl

/-- A load of a whole input buffer reads its contents. -/
theorem readAt_whole {S : Shape} {e : EltTy} (arg : Memref sig .tc .vmem S e) (harg : arg.IsWhole) (X : S.Idx → Elt Ideal e)
    (off : Fin S.rank → Nat) (hoff : off = fun _ => 0) (inb : ∀ a, off a + S.size a ≤ S.size a) :
    View.readAt (Elt Ideal) arg.view (Rect.unit off S.size inb).toLoadRect (harg.unread X) = X := by
  rw [View.readAt_eq_ld, harg.read_unread]
  exact View.ld_unit_zero hoff inb X

/-- The input blocks as plain functions of their coordinates. -/
abbrev imU (x : Vec Ideal S1x32x32x128 .f32) : Fin 32 → Fin 32 → Fin 128 → EReal := fun a b ch => x (ix4 0 a b ch)
abbrev mat2304 (x : Vec Ideal S2304x128 .f32) : Fin (9 * 256) → Fin 128 → EReal := fun q o => x (ix2 q o)
abbrev mat1152 (x : Vec Ideal S1152x128 .f32) : Fin (9 * 128) → Fin 128 → EReal := fun q o => x (ix2 q o)
abbrev row128 (x : Vec Ideal S1x128 .f32) : Fin 128 → EReal := fun o => x (ix2 0 o)

section
variable (c : Dev nD) (arg1 : Memref sig .tc .vmem S1x32x32x128 .f32) (harg1 : arg1.IsWhole) (arg2 : Memref sig .tc .vmem S1x32x32x128 .f32) (harg2 : arg2.IsWhole) (arg3 : Memref sig .tc .vmem S2304x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1152x128 .f32) (harg6 : arg6.IsWhole) (arg7 : Memref sig .tc .vmem S1x128 .f32) (harg7 : arg7.IsWhole) (arg8 : Memref sig .tc .vmem S1152x128 .f32) (harg8 : arg8.IsWhole) (arg9 : Memref sig .tc .vmem S1x128 .f32) (harg9 : arg9.IsWhole) (arg10 : Memref sig .tc .vmem S1x32x32x128 .f32) (harg10 : arg10.IsWhole) (arg11 : Memref sig .tc .vmem S34x34x256 .f32) (harg11 : arg11.IsWhole) (arg12 : Memref sig .tc .vmem S34x34x128 .f32) (harg12 : arg12.IsWhole) (arg13 : Memref sig .tc .vmem S1024x2304 .f32) (harg13 : arg13.IsWhole) (arg14 : Memref sig .tc .vmem S1024x128 .f32) (harg14 : arg14.IsWhole)
  (x0 : Vec Ideal S1x32x32x128 .f32) (x1 : Vec Ideal S1x32x32x128 .f32) (x2 : Vec Ideal S2304x128 .f32) (x3 : Vec Ideal S1x128 .f32) (x4 : Vec Ideal S1x128 .f32) (x5 : Vec Ideal S1152x128 .f32) (x6 : Vec Ideal S1x128 .f32) (x7 : Vec Ideal S1152x128 .f32) (x8 : Vec Ideal S1x128 .f32)

/-- The concatenated image after its three stores: the zero-padded concatenation of the up block and the bridge block. -/
theorem cat_canon (a b : Fin 34) (ch : Fin 256) :
    canon (kernelRun1_A.sl.HS0_3 (F := Ideal) c arg1 harg1 arg2 harg2 x0 x1) (ix3 a b ch) = Spec.pad (Spec.catImg (imU x0) (imU x1)) a b ch := by
  unfold kernelRun1_A.sl.HS0_3
  rw [readAt_whole arg1 harg1 x0 _ z4, readAt_whole arg2 harg2 x1 _ z4]
  unfold Spec.pad
  by_cases hin : 1 ≤ a.val ∧ a.val ≤ 32 ∧ 1 ≤ b.val ∧ b.val ≤ 32
  · rw [dif_pos hin]
    unfold Spec.catImg
    by_cases hch : ch.val < 128
    · rw [dif_pos hch]
      refine (cons_box_out 1 1 128 32 32 128 _ _ _ a b ch (by omega)).trans ?_
      refine (cons_box_in 1 1 0 32 32 128 _ _ _ a b ch ⟨a.val - 1, by omega⟩ ⟨b.val - 1, by omega⟩ ⟨ch.val, hch⟩ (by
        show a.val = 1 + (a.val - 1) ∧ b.val = 1 + (b.val - 1) ∧ ch.val = 0 + ch.val; omega)).trans ?_
      exact pay5_apply x0 _ _ _
    · rw [dif_neg hch]
      refine (cons_box_in 1 1 128 32 32 128 _ _ _ a b ch ⟨a.val - 1, by omega⟩ ⟨b.val - 1, by omega⟩
        ⟨ch.val - 128, by have := ch.isLt; omega⟩ (by
        show a.val = 1 + (a.val - 1) ∧ b.val = 1 + (b.val - 1) ∧ ch.val = 128 + (ch.val - 128); omega)).trans ?_
      exact pay6_apply x1 _ _ _
  · rw [dif_neg hin]
    refine (cons_box_out 1 1 128 32 32 128 _ _ _ a b ch (by omega)).trans ?_
    refine (cons_box_out 1 1 0 32 32 128 _ _ _ a b ch (by omega)).trans ?_
    rw [cons_whole3]
    exact pay3_apply _

/-- The patch matrix after the nine stores of the first convolution. -/
theorem patch1_canon (p : Fin 1024) (q : Fin (9 * 256)) (q' : Fin 2304) (hq : q'.val = q.val) :
    canon (kernelRun1_A.sl.HS2_9 (F := Ideal) c arg1 harg1 arg2 harg2 arg11 x0 x1) (ix2 p q') = patch (Spec.pad (Spec.catImg (imU x0) (imU x1))) p q := by
  unfold kernelRun1_A.sl.HS2_9 kernelRun1_A.sl.r
  rw [pay7_eq, pay8_eq, pay9_eq, pay10_eq, pay11_eq, pay12_eq, pay14_eq, pay15_eq, pay16_eq]
  refine gather9 (Val := Elt Ideal) (e := .f32) (M := 1024) (N := 2304) (C := 256) (by decide) (patch (Spec.pad (Spec.catImg (imU x0) (imU x1))))
    0 256 512 768 1024 1280 1536 1792 2048 _ _ _ _ _ _ _ _ _ _ _ _ _ _ _ _ _ _ rfl rfl rfl rfl rfl rfl rfl rfl rfl
    ?_ ?_ ?_ ?_ ?_ ?_ ?_ ?_ ?_ [] p q q' hq
  · intro p cc q hq
    exact tap256 arg11.view _ _ (cat_canon c arg1 harg1 arg2 harg2 x0 x1) 0 0 (by decide) (by decide) _ 0 rfl p cc q hq
  · intro p cc q hq
    exact tap256 arg11.view _ _ (cat_canon c arg1 harg1 arg2 harg2 x0 x1) 0 1 (by decide) (by decide) _ 1 rfl p cc q hq
  · intro p cc q hq
    exact tap256 arg11.view _ _ (cat_canon c arg1 harg1 arg2 harg2 x0 x1) 0 2 (by decide) (by decide) _ 2 rfl p cc q hq
  · intro p cc q hq
    exact tap256 arg11.view _ _ (cat_canon c arg1 harg1 arg2 harg2 x0 x1) 1 0 (by decide) (by decide) _ 3 rfl p cc q hq
  · intro p cc q hq
    exact tap256 arg11.view _ _ (cat_canon c arg1 harg1 arg2 harg2 x0 x1) 1 1 (by decide) (by decide) _ 4 rfl p cc q hq
  · intro p cc q hq
    exact tap256 arg11.view _ _ (cat_canon c arg1 harg1 arg2 harg2 x0 x1) 1 2 (by decide) (by decide) _ 5 rfl p cc q hq
  · intro p cc q hq
    exact tap256 arg11.view _ _ (cat_canon c arg1 harg1 arg2 harg2 x0 x1) 2 0 (by decide) (by decide) _ 6 rfl p cc q hq
  · intro p cc q hq
    exact tap256 arg11.view _ _ (cat_canon c arg1 harg1 arg2 harg2 x0 x1) 2 1 (by decide) (by decide) _ 7 rfl p cc q hq
  · intro p cc q hq
    exact tap256 arg11.view _ _ (cat_canon c arg1 harg1 arg2 harg2 x0 x1) 2 2 (by decide) (by decide) _ 8 rfl p cc q hq

/-- The first convolution, at row p of the flattened image: the reference's arrangement at pixel (p / 32, p % 32). -/
theorem y_apply (p : Fin 1024) (o : Fin 128) :
    kernelRun1_A.sl.r_1 (F := Ideal) c arg1 harg1 arg2 harg2 arg3 harg3 arg4 harg4 arg11 arg13 x0 x1 x2 x3 (ix2 p o)
      = Spec.yR (imU x0) (imU x1) (mat2304 x2) (row128 x3) (rowOf p) (colOf p) o := by
  unfold kernelRun1_A.sl.r_1
  rw [readAt_whole arg3 harg3 x2 _ z2, readAt_whole arg4 harg4 x3 _ z2]
  refine (pay17_apply _ x2 x3 p o).trans ?_
  refine conv_of_patch (C := 256) (Spec.pad (Spec.catImg (imU x0) (imU x1))) (mat2304 x2) (row128 x3) _ p o (fun q => ?_)
  unfold kernelRun1_A.sl.v63
  refine (readCov_cols arg13.view _ 0 2304 _ p q q (by omega)).trans ?_
  exact patch1_canon c arg1 harg1 arg2 harg2 arg11 x0 x1 p q q rfl

end

end Cert.ReferenceIdeal.Value.Blk

end
-- ==== Proof.RefBlockNorm.lean ====
/-
  The normalisation of the second kernel: each row of the first convolution minus its mean, times the reciprocal root of
  its variance plus 1e-5, plus the shift row, stored into the interior of the zero-filled activation image.

  The mean and the variance are lane sums over the 128 channels divided by 128.0, kept as columns; the normalised matrix
  is reshaped to the 32 x 32 image and written at offsets (1, 1, 0) of the padded image, whose border keeps the zero fill.
-/
import proofs.«131778_g2000005761611187_pallasbulk_1314_2_alg».proof.Proof.RefBlockConv1

noncomputable section

namespace Cert.ReferenceIdeal.Value.Blk

open Cert.ReferenceIdeal Cert.ReferenceIdeal.Gen
open Idealize.ShloMosaic Idealize.ShloMosaic.TcCoe Idealize.ShloMosaic.ValueIdx Idealize.ShloMosaic.View
open Cert.ReferenceIdeal.Value.Blk.Ops Cert.ReferenceIdeal.Value.Blk.Canon Cert.ReferenceIdeal.Value.Blk.Patch
open scoped BigOperators

/-- A row minus its mean, times the reciprocal root of its variance plus 1e-5, from the three vectors the body computes. -/
theorem norm_row (Y : FVec Ideal S1024x128 .f32) (Mn Vr : FVec Ideal S1024x1 .f32) (p : Fin 1024) (y : Fin 128 → EReal)
    (hY : ∀ o, Y (ix2 p o) = y o) (hM : Mn (ix2 p 0) = Spec.mean (fun o => Y (ix2 p o)))
    (hV : Vr (ix2 p 0) = Spec.mean (fun o => (Y (ix2 p o) - Mn (ix2 p 0)) * (Y (ix2 p o) - Mn (ix2 p 0)))) (o : Fin 128) :
    (Y (ix2 p o) - Mn (ix2 p 0)) * Ideal.rsqrt (Vr (ix2 p 0) + Spec.eps) = Spec.nrm y o := by
  have e : (fun o => Y (ix2 p o)) = y := funext hY
  rw [hV, hM, e]
  simp only [hY]
  rfl

section
variable (c : Dev nD) (arg1 : Memref sig .tc .vmem S1x32x32x128 .f32) (harg1 : arg1.IsWhole) (arg2 : Memref sig .tc .vmem S1x32x32x128 .f32) (harg2 : arg2.IsWhole) (arg3 : Memref sig .tc .vmem S2304x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1152x128 .f32) (harg6 : arg6.IsWhole) (arg7 : Memref sig .tc .vmem S1x128 .f32) (harg7 : arg7.IsWhole) (arg8 : Memref sig .tc .vmem S1152x128 .f32) (harg8 : arg8.IsWhole) (arg9 : Memref sig .tc .vmem S1x128 .f32) (harg9 : arg9.IsWhole) (arg10 : Memref sig .tc .vmem S1x32x32x128 .f32) (harg10 : arg10.IsWhole) (arg11 : Memref sig .tc .vmem S34x34x256 .f32) (harg11 : arg11.IsWhole) (arg12 : Memref sig .tc .vmem S34x34x128 .f32) (harg12 : arg12.IsWhole) (arg13 : Memref sig .tc .vmem S1024x2304 .f32) (harg13 : arg13.IsWhole) (arg14 : Memref sig .tc .vmem S1024x128 .f32) (harg14 : arg14.IsWhole)
  (x0 : Vec Ideal S1x32x32x128 .f32) (x1 : Vec Ideal S1x32x32x128 .f32) (x2 : Vec Ideal S2304x128 .f32) (x3 : Vec Ideal S1x128 .f32) (x4 : Vec Ideal S1x128 .f32) (x5 : Vec Ideal S1152x128 .f32) (x6 : Vec Ideal S1x128 .f32) (x7 : Vec Ideal S1152x128 .f32) (x8 : Vec Ideal S1x128 .f32)

/-- The activation image after the zero fill and the store of the normalised rows: the zero-padded normalised image. -/
theorem t_canon (a b : Fin 34) (ch : Fin 128) :
    canon (kernelRun1_A.sl.HS1_2 (F := Ideal) c arg1 harg1 arg2 harg2 arg3 harg3 arg4 harg4 arg5 harg5 arg11 arg13 x0 x1 x2 x3 x4) (ix3 a b ch) = Spec.pad (Spec.tR (imU x0) (imU x1) (mat2304 x2) (row128 x3) (row128 x4)) a b ch := by
  unfold kernelRun1_A.sl.HS1_2
  rw [readAt_whole arg5 harg5 x4 _ z2]
  unfold Spec.pad
  by_cases hin : 1 ≤ a.val ∧ a.val ≤ 32 ∧ 1 ≤ b.val ∧ b.val ≤ 32
  · rw [dif_pos hin]
    refine (cons_box_in 1 1 0 32 32 128 _ _ _ a b ch ⟨a.val - 1, by omega⟩ ⟨b.val - 1, by omega⟩ ch (by
      show a.val = 1 + (a.val - 1) ∧ b.val = 1 + (b.val - 1) ∧ ch.val = 0 + ch.val; omega)).trans ?_
    refine (pay21_apply _ _ _ x4 _ _ ch).trans ?_
    unfold Spec.tR
    refine congrArg₂ (· + ·) ?_ rfl
    exact norm_row _ _ _ (pos ⟨a.val - 1, by omega⟩ ⟨b.val - 1, by omega⟩)
      (Spec.yR (imU x0) (imU x1) (mat2304 x2) (row128 x3) ⟨a.val - 1, by omega⟩ ⟨b.val - 1, by omega⟩)
      (fun o => (y_apply c arg1 harg1 arg2 harg2 arg3 harg3 arg4 harg4 arg11 arg13 x0 x1 x2 x3 _ o).trans (by rw [rowOf_pos, colOf_pos]))
      (pay19_apply _ _ _ _) (pay20_apply _ _ _ _) ch
  · rw [dif_neg hin]
    refine (cons_box_out 1 1 0 32 32 128 _ _ _ a b ch (by omega)).trans ?_
    rw [cons_whole3]
    exact pay4_apply _

end

end Cert.ReferenceIdeal.Value.Blk

end
-- ==== Proof.RefBlockConv2.lean ====
/-
  The second convolution of the second kernel, and its rectified result stored back into the activation image.

  The nine windows of the padded normalised image are gathered into columns 0 : 1152 of the patch matrix (the columns
  beyond keep what the first convolution left, and are not read); the product with the folded weights plus the bias,
  rectified, is written over the interior of the activation image, whose border still holds the zero fill.
-/
import proofs.«131778_g2000005761611187_pallasbulk_1314_2_alg».proof.Proof.RefBlockNorm

noncomputable section

namespace Cert.ReferenceIdeal.Value.Blk

open Cert.ReferenceIdeal Cert.ReferenceIdeal.Gen
open Idealize.ShloMosaic Idealize.ShloMosaic.TcCoe Idealize.ShloMosaic.ValueIdx Idealize.ShloMosaic.View
open Cert.ReferenceIdeal.Value.Blk.Ops Cert.ReferenceIdeal.Value.Blk.Canon Cert.ReferenceIdeal.Value.Blk.Patch
open scoped BigOperators

section
variable (c : Dev nD) (arg1 : Memref sig .tc .vmem S1x32x32x128 .f32) (harg1 : arg1.IsWhole) (arg2 : Memref sig .tc .vmem S1x32x32x128 .f32) (harg2 : arg2.IsWhole) (arg3 : Memref sig .tc .vmem S2304x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1152x128 .f32) (harg6 : arg6.IsWhole) (arg7 : Memref sig .tc .vmem S1x128 .f32) (harg7 : arg7.IsWhole) (arg8 : Memref sig .tc .vmem S1152x128 .f32) (harg8 : arg8.IsWhole) (arg9 : Memref sig .tc .vmem S1x128 .f32) (harg9 : arg9.IsWhole) (arg10 : Memref sig .tc .vmem S1x32x32x128 .f32) (harg10 : arg10.IsWhole) (arg11 : Memref sig .tc .vmem S34x34x256 .f32) (harg11 : arg11.IsWhole) (arg12 : Memref sig .tc .vmem S34x34x128 .f32) (harg12 : arg12.IsWhole) (arg13 : Memref sig .tc .vmem S1024x2304 .f32) (harg13 : arg13.IsWhole) (arg14 : Memref sig .tc .vmem S1024x128 .f32) (harg14 : arg14.IsWhole)
  (x0 : Vec Ideal S1x32x32x128 .f32) (x1 : Vec Ideal S1x32x32x128 .f32) (x2 : Vec Ideal S2304x128 .f32) (x3 : Vec Ideal S1x128 .f32) (x4 : Vec Ideal S1x128 .f32) (x5 : Vec Ideal S1152x128 .f32) (x6 : Vec Ideal S1x128 .f32) (x7 : Vec Ideal S1152x128 .f32) (x8 : Vec Ideal S1x128 .f32)

/-- The patch matrix after the nine stores of the second convolution, at a column below 1152: the windows of whatever
    padded image `P` the activation image holds. -/
theorem patch2_canon (P : Fin 34 → Fin 34 → Fin 128 → EReal)
    (hP : ∀ a b ch, canon (kernelRun1_A.sl.HS1_2 (F := Ideal) c arg1 harg1 arg2 harg2 arg3 harg3 arg4 harg4 arg5 harg5 arg11 arg13 x0 x1 x2 x3 x4) (ix3 a b ch) = P a b ch)
    (p : Fin 1024) (q : Fin (9 * 128)) (q' : Fin 2304) (hq : q'.val = q.val) :
    canon (kernelRun1_A.sl.HS2_18 (F := Ideal) c arg1 harg1 arg2 harg2 arg3 harg3 arg4 harg4 arg5 harg5 arg11 arg12 arg13 x0 x1 x2 x3 x4) (ix2 p q') = patch P p q := by
  unfold kernelRun1_A.sl.HS2_18 kernelRun1_A.sl.r_4 kernelRun1_A.sl.r_5
  rw [pay22_eq, pay23_eq, pay24_eq, pay26_eq, pay27_eq, pay28_eq, pay29_eq, pay30_eq, pay31_eq]
  refine gather9 (Val := Elt Ideal) (e := .f32) (M := 1024) (N := 2304) (C := 128) (by decide) (patch P)
    0 128 256 384 512 640 768 896 1024 _ _ _ _ _ _ _ _ _ _ _ _ _ _ _ _ _ _ rfl rfl rfl rfl rfl rfl rfl rfl rfl
    ?_ ?_ ?_ ?_ ?_ ?_ ?_ ?_ ?_ _ p q q' hq
  · intro p cc q hq
    exact tap128 arg12.view _ P hP 0 0 (by decide) (by decide) _ 0 rfl p cc q hq
  · intro p cc q hq
    exact tap128 arg12.view _ P hP 0 1 (by decide) (by decide) _ 1 rfl p cc q hq
  · intro p cc q hq
    exact tap128 arg12.view _ P hP 0 2 (by decide) (by decide) _ 2 rfl p cc q hq
  · intro p cc q hq
    exact tap128 arg12.view _ P hP 1 0 (by decide) (by decide) _ 3 rfl p cc q hq
  · intro p cc q hq
    exact tap128 arg12.view _ P hP 1 1 (by decide) (by decide) _ 4 rfl p cc q hq
  · intro p cc q hq
    exact tap128 arg12.view _ P hP 1 2 (by decide) (by decide) _ 5 rfl p cc q hq
  · intro p cc q hq
    exact tap128 arg12.view _ P hP 2 0 (by decide) (by decide) _ 6 rfl p cc q hq
  · intro p cc q hq
    exact tap128 arg12.view _ P hP 2 1 (by decide) (by decide) _ 7 rfl p cc q hq
  · intro p cc q hq
    exact tap128 arg12.view _ P hP 2 2 (by decide) (by decide) _ 8 rfl p cc q hq

/-- The activation image after the store of the rectified second convolution: the zero-padded rectified image. -/
theorem h_canon (a b : Fin 34) (ch : Fin 128) :
    canon (kernelRun1_A.sl.HS1_3 (F := Ideal) c arg1 harg1 arg2 harg2 arg3 harg3 arg4 harg4 arg5 harg5 arg6 harg6 arg7 harg7 arg11 arg12 arg13 x0 x1 x2 x3 x4 x5 x6) (ix3 a b ch) = Spec.pad (Spec.hR (imU x0) (imU x1) (mat2304 x2) (row128 x3) (row128 x4) (mat1152 x5) (row128 x6)) a b ch := by
  unfold kernelRun1_A.sl.HS1_3
  rw [readAt_whole arg6 harg6 x5 _ z2, readAt_whole arg7 harg7 x6 _ z2]
  by_cases hin : 1 ≤ a.val ∧ a.val ≤ 32 ∧ 1 ≤ b.val ∧ b.val ≤ 32
  · unfold Spec.pad
    rw [dif_pos hin]
    refine (cons_box_in 1 1 0 32 32 128 _ _ _ a b ch ⟨a.val - 1, by omega⟩ ⟨b.val - 1, by omega⟩ ch (by
      show a.val = 1 + (a.val - 1) ∧ b.val = 1 + (b.val - 1) ∧ ch.val = 0 + ch.val; omega)).trans ?_
    refine (pay32_apply _ x5 x6 _ _ ch).trans ?_
    unfold Spec.hR
    refine congrArg Spec.lrelu ?_
    refine (conv_of_patch (C := 128) (Spec.pad (Spec.tR (imU x0) (imU x1) (mat2304 x2) (row128 x3) (row128 x4))) (mat1152 x5) (row128 x6) _
      (pos ⟨a.val - 1, by omega⟩ ⟨b.val - 1, by omega⟩) ch (fun q => ?_)).trans (by rw [rowOf_pos, colOf_pos])
    unfold kernelRun1_A.sl.v145
    refine (readCov_cols arg13.view _ 0 1152 _ _ ⟨q.val, by have := q.isLt; omega⟩ q (by show q.val = 0 + q.val; omega)).trans ?_
    exact patch2_canon c arg1 harg1 arg2 harg2 arg3 harg3 arg4 harg4 arg5 harg5 arg11 arg12 arg13 x0 x1 x2 x3 x4 _ (t_canon c arg1 harg1 arg2 harg2 arg3 harg3 arg4 harg4 arg5 harg5 arg11 arg13 x0 x1 x2 x3 x4) _ q _ rfl
  · refine (cons_box_out 1 1 0 32 32 128 _ _ _ a b ch (by omega)).trans ?_
    refine (t_canon c arg1 harg1 arg2 harg2 arg3 harg3 arg4 harg4 arg5 harg5 arg11 arg13 x0 x1 x2 x3 x4 a b ch).trans ?_
    unfold Spec.pad
    rw [dif_neg hin, dif_neg hin]

end

end Cert.ReferenceIdeal.Value.Blk

end
-- ==== Proof.RefBlockConv3.lean ====
/-
  The third convolution of the second kernel and the output block.

  The nine windows of the padded rectified image are gathered over columns 0 : 1152 of the patch matrix again; the
  product with the third weights plus its bias, plus the first convolution read back from its scratch copy, reshaped to
  the block [1, 32, 32, 128], is the one store into the output block.
-/
import proofs.«131778_g2000005761611187_pallasbulk_1314_2_alg».proof.Proof.RefBlockConv2

noncomputable section

namespace Cert.ReferenceIdeal.Value.Blk

open Cert.ReferenceIdeal Cert.ReferenceIdeal.Gen
open Idealize.ShloMosaic Idealize.ShloMosaic.TcCoe Idealize.ShloMosaic.ValueIdx Idealize.ShloMosaic.View
open Cert.ReferenceIdeal.Value.Blk.Ops Cert.ReferenceIdeal.Value.Blk.Canon Cert.ReferenceIdeal.Value.Blk.Patch
open scoped BigOperators

section
variable (c : Dev nD) (arg1 : Memref sig .tc .vmem S1x32x32x128 .f32) (harg1 : arg1.IsWhole) (arg2 : Memref sig .tc .vmem S1x32x32x128 .f32) (harg2 : arg2.IsWhole) (arg3 : Memref sig .tc .vmem S2304x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1152x128 .f32) (harg6 : arg6.IsWhole) (arg7 : Memref sig .tc .vmem S1x128 .f32) (harg7 : arg7.IsWhole) (arg8 : Memref sig .tc .vmem S1152x128 .f32) (harg8 : arg8.IsWhole) (arg9 : Memref sig .tc .vmem S1x128 .f32) (harg9 : arg9.IsWhole) (arg10 : Memref sig .tc .vmem S1x32x32x128 .f32) (harg10 : arg10.IsWhole) (arg11 : Memref sig .tc .vmem S34x34x256 .f32) (harg11 : arg11.IsWhole) (arg12 : Memref sig .tc .vmem S34x34x128 .f32) (harg12 : arg12.IsWhole) (arg13 : Memref sig .tc .vmem S1024x2304 .f32) (harg13 : arg13.IsWhole) (arg14 : Memref sig .tc .vmem S1024x128 .f32) (harg14 : arg14.IsWhole)
  (x0 : Vec Ideal S1x32x32x128 .f32) (x1 : Vec Ideal S1x32x32x128 .f32) (x2 : Vec Ideal S2304x128 .f32) (x3 : Vec Ideal S1x128 .f32) (x4 : Vec Ideal S1x128 .f32) (x5 : Vec Ideal S1152x128 .f32) (x6 : Vec Ideal S1x128 .f32) (x7 : Vec Ideal S1152x128 .f32) (x8 : Vec Ideal S1x128 .f32)

/-- The patch matrix after the nine stores of the third convolution, at a column below 1152. -/
theorem patch3_canon (P : Fin 34 → Fin 34 → Fin 128 → EReal)
    (hP : ∀ a b ch, canon (kernelRun1_A.sl.HS1_3 (F := Ideal) c arg1 harg1 arg2 harg2 arg3 harg3 arg4 harg4 arg5 harg5 arg6 harg6 arg7 harg7 arg11 arg12 arg13 x0 x1 x2 x3 x4 x5 x6) (ix3 a b ch) = P a b ch)
    (p : Fin 1024) (q : Fin (9 * 128)) (q' : Fin 2304) (hq : q'.val = q.val) :
    canon (kernelRun1_A.sl.HS2_27 (F := Ideal) c arg1 harg1 arg2 harg2 arg3 harg3 arg4 harg4 arg5 harg5 arg6 harg6 arg7 harg7 arg11 arg12 arg13 x0 x1 x2 x3 x4 x5 x6) (ix2 p q') = patch P p q := by
  unfold kernelRun1_A.sl.HS2_27 kernelRun1_A.sl.r_6
  rw [pay1_eq, pay33_eq, pay34_eq, pay36_eq, pay37_eq, pay38_eq, pay39_eq, pay40_eq, pay41_eq]
  refine gather9 (Val := Elt Ideal) (e := .f32) (M := 1024) (N := 2304) (C := 128) (by decide) (patch P)
    0 128 256 384 512 640 768 896 1024 _ _ _ _ _ _ _ _ _ _ _ _ _ _ _ _ _ _ rfl rfl rfl rfl rfl rfl rfl rfl rfl
    ?_ ?_ ?_ ?_ ?_ ?_ ?_ ?_ ?_ _ p q q' hq
  · intro p cc q hq
    exact tap128 arg12.view _ P hP 0 0 (by decide) (by decide) _ 0 rfl p cc q hq
  · intro p cc q hq
    exact tap128 arg12.view _ P hP 0 1 (by decide) (by decide) _ 1 rfl p cc q hq
  · intro p cc q hq
    exact tap128 arg12.view _ P hP 0 2 (by decide) (by decide) _ 2 rfl p cc q hq
  · intro p cc q hq
    exact tap128 arg12.view _ P hP 1 0 (by decide) (by decide) _ 3 rfl p cc q hq
  · intro p cc q hq
    exact tap128 arg12.view _ P hP 1 1 (by decide) (by decide) _ 4 rfl p cc q hq
  · intro p cc q hq
    exact tap128 arg12.view _ P hP 1 2 (by decide) (by decide) _ 5 rfl p cc q hq
  · intro p cc q hq
    exact tap128 arg12.view _ P hP 2 0 (by decide) (by decide) _ 6 rfl p cc q hq
  · intro p cc q hq
    exact tap128 arg12.view _ P hP 2 1 (by decide) (by decide) _ 7 rfl p cc q hq
  · intro p cc q hq
    exact tap128 arg12.view _ P hP 2 2 (by decide) (by decide) _ 8 rfl p cc q hq

/-- The first convolution read back from its scratch copy. -/
theorem ykept_apply (p : Fin 1024) (o : Fin 128) :
    kernelRun1_A.sl.v215 (F := Ideal) c arg1 harg1 arg2 harg2 arg3 harg3 arg4 harg4 arg11 arg13 arg14 x0 x1 x2 x3 (ix2 p o)
      = Spec.yR (imU x0) (imU x1) (mat2304 x2) (row128 x3) (rowOf p) (colOf p) o := by
  unfold kernelRun1_A.sl.v215 kernelRun1_A.sl.HS3_1
  refine (readCov_cols arg14.view _ 0 128 _ p o o (by omega)).trans ?_
  refine (cons_col_in 0 128 _ _ _ p o o (by omega)).trans ?_
  rw [pay18_eq]
  exact y_apply c arg1 harg1 arg2 harg2 arg3 harg3 arg4 harg4 arg11 arg13 x0 x1 x2 x3 p o

/-- The payload of the store into the output block, at pixel (i, j), channel o: the reference's arrangement. -/
theorem out_apply (i j : Fin 32) (o : Fin 128) :
    k1_pay2 (F := Ideal) (kernelRun1_A.sl.v207 (F := Ideal) c arg1 harg1 arg2 harg2 arg3 harg3 arg4 harg4 arg5 harg5 arg6 harg6 arg7 harg7 arg11 arg12 arg13 x0 x1 x2 x3 x4 x5 x6)
        (View.readAt (Elt Ideal) arg8.view (Rect.unit ![0, 0] S1152x128.size inb_S1152x128_S1152x128_0_0).toLoadRect (harg8.unread x7))
        (View.readAt (Elt Ideal) arg9.view (Rect.unit ![0, 0] S1x128.size inb_S1x128_S1x128_0_0).toLoadRect (harg9.unread x8))
        (kernelRun1_A.sl.v215 (F := Ideal) c arg1 harg1 arg2 harg2 arg3 harg3 arg4 harg4 arg11 arg13 arg14 x0 x1 x2 x3) (ix4 0 i j o)
      = (Spec.outR (imU x0) (imU x1) (mat2304 x2) (row128 x3) (row128 x4) (mat1152 x5) (row128 x6) (mat1152 x7) (row128 x8)) i j o := by
  rw [readAt_whole arg8 harg8 x7 _ z2, readAt_whole arg9 harg9 x8 _ z2]
  refine (pay2_apply _ x7 x8 _ i j o).trans ?_
  unfold Spec.outR
  refine congrArg₂ (· + ·) ?_ ((ykept_apply c arg1 harg1 arg2 harg2 arg3 harg3 arg4 harg4 arg11 arg13 arg14 x0 x1 x2 x3 (pos i j) o).trans (by rw [rowOf_pos, colOf_pos]))
  refine (conv_of_patch (C := 128) (Spec.pad (Spec.hR (imU x0) (imU x1) (mat2304 x2) (row128 x3) (row128 x4) (mat1152 x5) (row128 x6))) (mat1152 x7) (row128 x8) _ (pos i j) o (fun q => ?_)).trans (by
    rw [rowOf_pos, colOf_pos])
  unfold kernelRun1_A.sl.v207
  refine (readCov_cols arg13.view _ 0 1152 _ _ ⟨q.val, by have := q.isLt; omega⟩ q (by show q.val = 0 + q.val; omega)).trans ?_
  exact patch3_canon c arg1 harg1 arg2 harg2 arg3 harg3 arg4 harg4 arg5 harg5 arg6 harg6 arg7 harg7 arg11 arg12 arg13 x0 x1 x2 x3 x4 x5 x6 _ (h_canon c arg1 harg1 arg2 harg2 arg3 harg3 arg4 harg4 arg5 harg5 arg6 harg6 arg7 harg7 arg11 arg12 arg13 x0 x1 x2 x3 x4 x5 x6) _ q _ rfl

end

end Cert.ReferenceIdeal.Value.Blk

end
-- ==== Proof.RefIface.lean ====
/-
  The reference side's interfaces, as statements.

  `BlockStmt`: what one run of the reference's second kernel leaves in its output block is the reference's arrangement
  (`Spec.rBlock`) of its nine input blocks (the up image, the bridge image, the packed weights and biases, the shift).
  `result`: the whole result array the run of @main should end with, as a function of the twelve argument arrays at launch
  (`Spec.refOut`).
-/
import proofs.«131778_g2000005761611187_pallasbulk_1314_2_alg».proof.Proof.Gen.ReferenceIdeal.Frame
import proofs.«131778_g2000005761611187_pallasbulk_1314_2_alg».proof.Proof.Spec
import Idealize.ShloMosaic.Lib.ValueIdx

noncomputable section

namespace Cert.ReferenceIdeal.Iface

open Cert.ReferenceIdeal Cert.ReferenceIdeal.Gen
open Idealize.ShloMosaic Idealize.ShloMosaic.TcCoe Idealize.ShloMosaic.ValueIdx Idealize.SL.Sem

/-- The second kernel's output block, entry by entry, is the reference's arrangement of its input blocks. -/
def BlockStmt : Prop :=
  ∀ (c : Dev nD) (i : grid1.Coords) (arg1 : Memref sig .tc .vmem S1x32x32x128 .f32) (harg1 : arg1.IsWhole) (arg2 : Memref sig .tc .vmem S1x32x32x128 .f32) (harg2 : arg2.IsWhole) (arg3 : Memref sig .tc .vmem S2304x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1152x128 .f32) (harg6 : arg6.IsWhole) (arg7 : Memref sig .tc .vmem S1x128 .f32) (harg7 : arg7.IsWhole) (arg8 : Memref sig .tc .vmem S1152x128 .f32) (harg8 : arg8.IsWhole) (arg9 : Memref sig .tc .vmem S1x128 .f32) (harg9 : arg9.IsWhole) (arg10 : Memref sig .tc .vmem S1x32x32x128 .f32) (harg10 : arg10.IsWhole) (arg11 : Memref sig .tc .vmem S34x34x256 .f32) (harg11 : arg11.IsWhole) (arg12 : Memref sig .tc .vmem S34x34x128 .f32) (harg12 : arg12.IsWhole) (arg13 : Memref sig .tc .vmem S1024x2304 .f32) (harg13 : arg13.IsWhole) (arg14 : Memref sig .tc .vmem S1024x128 .f32) (harg14 : arg14.IsWhole)
    (x0 : Vec Ideal S1x32x32x128 .f32) (x1 : Vec Ideal S1x32x32x128 .f32) (x2 : Vec Ideal S2304x128 .f32) (x3 : Vec Ideal S1x128 .f32) (x4 : Vec Ideal S1x128 .f32) (x5 : Vec Ideal S1152x128 .f32) (x6 : Vec Ideal S1x128 .f32) (x7 : Vec Ideal S1152x128 .f32) (x8 : Vec Ideal S1x128 .f32),
    Cert.ReferenceIdeal.Gen.out1_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8
      = fun y => Cert.Spec.rBlock (fun a b ch => x0 (ix4 0 a b ch)) (fun a b ch => x1 (ix4 0 a b ch)) (fun q o => x2 (ix2 q o))
          (fun o => x3 (ix2 0 o)) (fun o => x4 (ix2 0 o)) (fun q o => x5 (ix2 q o)) (fun o => x6 (ix2 0 o))
          (fun q o => x7 (ix2 q o)) (fun o => x8 (ix2 0 o)) (y 1) (y 2) (y 3)

variable (m : (ℓ : Loc nD τ sig) → Buf (Elt Ideal) ℓ) (c : Dev nD)

/-- The twelve argument arrays on core `c` as plain functions of their coordinates. -/
def A0 : Fin 24 → Fin 16 → Fin 16 → Fin 256 → Cert.Spec.E := fun n a b ci => m ((c.tc : Thread nD τ).loc main_arg0) (ix4 n a b ci)
def A1 : Fin 24 → Fin 32 → Fin 32 → Fin 128 → Cert.Spec.E := fun n a b ch => m ((c.tc : Thread nD τ).loc main_arg1) (ix4 n a b ch)
def A2 : Fin 4 → Fin 256 → Fin 128 → Cert.Spec.E := fun k ci ch => m ((c.tc : Thread nD τ).loc main_arg2) (ix3 k ci ch)
def A3 : Fin 128 → Cert.Spec.E := fun o => m ((c.tc : Thread nD τ).loc main_arg3) (ix1 o)
def A4 : Fin 9 → Fin 256 → Fin 128 → Cert.Spec.E := fun k ch o => m ((c.tc : Thread nD τ).loc main_arg4) (ix3 k ch o)
def A5 : Fin 128 → Cert.Spec.E := fun o => m ((c.tc : Thread nD τ).loc main_arg5) (ix1 o)
def A6 : Fin 128 → Cert.Spec.E := fun o => m ((c.tc : Thread nD τ).loc main_arg6) (ix1 o)
def A7 : Fin 128 → Cert.Spec.E := fun o => m ((c.tc : Thread nD τ).loc main_arg7) (ix1 o)
def A8 : Fin 9 → Fin 128 → Fin 128 → Cert.Spec.E := fun k ch o => m ((c.tc : Thread nD τ).loc main_arg8) (ix3 k ch o)
def A9 : Fin 128 → Cert.Spec.E := fun o => m ((c.tc : Thread nD τ).loc main_arg9) (ix1 o)
def A10 : Fin 9 → Fin 128 → Fin 128 → Cert.Spec.E := fun k ch o => m ((c.tc : Thread nD τ).loc main_arg10) (ix3 k ch o)
def A11 : Fin 128 → Cert.Spec.E := fun o => m ((c.tc : Thread nD τ).loc main_arg11) (ix1 o)

/-- The result array the reference's run ends with. -/
def result : Buf (Elt Ideal) ((c.tc : Thread nD τ).loc main_v19) :=
  fun idx => Cert.Spec.refOut (A0 m c) (A1 m c) (A2 m c) (A3 m c) (A4 m c) (A5 m c) (A6 m c) (A7 m c) (A8 m c) (A9 m c) (A10 m c) (A11 m c) (idx 0) (idx 1) (idx 2) (idx 3)

/-- What the SECOND region finds in the arrays its windows stage — after the host's packing, the first region and the host's
    reshape of its result: the up image of every batch entry, the bridge as launched, and the packed parameters. -/
structure ArraysStmt (ρ : Dev nD → PrngReg) : Prop where
  up  : Cert.ReferenceIdeal.Gen.V3 (F := Ideal) m ρ c main_v18
          = fun idx => Cert.Spec.up (A0 m c (idx 0)) (Cert.Spec.wupP (A2 m c)) (Cert.Spec.bupP (A3 m c)) (idx 1) (idx 2) (idx 3)
  br  : Cert.ReferenceIdeal.Gen.V3 (F := Ideal) m ρ c main_arg1 = m ((c.tc : Thread nD τ).loc main_arg1)
  wuc : Cert.ReferenceIdeal.Gen.V3 (F := Ideal) m ρ c main_v6 = fun idx => Cert.Spec.stackP (A4 m c) (idx 0) (idx 1)
  buc : Cert.ReferenceIdeal.Gen.V3 (F := Ideal) m ρ c main_v7 = fun idx => A5 m c (idx 1)
  lns : Cert.ReferenceIdeal.Gen.V3 (F := Ideal) m ρ c main_v13 = fun idx => Cert.Spec.lnsP (A7 m c) (A6 m c) (idx 1)
  w1  : Cert.ReferenceIdeal.Gen.V3 (F := Ideal) m ρ c main_v11 = fun idx => Cert.Spec.w1gP (A8 m c) (A6 m c) (idx 0) (idx 1)
  b1  : Cert.ReferenceIdeal.Gen.V3 (F := Ideal) m ρ c main_v14 = fun idx => A9 m c (idx 1)
  w2  : Cert.ReferenceIdeal.Gen.V3 (F := Ideal) m ρ c main_v15 = fun idx => Cert.Spec.stackP (A10 m c) (idx 0) (idx 1)
  b2  : Cert.ReferenceIdeal.Gen.V3 (F := Ideal) m ρ c main_v16 = fun idx => A11 m c (idx 1)

end Cert.ReferenceIdeal.Iface

end
-- ==== Proof.RefBlock.lean ====
/-
  What one run of the reference's second kernel leaves in its output block.

  The block is written by one store; its payload is the third convolution of the padded rectified image plus the first
  convolution, where the rectified image is the second convolution (with the folded weights) of the padded normalised
  image, and the normalised image is the first convolution's rows normalised over the channels plus the shift row. Entry
  by entry that is `Spec.rBlock` of the nine input blocks: the stages are RefBlockConv1 (the padded concatenation and the
  first convolution), RefBlockNorm, RefBlockConv2, RefBlockConv3.
-/
import proofs.«131778_g2000005761611187_pallasbulk_1314_2_alg».proof.Proof.RefBlockConv3
import proofs.«131778_g2000005761611187_pallasbulk_1314_2_alg».proof.Proof.RefIface

noncomputable section

namespace Cert.ReferenceIdeal.Value

open Cert.ReferenceIdeal Cert.ReferenceIdeal.Gen
open Idealize.ShloMosaic Idealize.ShloMosaic.TcCoe Idealize.ShloMosaic.ValueIdx Idealize.ShloMosaic.View
open Cert.ReferenceIdeal.Value.Blk

theorem block : Cert.ReferenceIdeal.Iface.BlockStmt := by
  intro c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8
  unfold Gen.out1_A_9
  rw [View.read_writes_junk_eq_canon]
  unfold Gen.kernelRun1_A
  dsimp only
  funext y
  have h0 : y 0 = (0 : Fin 1) := Fin.ext (by
    have h1 : (y 0).val < 1 := (y 0).isLt
    show (y 0).val = 0
    omega)
  obtain ⟨i', j', o', rfl⟩ : ∃ (i' j' : Fin 32) (o' : Fin 128), y = ix4 0 i' j' o' :=
    ⟨y 1, y 2, y 3, by have e := eq_ix4 y; rw [h0] at e; exact e⟩
  refine (congrFun (View.canon_unit_zero (S := S1x32x32x128) z4 _ _) _).trans ?_
  exact out_apply c arg1 harg1 arg2 harg2 arg3 harg3 arg4 harg4 arg5 harg5 arg6 harg6 arg7 harg7 arg8 harg8 arg9 harg9 arg11 arg12 arg13 arg14 x0 x1 x2 x3 x4 x5 x6 x7 x8 i' j' o'

end Cert.ReferenceIdeal.Value

end
-- ==== Proof.RefArraysHost.lean ====
/-
  What the host's packing leaves in the parameter arrays, index by index, and that these arrays — and the bridge — reach
  the second region as the packing left them.

  Before its first kernel the reference reshapes each [9, C, 128] weight stack to [9 * C, 128] (row k * C + ch is tap k,
  channel ch), each 128-vector to a [1, 128] row, multiplies w1 by the scale broadcast along the input-channel axis before
  flattening it, divides the shift by the scale, transposes the transposed-convolution weights [4, 256, 128] to
  [256, 4, 128] and flattens them to [256, 512] (column k * 128 + c is tap k, channel c), and tiles the transposed-convolution
  bias four times into a [1, 512] row. A reshape keeps the row-major position, so each is read at an index by matching
  positions; the transpose and the broadcasts by matching coordinates.

  None of the parameter arrays is an array of the first kernel's windows, and the one host operation between the two
  kernels writes only the up image: each parameter array is, at the second kernel's entry, what the packing left.
-/
import proofs.«131778_g2000005761611187_pallasbulk_1314_2_alg».proof.Proof.RefIface
import Idealize.ShloMosaic.Lib.Pipeline.Value
import Idealize.ShloMosaic.Lib.ValueIdx

noncomputable section

namespace Cert.ReferenceIdeal.Value

open Cert.ReferenceIdeal Cert.ReferenceIdeal.Gen Cert.ReferenceIdeal.Iface
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## Reshapes, the transpose and the broadcasts of the packing, read at an index -/

/-- A [9, 256, 128] stack flattened to [2304, 128]: row `q` is tap `q / 256`, channel `q % 256`. -/
theorem flat256_apply (X : FVec Ideal S9x256x128 .f32) (q : Fin 2304) (o : Fin 128) :
    shapeCast S2304x128 X shapeCasts_S9x256x128_S2304x128 (ix2 q o)
      = X (ix3 ⟨q.val / 256, by have := q.isLt; omega⟩ ⟨q.val % 256, Nat.mod_lt _ (by decide)⟩ o) :=
  shapeCast_apply X _ (ix2 q o) _ (by
    rw [Shape.rowMajor_val_three, Shape.rowMajor_val_two]
    show ((q.val / 256) * 256 + q.val % 256) * 128 + o.val = q.val * 128 + o.val
    have := Nat.div_add_mod q.val 256
    omega)

/-- A [9, 128, 128] stack flattened to [1152, 128]: row `q` is tap `q / 128`, channel `q % 128`. -/
theorem flat128_apply (X : FVec Ideal S9x128x128 .f32) (q : Fin 1152) (o : Fin 128) :
    shapeCast S1152x128 X shapeCasts_S9x128x128_S1152x128 (ix2 q o)
      = X (ix3 ⟨q.val / 128, by have := q.isLt; omega⟩ ⟨q.val % 128, Nat.mod_lt _ (by decide)⟩ o) :=
  shapeCast_apply X _ (ix2 q o) _ (by
    rw [Shape.rowMajor_val_three, Shape.rowMajor_val_two]
    show ((q.val / 128) * 128 + q.val % 128) * 128 + o.val = q.val * 128 + o.val
    have := Nat.div_add_mod q.val 128
    omega)

/-- A vector of 128 entries as a [1, 128] row. -/
theorem row128_apply (X : FVec Ideal S128 .f32) (z : Fin 1) (o : Fin 128) :
    shapeCast S1x128 X shapeCasts_S128_S1x128 (ix2 z o) = X (ix1 o) :=
  shapeCast_apply X _ (ix2 z o) _ (by
    rw [Shape.rowMajor_val_one, Shape.rowMajor_val_two]
    show o.val = z.val * 128 + o.val
    have := z.isLt
    omega)

/-- The scale, one entry per input channel, broadcast over taps and output channels. -/
theorem scale_bcast_apply (g : FVec Ideal S128 .f32) (k : Fin 9) (ch o : Fin 128) :
    broadcastInDim S9x128x128 ![0, 1, 2] bcast_S1x128x1_S9x128x128_0_1_2
        (broadcastInDim S1x128x1 ![1] bcast_S128_S1x128x1_1 g) (ix3 k ch o) = g (ix1 ch) := by
  refine (broadcastInDim_apply _ _ _ (ix3 k ch o) (ix3 0 ch 0) (fun a => by
    match a with
    | ⟨0, _⟩ => rfl
    | ⟨1, _⟩ => rfl
    | ⟨2, _⟩ => rfl)).trans ?_
  exact broadcastInDim_apply _ _ g (ix3 0 ch 0) (ix1 ch) (fun a => by
    match a with
    | ⟨0, _⟩ => rfl)

/-- The transposed-convolution weights [4, 256, 128], transposed to [256, 4, 128] and flattened to [256, 512]:
    column `col` is tap `col / 128`, output channel `col % 128`. -/
theorem wpack_apply (X : FVec Ideal S4x256x128 .f32) (ci : Fin 256) (col : Fin 512) :
    shapeCast S256x512 (transpose S256x4x128 [1, 0, 2] X transposes_S4x256x128_S256x4x128_1_0_2)
        shapeCasts_S256x4x128_S256x512 (ix2 ci col)
      = X (ix3 ⟨col.val / 128, by have := col.isLt; omega⟩ ci ⟨col.val % 128, Nat.mod_lt _ (by decide)⟩) := by
  refine (shapeCast_apply _ _ (ix2 ci col)
    (ix3 ci ⟨col.val / 128, by have := col.isLt; omega⟩ ⟨col.val % 128, Nat.mod_lt _ (by decide)⟩) (by
    rw [Shape.rowMajor_val_three, Shape.rowMajor_val_two]
    show (ci.val * 4 + col.val / 128) * 128 + col.val % 128 = ci.val * 512 + col.val
    have := Nat.div_add_mod col.val 128
    omega)).trans ?_
  exact transpose_apply _ X _ _ _ (fun b => by
    match b with
    | ⟨0, _⟩ => rfl
    | ⟨1, _⟩ => rfl
    | ⟨2, _⟩ => rfl)

/-- The transposed-convolution bias tiled four times as a [1, 512] row: column `col` holds entry `col % 128`. -/
theorem bpack_apply (X : FVec Ideal S128 .f32) (z : Fin 1) (col : Fin 512) :
    shapeCast S1x512 (shapeCast S512 (broadcastInDim S4x128 ![0, 1] bcast_S1x128_S4x128_0_1
        (shapeCast S1x128 X shapeCasts_S128_S1x128)) shapeCasts_S4x128_S512) shapeCasts_S512_S1x512 (ix2 z col)
      = X (ix1 ⟨col.val % 128, Nat.mod_lt _ (by decide)⟩) := by
  refine (shapeCast_apply _ _ (ix2 z col) (ix1 col) (by
    rw [Shape.rowMajor_val_one, Shape.rowMajor_val_two]
    show col.val = z.val * 512 + col.val
    have := z.isLt
    omega)).trans ?_
  refine (shapeCast_apply _ _ (ix1 col)
    (ix2 ⟨col.val / 128, by have := col.isLt; omega⟩ ⟨col.val % 128, Nat.mod_lt _ (by decide)⟩) (by
    rw [Shape.rowMajor_val_one, Shape.rowMajor_val_two]
    show (col.val / 128) * 128 + col.val % 128 = col.val
    have := Nat.div_add_mod col.val 128
    omega)).trans ?_
  refine (broadcastInDim_apply _ _ _ _ (ix2 0 ⟨col.val % 128, Nat.mod_lt _ (by decide)⟩) (fun a => by
    match a with
    | ⟨0, _⟩ => rfl
    | ⟨1, _⟩ => rfl)).trans ?_
  exact row128_apply X 0 _

/-! ## What the packing leaves in each parameter array, and that neither the first region nor the reshape of its
    result touches it -/

theorem V3_main_v6 : Gen.V3 (F := Ideal) m ρ c main_v6
    = shapeCast S2304x128 (m ((c.tc : Thread nD τ).loc main_arg4)) shapeCasts_S9x256x128_S2304x128 := by
  show StableHlo.after hostOps1 (W2 m ρ c) (Proc.devRef .tc main_v6) = _
  after_results
  rw [W2_of_ne m ρ c main_v6 (by decide)]
  show StableHlo.after hostOps0 (W0 m ρ c) (Proc.devRef .tc main_v6) = _
  after_results
  rfl

theorem V3_main_v7 : Gen.V3 (F := Ideal) m ρ c main_v7
    = shapeCast S1x128 (m ((c.tc : Thread nD τ).loc main_arg5)) shapeCasts_S128_S1x128 := by
  show StableHlo.after hostOps1 (W2 m ρ c) (Proc.devRef .tc main_v7) = _
  after_results
  rw [W2_of_ne m ρ c main_v7 (by decide)]
  show StableHlo.after hostOps0 (W0 m ρ c) (Proc.devRef .tc main_v7) = _
  after_results
  rfl

theorem V3_main_v11 : Gen.V3 (F := Ideal) m ρ c main_v11
    = (shapeCast S1152x128 (mulf (F := Ideal) (s := S9x128x128) (φ := .f32) (m ((c.tc : Thread nD τ).loc main_arg8))
        (broadcastInDim S9x128x128 ![0, 1, 2] bcast_S1x128x1_S9x128x128_0_1_2
          (broadcastInDim S1x128x1 ![1] bcast_S128_S1x128x1_1
            (m ((c.tc : Thread nD τ).loc main_arg6) : FVec Ideal S128 .f32))))
        shapeCasts_S9x128x128_S1152x128 : FVec Ideal S1152x128 .f32) := by
  show StableHlo.after hostOps1 (W2 m ρ c) (Proc.devRef .tc main_v11) = _
  after_results
  rw [W2_of_ne m ρ c main_v11 (by decide)]
  show StableHlo.after hostOps0 (W0 m ρ c) (Proc.devRef .tc main_v11) = _
  after_results
  rfl

theorem V3_main_v13 : Gen.V3 (F := Ideal) m ρ c main_v13
    = (shapeCast S1x128 (Host.divf (F := Ideal) (s := S128) (φ := .f32) (m ((c.tc : Thread nD τ).loc main_arg7))
        (m ((c.tc : Thread nD τ).loc main_arg6))) shapeCasts_S128_S1x128 : FVec Ideal S1x128 .f32) := by
  show StableHlo.after hostOps1 (W2 m ρ c) (Proc.devRef .tc main_v13) = _
  after_results
  rw [W2_of_ne m ρ c main_v13 (by decide)]
  show StableHlo.after hostOps0 (W0 m ρ c) (Proc.devRef .tc main_v13) = _
  after_results
  rfl

theorem V3_main_v14 : Gen.V3 (F := Ideal) m ρ c main_v14
    = shapeCast S1x128 (m ((c.tc : Thread nD τ).loc main_arg9)) shapeCasts_S128_S1x128 := by
  show StableHlo.after hostOps1 (W2 m ρ c) (Proc.devRef .tc main_v14) = _
  after_results
  rw [W2_of_ne m ρ c main_v14 (by decide)]
  show StableHlo.after hostOps0 (W0 m ρ c) (Proc.devRef .tc main_v14) = _
  after_results
  rfl

theorem V3_main_v15 : Gen.V3 (F := Ideal) m ρ c main_v15
    = shapeCast S1152x128 (m ((c.tc : Thread nD τ).loc main_arg10)) shapeCasts_S9x128x128_S1152x128 := by
  show StableHlo.after hostOps1 (W2 m ρ c) (Proc.devRef .tc main_v15) = _
  after_results
  rw [W2_of_ne m ρ c main_v15 (by decide)]
  show StableHlo.after hostOps0 (W0 m ρ c) (Proc.devRef .tc main_v15) = _
  after_results
  rfl

theorem V3_main_v16 : Gen.V3 (F := Ideal) m ρ c main_v16
    = shapeCast S1x128 (m ((c.tc : Thread nD τ).loc main_arg11)) shapeCasts_S128_S1x128 := by
  show StableHlo.after hostOps1 (W2 m ρ c) (Proc.devRef .tc main_v16) = _
  after_results
  rw [W2_of_ne m ρ c main_v16 (by decide)]
  show StableHlo.after hostOps0 (W0 m ρ c) (Proc.devRef .tc main_v16) = _
  after_results
  rfl

/-- The bridge is an argument: no host operation writes it and the first region does not stage it. -/
theorem V3_main_arg1 : Gen.V3 (F := Ideal) m ρ c main_arg1 = m ((c.tc : Thread nD τ).loc main_arg1) := by
  show StableHlo.after hostOps1 (W2 m ρ c) (Proc.devRef .tc main_arg1) = _
  after_results
  rw [W2_of_ne m ρ c main_arg1 (by decide)]
  show StableHlo.after hostOps0 (W0 m ρ c) (Proc.devRef .tc main_arg1) = _
  after_results

/-! ## The eight packed parameters and the bridge, as the second region finds them -/

theorem wuc_eq : Gen.V3 (F := Ideal) m ρ c main_v6 = fun idx => Cert.Spec.stackP (A4 m c) (idx 0) (idx 1) := by
  rw [V3_main_v6]
  funext idx
  obtain ⟨q, o, rfl⟩ : ∃ (q : Fin 2304) (o : Fin 128), idx = ix2 q o := ⟨idx 0, idx 1, eq_ix2 idx⟩
  exact flat256_apply _ q o

theorem buc_eq : Gen.V3 (F := Ideal) m ρ c main_v7 = fun idx => A5 m c (idx 1) := by
  rw [V3_main_v7]
  funext idx
  obtain ⟨z, o, rfl⟩ : ∃ (z : Fin 1) (o : Fin 128), idx = ix2 z o := ⟨idx 0, idx 1, eq_ix2 idx⟩
  exact row128_apply _ z o

theorem lns_eq : Gen.V3 (F := Ideal) m ρ c main_v13 = fun idx => Cert.Spec.lnsP (A7 m c) (A6 m c) (idx 1) := by
  rw [V3_main_v13]
  funext idx
  obtain ⟨z, o, rfl⟩ : ∃ (z : Fin 1) (o : Fin 128), idx = ix2 z o := ⟨idx 0, idx 1, eq_ix2 idx⟩
  exact row128_apply _ z o

theorem w1_eq : Gen.V3 (F := Ideal) m ρ c main_v11 = fun idx => Cert.Spec.w1gP (A8 m c) (A6 m c) (idx 0) (idx 1) := by
  rw [V3_main_v11]
  funext idx
  obtain ⟨q, o, rfl⟩ : ∃ (q : Fin 1152) (o : Fin 128), idx = ix2 q o := ⟨idx 0, idx 1, eq_ix2 idx⟩
  refine (flat128_apply _ q o).trans ?_
  rw [mulf_apply, scale_bcast_apply]
  rfl

theorem b1_eq : Gen.V3 (F := Ideal) m ρ c main_v14 = fun idx => A9 m c (idx 1) := by
  rw [V3_main_v14]
  funext idx
  obtain ⟨z, o, rfl⟩ : ∃ (z : Fin 1) (o : Fin 128), idx = ix2 z o := ⟨idx 0, idx 1, eq_ix2 idx⟩
  exact row128_apply _ z o

theorem w2_eq : Gen.V3 (F := Ideal) m ρ c main_v15 = fun idx => Cert.Spec.stackP (A10 m c) (idx 0) (idx 1) := by
  rw [V3_main_v15]
  funext idx
  obtain ⟨q, o, rfl⟩ : ∃ (q : Fin 1152) (o : Fin 128), idx = ix2 q o := ⟨idx 0, idx 1, eq_ix2 idx⟩
  exact flat128_apply _ q o

theorem b2_eq : Gen.V3 (F := Ideal) m ρ c main_v16 = fun idx => A11 m c (idx 1) := by
  rw [V3_main_v16]
  funext idx
  obtain ⟨z, o, rfl⟩ : ∃ (z : Fin 1) (o : Fin 128), idx = ix2 z o := ⟨idx 0, idx 1, eq_ix2 idx⟩
  exact row128_apply _ z o

end Cert.ReferenceIdeal.Value

end
-- ==== Proof.RefArraysUpBody.lean ====
/-
  What the reference's first kernel — the 2x2 stride-2 transposed convolution — leaves in its output block, entry by entry.

  The body reads its input block [1, 16, 16, 256] as a [256, 256] matrix (row a * 16 + b is pixel (a, b), columns are input
  channels), multiplies it by the packed weights [256, 512] into a zero accumulator and adds the bias row broadcast down the
  rows. It then stores the left half of the columns (0 .. 255) as the slice di = 0 of the output block [1, 16, 2, 16, 256]
  and the right half (256 .. 511) as the slice di = 1, each half reshaped [256, 256] -> [16, 16, 256]. The two stores tile
  the block, so its entry (a, di, b, col) is row a * 16 + b, column di * 256 + col of the product plus that column's bias:
      sum over ci of x[a, b, ci] * w[ci, di * 256 + col]  +  bias[di * 256 + col].
-/
import proofs.«131778_g2000005761611187_pallasbulk_1314_2_alg».proof.Proof.Gen.ReferenceIdeal.Frame
import proofs.«131778_g2000005761611187_pallasbulk_1314_2_alg».proof.Proof.LibPlainMatmul
import Idealize.ShloMosaic.Lib.Pipeline.Value
import Idealize.ShloMosaic.Lib.ValueIdx

noncomputable section

namespace Cert.ReferenceIdeal.Value

open Cert.ReferenceIdeal Cert.ReferenceIdeal.Gen
open Idealize.ShloMosaic Idealize.ShloMosaic.TcCoe Idealize.ShloMosaic.ValueIdx Idealize.SL.Sem
open scoped BigOperators

/-- Position `p` of the flattened 16 x 16 input image is row `p / 16`, column `p % 16`. -/
abbrev rowOf (p : Fin 256) : Fin 16 := ⟨p.val / 16, by have := p.isLt; omega⟩
abbrev colOf (p : Fin 256) : Fin 16 := ⟨p.val % 16, Nat.mod_lt _ (by decide)⟩

/-- The input block as a [256, 256] matrix (positions by channels) times the packed weights into a zero accumulator,
    at (p, q): the sum over input channels. -/
theorem mm_apply (v0 : FVec Ideal S1x16x16x256 .f32) (v3 : FVec Ideal S256x512 .f32) (p : Fin 256) (q : Fin 512) :
    matmul dot_S256x256_S256x512_S256x512_1_0_0_1_n_n none
        (shapeCast S256x256 (shapeCast S16x16x256 v0 shapeCasts_S1x16x16x256_S16x16x256) shapeCasts_S16x16x256_S256x256)
        (shapeCast S256x512 v3 shapeCasts_S256x512_S256x512) (constant S256x512 .f32 0x00000000#32) (ix2 p q)
      = ∑ ci : Fin 256, v0 (ix4 0 (rowOf p) (colOf p) ci) * v3 (ix2 ci q) := by
  refine (PlainMatmul.matmul_plain_apply (M := 256) (K := 256) (N := 512) dot_S256x256_S256x512_S256x512_1_0_0_1_n_n
    rfl rfl rfl rfl rfl rfl none _ _ p q).trans ?_
  refine Finset.sum_congr rfl fun ci _ => ?_
  rw [shapeCast_self]
  refine congrArg (· * v3 (ix2 ci q)) ?_
  refine (shapeCast_apply _ _ (ix2 p ci) (ix3 (rowOf p) (colOf p) ci) (by
    rw [Shape.rowMajor_val_three, Shape.rowMajor_val_two]
    show ((p.val / 16) * 16 + p.val % 16) * 256 + ci.val = p.val * 256 + ci.val
    have := Nat.div_add_mod p.val 16
    omega)).trans ?_
  exact shapeCast_apply v0 _ (ix3 (rowOf p) (colOf p) ci) (ix4 0 (rowOf p) (colOf p) ci) (by
    rw [Shape.rowMajor_val_four, Shape.rowMajor_val_three]
    show ((0 * 16 + p.val / 16) * 16 + p.val % 16) * 256 + ci.val = ((p.val / 16) * 16 + p.val % 16) * 256 + ci.val
    omega)

/-- The bias row broadcast down the 256 positions, at (p, q): the row's entry q. -/
theorem biasrow_apply (v6 : FVec Ideal S1x512 .f32) (p : Fin 256) (q : Fin 512) :
    broadcastTo S256x512 (shapeCast S1x512 v6 shapeCasts_S1x512_S1x512) broadcasts_S1x512_S256x512 (ix2 p q)
      = v6 (ix2 0 q) := by
  rw [shapeCast_self]
  exact broadcastTo_apply v6 _ (ix2 p q) (ix2 0 q) (fun a => by
    match a with
    | ⟨0, _⟩ => rfl
    | ⟨1, _⟩ => rfl)

/-- The product plus the bias, at (p, q). -/
theorem pay1_apply (v0 : Vec Ideal S1x16x16x256 .f32) (v3 : Vec Ideal S256x512 .f32) (v6 : Vec Ideal S1x512 .f32)
    (p : Fin 256) (q : Fin 512) :
    k0_pay1 (F := Ideal) v0 v3 v6 (ix2 p q)
      = (∑ ci : Fin 256, v0 (ix4 0 (rowOf p) (colOf p) ci) * v3 (ix2 ci q)) + v6 (ix2 0 q) := by
  unfold k0_pay1
  show matmul (F := Ideal) dot_S256x256_S256x512_S256x512_1_0_0_1_n_n none
        (shapeCast S256x256 (shapeCast S16x16x256 v0 shapeCasts_S1x16x16x256_S16x16x256) shapeCasts_S16x16x256_S256x256)
        (shapeCast S256x512 v3 shapeCasts_S256x512_S256x512) (constant (F := Ideal) S256x512 .f32 0x00000000#32) (ix2 p q)
      + broadcastTo S256x512 (shapeCast S1x512 v6 shapeCasts_S1x512_S1x512) broadcasts_S1x512_S256x512 (ix2 p q) = _
  rw [mm_apply, biasrow_apply]

/-- The left column half, laid out as [1, 16, 1, 16, 256]: entry (a, b, col) is row a * 16 + b, column col. -/
theorem pay2_apply (v0 : Vec Ideal S1x16x16x256 .f32) (v3 : Vec Ideal S256x512 .f32) (v6 : Vec Ideal S1x512 .f32)
    (z : Fin 1) (a : Fin 16) (zz : Fin 1) (b : Fin 16) (col : Fin 256) :
    k0_pay2 (F := Ideal) v0 v3 v6 (ix5 z a zz b col)
      = k0_pay1 (F := Ideal) v0 v3 v6 (ix2 ⟨a.val * 16 + b.val, by have := a.isLt; have := b.isLt; omega⟩
          ⟨col.val, by have := col.isLt; omega⟩) := by
  unfold k0_pay2
  refine (shapeCast_apply _ _ (ix5 z a zz b col) (ix3 a b col) (by
    rw [Shape.rowMajor_val_five, Shape.rowMajor_val_three]
    show (a.val * 16 + b.val) * 256 + col.val = ((((z.val * 16 + a.val) * 1 + zz.val) * 16 + b.val) * 256 + col.val)
    have := z.isLt; have := zz.isLt
    omega)).trans ?_
  refine (shapeCast_apply _ _ (ix3 a b col)
    (ix2 ⟨a.val * 16 + b.val, by have := a.isLt; have := b.isLt; omega⟩ col) (by
    rw [Shape.rowMajor_val_three, Shape.rowMajor_val_two]
    show (a.val * 16 + b.val) * 256 + col.val = (a.val * 16 + b.val) * 256 + col.val
    rfl)).trans ?_
  exact extractStridedSlice_apply _ _ _ _ _ (fun ax => by
    match ax with
    | ⟨0, _⟩ => show a.val * 16 + b.val = 0 + (a.val * 16 + b.val); omega
    | ⟨1, _⟩ => show col.val = 0 + col.val; omega)

/-- The right column half: entry (a, b, col) is row a * 16 + b, column 256 + col. -/
theorem pay3_apply (v0 : Vec Ideal S1x16x16x256 .f32) (v3 : Vec Ideal S256x512 .f32) (v6 : Vec Ideal S1x512 .f32)
    (z : Fin 1) (a : Fin 16) (zz : Fin 1) (b : Fin 16) (col : Fin 256) :
    k0_pay3 (F := Ideal) v0 v3 v6 (ix5 z a zz b col)
      = k0_pay1 (F := Ideal) v0 v3 v6 (ix2 ⟨a.val * 16 + b.val, by have := a.isLt; have := b.isLt; omega⟩
          ⟨256 + col.val, by have := col.isLt; omega⟩) := by
  unfold k0_pay3
  refine (shapeCast_apply _ _ (ix5 z a zz b col) (ix3 a b col) (by
    rw [Shape.rowMajor_val_five, Shape.rowMajor_val_three]
    show (a.val * 16 + b.val) * 256 + col.val = ((((z.val * 16 + a.val) * 1 + zz.val) * 16 + b.val) * 256 + col.val)
    have := z.isLt; have := zz.isLt
    omega)).trans ?_
  refine (shapeCast_apply _ _ (ix3 a b col)
    (ix2 ⟨a.val * 16 + b.val, by have := a.isLt; have := b.isLt; omega⟩ col) (by
    rw [Shape.rowMajor_val_three, Shape.rowMajor_val_two]
    show (a.val * 16 + b.val) * 256 + col.val = (a.val * 16 + b.val) * 256 + col.val
    rfl)).trans ?_
  exact extractStridedSlice_apply _ _ _ _ _ (fun ax => by
    match ax with
    | ⟨0, _⟩ => show a.val * 16 + b.val = 0 + (a.val * 16 + b.val); omega
    | ⟨1, _⟩ => show 256 + col.val = 256 + col.val; rfl)

theorem rowOf_mk (a b : Fin 16) (h : a.val * 16 + b.val < 256) : rowOf ⟨a.val * 16 + b.val, h⟩ = a :=
  Fin.ext (by show (a.val * 16 + b.val) / 16 = a.val; have := b.isLt; omega)
theorem colOf_mk (a b : Fin 16) (h : a.val * 16 + b.val < 256) : colOf ⟨a.val * 16 + b.val, h⟩ = b :=
  Fin.ext (by show (a.val * 16 + b.val) % 16 = b.val; have := b.isLt; omega)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- WHAT THE FIRST KERNEL'S BODY LEAVES in its output block [1, 16, 2, 16, 256], entry by entry: the two stores are the two
    column halves of the product-plus-bias, so entry (a, di, b, col) is row a * 16 + b, column di * 256 + col. -/
theorem out0_3_apply (x0 : Vec Ideal S1x16x16x256 .f32) (x1 : Vec Ideal S256x512 .f32) (x2 : Vec Ideal S1x512 .f32)
    (z : Fin 1) (a : Fin 16) (di : Fin 2) (b : Fin 16) (col : Fin 256) (q : Fin 512) (hq : q.val = di.val * 256 + col.val) :
    out0_3 (F := Ideal) x0 x1 x2 (ix5 z a di b col)
      = (∑ ci : Fin 256, x0 (ix4 0 a b ci) * x1 (ix2 ci q)) + x2 (ix2 0 q) := by
  unfold out0_3
  simp only [View.ld_unit_zero (S := S1x16x16x256) hz4, View.ld_unit_zero (S := S256x512) hz2,
    View.ld_unit_zero (S := S1x512) hz2]
  have hc0 : col.val < 512 := by have := col.isLt; omega
  have hc1 : 256 + col.val < 512 := by have := col.isLt; omega
  match di, hq with
  | ⟨0, hd⟩, hq =>
    have hq' : q = ⟨col.val, hc0⟩ := Fin.ext (by rw [hq]; show 0 * 256 + col.val = col.val; omega)
    subst hq'
    have hm : (ix5 z a (⟨0, hd⟩ : Fin 2) b col : S1x16x2x16x256.Idx) ∉ (r0_4).set := fun h =>
      Nat.not_succ_le_zero 0 (Rect.mem_set_unit.mp h (2 : Fin 5)).1
    refine (View.canon_cons_of_not_mem (Val := Elt Ideal)
      (⟨r0_4, k0_pay3 (F := Ideal) x0 x1 x2⟩ : View.Piece (Elt Ideal) S1x16x2x16x256 .f32)
      [(⟨r0_3, k0_pay2 (F := Ideal) x0 x1 x2⟩ : View.Piece (Elt Ideal) S1x16x2x16x256 .f32)] hm).trans ?_
    have e : (ix5 z a (⟨0, hd⟩ : Fin 2) b col : S1x16x2x16x256.Idx) = r0_3.emb (ix5 z a (0 : Fin 1) b col) :=
      funext fun ax => Fin.ext (by
        match ax with
        | ⟨0, _⟩ => show z.val = 0 + 1 * z.val; omega
        | ⟨1, _⟩ => show a.val = 0 + 1 * a.val; omega
        | ⟨2, _⟩ => show 0 = 0 + 1 * 0; rfl
        | ⟨3, _⟩ => show b.val = 0 + 1 * b.val; omega
        | ⟨4, _⟩ => show col.val = 0 + 1 * col.val; omega)
    rw [e, View.canon_cons_emb]
    rw [pay2_apply, pay1_apply, rowOf_mk, colOf_mk]
  | ⟨1, hd⟩, hq =>
    have hq' : q = ⟨256 + col.val, hc1⟩ := Fin.ext (by rw [hq]; show 1 * 256 + col.val = 256 + col.val; omega)
    subst hq'
    have e : (ix5 z a (⟨1, hd⟩ : Fin 2) b col : S1x16x2x16x256.Idx) = r0_4.emb (ix5 z a (0 : Fin 1) b col) :=
      funext fun ax => Fin.ext (by
        match ax with
        | ⟨0, _⟩ => show z.val = 0 + 1 * z.val; omega
        | ⟨1, _⟩ => show a.val = 0 + 1 * a.val; omega
        | ⟨2, _⟩ => show 1 = 1 + 1 * 0; rfl
        | ⟨3, _⟩ => show b.val = 0 + 1 * b.val; omega
        | ⟨4, _⟩ => show col.val = 0 + 1 * col.val; omega)
    rw [e, View.canon_cons_emb]
    rw [pay3_apply, pay1_apply, rowOf_mk, colOf_mk]

end Cert.ReferenceIdeal.Value

end
-- ==== Proof.RefArraysUpArr.lean ====
/-
  The first kernel's result array after its run over the grid of 24 points.

  Point t of the grid stages batch entry t of the input image (block [1, 16, 16, 256] at block index (t, 0, 0, 0)), the whole
  packed weights and the whole tiled bias, and writes back block (t, 0, 0, 0, 0) of the result [24, 16, 2, 16, 256]. What it
  writes is the body's output block of those input blocks, so batch entry t of the result is, entry by entry,
      result[t, a, di, b, col] = sum over ci of x[t, a, b, ci] * w[ci, di * 256 + col] + bias[di * 256 + col].
  The 24 blocks tile the result array (index i lies in the block of the point i's leading coordinate names), so the array
  ends as this one function of its index, whatever it held before.
-/
import proofs.«131778_g2000005761611187_pallasbulk_1314_2_alg».proof.Proof.RefArraysUpBody

noncomputable section

namespace Cert.ReferenceIdeal.Value

open Cert.ReferenceIdeal Cert.ReferenceIdeal.Gen
open Idealize.ShloMosaic Idealize.ShloMosaic.TcCoe Idealize.ShloMosaic.ValueIdx Idealize.SL.Sem
open Idealize.ShloMosaic.Pipeline (Dat)
open scoped BigOperators

/-- Entry (n, a, di, b, col) of the first kernel's result array, from the arrays its three input windows stage: the input
    image of batch entry n, the packed weights and the tiled bias. -/
def upAt (X : S24x16x16x256.Idx → EReal) (W : S256x512.Idx → EReal) (B : S1x512.Idx → EReal)
    (n : Fin 24) (a : Fin 16) (di : Fin 2) (b : Fin 16) (col : Fin 256) : EReal :=
  (∑ ci : Fin 256, X (ix4 n a b ci)
      * W (ix2 ci ⟨di.val * 256 + col.val, by have := di.isLt; have := col.isLt; omega⟩))
    + B (ix2 0 ⟨di.val * 256 + col.val, by have := di.isLt; have := col.isLt; omega⟩)

/-- The first kernel's result array [24, 16, 2, 16, 256] as one function of its index. -/
def upArr (X : S24x16x16x256.Idx → EReal) (W : S256x512.Idx → EReal) (B : S1x512.Idx → EReal) :
    S24x16x2x16x256.Idx → EReal := fun i => upAt X W B (i 0) (i 1) (i 2) (i 3) (i 4)

/-- One block of that array is what the body leaves from the three input blocks, when those blocks are batch entry `tn` of
    the input and the whole of the weights and of the bias. -/
theorem block_entry (x0 : Vec Ideal S1x16x16x256 .f32) (x1 : Vec Ideal S256x512 .f32) (x2 : Vec Ideal S1x512 .f32)
    (X : S24x16x16x256.Idx → EReal) (W : S256x512.Idx → EReal) (B : S1x512.Idx → EReal) (tn : Fin 24)
    (h0 : ∀ (a b : Fin 16) (ci : Fin 256), x0 (ix4 0 a b ci) = X (ix4 tn a b ci))
    (h1 : ∀ (ci : Fin 256) (q : Fin 512), x1 (ix2 ci q) = W (ix2 ci q))
    (h2 : ∀ q : Fin 512, x2 (ix2 0 q) = B (ix2 0 q))
    (y : S1x16x2x16x256.Idx) (i : S24x16x2x16x256.Idx) (hi : i = ix5 tn (y 1) (y 2) (y 3) (y 4)) :
    out0_3 (F := Ideal) x0 x1 x2 y = upArr X W B i := by
  subst hi
  obtain ⟨z, a, di, b, col, rfl⟩ : ∃ (z : Fin 1) (a : Fin 16) (di : Fin 2) (b : Fin 16) (col : Fin 256),
      y = ix5 z a di b col := ⟨y 0, y 1, y 2, y 3, y 4, eq_ix5 y⟩
  refine (out0_3_apply x0 x1 x2 z a di b col
    ⟨di.val * 256 + col.val, by have := di.isLt; have := col.isLt; omega⟩ rfl).trans ?_
  show _ = upAt X W B tn a di b col
  unfold upAt
  simp only [h0, h1, h2]

/-! ## The grid: point `t` stages batch entry `t` of the input and writes back batch entry `t` of the result -/

theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 5) = t.val ∧ win0_3.index t (1 : Fin 5) = 0 ∧ win0_3.index t (2 : Fin 5) = 0
    ∧ win0_3.index t (3 : Fin 5) = 0 ∧ win0_3.index t (4 : Fin 5) = 0 :=
  (by decide +kernel : ∀ t : Fin grid0.N, _)

/-- Every batch entry is some point's. -/
theorem idx_onto : ∀ q0 : Fin 24, ∃ t : Fin cfg0.N, win0_3.index t = ![q0.val, 0, 0, 0, 0] :=
  (by decide +kernel : ∀ q0 : Fin 24, ∃ t : Fin grid0.N, win0_3.index t = ![q0.val, 0, 0, 0, 0])

variable (V : (c : Dev nD) → (b : Ref sig .tc) → Buf (Elt Ideal) ((c : Thread nD τ).loc b))

/-- WHAT POINT `t` WRITES BACK is block `t` of `upArr` of the arrays as the region finds them. -/
theorem flushed3_eq (c : Dev nD) (t : Fin cfg0.N) :
    (dat0 V c).flushed 3 t
      = ((cfg0.win 3).blk t).view.read (Elt Ideal) (upArr (V c main_arg0) (V c main_v1) (V c main_v5)) := by
  show (cfg0.win 3).cut (grid0.coords t) ((dat0 V c).after 3 t) = _
  rw [after0_3]
  obtain ⟨e00, e01, e02, e03, e10, e11, e20, e21, e30, e31, e32, e33, e34⟩ := idx_facts t
  have ht : t.val < 24 := lt_of_lt_of_eq t.isLt N_0
  funext y
  refine block_entry (iblk0 V c 0 t) (iblk0 V c 1 t) (iblk0 V c 2 t) (V c main_arg0) (V c main_v1) (V c main_v5)
    ⟨t.val, ht⟩ ?_ ?_ ?_ y (((cfg0.win 3).blk t).view.emb y) ?_
  · intro a b ci
    show V c main_arg0 (((cfg0.win 0).blk t).view.emb (ix4 0 a b ci)) = V c main_arg0 (ix4 ⟨t.val, ht⟩ a b ci)
    refine congrArg _ (funext fun ax => Fin.ext ?_)
    match ax with
    | ⟨0, _⟩ => show win0_0.index t (0 : Fin 4) * 1 + 1 * 0 = t.val; omega
    | ⟨1, _⟩ => show win0_0.index t (1 : Fin 4) * 16 + 1 * a.val = a.val; omega
    | ⟨2, _⟩ => show win0_0.index t (2 : Fin 4) * 16 + 1 * b.val = b.val; omega
    | ⟨3, _⟩ => show win0_0.index t (3 : Fin 4) * 256 + 1 * ci.val = ci.val; omega
  · intro ci q
    show V c main_v1 (((cfg0.win 1).blk t).view.emb (ix2 ci q)) = V c main_v1 (ix2 ci q)
    refine congrArg _ (funext fun ax => Fin.ext ?_)
    match ax with
    | ⟨0, _⟩ => show win0_1.index t (0 : Fin 2) * 256 + 1 * ci.val = ci.val; omega
    | ⟨1, _⟩ => show win0_1.index t (1 : Fin 2) * 512 + 1 * q.val = q.val; omega
  · intro q
    show V c main_v5 (((cfg0.win 2).blk t).view.emb (ix2 0 q)) = V c main_v5 (ix2 0 q)
    refine congrArg _ (funext fun ax => Fin.ext ?_)
    match ax with
    | ⟨0, _⟩ => show win0_2.index t (0 : Fin 2) * 1 + 1 * 0 = 0; omega
    | ⟨1, _⟩ => show win0_2.index t (1 : Fin 2) * 512 + 1 * q.val = q.val; omega
  · refine funext fun ax => Fin.ext ?_
    match ax with
    | ⟨0, _⟩ => show win0_3.index t (0 : Fin 5) * 1 + 1 * (y 0).val = t.val; have hy0 : (y 0).val < 1 := (y 0).isLt; omega
    | ⟨1, _⟩ => show win0_3.index t (1 : Fin 5) * 16 + 1 * (y 1).val = (y 1).val; omega
    | ⟨2, _⟩ => show win0_3.index t (2 : Fin 5) * 2 + 1 * (y 2).val = (y 2).val; omega
    | ⟨3, _⟩ => show win0_3.index t (3 : Fin 5) * 16 + 1 * (y 3).val = (y 3).val; omega
    | ⟨4, _⟩ => show win0_3.index t (4 : Fin 5) * 256 + 1 * (y 4).val = (y 4).val; omega

/-- An index of the result array is in point `t`'s block iff each coordinate is in the block's range on its axis. -/
theorem mem_blk3 (t : Fin cfg0.N) (i : S24x16x2x16x256.Idx) :
    i ∈ ((cfg0.win 3).blk t).view.set ↔ ∀ a : Fin 5, win0_3.index t a * S1x16x2x16x256.size a ≤ (i a).val
      ∧ (i a).val < win0_3.index t a * S1x16x2x16x256.size a + S1x16x2x16x256.size a := by
  show i ∈ ((View.whole main_v17).slice (win0_3.rect t)).set ↔ _
  rw [View.set_slice_whole, Rect.mem_set_unit]
  exact Iff.rfl

/-- The blocks tile the result array: index i lies in the block of the point whose batch entry is i's. -/
theorem cover3 (i : S24x16x2x16x256.Idx) :
    ∃ t : Fin cfg0.N, (cfg0.win 3).flush t = true ∧ i ∈ ((cfg0.win 3).blk t).view.set := by
  have hi0 : (i 0).val < 24 := (i 0).isLt
  have hi1 : (i 1).val < 16 := (i 1).isLt
  have hi2 : (i 2).val < 2 := (i 2).isLt
  have hi3 : (i 3).val < 16 := (i 3).isLt
  have hi4 : (i 4).val < 256 := (i 4).isLt
  obtain ⟨t, ht⟩ := idx_onto ⟨(i 0).val, hi0⟩
  have q0 : win0_3.index t (0 : Fin 5) = (i 0).val := congrFun ht 0
  have q1 : win0_3.index t (1 : Fin 5) = 0 := congrFun ht 1
  have q2 : win0_3.index t (2 : Fin 5) = 0 := congrFun ht 2
  have q3 : win0_3.index t (3 : Fin 5) = 0 := congrFun ht 3
  have q4 : win0_3.index t (4 : Fin 5) = 0 := congrFun ht 4
  refine ⟨t, flush0_3 t, ?_⟩
  rw [mem_blk3]
  intro a
  match a with
  | ⟨0, _⟩ => show win0_3.index t (0 : Fin 5) * 1 ≤ (i 0).val ∧ (i 0).val < win0_3.index t (0 : Fin 5) * 1 + 1; omega
  | ⟨1, _⟩ => show win0_3.index t (1 : Fin 5) * 16 ≤ (i 1).val ∧ (i 1).val < win0_3.index t (1 : Fin 5) * 16 + 16; omega
  | ⟨2, _⟩ => show win0_3.index t (2 : Fin 5) * 2 ≤ (i 2).val ∧ (i 2).val < win0_3.index t (2 : Fin 5) * 2 + 2; omega
  | ⟨3, _⟩ => show win0_3.index t (3 : Fin 5) * 16 ≤ (i 3).val ∧ (i 3).val < win0_3.index t (3 : Fin 5) * 16 + 16; omega
  | ⟨4, _⟩ => show win0_3.index t (4 : Fin 5) * 256 ≤ (i 4).val ∧ (i 4).val < win0_3.index t (4 : Fin 5) * 256 + 256; omega

/-- THE RESULT ARRAY after the first region: `upArr` of the arrays as the region finds them. -/
theorem final3 (c : Dev nD) :
    (dat0 V c).arrAt 3 cfg0.N = upArr (V c main_arg0) (V c main_v1) (V c main_v5) :=
  (dat0 V c).arrAt_eq_of_cover 3 _ (fun t _ => flushed3_eq V c t) cover3

end Cert.ReferenceIdeal.Value

end
-- ==== Proof.RefArrays.lean ====
/-
  What the reference's second kernel finds in the arrays it stages, as functions of the twelve arguments.

  The up image: the first kernel's result [24, 16, 2, 16, 256] holds at (n, a, di, b, col) the transposed convolution's
  product-plus-bias at input pixel (a, b), column di * 256 + col of the packed weights; the host reshapes it to
  [24, 32, 32, 128]. A reshape keeps row-major positions, and (n, I, J, ch) has the position of
  (n, I / 2, I % 2, J / 2, (J % 2) * 128 + ch): so pixel (I, J), channel ch of batch entry n is row (I / 2) * 16 + J / 2 of
  x[n] times column (I % 2) * 256 + (J % 2) * 128 + ch of the packed weights, plus that column's bias — the pixel-shuffled
  transposed convolution. The packed weights' column k * 128 + c is tap k, channel c of the argument; the tiled bias'
  column col is entry col % 128 of the argument.

  The bridge is an argument no one writes. The other seven arrays are the packed parameters, which neither the first kernel
  nor the reshape of its result touches.
-/
import proofs.«131778_g2000005761611187_pallasbulk_1314_2_alg».proof.Proof.RefArraysHost
import proofs.«131778_g2000005761611187_pallasbulk_1314_2_alg».proof.Proof.RefArraysUpArr

noncomputable section

namespace Cert.ReferenceIdeal.Value

open Cert.ReferenceIdeal Cert.ReferenceIdeal.Gen Cert.ReferenceIdeal.Iface
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg) (c : Dev nD)

/-! ## The arrays the first region's windows stage, as the packing leaves them -/

theorem V1_main_arg0 : Gen.V1 (F := Ideal) m ρ c main_arg0 = m ((c.tc : Thread nD τ).loc main_arg0) := by
  show StableHlo.after hostOps0 (W0 m ρ c) (Proc.devRef .tc main_arg0) = _
  after_results

theorem V1_main_v1 : Gen.V1 (F := Ideal) m ρ c main_v1
    = (shapeCast S256x512 (transpose S256x4x128 [1, 0, 2]
        (m ((c.tc : Thread nD τ).loc main_arg2) : FVec Ideal S4x256x128 .f32) transposes_S4x256x128_S256x4x128_1_0_2)
        shapeCasts_S256x4x128_S256x512 : FVec Ideal S256x512 .f32) := by
  show StableHlo.after hostOps0 (W0 m ρ c) (Proc.devRef .tc main_v1) = _
  after_results
  rfl

theorem V1_main_v5 : Gen.V1 (F := Ideal) m ρ c main_v5
    = (shapeCast S1x512 (shapeCast S512 (broadcastInDim S4x128 ![0, 1] bcast_S1x128_S4x128_0_1
        (shapeCast S1x128 (m ((c.tc : Thread nD τ).loc main_arg3) : FVec Ideal S128 .f32) shapeCasts_S128_S1x128))
        shapeCasts_S4x128_S512) shapeCasts_S512_S1x512 : FVec Ideal S1x512 .f32) := by
  show StableHlo.after hostOps0 (W0 m ρ c) (Proc.devRef .tc main_v5) = _
  after_results
  rfl

/-- An entry of the first kernel's result array in terms of the arguments: the input image, the transposed-convolution
    weights packed column-wise by (tap, channel), and its bias tiled over the taps. -/
theorem up_entry (n : Fin 24) (a : Fin 16) (di : Fin 2) (b : Fin 16) (col : Fin 256) (q : Fin 512)
    (hq : q.val = di.val * 256 + col.val) :
    upAt (Gen.V1 (F := Ideal) m ρ c main_arg0) (Gen.V1 (F := Ideal) m ρ c main_v1) (Gen.V1 (F := Ideal) m ρ c main_v5) n a di b col
      = (∑ ci : Fin 256, A0 m c n a b ci * Cert.Spec.wupP (A2 m c) ci q) + Cert.Spec.bupP (A3 m c) q := by
  have hb : di.val * 256 + col.val < 512 := by clear hq; have := di.isLt; have := col.isLt; omega
  obtain rfl : q = ⟨di.val * 256 + col.val, hb⟩ := Fin.ext hq
  unfold upAt
  rw [V1_main_arg0, V1_main_v1, V1_main_v5]
  refine congrArg₂ (· + ·) (Finset.sum_congr rfl fun ci _ => ?_) ?_
  · exact congrArg (fun w : EReal => A0 m c n a b ci * w) (wpack_apply _ ci ⟨_, hb⟩)
  · exact bpack_apply _ 0 ⟨_, hb⟩

/-- The up image array [24, 32, 32, 128] is the first kernel's result array [24, 16, 2, 16, 256] reshaped. -/
theorem V3_main_v18 : Gen.V3 (F := Ideal) m ρ c main_v18
    = shapeCast S24x32x32x128
        (upArr (Gen.V1 (F := Ideal) m ρ c main_arg0) (Gen.V1 (F := Ideal) m ρ c main_v1) (Gen.V1 (F := Ideal) m ρ c main_v5))
        shapeCasts_S24x16x2x16x256_S24x32x32x128 := by
  show StableHlo.after hostOps1 (W2 m ρ c) (Proc.devRef .tc main_v18) = _
  after_results
  exact congrArg (fun X : S24x16x2x16x256.Idx → EReal =>
      shapeCast S24x32x32x128 X shapeCasts_S24x16x2x16x256_S24x32x32x128)
    ((W2_arr m ρ c 3).trans (final3 (Gen.V1 (F := Ideal) m ρ) c))

/-- THE UP IMAGE as the second region finds it: pixel (I, J) of batch entry n is output pixel (I % 2, J % 2) of the 2x2
    transposed convolution at input pixel (I / 2, J / 2); the reshape sends (n, I, J, ch) to
    (n, I / 2, I % 2, J / 2, (J % 2) * 128 + ch), the index with the same row-major position. -/
theorem up_eq : Gen.V3 (F := Ideal) m ρ c main_v18
    = fun idx => Cert.Spec.up (A0 m c (idx 0)) (Cert.Spec.wupP (A2 m c)) (Cert.Spec.bupP (A3 m c)) (idx 1) (idx 2) (idx 3) := by
  rw [V3_main_v18]
  funext idx
  obtain ⟨n, I, J, ch, rfl⟩ : ∃ (n : Fin 24) (I J : Fin 32) (ch : Fin 128), idx = ix4 n I J ch :=
    ⟨idx 0, idx 1, idx 2, idx 3, eq_ix4 idx⟩
  refine (shapeCast_apply _ _ (ix4 n I J ch)
    (ix5 n (⟨I.val / 2, by have := I.isLt; omega⟩ : Fin 16) (⟨I.val % 2, Nat.mod_lt _ (by decide)⟩ : Fin 2)
      (⟨J.val / 2, by have := J.isLt; omega⟩ : Fin 16)
      (⟨(J.val % 2) * 128 + ch.val, by have := ch.isLt; omega⟩ : Fin 256)) (by
    rw [Shape.rowMajor_val_five, Shape.rowMajor_val_four]
    show ((((n.val * 16 + I.val / 2) * 2 + I.val % 2) * 16 + J.val / 2) * 256 + ((J.val % 2) * 128 + ch.val))
      = ((n.val * 32 + I.val) * 32 + J.val) * 128 + ch.val
    omega)).trans ?_
  refine (up_entry m ρ c n _ _ _ _
    ⟨(I.val % 2) * 256 + (J.val % 2) * 128 + ch.val, by have := ch.isLt; omega⟩ (by
      show (I.val % 2) * 256 + (J.val % 2) * 128 + ch.val = (I.val % 2) * 256 + ((J.val % 2) * 128 + ch.val)
      omega)).trans ?_
  rfl

/-- What the second region finds in the arrays its windows stage, as functions of the twelve arguments. -/
theorem arrays : Cert.ReferenceIdeal.Iface.ArraysStmt m c ρ where
  up := up_eq m ρ c
  br := V3_main_arg1 m ρ c
  wuc := wuc_eq m ρ c
  buc := buc_eq m ρ c
  lns := lns_eq m ρ c
  w1 := w1_eq m ρ c
  b1 := b1_eq m ρ c
  w2 := w2_eq m ρ c
  b2 := b2_eq m ρ c

end Cert.ReferenceIdeal.Value

end
-- ==== Proof.RefRunLaunch.lean ====
/-
  The reference's launch with its result array kept.

  The run of @main is four segments: the host's packing of the parameters, the first region (the transposed convolution),
  the host's reshape of its result, and the second region (the fused block). After the last segment every unscoped
  buffer holds the last boundary's contents; read at the result array, those are what the second region's write-backs
  leave (the fold of its blocks over the grid), and read at an argument they are the launch contents.
-/
import proofs.«131778_g2000005761611187_pallasbulk_1314_2_alg».proof.Proof.Gen.ReferenceIdeal.Frame

set_option maxRecDepth 16384

noncomputable section

namespace Cert.ReferenceIdeal.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and its final state has the result array at what the second
    region's write-backs leave and every argument array as launched. -/
theorem run_arr : θ_run defs (onTc (τ := τ) (main (F := F))) ⟨m, fun _ => 0, ρ⟩ (fun r => ∀ c : Dev nD,
      r.2.mem ((c.tc : Thread nD τ).loc main_v19) = (dat1 (V3 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v19 (by decide))).trans (W4_arr m ρ c 9),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.ReferenceIdeal.RefRun

end
-- ==== Proof.RefRunBlocks.lean ====
/-
  The second region's windows, read at a grid point.

  The grid has one axis, the batch: point `t` works on batch entry `t`. The up image, the bridge and the result are
  staged one batch entry at a time (block `t` of a [24, 32, 32, 128] array is its entry `t`); the seven packed parameter
  arrays are staged whole at every point. So an input block read at an index is its array read at the same index,
  with the batch coordinate `t` put in front for the two images.
-/
import proofs.«131778_g2000005761611187_pallasbulk_1314_2_alg».proof.Proof.Gen.ReferenceIdeal.Frame

set_option maxRecDepth 16384

noncomputable section

namespace Cert.ReferenceIdeal.RefRun

open Cert.ReferenceIdeal Cert.ReferenceIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The block index of the three batched windows (the up image, the bridge, the result) at point `t` is (t, 0, 0, 0). -/
theorem idx_batch : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 4) = t.val ∧ win1_1.index t (1 : Fin 4) = 0 ∧ win1_1.index t (2 : Fin 4) = 0 ∧ win1_1.index t (3 : Fin 4) = 0
    ∧ win1_9.index t (0 : Fin 4) = t.val ∧ win1_9.index t (1 : Fin 4) = 0 ∧ win1_9.index t (2 : Fin 4) = 0 ∧ win1_9.index t (3 : Fin 4) = 0 :=
  (by decide +kernel : ∀ t : Fin grid1.N, _)

/-- The block index of the seven parameter windows is (0, 0) at every point. -/
theorem idx_whole : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- Window 0's block at point `t` is batch entry `t` of its array. -/
theorem iblk1_0_apply (c : Dev nD) (t : Fin cfg1.N) (y : S1x32x32x128.Idx) (k : S24x32x32x128.Idx)
    (h0 : (k 0).val = t.val) (h1 : (k 1).val = (y 1).val) (h2 : (k 2).val = (y 2).val) (h3 : (k 3).val = (y 3).val) :
    (iblk1 V c 0 t : Vec F S1x32x32x128 .f32) y = (V c main_v18 : S24x32x32x128.Idx → Elt F .f32) k := by
  have e := idx_batch t
  have hy : (y 0).val < 1 := (y 0).isLt
  unfold iblk1
  rw [View.read_apply]
  show (V c main_v18 : S24x32x32x128.Idx → Elt F .f32) _ = V c main_v18 _
  refine congrArg (V c main_v18 : S24x32x32x128.Idx → Elt F .f32) ?_
  funext a
  apply Fin.ext
  match a with
  | ⟨0, _⟩ => show win1_0.index t (0 : Fin 4) * 1 + 1 * (y 0).val = (k 0).val; omega
  | ⟨1, _⟩ => show win1_0.index t (1 : Fin 4) * 32 + 1 * (y 1).val = (k 1).val; omega
  | ⟨2, _⟩ => show win1_0.index t (2 : Fin 4) * 32 + 1 * (y 2).val = (k 2).val; omega
  | ⟨3, _⟩ => show win1_0.index t (3 : Fin 4) * 128 + 1 * (y 3).val = (k 3).val; omega

/-- Window 1's block at point `t` is batch entry `t` of its array. -/
theorem iblk1_1_apply (c : Dev nD) (t : Fin cfg1.N) (y : S1x32x32x128.Idx) (k : S24x32x32x128.Idx)
    (h0 : (k 0).val = t.val) (h1 : (k 1).val = (y 1).val) (h2 : (k 2).val = (y 2).val) (h3 : (k 3).val = (y 3).val) :
    (iblk1 V c 1 t : Vec F S1x32x32x128 .f32) y = (V c main_arg1 : S24x32x32x128.Idx → Elt F .f32) k := by
  have e := idx_batch t
  have hy : (y 0).val < 1 := (y 0).isLt
  unfold iblk1
  rw [View.read_apply]
  show (V c main_arg1 : S24x32x32x128.Idx → Elt F .f32) _ = V c main_arg1 _
  refine congrArg (V c main_arg1 : S24x32x32x128.Idx → Elt F .f32) ?_
  funext a
  apply Fin.ext
  match a with
  | ⟨0, _⟩ => show win1_1.index t (0 : Fin 4) * 1 + 1 * (y 0).val = (k 0).val; omega
  | ⟨1, _⟩ => show win1_1.index t (1 : Fin 4) * 32 + 1 * (y 1).val = (k 1).val; omega
  | ⟨2, _⟩ => show win1_1.index t (2 : Fin 4) * 32 + 1 * (y 2).val = (k 2).val; omega
  | ⟨3, _⟩ => show win1_1.index t (3 : Fin 4) * 128 + 1 * (y 3).val = (k 3).val; omega

/-- Window 2 stages the whole of its array at every point. -/
theorem iblk1_2_apply (c : Dev nD) (t : Fin cfg1.N) (y : S2304x128.Idx) :
    (iblk1 V c 2 t : Vec F S2304x128 .f32) y = (V c main_v6 : S2304x128.Idx → Elt F .f32) y := by
  have e := idx_whole t
  unfold iblk1
  rw [View.read_apply]
  show (V c main_v6 : S2304x128.Idx → Elt F .f32) _ = V c main_v6 _
  refine congrArg (V c main_v6 : S2304x128.Idx → Elt F .f32) ?_
  funext a
  apply Fin.ext
  match a with
  | ⟨0, _⟩ => show win1_2.index t (0 : Fin 2) * 2304 + 1 * (y 0).val = (y 0).val; omega
  | ⟨1, _⟩ => show win1_2.index t (1 : Fin 2) * 128 + 1 * (y 1).val = (y 1).val; omega

/-- Window 3 stages the whole of its array at every point. -/
theorem iblk1_3_apply (c : Dev nD) (t : Fin cfg1.N) (y : S1x128.Idx) :
    (iblk1 V c 3 t : Vec F S1x128 .f32) y = (V c main_v7 : S1x128.Idx → Elt F .f32) y := by
  have e := idx_whole t
  unfold iblk1
  rw [View.read_apply]
  show (V c main_v7 : S1x128.Idx → Elt F .f32) _ = V c main_v7 _
  refine congrArg (V c main_v7 : S1x128.Idx → Elt F .f32) ?_
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4 stages the whole of its array at every point. -/
theorem iblk1_4_apply (c : Dev nD) (t : Fin cfg1.N) (y : S1x128.Idx) :
    (iblk1 V c 4 t : Vec F S1x128 .f32) y = (V c main_v13 : S1x128.Idx → Elt F .f32) y := by
  have e := idx_whole t
  unfold iblk1
  rw [View.read_apply]
  show (V c main_v13 : S1x128.Idx → Elt F .f32) _ = V c main_v13 _
  refine congrArg (V c main_v13 : S1x128.Idx → Elt F .f32) ?_
  funext a
  apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Window 5 stages the whole of its array at every point. -/
theorem iblk1_5_apply (c : Dev nD) (t : Fin cfg1.N) (y : S1152x128.Idx) :
    (iblk1 V c 5 t : Vec F S1152x128 .f32) y = (V c main_v11 : S1152x128.Idx → Elt F .f32) y := by
  have e := idx_whole t
  unfold iblk1
  rw [View.read_apply]
  show (V c main_v11 : S1152x128.Idx → Elt F .f32) _ = V c main_v11 _
  refine congrArg (V c main_v11 : S1152x128.Idx → Elt F .f32) ?_
  funext a
  apply Fin.ext
  match a with
  | ⟨0, _⟩ => show win1_5.index t (0 : Fin 2) * 1152 + 1 * (y 0).val = (y 0).val; omega
  | ⟨1, _⟩ => show win1_5.index t (1 : Fin 2) * 128 + 1 * (y 1).val = (y 1).val; omega

/-- Window 6 stages the whole of its array at every point. -/
theorem iblk1_6_apply (c : Dev nD) (t : Fin cfg1.N) (y : S1x128.Idx) :
    (iblk1 V c 6 t : Vec F S1x128 .f32) y = (V c main_v14 : S1x128.Idx → Elt F .f32) y := by
  have e := idx_whole t
  unfold iblk1
  rw [View.read_apply]
  show (V c main_v14 : S1x128.Idx → Elt F .f32) _ = V c main_v14 _
  refine congrArg (V c main_v14 : S1x128.Idx → Elt F .f32) ?_
  funext a
  apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Window 7 stages the whole of its array at every point. -/
theorem iblk1_7_apply (c : Dev nD) (t : Fin cfg1.N) (y : S1152x128.Idx) :
    (iblk1 V c 7 t : Vec F S1152x128 .f32) y = (V c main_v15 : S1152x128.Idx → Elt F .f32) y := by
  have e := idx_whole t
  unfold iblk1
  rw [View.read_apply]
  show (V c main_v15 : S1152x128.Idx → Elt F .f32) _ = V c main_v15 _
  refine congrArg (V c main_v15 : S1152x128.Idx → Elt F .f32) ?_
  funext a
  apply Fin.ext
  match a with
  | ⟨0, _⟩ => show win1_7.index t (0 : Fin 2) * 1152 + 1 * (y 0).val = (y 0).val; omega
  | ⟨1, _⟩ => show win1_7.index t (1 : Fin 2) * 128 + 1 * (y 1).val = (y 1).val; omega

/-- Window 8 stages the whole of its array at every point. -/
theorem iblk1_8_apply (c : Dev nD) (t : Fin cfg1.N) (y : S1x128.Idx) :
    (iblk1 V c 8 t : Vec F S1x128 .f32) y = (V c main_v16 : S1x128.Idx → Elt F .f32) y := by
  have e := idx_whole t
  unfold iblk1
  rw [View.read_apply]
  show (V c main_v16 : S1x128.Idx → Elt F .f32) _ = V c main_v16 _
  refine congrArg (V c main_v16 : S1x128.Idx → Elt F .f32) ?_
  funext a
  apply Fin.ext
  match a with
  | ⟨0, _⟩ => show win1_8.index t (0 : Fin 2) * 1 + 1 * (y 0).val = (y 0).val; omega
  | ⟨1, _⟩ => show win1_8.index t (1 : Fin 2) * 128 + 1 * (y 1).val = (y 1).val; omega

end Cert.ReferenceIdeal.RefRun

end
-- ==== Proof.RefRun.lean ====
/-
  The reference's run of @main, with its result array named.

  Each grid point of the second region works on one batch entry: what it writes back is the reference's arrangement
  (`Spec.rBlock`) of the blocks its windows stage — the up image's and the bridge's entry for that point, and the whole
  of each packed parameter array. The arrays those windows stage are known as functions of the twelve argument arrays,
  so the block a point writes back is that batch entry of `Spec.refOut`; the 24 blocks tile the result array (entry
  `n` is written by point `n`), so the array ends holding `Spec.refOut` of the arguments.
-/
import proofs.«131778_g2000005761611187_pallasbulk_1314_2_alg».proof.Proof.RefRunLaunch
import proofs.«131778_g2000005761611187_pallasbulk_1314_2_alg».proof.Proof.RefRunBlocks
import proofs.«131778_g2000005761611187_pallasbulk_1314_2_alg».proof.Proof.RefIface
import Idealize.ShloMosaic.Lib.Pipeline.Value

set_option maxRecDepth 16384

noncomputable section

namespace Cert.ReferenceIdeal.RefRun

open Cert.ReferenceIdeal Cert.ReferenceIdeal.Gen
open Idealize.ShloMosaic Idealize.ShloMosaic.TcCoe Idealize.ShloMosaic.ValueIdx Idealize.SL.Sem
open Idealize.ShloMosaic.Pipeline (Dat)

/-! ## One point's block, program-free -/

/-- Nine blocks that read, coordinate by coordinate, as batch entry `n` of the up image and of the bridge and as the
    packed parameters, arranged the reference's way, give batch entry `n` of `Spec.refOut`. -/
theorem rBlock_of_blocks
    (a0 : Fin 24 → Fin 16 → Fin 16 → Fin 256 → Cert.Spec.E) (a1 : Fin 24 → Fin 32 → Fin 32 → Fin 128 → Cert.Spec.E)
    (a2 : Fin 4 → Fin 256 → Fin 128 → Cert.Spec.E) (a3 : Fin 128 → Cert.Spec.E) (a4 : Fin 9 → Fin 256 → Fin 128 → Cert.Spec.E)
    (a5 a6 a7 : Fin 128 → Cert.Spec.E) (a8 : Fin 9 → Fin 128 → Fin 128 → Cert.Spec.E) (a9 : Fin 128 → Cert.Spec.E)
    (a10 : Fin 9 → Fin 128 → Fin 128 → Cert.Spec.E) (a11 : Fin 128 → Cert.Spec.E) (n : Fin 24)
    (x0 : Vec Ideal S1x32x32x128 .f32) (x1 : Vec Ideal S1x32x32x128 .f32) (x2 : Vec Ideal S2304x128 .f32)
    (x3 : Vec Ideal S1x128 .f32) (x4 : Vec Ideal S1x128 .f32) (x5 : Vec Ideal S1152x128 .f32) (x6 : Vec Ideal S1x128 .f32)
    (x7 : Vec Ideal S1152x128 .f32) (x8 : Vec Ideal S1x128 .f32)
    (h0 : ∀ a b ch, x0 (ix4 0 a b ch) = Cert.Spec.up (a0 n) (Cert.Spec.wupP a2) (Cert.Spec.bupP a3) a b ch)
    (h1 : ∀ a b ch, x1 (ix4 0 a b ch) = a1 n a b ch)
    (h2 : ∀ q o, x2 (ix2 q o) = Cert.Spec.stackP a4 q o)
    (h3 : ∀ o, x3 (ix2 0 o) = a5 o)
    (h4 : ∀ o, x4 (ix2 0 o) = Cert.Spec.lnsP a7 a6 o)
    (h5 : ∀ q o, x5 (ix2 q o) = Cert.Spec.w1gP a8 a6 q o)
    (h6 : ∀ o, x6 (ix2 0 o) = a9 o)
    (h7 : ∀ q o, x7 (ix2 q o) = Cert.Spec.stackP a10 q o)
    (h8 : ∀ o, x8 (ix2 0 o) = a11 o) (i j : Fin 32) (o : Fin 128) :
    Cert.Spec.rBlock (fun a b ch => x0 (ix4 0 a b ch)) (fun a b ch => x1 (ix4 0 a b ch)) (fun q o => x2 (ix2 q o))
        (fun o => x3 (ix2 0 o)) (fun o => x4 (ix2 0 o)) (fun q o => x5 (ix2 q o)) (fun o => x6 (ix2 0 o))
        (fun q o => x7 (ix2 q o)) (fun o => x8 (ix2 0 o)) i j o
      = Cert.Spec.refOut a0 a1 a2 a3 a4 a5 a6 a7 a8 a9 a10 a11 n i j o := by
  have e0 : (fun a b ch => x0 (ix4 0 a b ch)) = Cert.Spec.up (a0 n) (Cert.Spec.wupP a2) (Cert.Spec.bupP a3) :=
    funext fun a => funext fun b => funext fun ch => h0 a b ch
  have e1 : (fun a b ch => x1 (ix4 0 a b ch)) = a1 n := funext fun a => funext fun b => funext fun ch => h1 a b ch
  have e2 : (fun q o => x2 (ix2 q o)) = Cert.Spec.stackP a4 := funext fun q => funext fun o => h2 q o
  have e3 : (fun o => x3 (ix2 0 o)) = a5 := funext h3
  have e4 : (fun o => x4 (ix2 0 o)) = Cert.Spec.lnsP a7 a6 := funext h4
  have e5 : (fun q o => x5 (ix2 q o)) = Cert.Spec.w1gP a8 a6 := funext fun q => funext fun o => h5 q o
  have e6 : (fun o => x6 (ix2 0 o)) = a9 := funext h6
  have e7 : (fun q o => x7 (ix2 q o)) = Cert.Spec.stackP a10 := funext fun q => funext fun o => h7 q o
  have e8 : (fun o => x8 (ix2 0 o)) = a11 := funext h8
  rw [e0, e1, e2, e3, e4, e5, e6, e7, e8]
  rfl

/-- `Spec.refOut` at equal coordinates. -/
theorem refOut_congr
    (a0 : Fin 24 → Fin 16 → Fin 16 → Fin 256 → Cert.Spec.E) (a1 : Fin 24 → Fin 32 → Fin 32 → Fin 128 → Cert.Spec.E)
    (a2 : Fin 4 → Fin 256 → Fin 128 → Cert.Spec.E) (a3 : Fin 128 → Cert.Spec.E) (a4 : Fin 9 → Fin 256 → Fin 128 → Cert.Spec.E)
    (a5 a6 a7 : Fin 128 → Cert.Spec.E) (a8 : Fin 9 → Fin 128 → Fin 128 → Cert.Spec.E) (a9 : Fin 128 → Cert.Spec.E)
    (a10 : Fin 9 → Fin 128 → Fin 128 → Cert.Spec.E) (a11 : Fin 128 → Cert.Spec.E)
    {n n' : Fin 24} {i i' j j' : Fin 32} {o o' : Fin 128} (hn : n = n') (hi : i = i') (hj : j = j') (ho : o = o') :
    Cert.Spec.refOut a0 a1 a2 a3 a4 a5 a6 a7 a8 a9 a10 a11 n i j o
      = Cert.Spec.refOut a0 a1 a2 a3 a4 a5 a6 a7 a8 a9 a10 a11 n' i' j' o' := by
  subst hn hi hj ho; rfl

/-! ## The second region's write-backs -/

variable (m : (ℓ : Loc nD τ sig) → Buf (Elt Ideal) ℓ) (ρ : Dev nD → PrngReg)

/-- What point `t` writes back to the result array is block `t` of `Iface.result`. -/
theorem flushed_eq (hB : Iface.BlockStmt) (hA : ∀ c, Iface.ArraysStmt m c ρ) (c : Dev nD) (t : Fin cfg1.N) :
    (dat1 (V3 (F := Ideal) m ρ) c).flushed 9 t = ((cfg1.win 9).blk t).view.read (Elt Ideal) (Iface.result m c) := by
  show (cfg1.win 9).cut (grid1.coords t) ((dat1 (V3 (F := Ideal) m ρ) c).after 9 t) = _
  rw [after1_9]
  unfold outsAt1
  rw [hB]
  have hN : cfg1.N = 24 := N_1
  have ht : t.val < 24 := by have := t.isLt; omega
  have e := idx_batch t
  funext y
  have hy0 : (y 0).val < 1 := (y 0).isLt
  rw [View.read_apply]
  refine (rBlock_of_blocks (Iface.A0 m c) (Iface.A1 m c) (Iface.A2 m c) (Iface.A3 m c) (Iface.A4 m c) (Iface.A5 m c) (Iface.A6 m c) (Iface.A7 m c) (Iface.A8 m c) (Iface.A9 m c) (Iface.A10 m c) (Iface.A11 m c) ⟨t.val, ht⟩
    (iblk1 (V3 (F := Ideal) m ρ) c 0 t) (iblk1 (V3 (F := Ideal) m ρ) c 1 t) (iblk1 (V3 (F := Ideal) m ρ) c 2 t)
    (iblk1 (V3 (F := Ideal) m ρ) c 3 t) (iblk1 (V3 (F := Ideal) m ρ) c 4 t) (iblk1 (V3 (F := Ideal) m ρ) c 5 t)
    (iblk1 (V3 (F := Ideal) m ρ) c 6 t) (iblk1 (V3 (F := Ideal) m ρ) c 7 t) (iblk1 (V3 (F := Ideal) m ρ) c 8 t)
    (fun a b ch => (iblk1_0_apply (V3 (F := Ideal) m ρ) c t (ix4 0 a b ch) (ix4 ⟨t.val, ht⟩ a b ch) rfl rfl rfl rfl).trans
      (congrFun (hA c).up (ix4 ⟨t.val, ht⟩ a b ch)))
    (fun a b ch => (iblk1_1_apply (V3 (F := Ideal) m ρ) c t (ix4 0 a b ch) (ix4 ⟨t.val, ht⟩ a b ch) rfl rfl rfl rfl).trans
      (congrFun (hA c).br (ix4 ⟨t.val, ht⟩ a b ch)))
    (fun q o => (iblk1_2_apply (V3 (F := Ideal) m ρ) c t (ix2 q o)).trans (congrFun (hA c).wuc (ix2 q o)))
    (fun o => (iblk1_3_apply (V3 (F := Ideal) m ρ) c t (ix2 0 o)).trans (congrFun (hA c).buc (ix2 0 o)))
    (fun o => (iblk1_4_apply (V3 (F := Ideal) m ρ) c t (ix2 0 o)).trans (congrFun (hA c).lns (ix2 0 o)))
    (fun q o => (iblk1_5_apply (V3 (F := Ideal) m ρ) c t (ix2 q o)).trans (congrFun (hA c).w1 (ix2 q o)))
    (fun o => (iblk1_6_apply (V3 (F := Ideal) m ρ) c t (ix2 0 o)).trans (congrFun (hA c).b1 (ix2 0 o)))
    (fun q o => (iblk1_7_apply (V3 (F := Ideal) m ρ) c t (ix2 q o)).trans (congrFun (hA c).w2 (ix2 q o)))
    (fun o => (iblk1_8_apply (V3 (F := Ideal) m ρ) c t (ix2 0 o)).trans (congrFun (hA c).b2 (ix2 0 o)))
    _ _ _).trans ?_
  refine refOut_congr (Iface.A0 m c) (Iface.A1 m c) (Iface.A2 m c) (Iface.A3 m c) (Iface.A4 m c) (Iface.A5 m c) (Iface.A6 m c) (Iface.A7 m c) (Iface.A8 m c) (Iface.A9 m c) (Iface.A10 m c) (Iface.A11 m c) (Fin.ext ?_) (Fin.ext ?_) (Fin.ext ?_) (Fin.ext ?_)
  · show t.val = win1_9.index t (0 : Fin 4) * 1 + 1 * (y 0).val; omega
  · show (y 1).val = win1_9.index t (1 : Fin 4) * 32 + 1 * (y 1).val; omega
  · show (y 2).val = win1_9.index t (2 : Fin 4) * 32 + 1 * (y 2).val; omega
  · show (y 3).val = win1_9.index t (3 : Fin 4) * 128 + 1 * (y 3).val; omega

/-- Every entry of the result array lies in the block of the point of its batch coordinate. -/
theorem cover (i : S24x32x32x128.Idx) :
    ∃ t : Fin cfg1.N, (cfg1.win 9).flush t = true ∧ i ∈ ((cfg1.win 9).blk t).view.set := by
  have hN : cfg1.N = 24 := N_1
  have hi0 : (i 0).val < 24 := (i 0).isLt
  have hi1 : (i 1).val < 32 := (i 1).isLt
  have hi2 : (i 2).val < 32 := (i 2).isLt
  have hi3 : (i 3).val < 128 := (i 3).isLt
  obtain ⟨t, ht⟩ : ∃ t : Fin cfg1.N, t.val = (i 0).val := ⟨⟨(i 0).val, by omega⟩, rfl⟩
  have e := idx_batch t
  refine ⟨t, flush1_9 t, ?_⟩
  show i ∈ ((View.whole main_v19).slice (win1_9.rect t)).set
  rw [View.set_slice_whole, Rect.mem_set_unit]
  intro a
  match a with
  | ⟨0, _⟩ => show win1_9.index t (0 : Fin 4) * 1 ≤ (i 0).val ∧ (i 0).val < win1_9.index t (0 : Fin 4) * 1 + 1; omega
  | ⟨1, _⟩ => show win1_9.index t (1 : Fin 4) * 32 ≤ (i 1).val ∧ (i 1).val < win1_9.index t (1 : Fin 4) * 32 + 32; omega
  | ⟨2, _⟩ => show win1_9.index t (2 : Fin 4) * 32 ≤ (i 2).val ∧ (i 2).val < win1_9.index t (2 : Fin 4) * 32 + 32; omega
  | ⟨3, _⟩ => show win1_9.index t (3 : Fin 4) * 128 ≤ (i 3).val ∧ (i 3).val < win1_9.index t (3 : Fin 4) * 128 + 128; omega

/-- So the result array ends holding `Iface.result`. -/
theorem final (hB : Iface.BlockStmt) (hA : ∀ c, Iface.ArraysStmt m c ρ) (c : Dev nD) :
    (dat1 (V3 (F := Ideal) m ρ) c).arrAt 9 cfg1.N = Iface.result m c :=
  (dat1 (V3 (F := Ideal) m ρ) c).arrAt_eq_of_cover 9 (Iface.result m c) (fun t _ => flushed_eq m ρ hB hA c t) cover

end Cert.ReferenceIdeal.RefRun

namespace Cert.ReferenceIdeal.Value

open Cert.ReferenceIdeal Cert.ReferenceIdeal.Gen
open Idealize.ShloMosaic Idealize.ShloMosaic.TcCoe Idealize.SL.Sem

/-- The reference's run: every weakly fair execution of @main terminates with the result array at `Spec.refOut` of the
    argument arrays as launched, and the arguments unchanged. -/
theorem run (m : (ℓ : Loc nD τ sig) → Buf (Elt Ideal) ℓ) (ρ : Dev nD → PrngReg) (hB : Cert.ReferenceIdeal.Iface.BlockStmt)
    (hA : ∀ c, Cert.ReferenceIdeal.Iface.ArraysStmt m c ρ) :
    θ_run (defs (F := Ideal)) (onTc (τ := τ) (main (F := Ideal))) ⟨m, fun _ => 0, ρ⟩ (fun r => ∀ c : Dev nD,
      r.2.mem ((c.tc : Thread nD τ).loc main_v19) = Cert.ReferenceIdeal.Iface.result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (Cert.ReferenceIdeal.RefRun.final m ρ hB hA c), (h c).2⟩)
    (Cert.ReferenceIdeal.RefRun.run_arr m ρ)

end Cert.ReferenceIdeal.Value

end
-- ==== Proof.AlgebraConv.lean ====
/-
  A 3x3 convolution written two ways is one function.

  The tap-by-tap form adds, to the bias, nine sums over channels; the flattened form adds the bias to ONE sum over the
  axis q = k * C + ch. A flattened index determines its tap (the quotient by C) and its channel (the remainder), the
  finite sum regroups as a double sum, and addition commutes. No finiteness of the entries is needed: the extended reals
  are a commutative additive monoid.
-/
import proofs.«131778_g2000005761611187_pallasbulk_1314_2_alg».proof.Proof.Spec

noncomputable section

namespace Cert.Spec

open Idealize.ShloMosaic
open scoped BigOperators
open Cert.Lib.TapSum

/-- The tap of the flattened index of (k, c) is k. -/
theorem flat_divNat {T C : ℕ} (k : Fin T) (c : Fin C) : (flat k c).divNat = k :=
  congrArg Prod.fst (finProdFinEquiv.symm_apply_apply (k, c))

/-- The channel of the flattened index of (k, c) is c. -/
theorem flat_modNat {T C : ℕ} (k : Fin T) (c : Fin C) : (flat k c).modNat = c :=
  congrArg Prod.snd (finProdFinEquiv.symm_apply_apply (k, c))

/-- The two arrangements of a 3x3 convolution agree, for any padded image, weights and bias. -/
theorem convK_eq_convR {C : ℕ} (P : Fin 34 → Fin 34 → Fin C → E) (w : Fin (9 * C) → Fin 128 → E) (bias : Fin 128 → E) :
    convK P w bias = convR P w bias := by
  funext i j o
  unfold convK convR
  rw [add_comm, sum_flat 9 C]
  congr 1
  refine Finset.sum_congr rfl fun k _ => Finset.sum_congr rfl fun ch _ => ?_
  rw [flat_divNat, flat_modNat]

end Cert.Spec

end
-- ==== Proof.LibScaleFold.lean ====
/-
  Moving a per-channel scale from an activation into the weights that follow it, over the extended reals.

  A layer computes  t = n * g + b  and feeds it to a linear map with weights w; an equivalent program computes
  t' = n + b / g  and feeds it to the weights  w * g.  For real n, b, w and a real g ≠ 0 the products agree:
      (n + b / g) * (w * g) = (n * g + b) * w,
  where the quotient is the ideal instance's division (the product with the reciprocal off zero). On a zero border both
  sides are 0 times something, which is 0. Neither holds at g = 0 (b / 0 is an infinity and an infinity times 0 is 0), nor
  for infinite n: distributing a product over a sum needs finite terms, so the statements are over reals embedded in the
  extended reals. Also here: the embedding of a finite real sum is the sum of the embeddings.
-/
import Idealize.ShloMosaic.PureOps.Ideal

namespace Cert.Lib.ScaleFold

open Idealize.ShloMosaic

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of embedded reals is an embedded real. -/
theorem sum_coe_eq_coe {ι : Type} (s : Finset ι) (f : ι → ℝ) : ∃ r : ℝ, ∑ i ∈ s, (f i : EReal) = (r : EReal) :=
  ⟨∑ i ∈ s, f i, (coe_sum s f).symm⟩

/-- One term: the scale moved from the activation to the weight. -/
theorem scale_fold (n b w g : ℝ) (hg : g ≠ 0) :
    ((n : EReal) + Ideal.div (b : EReal) (g : EReal)) * ((w : EReal) * (g : EReal))
      = ((n : EReal) * (g : EReal) + (b : EReal)) * (w : EReal) := by
  rw [Ideal.div_coe hg]
  have h : (n + b * (1 / g)) * (w * g) = (n * g + b) * w := by field_simp
  exact_mod_cast h

/-- The same under a mask: off the mask (the zero border of a padded image) both activations are 0. -/
theorem scale_fold_masked (p : Prop) [Decidable p] (n b w g : ℝ) (hg : g ≠ 0) :
    (if p then (n : EReal) + Ideal.div (b : EReal) (g : EReal) else 0) * ((w : EReal) * (g : EReal))
      = (if p then (n : EReal) * (g : EReal) + (b : EReal) else 0) * (w : EReal) := by
  by_cases hp : p
  · rw [if_pos hp, if_pos hp]; exact scale_fold n b w g hg
  · rw [if_neg hp, if_neg hp, zero_mul, zero_mul]

/-- Summed over any finite index (a tap and a channel, say): term by term. -/
theorem sum_scale_fold_masked {ι : Type} (s : Finset ι) (p : ι → Prop) [DecidablePred p] (n b w g : ι → ℝ)
    (hg : ∀ i, g i ≠ 0) :
    ∑ i ∈ s, (if p i then (n i : EReal) + Ideal.div (b i : EReal) (g i : EReal) else 0) * ((w i : EReal) * (g i : EReal))
      = ∑ i ∈ s, (if p i then (n i : EReal) * (g i : EReal) + (b i : EReal) else 0) * (w i : EReal) :=
  Finset.sum_congr rfl fun i _ => scale_fold_masked (p i) (n i) (b i) (w i) (g i) (hg i)

end Cert.Lib.ScaleFold
-- ==== Proof.AlgebraReal.lean ====
/-
  Which entries of the up block are (embedded) reals.

  Distributing a product over a sum in the extended reals needs finite terms, so the scale fold between the two
  arrangements is stated over reals. Here: the embedded reals are closed under +, -, * and finite sums; the literal 128.0
  is the real 128 and the literal 1e-5 a positive real; hence the mean over 128 channels of reals is a real, the variance
  (a mean of squares) a real >= 0, variance + 1e-5 a positive real, its reciprocal square root a real, and the normalised
  entry a real. Padding, concatenation, the transposed convolution and a 3x3 convolution of real images with real
  parameters are real, and so are the packed parameters.
-/
import proofs.«131778_g2000005761611187_pallasbulk_1314_2_alg».proof.Proof.Spec
import proofs.«131778_g2000005761611187_pallasbulk_1314_2_alg».proof.Proof.LibScaleFold

noncomputable section

namespace Cert.Spec

open Idealize.ShloMosaic
open scoped BigOperators

/-- An extended real that is the embedding of a real. -/
def IsR (e : E) : Prop := ∃ r : ℝ, e = (r : EReal)

theorem IsR.zero : IsR 0 := ⟨0, rfl⟩

theorem IsR.add {a b : E} (ha : IsR a) (hb : IsR b) : IsR (a + b) := by
  obtain ⟨r, rfl⟩ := ha; obtain ⟨s, rfl⟩ := hb; exact ⟨r + s, (EReal.coe_add r s).symm⟩

theorem IsR.sub {a b : E} (ha : IsR a) (hb : IsR b) : IsR (a - b) := by
  obtain ⟨r, rfl⟩ := ha; obtain ⟨s, rfl⟩ := hb; exact ⟨r - s, (EReal.coe_sub r s).symm⟩

theorem IsR.mul {a b : E} (ha : IsR a) (hb : IsR b) : IsR (a * b) := by
  obtain ⟨r, rfl⟩ := ha; obtain ⟨s, rfl⟩ := hb; exact ⟨r * s, (EReal.coe_mul r s).symm⟩

theorem IsR.sum {ι : Type} (s : Finset ι) (f : ι → E) (h : ∀ i ∈ s, IsR (f i)) : IsR (∑ i ∈ s, f i) :=
  Finset.sum_induction f IsR (fun _ _ => IsR.add) IsR.zero h

/-! ## The two literals -/

/-- The word 0x43000000 is 128. -/
theorem c128_eq : c128 = ((128 : ℝ) : EReal) := by
  have h : c128 = ((8388608 * (2 ^ 16)⁻¹ : ℝ) : EReal) := by
    simp [c128, Ideal.ofBits, Ideal.ieee]
  rw [h]
  norm_num

/-- The word 0x3727C5AC is a positive real. -/
theorem eps_eq : ∃ r : ℝ, 0 < r ∧ eps = (r : EReal) := by
  refine ⟨10995116 * (2 ^ 40)⁻¹, by positivity, ?_⟩
  simp [eps, Ideal.ofBits, Ideal.ieee]

/-! ## The normalisation of a real row is real -/

/-- The mean of a row of reals is the real mean. -/
theorem mean_coe (ry : Fin 128 → ℝ) :
    mean (fun o => ((ry o : ℝ) : EReal)) = (((∑ o, ry o) * (1 / 128) : ℝ) : EReal) := by
  unfold mean
  rw [c128_eq, Ideal.div_coe (by norm_num : (128 : ℝ) ≠ 0), ← Cert.Lib.ScaleFold.coe_sum, ← EReal.coe_mul]

/-- A normalised entry of a row of reals is a real: the variance is a real >= 0, so variance + 1e-5 is a positive real
    and its reciprocal square root the real (√·)⁻¹. -/
theorem nrm_coe (ry : Fin 128 → ℝ) (o : Fin 128) : IsR (nrm (fun o => ((ry o : ℝ) : EReal)) o) := by
  obtain ⟨e, he, hE⟩ := eps_eq
  unfold nrm
  rw [mean_coe]
  generalize (∑ o, ry o) * (1 / 128) = μ
  have h2 : (fun o' => (((ry o' : ℝ) : EReal) - (μ : EReal)) * (((ry o' : ℝ) : EReal) - (μ : EReal)))
      = fun o' => (((ry o' - μ) * (ry o' - μ) : ℝ) : EReal) := by
    funext o'; rw [← EReal.coe_sub, ← EReal.coe_mul]
  rw [h2, mean_coe, hE, ← EReal.coe_add, ← EReal.coe_sub]
  have hv : 0 < (∑ o', (ry o' - μ) * (ry o' - μ)) * (1 / 128) + e := by
    have : 0 ≤ ∑ o', (ry o' - μ) * (ry o' - μ) := Finset.sum_nonneg fun o' _ => mul_self_nonneg _
    positivity
  rw [Ideal.rsqrt_coe, if_neg (not_lt.mpr hv.le), if_neg hv.ne', ← EReal.coe_mul]
  exact ⟨_, rfl⟩

theorem nrm_isR {y : Fin 128 → E} (hy : ∀ o, IsR (y o)) (o : Fin 128) : IsR (nrm y o) := by
  choose ry hry using hy
  obtain rfl : y = fun o => ((ry o : ℝ) : EReal) := funext hry
  exact nrm_coe ry o

/-! ## Images and parameters -/

theorem pad_isR {C : ℕ} {A : Fin 32 → Fin 32 → Fin C → E} (hA : ∀ i j c, IsR (A i j c)) (a b : Fin 34) (ch : Fin C) :
    IsR (pad A a b ch) := by
  unfold pad
  split
  · exact hA _ _ _
  · exact IsR.zero

theorem catImg_isR {U B : Fin 32 → Fin 32 → Fin 128 → E} (hU : ∀ i j c, IsR (U i j c)) (hB : ∀ i j c, IsR (B i j c))
    (i j : Fin 32) (ch : Fin 256) : IsR (catImg U B i j ch) := by
  unfold catImg
  split
  · exact hU _ _ _
  · exact hB _ _ _

theorem up_isR {x : Fin 16 → Fin 16 → Fin 256 → E} {wup : Fin 256 → Fin 512 → E} {bup : Fin 512 → E}
    (hx : ∀ a b ci, IsR (x a b ci)) (hw : ∀ ci col, IsR (wup ci col)) (hb : ∀ col, IsR (bup col))
    (I J : Fin 32) (c : Fin 128) : IsR (up x wup bup I J c) := by
  unfold up
  exact (IsR.sum _ _ fun ci _ => (hx _ _ _).mul (hw _ _)).add (hb _)

theorem convR_isR {C : ℕ} {P : Fin 34 → Fin 34 → Fin C → E} {w : Fin (9 * C) → Fin 128 → E} {bias : Fin 128 → E}
    (hP : ∀ a b c, IsR (P a b c)) (hw : ∀ q o, IsR (w q o)) (hb : ∀ o, IsR (bias o)) (i j : Fin 32) (o : Fin 128) :
    IsR (convR P w bias i j o) := by
  unfold convR
  exact (IsR.sum _ _ fun q _ => (hP _ _ _).mul (hw _ _)).add (hb _)

theorem wupP_isR {w_up : Fin 4 → Fin 256 → Fin 128 → E} (h : ∀ k ci ch, IsR (w_up k ci ch)) (ci : Fin 256) (col : Fin 512) :
    IsR (wupP w_up ci col) := h _ _ _

theorem bupP_isR {b_up : Fin 128 → E} (h : ∀ o, IsR (b_up o)) (col : Fin 512) : IsR (bupP b_up col) := h _

theorem stackP_isR {C : ℕ} {w : Fin 9 → Fin C → Fin 128 → E} (h : ∀ k ch o, IsR (w k ch o)) (q : Fin (9 * C)) (o : Fin 128) :
    IsR (stackP w q o) := h _ _ _

end Cert.Spec

end
-- ==== Proof.Algebra.lean ====
/-
  The two arrangements of the up block compute the same array.

  Both convolve the padded concatenation of the up image and the bridge (the two arrangements of a convolution agree), so
  the first feature map y is common. The kernel then forms t = nrm(y) * g + b and convolves with w1; the reference forms
  t' = nrm(y) + b / g and convolves with w1 * g. Every nrm(y) entry is a real, g a nonzero real, b and w1 reals, so term
  by term  pad t' * (w1 * g) = pad t * w1  (on the zero border both sides are 0). Hence the second feature maps agree
  before the rectifier, so after it; the third convolution is again the same in both arrangements, and the final sum
  differs only in the order of its two terms.
-/
import proofs.«131778_g2000005761611187_pallasbulk_1314_2_alg».proof.Proof.AlgebraConv
import proofs.«131778_g2000005761611187_pallasbulk_1314_2_alg».proof.Proof.AlgebraReal

noncomputable section

namespace Cert.Spec

open Idealize.ShloMosaic
open scoped BigOperators

/-- One term of the second convolution: the scale moved from the padded activation into the weight. -/
theorem pad_fold (N : Fin 32 → Fin 32 → Fin 128 → E) (g bln : Fin 128 → E) (hN : ∀ i j o, IsR (N i j o))
    (hg : ∀ o, IsR (g o)) (hb : ∀ o, IsR (bln o)) (hg0 : ∀ o, g o ≠ 0) (a b : Fin 34) (ch : Fin 128) (w : E) (hw : IsR w) :
    pad (fun i j o => N i j o + lnsP bln g o) a b ch * (w * g ch)
      = pad (fun i j o => N i j o * g o + bln o) a b ch * w := by
  obtain ⟨rg, hrg⟩ := hg ch
  obtain ⟨rb, hrb⟩ := hb ch
  obtain ⟨rw, hrw⟩ := hw
  have hrg0 : rg ≠ 0 := fun h => hg0 ch (by rw [hrg, h]; rfl)
  unfold pad lnsP
  by_cases h : 1 ≤ a.val ∧ a.val ≤ 32 ∧ 1 ≤ b.val ∧ b.val ≤ 32
  · rw [dif_pos h, dif_pos h]
    obtain ⟨rn, hrn⟩ := hN ⟨a.val - 1, by omega⟩ ⟨b.val - 1, by omega⟩ ch
    show (N _ _ ch + Ideal.div (bln ch) (g ch)) * (w * g ch) = (N _ _ ch * g ch + bln ch) * w
    rw [hrn, hrg, hrb, hrw]
    exact Cert.Lib.ScaleFold.scale_fold rn rb rw rg hrg0
  · rw [dif_neg h, dif_neg h, zero_mul, zero_mul]

/-- One image: the kernel's arrangement with the plain parameters is the reference's with the folded ones. -/
theorem outK_eq_outR (U Br : Fin 32 → Fin 32 → Fin 128 → E) (wuc : Fin (9 * 256) → Fin 128 → E) (buc g bln : Fin 128 → E)
    (w1 : Fin 9 → Fin 128 → Fin 128 → E) (b1 : Fin 128 → E) (w2 : Fin (9 * 128) → Fin 128 → E) (b2 : Fin 128 → E)
    (hU : ∀ i j c, IsR (U i j c)) (hBr : ∀ i j c, IsR (Br i j c)) (hwuc : ∀ q o, IsR (wuc q o)) (hbuc : ∀ o, IsR (buc o))
    (hg : ∀ o, IsR (g o)) (hbln : ∀ o, IsR (bln o)) (hw1 : ∀ k ch o, IsR (w1 k ch o)) (hg0 : ∀ o, g o ≠ 0) :
    outK U Br wuc buc g bln (stackP w1) b1 w2 b2 = outR U Br wuc buc (lnsP bln g) (w1gP w1 g) b1 w2 b2 := by
  have hy : yK U Br wuc buc = yR U Br wuc buc := convK_eq_convR _ _ _
  have hyR : ∀ i j o, IsR (yR U Br wuc buc i j o) := fun i j o =>
    convR_isR (fun a b c => pad_isR (fun i j c => catImg_isR hU hBr i j c) a b c) hwuc hbuc i j o
  have hN : ∀ i j o, IsR (nrm (yR U Br wuc buc i j) o) := fun i j o => nrm_isR (hyR i j) o
  have ht : tK U Br wuc buc g bln = fun i j o => nrm (yR U Br wuc buc i j) o * g o + bln o := by
    unfold tK; rw [hy]
  have ht' : tR U Br wuc buc (lnsP bln g) = fun i j o => nrm (yR U Br wuc buc i j) o + lnsP bln g o := rfl
  have hc : convK (pad (tK U Br wuc buc g bln)) (stackP w1) b1
      = convR (pad (tR U Br wuc buc (lnsP bln g))) (w1gP w1 g) b1 := by
    rw [convK_eq_convR, ht, ht']
    funext i j o
    unfold convR
    congr 1
    refine Finset.sum_congr rfl fun q _ => ?_
    unfold stackP w1gP
    exact (pad_fold _ g bln hN hg hbln hg0 _ _ _ _ (hw1 _ _ _)).symm
  have hh : hK U Br wuc buc g bln (stackP w1) b1 = hR U Br wuc buc (lnsP bln g) (w1gP w1 g) b1 := by
    funext i j o
    unfold hK hR
    rw [hc]
  funext i j o
  unfold outK outR
  rw [hy, hh, convK_eq_convR, add_comm]

/-- The whole batch: the kernel's result array is the reference's. -/
theorem kernelOut_eq_refOut (x : Fin 24 → Fin 16 → Fin 16 → Fin 256 → E) (bridge : Fin 24 → Fin 32 → Fin 32 → Fin 128 → E)
    (w_up : Fin 4 → Fin 256 → Fin 128 → E) (b_up : Fin 128 → E) (w_uc : Fin 9 → Fin 256 → Fin 128 → E)
    (b_uc ln_g ln_b : Fin 128 → E) (w1 : Fin 9 → Fin 128 → Fin 128 → E) (b1 : Fin 128 → E)
    (w2 : Fin 9 → Fin 128 → Fin 128 → E) (b2 : Fin 128 → E)
    (hx : ∀ n a b ci, ∃ r : ℝ, x n a b ci = (r : EReal)) (hbr : ∀ n a b ch, ∃ r : ℝ, bridge n a b ch = (r : EReal))
    (hwup : ∀ k ci ch, ∃ r : ℝ, w_up k ci ch = (r : EReal)) (hbup : ∀ o, ∃ r : ℝ, b_up o = (r : EReal))
    (hwuc : ∀ k ch o, ∃ r : ℝ, w_uc k ch o = (r : EReal)) (hbuc : ∀ o, ∃ r : ℝ, b_uc o = (r : EReal))
    (hg : ∀ o, ∃ r : ℝ, ln_g o = (r : EReal)) (hb : ∀ o, ∃ r : ℝ, ln_b o = (r : EReal))
    (hw1 : ∀ k ch o, ∃ r : ℝ, w1 k ch o = (r : EReal)) (hb1 : ∀ o, ∃ r : ℝ, b1 o = (r : EReal))
    (hw2 : ∀ k ch o, ∃ r : ℝ, w2 k ch o = (r : EReal)) (hb2 : ∀ o, ∃ r : ℝ, b2 o = (r : EReal))
    (hg0 : ∀ o, ln_g o ≠ 0) :
    kernelOut x bridge w_up b_up w_uc b_uc ln_g ln_b w1 b1 w2 b2
      = refOut x bridge w_up b_up w_uc b_uc ln_g ln_b w1 b1 w2 b2 := by
  funext n i j o
  unfold kernelOut refOut kBlock rBlock
  rw [outK_eq_outR (up (x n) (wupP w_up) (bupP b_up)) (bridge n) (stackP w_uc) b_uc ln_g ln_b w1 b1 (stackP w2) b2
    (fun I J c => up_isR (hx n) (wupP_isR hwup) (bupP_isR hbup) I J c) (hbr n) (stackP_isR hwuc) hbuc hg hb hw1 hg0]

end Cert.Spec

end
-- ==== Proof.PreDecode.lean ====
/-
  The precondition, decoded.

  The claim's precondition is one bit: the conjunction of twelve "every entry has |x| < +inf" (one per argument array)
  and one "every entry of the scale is != 0", each an all-reduction by "and" of a pointwise comparison. That the bit is 1
  says each conjunct is 1; an all-reduction that is 1 had a 1 at every index; and at the extended reals |x| = max x (-x)
  is below +inf exactly when x is neither infinity, that is, when x is (the embedding of) a real. The float word
  0x7F800000 is +inf and the zero word is 0.
-/
import proofs.«131778_g2000005761611187_pallasbulk_1314_2_alg».proof.Defs
import proofs.«131778_g2000005761611187_pallasbulk_1314_2_alg».proof.Pre_finite_inputs
import proofs.«131778_g2000005761611187_pallasbulk_1314_2_alg».proof.Proof.Gen.Pre_finite_inputs
import proofs.«131778_g2000005761611187_pallasbulk_1314_2_alg».proof.Proof.KernelIface
import Idealize.ShloMosaic.Lib.ReduceAll

noncomputable section

namespace Cert.Proof

open Idealize.ShloMosaic Idealize.ShloMosaic.ValueIdx Idealize.SL.Sem
open Cert.Pre_finite_inputs

instance : Subsingleton S_.Idx := ⟨fun a b => funext fun d => d.elim0⟩

/-- A one-bit word made from a Boolean is 1 only if the Boolean is true. -/
theorem ofBool_eq_one {b : Bool} (h : BitVec.ofBool b = 1#1) : b = true := by
  cases b
  · exact absurd h (by decide)
  · rfl

/-- The word 0x7F800000 is +inf. -/
theorem ofBits_inf_f32 : Ideal.ofBits .f32 0x7F800000#32 = (⊤ : EReal) := by
  simp [Ideal.ofBits, Ideal.ieee]

/-- The zero word is 0. -/
theorem ofBits_zero_f32 : Ideal.ofBits .f32 0x00000000#32 = (0 : EReal) := by
  simp [Ideal.ofBits, Ideal.ieee]

/-- An extended real whose absolute value is below +inf is a real. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- One entry of "|x| < +inf" being 1 says the entry is a real. -/
theorem real_of_lt_inf {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ r : ℝ, x i = (r : EReal) := by
  have h1 : decide (max (x i) (-(x i)) < Ideal.ofBits .f32 0x7F800000#32) = true := ofBool_eq_one h
  rw [ofBits_inf_f32] at h1
  exact real_of_abs_lt_top (x i) (of_decide_eq_true h1)

/-- One entry of "x != 0" being 1 says the entry is not 0. -/
theorem ne_zero_of_une {s : Shape} (hb : S_.BroadcastsInDim s (![] : Fin 0 → Fin s.rank)) (x : FVec Ideal s .f32) (i : s.Idx)
    (h : cmpf .une x (broadcastInDim s ![] hb (constant (F := Ideal) S_ .f32 0x00000000#32)) i = 1#1) :
    x i ≠ 0 := by
  have h1 : decide (x i ≠ Ideal.ofBits .f32 0x00000000#32) = true := ofBool_eq_one h
  rw [ofBits_zero_f32] at h1
  exact of_decide_eq_true h1

section Decode
variable [Facts]

/-- The precondition's bit being 1 says: every entry of every argument array is a real, and no entry of the scale is 0. -/
theorem fn_decode (a0 : FVec Ideal S24x16x16x256 .f32) (a1 : FVec Ideal S24x32x32x128 .f32) (a2 : FVec Ideal S4x256x128 .f32)
    (a3 : FVec Ideal S128 .f32) (a4 : FVec Ideal S9x256x128 .f32) (a5 a6 a7 : FVec Ideal S128 .f32)
    (a8 : FVec Ideal S9x128x128 .f32) (a9 : FVec Ideal S128 .f32) (a10 : FVec Ideal S9x128x128 .f32)
    (a11 : FVec Ideal S128 .f32)
    (h : fn (F := Ideal) a0 a1 a2 a3 a4 a5 a6 a7 a8 a9 a10 a11 ix0 = 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal)) ∧ (∀ i, ∃ r : ℝ, a10 i = (r : EReal)) ∧ (∀ i, ∃ r : ℝ, a11 i = (r : EReal))
      ∧ (∀ i, a6 i ≠ 0) := by
  dsimp only [fn, fn_part1, fn_part2, fn_part3] at h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => real_of_lt_inf _ a0 i (Host.reduce_andi_all _ _ _ _ _ h0 i),
    fun i => real_of_lt_inf _ a1 i (Host.reduce_andi_all _ _ _ _ _ h1 i),
    fun i => real_of_lt_inf _ a2 i (Host.reduce_andi_all _ _ _ _ _ h2 i),
    fun i => real_of_lt_inf _ a3 i (Host.reduce_andi_all _ _ _ _ _ h3 i),
    fun i => real_of_lt_inf _ a4 i (Host.reduce_andi_all _ _ _ _ _ h4 i),
    fun i => real_of_lt_inf _ a5 i (Host.reduce_andi_all _ _ _ _ _ h5 i),
    fun i => real_of_lt_inf _ a6 i (Host.reduce_andi_all _ _ _ _ _ h6 i),
    fun i => real_of_lt_inf _ a7 i (Host.reduce_andi_all _ _ _ _ _ h7 i),
    fun i => real_of_lt_inf _ a8 i (Host.reduce_andi_all _ _ _ _ _ h8 i),
    fun i => real_of_lt_inf _ a9 i (Host.reduce_andi_all _ _ _ _ _ h9 i),
    fun i => real_of_lt_inf _ a10 i (Host.reduce_andi_all _ _ _ _ _ h10 i),
    fun i => real_of_lt_inf _ a11 i (Host.reduce_andi_all _ _ _ _ _ h11 i),
    fun i => ne_zero_of_une _ a6 i (Host.reduce_andi_all _ _ _ _ _ h12 i)⟩

end Decode

open Cert.KernelIdeal.Iface in
/-- On every core the twelve argument arrays, read as functions of their coordinates, are arrays of reals, and the
    scale has no zero entry. -/
theorem pre_decode (m : (ℓ : Loc Cert.KernelIdeal.nD Cert.KernelIdeal.τ Cert.KernelIdeal.sig) → Buf (Elt Ideal) ℓ)
    (h : Cert.Pre_KernelIdeal m) (c : Dev Cert.KernelIdeal.nD) :
    (∀ n a b ci, ∃ r : ℝ, Cert.KernelIdeal.Iface.A0 m c n a b ci = (r : EReal))
      ∧ (∀ n a b ch, ∃ r : ℝ, Cert.KernelIdeal.Iface.A1 m c n a b ch = (r : EReal))
      ∧ (∀ k ci ch, ∃ r : ℝ, Cert.KernelIdeal.Iface.A2 m c k ci ch = (r : EReal))
      ∧ (∀ o, ∃ r : ℝ, Cert.KernelIdeal.Iface.A3 m c o = (r : EReal))
      ∧ (∀ k ch o, ∃ r : ℝ, Cert.KernelIdeal.Iface.A4 m c k ch o = (r : EReal))
      ∧ (∀ o, ∃ r : ℝ, Cert.KernelIdeal.Iface.A5 m c o = (r : EReal))
      ∧ (∀ o, ∃ r : ℝ, Cert.KernelIdeal.Iface.A6 m c o = (r : EReal))
      ∧ (∀ o, ∃ r : ℝ, Cert.KernelIdeal.Iface.A7 m c o = (r : EReal))
      ∧ (∀ k ch o, ∃ r : ℝ, Cert.KernelIdeal.Iface.A8 m c k ch o = (r : EReal))
      ∧ (∀ o, ∃ r : ℝ, Cert.KernelIdeal.Iface.A9 m c o = (r : EReal))
      ∧ (∀ k ch o, ∃ r : ℝ, Cert.KernelIdeal.Iface.A10 m c k ch o = (r : EReal))
      ∧ (∀ o, ∃ r : ℝ, Cert.KernelIdeal.Iface.A11 m c o = (r : EReal))
      ∧ (∀ o, Cert.KernelIdeal.Iface.A6 m c o ≠ 0) := by
  obtain ⟨h0, h1, h2, h3, h4, h5, h6, h7, h8, h9, h10, h11, hne⟩ :=
    fn_decode _ _ _ _ _ _ _ _ _ _ _ _ (congrFun (h c) ix0)
  exact ⟨fun n a b ci => h0 (ix4 n a b ci), fun n a b ch => h1 (ix4 n a b ch), fun k ci ch => h2 (ix3 k ci ch),
    fun o => h3 (ix1 o), fun k ch o => h4 (ix3 k ch o), fun o => h5 (ix1 o), fun o => h6 (ix1 o), fun o => h7 (ix1 o),
    fun k ch o => h8 (ix3 k ch o), fun o => h9 (ix1 o), fun k ch o => h10 (ix3 k ch o), fun o => h11 (ix1 o),
    fun o => hne (ix1 o)⟩

end Cert.Proof

end
-- ==== Proof.lean ====
/-
  A fused U-Net up block against its two-kernel reference.

  Both programs compute, image by image (24 images, one grid point each):
    up   = the 2x2 stride-2 transposed convolution of x (one [256,256]x[256,512] product, the four taps on the columns,
           pixel-shuffled to a 32x32x128 image) plus its bias;
    cat  = up and the bridge image side by side on the channel axis, inside a one-pixel border of zeros (34x34x256);
    y    = the 3x3 convolution of cat with w_uc, plus b_uc (32x32x128; also the residual);
    t    = y normalised over its 128 channels — (y - mean) * rsqrt(variance + 1e-5) — scaled by ln_g and shifted by ln_b,
           again inside a border of zeros;
    h    = the 3x3 convolution of t with w1, plus b1, then the leaky rectifier of slope 0.2, inside a border of zeros;
    out  = y + the 3x3 convolution of h with w2, plus b2.
  The kernel does it in ONE body with three scratch images and each 3x3 convolution as nine shifted-window products
  accumulated onto the bias; the reference runs the transposed convolution as a kernel of its own, reshapes on the host,
  and runs the rest as a second kernel that gathers each convolution's nine windows into one [1024, 9C] patch matrix and
  multiplies once. The reference also moves the scale: it convolves (normalised + ln_b / ln_g) with w1 * ln_g. Over the
  extended reals the two agree exactly where every ln_g entry is a non-zero real:
      (n + b / g) * (w * g) = (n * g + b) * w        for reals n, b, w and a real g ≠ 0,
  and on the zero border both sides contribute 0. At g = 0 they differ (b / 0 is an infinity, an infinity times 0 is 0,
  so the reference loses the term b * w that the kernel keeps): the precondition therefore asks, beside finite inputs,
  that no entry of ln_g is zero — the domain on which the reference's own division is defined.

  The three frames: each program terminates on every weakly fair execution, nothing faults, the twelve argument arrays
  end unchanged (the kernel's two readings through `Body.run_main`, the body run once on arbitrary staging memrefs; the
  reference's by its frame). The idealized kernel is the kernel's own text (no operation rewritten). The results: the
  kernel's run ends with its result array at `Spec.kernelOut` of the arguments (its body's output block is `Spec.kBlock` of
  the input blocks, the windows' arrays are the packed arguments), the reference's at `Spec.refOut` (its second kernel's
  block is `Spec.rBlock`, the arrays it stages are the packed arguments and the first kernel's up image), and under the
  precondition — every argument real, no ln_g entry zero — the two arrangements are one function.
-/
import proofs.«131778_g2000005761611187_pallasbulk_1314_2_alg».proof.Defs
import proofs.«131778_g2000005761611187_pallasbulk_1314_2_alg».proof.Proof.Gen.Kernel
import proofs.«131778_g2000005761611187_pallasbulk_1314_2_alg».proof.Proof.Gen.KernelIdeal
import proofs.«131778_g2000005761611187_pallasbulk_1314_2_alg».proof.Proof.Gen.ReferenceIdeal
import proofs.«131778_g2000005761611187_pallasbulk_1314_2_alg».proof.Proof.Gen.ReferenceIdeal.Frame
import proofs.«131778_g2000005761611187_pallasbulk_1314_2_alg».proof.Proof.Gen.Pre_finite_inputs
import proofs.«131778_g2000005761611187_pallasbulk_1314_2_alg».proof.Proof.BodyBits
import proofs.«131778_g2000005761611187_pallasbulk_1314_2_alg».proof.Proof.BodyIdeal
import proofs.«131778_g2000005761611187_pallasbulk_1314_2_alg».proof.Proof.KBlockC
import proofs.«131778_g2000005761611187_pallasbulk_1314_2_alg».proof.Proof.KernelArrays
import proofs.«131778_g2000005761611187_pallasbulk_1314_2_alg».proof.Proof.KernelRun
import proofs.«131778_g2000005761611187_pallasbulk_1314_2_alg».proof.Proof.RefBlock
import proofs.«131778_g2000005761611187_pallasbulk_1314_2_alg».proof.Proof.RefArrays
import proofs.«131778_g2000005761611187_pallasbulk_1314_2_alg».proof.Proof.RefRun
import proofs.«131778_g2000005761611187_pallasbulk_1314_2_alg».proof.Proof.Algebra
import proofs.«131778_g2000005761611187_pallasbulk_1314_2_alg».proof.Proof.PreDecode
import Idealize.ShloMosaic.Adequacy
import Idealize.ShloMosaic.Init

noncomputable section

namespace Cert.Proof

open Idealize.ShloMosaic Idealize.SL.Sem

/-- The kernel as printed, at the word-level instance: it runs, and leaves its arguments as it found them. -/
theorem frame_kernel : Cert.frame_Kernel := fun m ρ _ =>
  Cert.Kernel.Gen.frame_of m ρ (Cert.Kernel.Body.dats m) (Cert.Kernel.Body.A_eq m) (Cert.Kernel.Body.run_main (F := Bits) m ρ)

/-- The same program read over the extended reals. -/
theorem frame_kernelIdeal : Cert.frame_KernelIdeal := fun m ρ _ =>
  Cert.KernelIdeal.Gen.frame_of m ρ (Cert.KernelIdeal.Body.dats m) (Cert.KernelIdeal.Body.A_eq m)
    (Cert.KernelIdeal.Body.run_main (F := Ideal) m ρ)

/-- The reference: two kernel launches with a host reshape between them. -/
theorem frame_reference : Cert.frame_ReferenceIdeal := fun m ρ _ => Cert.ReferenceIdeal.Gen.frame m ρ

/-- No operation of the kernel was rewritten for the reading over the extended reals: nothing to preserve. -/
theorem preserves : Cert.preserves_Kernel_KernelIdeal := trivial

/-- The two programs' results agree, entry by entry, as extended reals. -/
theorem algebraic : Cert.algebraic_KernelIdeal_ReferenceIdeal := by
  intro m ρ m' ρ' hpre hagree
  refine ⟨fun c => Cert.KernelIdeal.Iface.result m c,
    Cert.KernelIdeal.Value.run m ρ Cert.KernelIdeal.Value.block (fun c => Cert.KernelIdeal.Value.arrays m c), ?_⟩
  refine (θ_run Cert.ReferenceIdeal.defs _ _).mono (fun r h c => ⟨(h c).1.trans ?_, (h c).2⟩)
    (Cert.ReferenceIdeal.Value.run m' ρ' Cert.ReferenceIdeal.Value.block (fun c => Cert.ReferenceIdeal.Value.arrays m' ρ' c))
  -- the two result arrays are one function of the (agreeing) arguments
  have e0 : Cert.ReferenceIdeal.Iface.A0 m' c = Cert.KernelIdeal.Iface.A0 m c := by
    unfold Cert.ReferenceIdeal.Iface.A0 Cert.KernelIdeal.Iface.A0
    rw [(hagree c).1]
  have e1 : Cert.ReferenceIdeal.Iface.A1 m' c = Cert.KernelIdeal.Iface.A1 m c := by
    unfold Cert.ReferenceIdeal.Iface.A1 Cert.KernelIdeal.Iface.A1
    rw [(hagree c).2.1]
  have e2 : Cert.ReferenceIdeal.Iface.A2 m' c = Cert.KernelIdeal.Iface.A2 m c := by
    unfold Cert.ReferenceIdeal.Iface.A2 Cert.KernelIdeal.Iface.A2
    rw [(hagree c).2.2.1]
  have e3 : Cert.ReferenceIdeal.Iface.A3 m' c = Cert.KernelIdeal.Iface.A3 m c := by
    unfold Cert.ReferenceIdeal.Iface.A3 Cert.KernelIdeal.Iface.A3
    rw [(hagree c).2.2.2.1]
  have e4 : Cert.ReferenceIdeal.Iface.A4 m' c = Cert.KernelIdeal.Iface.A4 m c := by
    unfold Cert.ReferenceIdeal.Iface.A4 Cert.KernelIdeal.Iface.A4
    rw [(hagree c).2.2.2.2.1]
  have e5 : Cert.ReferenceIdeal.Iface.A5 m' c = Cert.KernelIdeal.Iface.A5 m c := by
    unfold Cert.ReferenceIdeal.Iface.A5 Cert.KernelIdeal.Iface.A5
    rw [(hagree c).2.2.2.2.2.1]
  have e6 : Cert.ReferenceIdeal.Iface.A6 m' c = Cert.KernelIdeal.Iface.A6 m c := by
    unfold Cert.ReferenceIdeal.Iface.A6 Cert.KernelIdeal.Iface.A6
    rw [(hagree c).2.2.2.2.2.2.1]
  have e7 : Cert.ReferenceIdeal.Iface.A7 m' c = Cert.KernelIdeal.Iface.A7 m c := by
    unfold Cert.ReferenceIdeal.Iface.A7 Cert.KernelIdeal.Iface.A7
    rw [(hagree c).2.2.2.2.2.2.2.1]
  have e8 : Cert.ReferenceIdeal.Iface.A8 m' c = Cert.KernelIdeal.Iface.A8 m c := by
    unfold Cert.ReferenceIdeal.Iface.A8 Cert.KernelIdeal.Iface.A8
    rw [(hagree c).2.2.2.2.2.2.2.2.1]
  have e9 : Cert.ReferenceIdeal.Iface.A9 m' c = Cert.KernelIdeal.Iface.A9 m c := by
    unfold Cert.ReferenceIdeal.Iface.A9 Cert.KernelIdeal.Iface.A9
    rw [(hagree c).2.2.2.2.2.2.2.2.2.1]
  have e10 : Cert.ReferenceIdeal.Iface.A10 m' c = Cert.KernelIdeal.Iface.A10 m c := by
    unfold Cert.ReferenceIdeal.Iface.A10 Cert.KernelIdeal.Iface.A10
    rw [(hagree c).2.2.2.2.2.2.2.2.2.2.1]
  have e11 : Cert.ReferenceIdeal.Iface.A11 m' c = Cert.KernelIdeal.Iface.A11 m c := by
    unfold Cert.ReferenceIdeal.Iface.A11 Cert.KernelIdeal.Iface.A11
    rw [(hagree c).2.2.2.2.2.2.2.2.2.2.2]
  obtain ⟨h0, h1, h2, h3, h4, h5, h6, h7, h8, h9, h10, h11, hne⟩ := Cert.Proof.pre_decode m hpre c
  funext idx
  show Cert.Spec.refOut (Cert.ReferenceIdeal.Iface.A0 m' c) (Cert.ReferenceIdeal.Iface.A1 m' c) (Cert.ReferenceIdeal.Iface.A2 m' c)
      (Cert.ReferenceIdeal.Iface.A3 m' c) (Cert.ReferenceIdeal.Iface.A4 m' c) (Cert.ReferenceIdeal.Iface.A5 m' c)
      (Cert.ReferenceIdeal.Iface.A6 m' c) (Cert.ReferenceIdeal.Iface.A7 m' c) (Cert.ReferenceIdeal.Iface.A8 m' c)
      (Cert.ReferenceIdeal.Iface.A9 m' c) (Cert.ReferenceIdeal.Iface.A10 m' c) (Cert.ReferenceIdeal.Iface.A11 m' c) (idx 0) (idx 1) (idx 2) (idx 3)
    = Cert.Spec.kernelOut (Cert.KernelIdeal.Iface.A0 m c) (Cert.KernelIdeal.Iface.A1 m c) (Cert.KernelIdeal.Iface.A2 m c)
      (Cert.KernelIdeal.Iface.A3 m c) (Cert.KernelIdeal.Iface.A4 m c) (Cert.KernelIdeal.Iface.A5 m c)
      (Cert.KernelIdeal.Iface.A6 m c) (Cert.KernelIdeal.Iface.A7 m c) (Cert.KernelIdeal.Iface.A8 m c)
      (Cert.KernelIdeal.Iface.A9 m c) (Cert.KernelIdeal.Iface.A10 m c) (Cert.KernelIdeal.Iface.A11 m c) (idx 0) (idx 1) (idx 2) (idx 3)
  rw [e0, e1, e2, e3, e4, e5, e6, e7, e8, e9, e10, e11,
    Cert.Spec.kernelOut_eq_refOut _ _ _ _ _ _ _ _ _ _ _ _ h0 h1 h2 h3 h4 h5 h6 h7 h8 h9 h10 h11 hne]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
